-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  IdealRules.named_const.Statement Cert.KernelIdeal.κ "inv_12" .f32 0x3DAAAAAB#32 ((1 / 12 : ℝ) : EReal)

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v8)) (v1 : (c : Dev Cert.KernelIdeal.nD) → Buf (Elt Ideal) ((c.tc : Thread Cert.KernelIdeal.nD Cert.KernelIdeal.τ).loc Cert.KernelIdeal.main_v12)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_v12) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v67) = v0 c
          ∧ r.2.mem ((c.tc : Thread Cert.ReferenceIdeal.nD Cert.ReferenceIdeal.τ).loc Cert.ReferenceIdeal.main_v107) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x640 : Shape := ⟨2, ![4096, 640]⟩
abbrev S49152x640 : Shape := ⟨2, ![49152, 640]⟩
abbrev S4096 : Shape := ⟨1, ![4096]⟩
abbrev S128x640 : Shape := ⟨2, ![128, 640]⟩
abbrev S128 : Shape := ⟨1, ![128]⟩
abbrev S128x128 : Shape := ⟨2, ![128, 128]⟩
abbrev S_ : Shape := ⟨0, ![]⟩

class Facts : Prop where
  bcast_S_S4096x640 : S_.BroadcastsInDim S4096x640 (![] : Fin 0 → Fin S4096x640.rank)
  reducesTo_S4096x640_S_d0_1 : S4096x640.ReducesTo [0, 1] S_
  h_S_ : 0 < S_.numel
  bcast_S_S49152x640 : S_.BroadcastsInDim S49152x640 (![] : Fin 0 → Fin S49152x640.rank)
  reducesTo_S49152x640_S_d0_1 : S49152x640.ReducesTo [0, 1] S_
  bcast_S_S128x640 : S_.BroadcastsInDim S128x640 (![] : Fin 0 → Fin S128x640.rank)
  reducesTo_S128x640_S_d0_1 : S128x640.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_

variable [Facts]

def fn_part2 {F : FTy → Type} [FloatOps F] (main_arg8 : FVec F S128 .f32) (main_arg9 : FVec F S128x128 .f32) (main_arg10 : FVec F S128 .f32) (main_v33 : IVec S_ 1) : IVec S_ 1 :=
  let main_v34 : FVec F S128 .f32 := Host.absf main_arg8
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128x128 .f32 := Host.absf main_arg9
  let main_cst_14 : FVec F S_ .f32 := constant S_ .f32 0x7F800000#32
  let main_v40 : FVec F S128x128 .f32 := broadcastInDim S128x128 ![] bcast_S_S128x128 main_cst_14
  let main_v41 : IVec S128x128 1 := cmpf .olt main_v39 main_v40
  let main_c_15 : IVec S_ 1 := constantI S_ 1 1#1
  let main_v42 : IVec S_ 1 := (fun x v => Host.reduce IntOp.andi x v reducesTo_S128x128_S_d0_1 h_S_) main_v41 main_c_15
  let main_v43 : IVec S_ 1 := andi main_v38 main_v42
  let main_v44 : FVec F S128 .f32 := Host.absf main_arg10
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  main_v48

def fn_part1 {F : FTy → Type} [FloatOps F] (main_arg5 : FVec F S128x128 .f32) (main_arg6 : FVec F S128 .f32) (main_arg7 : FVec F S128x640 .f32) (main_arg8 : FVec F S128 .f32) (main_arg9 : FVec F S128x128 .f32) (main_arg10 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg5
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x640 .f32 := Host.absf main_arg7
  let main_cst_10 : FVec F S_ .f32 := constant S_ .f32 0x7F800000#32
  let main_v30 : FVec F S128x640 .f32 := broadcastInDim S128x640 ![] bcast_S_S128x640 main_cst_10
  let main_v31 : IVec S128x640 1 := cmpf .olt main_v29 main_v30
  let main_c_11 : IVec S_ 1 := constantI S_ 1 1#1
  let main_v32 : IVec S_ 1 := (fun x v => Host.reduce IntOp.andi x v reducesTo_S128x640_S_d0_1 h_S_) main_v31 main_c_11
  let main_v33 : IVec S_ 1 := andi main_v28 main_v32
  fn_part2 (F := F) main_arg8 main_arg9 main_arg10 main_v33

def fn {F : FTy → Type} [FloatOps F] (main_arg0 : FVec F S4096x640 .f32) (main_arg1 : FVec F S49152x640 .f32) (main_arg2 : IVec S4096 32) (main_arg3 : FVec F S128x640 .f32) (main_arg4 : FVec F S128 .f32) (main_arg5 : FVec F S128x128 .f32) (main_arg6 : FVec F S128 .f32) (main_arg7 : FVec F S128x640 .f32) (main_arg8 : FVec F S128 .f32) (main_arg9 : FVec F S128x128 .f32) (main_arg10 : FVec F S128 .f32) : IVec S_ 1 :=
  let main_v0 : FVec F S4096x640 .f32 := Host.absf main_arg0
  let main_cst : FVec F S_ .f32 := constant S_ .f32 0x7F800000#32
  let main_v1 : FVec F S4096x640 .f32 := broadcastInDim S4096x640 ![] bcast_S_S4096x640 main_cst
  let main_v2 : IVec S4096x640 1 := cmpf .olt main_v0 main_v1
  let main_c : IVec S_ 1 := constantI S_ 1 1#1
  let main_v3 : IVec S_ 1 := (fun x v => Host.reduce IntOp.andi x v reducesTo_S4096x640_S_d0_1 h_S_) main_v2 main_c
  let main_v4 : FVec F S49152x640 .f32 := Host.absf main_arg1
  let main_cst_0 : FVec F S_ .f32 := constant S_ .f32 0x7F800000#32
  let main_v5 : FVec F S49152x640 .f32 := broadcastInDim S49152x640 ![] bcast_S_S49152x640 main_cst_0
  let main_v6 : IVec S49152x640 1 := cmpf .olt main_v4 main_v5
  let main_c_1 : IVec S_ 1 := constantI S_ 1 1#1
  let main_v7 : IVec S_ 1 := (fun x v => Host.reduce IntOp.andi x v reducesTo_S49152x640_S_d0_1 h_S_) main_v6 main_c_1
  let main_v8 : IVec S_ 1 := andi main_v3 main_v7
  let main_v9 : FVec F S128x640 .f32 := Host.absf main_arg3
  let main_cst_2 : FVec F S_ .f32 := constant S_ .f32 0x7F800000#32
  let main_v10 : FVec F S128x640 .f32 := broadcastInDim S128x640 ![] bcast_S_S128x640 main_cst_2
  let main_v11 : IVec S128x640 1 := cmpf .olt main_v9 main_v10
  let main_c_3 : IVec S_ 1 := constantI S_ 1 1#1
  let main_v12 : IVec S_ 1 := (fun x v => Host.reduce IntOp.andi x v reducesTo_S128x640_S_d0_1 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg5 main_arg6 main_arg7 main_arg8 main_arg9 main_arg10 main_v13 main_v16
-- ==== Kernel.lean ====
abbrev S4096x640 : Shape := ⟨2, ![4096, 640]⟩
abbrev S49152x640 : Shape := ⟨2, ![49152, 640]⟩
abbrev S4096 : Shape := ⟨1, ![4096]⟩
abbrev S128x640 : Shape := ⟨2, ![128, 640]⟩
abbrev S128 : Shape := ⟨1, ![128]⟩
abbrev S128x128 : Shape := ⟨2, ![128, 128]⟩
abbrev S12x4096x640 : Shape := ⟨3, ![12, 4096, 640]⟩
abbrev S640x128 : Shape := ⟨2, ![640, 128]⟩
abbrev S4x1x128 : Shape := ⟨3, ![4, 1, 128]⟩
abbrev S1024x640 : Shape := ⟨2, ![1024, 640]⟩
abbrev S1x1024x640 : Shape := ⟨3, ![1, 1024, 640]⟩
abbrev S1x1x128 : Shape := ⟨3, ![1, 1, 128]⟩
abbrev S1024x128 : Shape := ⟨2, ![1024, 128]⟩
abbrev S12x1024x128 : Shape := ⟨3, ![12, 1024, 128]⟩
abbrev S1x128 : Shape := ⟨2, ![1, 128]⟩
abbrev S1024 : Shape := ⟨1, ![1024]⟩
abbrev S1024x1 : Shape := ⟨2, ![1024, 1]⟩
abbrev S1x1024x128 : Shape := ⟨3, ![1, 1024, 128]⟩
abbrev S1 : Shape := ⟨1, ![1]⟩
abbrev S1x1 : Shape := ⟨2, ![1, 1]⟩
abbrev S1x1x1 : Shape := ⟨3, ![1, 1, 1]⟩
abbrev S4x1x1 : Shape := ⟨3, ![4, 1, 1]⟩
abbrev S4 : Shape := ⟨1, ![4]⟩
abbrev S_ : Shape := ⟨0, ![]⟩

abbrev nBuf : Space → Nat
  | .hbm => 28
  | .vmem => 19
  | .smem => 0
  | _ => 0

abbrev bufTy : (tb : Table) → Fin (tcTables nBuf tb) → BufTy
  | .hbm, ⟨0, _⟩ => ⟨S4096x640, .f32⟩
  | .hbm, ⟨1, _⟩ => ⟨S49152x640, .f32⟩
  | .hbm, ⟨2, _⟩ => ⟨S4096, .i32⟩
  | .hbm, ⟨3, _⟩ => ⟨S128x640, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S128x640, .f32⟩
  | .hbm, ⟨8, _⟩ => ⟨S128, .f32⟩
  | .hbm, ⟨9, _⟩ => ⟨S128x128, .f32⟩
  | .hbm, ⟨10, _⟩ => ⟨S128, .f32⟩
  | .hbm, ⟨11, _⟩ => ⟨S12x4096x640, .f32⟩
  | .hbm, ⟨12, _⟩ => ⟨S640x128, .f32⟩
  | .hbm, ⟨13, _⟩ => ⟨S128x128, .f32⟩
  | .hbm, ⟨14, _⟩ => ⟨S640x128, .f32⟩
  | .hbm, ⟨15, _⟩ => ⟨S128x128, .f32⟩
  | .hbm, ⟨16, _⟩ => ⟨S4x1x128, .f32⟩
  | .hbm, ⟨17, _⟩ => ⟨S4x1x128, .f32⟩
  | .hbm, ⟨18, _⟩ => ⟨S4x1x1, .f32⟩
  | .hbm, ⟨19, _⟩ => ⟨S4, .f32⟩
  | .hbm, ⟨20, _⟩ => ⟨S_, .f32⟩
  | .hbm, ⟨21, _⟩ => ⟨S_, .f32⟩
  | .hbm, ⟨22, _⟩ => ⟨S4x1x1, .f32⟩
  | .hbm, ⟨23, _⟩ => ⟨S4, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S_, .f32⟩
  | .local _ .vmem, ⟨0, _⟩ => ⟨S1024x640, .f32⟩
  | .local _ .vmem, ⟨1, _⟩ => ⟨S1024x640, .f32⟩
  | .local _ .vmem, ⟨2, _⟩ => ⟨S1x1024x640, .f32⟩
  | .local _ .vmem, ⟨3, _⟩ => ⟨S1x1024x640, .f32⟩
  | .local _ .vmem, ⟨4, _⟩ => ⟨S640x128, .f32⟩
  | .local _ .vmem, ⟨5, _⟩ => ⟨S128, .f32⟩
  | .local _ .vmem, ⟨6, _⟩ => ⟨S128x128, .f32⟩
  | .local _ .vmem, ⟨7, _⟩ => ⟨S128, .f32⟩
  | .local _ .vmem, ⟨8, _⟩ => ⟨S640x128, .f32⟩
  | .local _ .vmem, ⟨9, _⟩ => ⟨S128, .f32⟩
  | .local _ .vmem, ⟨10, _⟩ => ⟨S128x128, .f32⟩
  | .local _ .vmem, ⟨11, _⟩ => ⟨S128, .f32⟩
  | .local _ .vmem, ⟨12, _⟩ => ⟨S1x1x128, .f32⟩
  | .local _ .vmem, ⟨13, _⟩ => ⟨S1x1x128, .f32⟩
  | .local _ .vmem, ⟨14, _⟩ => ⟨S1x1x128, .f32⟩
  | .local _ .vmem, ⟨15, _⟩ => ⟨S1x1x128, .f32⟩
  | .local _ .vmem, ⟨16, _⟩ => ⟨S1024x128, .f32⟩
  | .local _ .vmem, ⟨17, _⟩ => ⟨S1024x128, .f32⟩
  | .local _ .vmem, ⟨18, _⟩ => ⟨S12x1024x128, .f32⟩
  | _, _ => ⟨S4096x640, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5_0 : Ref sig .tc := ⟨.hbm, 16, rfl⟩
abbrev main_v5_1 : Ref sig .tc := ⟨.hbm, 17, rfl⟩
abbrev main_v6 : Ref sig .tc := ⟨.hbm, 18, rfl⟩
abbrev main_v7 : Ref sig .tc := ⟨.hbm, 19, rfl⟩
abbrev main_cst : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_cst_0 : Ref sig .tc := ⟨.hbm, 24, rfl⟩
abbrev main_v11 : Ref sig .tc := ⟨.hbm, 25, rfl⟩
abbrev main_cst_1 : Ref sig .tc := ⟨.hbm, 26, rfl⟩
abbrev main_v12 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg10_1 : Ref sig .tc := ⟨.vmem, 13, rfl⟩
abbrev cc0_stg11_0 : Ref sig .tc := ⟨.vmem, 14, rfl⟩
abbrev cc0_stg11_1 : Ref sig .tc := ⟨.vmem, 15, rfl⟩
abbrev cc0_scratch0 : Ref sig .tc := ⟨.vmem, 16, rfl⟩
abbrev cc0_scratch1 : Ref sig .tc := ⟨.vmem, 17, rfl⟩
abbrev cc0_scratch2 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem10_1 : DmaSem sig := 13
abbrev cc0_sem11_0 : DmaSem sig := 14
abbrev cc0_sem11_1 : DmaSem sig := 15

abbrev nD : Nat := 1
abbrev τ : Topo := Topo.v7x

variable {F : FTy → Type} [FloatOps F]

abbrev grid0 : Pipeline.Grid := ⟨2, ![4, 12], ![false, false]⟩

def k0_off1 (i : grid0.Coords) : Fin 3 → Nat :=
  let arg1 : BitVec 32 := BitVec.ofNat 32 (i 1).val
  let v27 : Index := Scalar.indexCast arg1
  let c0_12 : Index := 0#32
  let c0_13 : Index := 0#32
  ![v27.toNat, 0, 0]
def k0_cond2 (i : grid0.Coords) : BitVec 1 :=
  let arg1 : BitVec 32 := BitVec.ofNat 32 (i 1).val
  let c11_i32 : BitVec 32 := 11#32
  let v36 : BitVec 1 := Scalar.cmpi .eq arg1 c11_i32
  let v37 : BitVec 32 := Scalar.extui v36
  let c0_i32_18 : BitVec 32 := 0#32
  let v38 : BitVec 1 := Scalar.cmpi .ne v37 c0_i32_18
  v38

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1024x640 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x1024x640 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S640x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S640x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S128x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 2 → Memref sig .tc .vmem S1x1x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]

abbrev stage0_11 : Fin 2 → Memref sig .tc .vmem S1x1x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false]

class Facts₀ : Prop where
  shapeCasts_S49152x640_S12x4096x640 : S49152x640.ShapeCasts S12x4096x640
  transposes_S128x640_S640x128_1_0 : S128x640.Transposes [1, 0] S640x128
  transposes_S128x128_S128x128_1_0 : S128x128.Transposes [1, 0] S128x128
  inb_S1024x640_S1024x640_0_0 : ∀ a, (![0, 0] : Fin 2 → Nat) a + S1024x640.size a ≤ S1024x640.size a
  h_S1024x640 : 0 < S1024x640.numel
  inb_S640x128_S640x128_0_0 : ∀ a, (![0, 0] : Fin 2 → Nat) a + S640x128.size a ≤ S640x128.size a
  h_S640x128 : 0 < S640x128.numel
  shapeCasts_S640x128_S640x128 : S640x128.ShapeCasts S640x128
  inb_S128_S128_0 : ∀ a, (![0] : Fin 1 → Nat) a + S128.size a ≤ S128.size a
  h_S128 : 0 < S128.numel
  inb_S128x128_S128x128_0_0 : ∀ a, (![0, 0] : Fin 2 → Nat) a + S128x128.size a ≤ S128x128.size a
  h_S128x128 : 0 < S128x128.numel
  shapeCasts_S128x128_S128x128 : S128x128.ShapeCasts S128x128
  shapeCasts_S128_S1x128 : S128.ShapeCasts S1x128
  broadcasts_S1x128_S1024x128 : S1x128.Broadcasts S1024x128
  reduces_S1024x128_S1024 : S1024x128.Reduces [1] S1024
  shapeCasts_S1024_S1024x1 : S1024.ShapeCasts S1024x1
  broadcasts_S1024x1_S1024x128 : S1024x1.Broadcasts S1024x128
  inb_S1024x128_S1024x128_0_0 : ∀ a, (![0, 0] : Fin 2 → Nat) a + S1024x128.size a ≤ S1024x128.size a
  h_S1024x128 : 0 < S1024x128.numel
  shapeCasts_S1024x128_S1024x128 : S1024x128.ShapeCasts S1024x128
  inb_S1x1024x640_S1x1024x640_0_0_0 : ∀ a, (![0, 0, 0] : Fin 3 → Nat) a + S1x1024x640.size a ≤ S1x1024x640.size a
  h_S1x1024x640 : 0 < S1x1024x640.numel
  shapeCasts_S1x1024x640_S1024x640 : S1x1024x640.ShapeCasts S1024x640
  h_S1x1024x128 : 0 < S1x1024x128.numel
  shapeCasts_S1x1024x128_S1024x128 : S1x1024x128.ShapeCasts S1024x128
  shapeCasts_S1024x128_S1x1024x128 : S1024x128.ShapeCasts S1x1024x128
  reduces_S1024x1_S1 : S1024x1.Reduces [0] S1
  shapeCasts_S1_S1x1 : S1.ShapeCasts S1x1
  inb_S12x1024x128_S1x1024x128_0_0_0 : ∀ a, (![0, 0, 0] : Fin 3 → Nat) a + S1x1024x128.size a ≤ S12x1024x128.size a
  inb_S12x1024x128_S1x1024x128_1_0_0 : ∀ a, (![1, 0, 0] : Fin 3 → Nat) a + S1x1024x128.size a ≤ S12x1024x128.size a
  inb_S12x1024x128_S1x1024x128_2_0_0 : ∀ a, (![2, 0, 0] : Fin 3 → Nat) a + S1x1024x128.size a ≤ S12x1024x128.size a
  inb_S12x1024x128_S1x1024x128_3_0_0 : ∀ a, (![3, 0, 0] : Fin 3 → Nat) a + S1x1024x128.size a ≤ S12x1024x128.size a
  inb_S12x1024x128_S1x1024x128_4_0_0 : ∀ a, (![4, 0, 0] : Fin 3 → Nat) a + S1x1024x128.size a ≤ S12x1024x128.size a
  inb_S12x1024x128_S1x1024x128_5_0_0 : ∀ a, (![5, 0, 0] : Fin 3 → Nat) a + S1x1024x128.size a ≤ S12x1024x128.size a
  inb_S12x1024x128_S1x1024x128_6_0_0 : ∀ a, (![6, 0, 0] : Fin 3 → Nat) a + S1x1024x128.size a ≤ S12x1024x128.size a
  inb_S12x1024x128_S1x1024x128_7_0_0 : ∀ a, (![7, 0, 0] : Fin 3 → Nat) a + S1x1024x128.size a ≤ S12x1024x128.size a
  inb_S12x1024x128_S1x1024x128_8_0_0 : ∀ a, (![8, 0, 0] : Fin 3 → Nat) a + S1x1024x128.size a ≤ S12x1024x128.size a
  inb_S12x1024x128_S1x1024x128_9_0_0 : ∀ a, (![9, 0, 0] : Fin 3 → Nat) a + S1x1024x128.size a ≤ S12x1024x128.size a
  inb_S12x1024x128_S1x1024x128_10_0_0 : ∀ a, (![10, 0, 0] : Fin 3 → Nat) a + S1x1024x128.size a ≤ S12x1024x128.size a
  inb_S12x1024x128_S1x1024x128_11_0_0 : ∀ a, (![11, 0, 0] : Fin 3 → Nat) a + S1x1024x128.size a ≤ S12x1024x128.size a
  shapeCasts_S1x1_S1x1x1 : S1x1.ShapeCasts S1x1x1
  broadcasts_S1x1x1_S1x1x128 : S1x1x1.Broadcasts S1x1x128
  inb_S1x1x128_S1x1x128_0_0_0 : ∀ a, (![0, 0, 0] : Fin 3 → Nat) a + S1x1x128.size a ≤ S1x1x128.size a
  h_S1x1x128 : 0 < S1x1x128.numel
  slices_S4x1x128_S4x1x1_0_0_0 : S4x1x128.Slices ![0, 0, 0] S4x1x1
  shapeCasts_S4x1x1_S4 : S4x1x1.ShapeCasts S4
  reducesTo_S4_S_d0 : S4.ReducesTo [0] S_
  h_S_ : 0 < S_.numel
  dot_S1024x640_S640x128_S1024x128_1_0_0_1_n_n_wf : DotDims.WF S1024x640 S640x128 S1024x128 [1] [0] [0] [1] [] []
  dot_S1024x128_S128x128_S1024x128_1_0_0_1_n_n_wf : DotDims.WF S1024x128 S128x128 S1024x128 [1] [0] [0] [1] [] []
  hrank0 : 0 < grid0.rank
  k0_off1_inb : ∀ i : grid0.Coords, ∀ a, (k0_off1 i) a + S1x1024x128.size a ≤ S12x1024x128.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x640.size a ≤ S4096x640.size a
  hwx0_0 : ∀ i : grid0.Coords, EltTy.bits .f32 = 32 ∨ (Rect.block (s := S4096x640) S1024x640.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1024x640.size a ≤ S12x4096x640.size a
  hwx0_1 : ∀ i : grid0.Coords, EltTy.bits .f32 = 32 ∨ (Rect.block (s := S12x4096x640) S1x1024x640.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S640x128.size a ≤ S640x128.size a
  hwx0_2 : ∀ i : grid0.Coords, EltTy.bits .f32 = 32 ∨ (Rect.block (s := S640x128) S640x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128.size a ≤ S128.size a
  hwx0_3 : ∀ i : grid0.Coords, EltTy.bits .f32 = 32 ∨ (Rect.block (s := S128) S128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128.size a ≤ S128.size a
  hwx0_5 : ∀ i : grid0.Coords, EltTy.bits .f32 = 32 ∨ (Rect.block (s := S128) S128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S640x128.size a ≤ S640x128.size a
  hwx0_6 : ∀ i : grid0.Coords, EltTy.bits .f32 = 32 ∨ (Rect.block (s := S640x128) S640x128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S128.size a ≤ S128.size a
  hwx0_7 : ∀ i : grid0.Coords, EltTy.bits .f32 = 32 ∨ (Rect.block (s := S128) S128.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S128x128.size a ≤ S128x128.size a
  hwx0_8 : ∀ i : grid0.Coords, EltTy.bits .f32 = 32 ∨ (Rect.block (s := S128x128) S128x128.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S128.size a ≤ S128.size a
  hwx0_9 : ∀ i : grid0.Coords, EltTy.bits .f32 = 32 ∨ (Rect.block (s := S128) S128.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S1x1x128.size a ≤ S4x1x128.size a
  hwx0_10 : ∀ i : grid0.Coords, EltTy.bits .f32 = 32 ∨ (Rect.block (s := S4x1x128) S1x1x128.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S1x1x128.size a ≤ S4x1x128.size a
  hwx0_11 : ∀ i : grid0.Coords, EltTy.bits .f32 = 32 ∨ (Rect.block (s := S4x1x128) S1x1x128.size (cc0_transform_11 i) (hinb0_11 i)).WholeWords (EltTy.packing .f32)

variable [Facts₀]

def dot_S1024x640_S640x128_S1024x128_1_0_0_1_n_n : DotDims S1024x640 S640x128 S1024x128 where
  lhsContracting := [1]
  rhsContracting := [0]
  lhsNonContracting := [0]
  rhsNonContracting := [1]
  lhsBatch := []
  rhsBatch := []
  wf := dot_S1024x640_S640x128_S1024x128_1_0_0_1_n_n_wf
def dot_S1024x128_S128x128_S1024x128_1_0_0_1_n_n : DotDims S1024x128 S128x128 S1024x128 where
  lhsContracting := [1]
  rhsContracting := [0]
  lhsNonContracting := [0]
  rhsNonContracting := [1]
  lhsBatch := []
  rhsBatch := []
  wf := dot_S1024x128_S128x128_S1024x128_1_0_0_1_n_n_wf

abbrev win0_0 : Pipeline.Window sig grid0 :=
  Pipeline.Window.ofSpec (Memref.whole main_arg0) S1024x640.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1x1024x640.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S640x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v2) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg6) S128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v3) S640x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg8) S128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v4) S128x128.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_arg10) S128.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v5_0) S1x1x128.size cc0_transform_10 reads0_10 true false 2 stage0_10 sem0_10
    hrank0 hreads0_10 hinb0_10 nbuf0_10 (Memref.isWhole_whole _) hwx0_10 hstage0_10

abbrev win0_11 : Pipeline.Window sig grid0 :=
  Pipeline.Window.ofSpec (Memref.whole main_v5_1) S1x1x128.size cc0_transform_11 reads0_11 true false 2 stage0_11 sem0_11
    hrank0 hreads0_11 hinb0_11 nbuf0_11 (Memref.isWhole_whole _) hwx0_11 hstage0_11

abbrev win0 : Fin 12 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | ⟨_ + 12, h⟩ => absurd h (Nat.not_lt.2 (Nat.le_add_left _ _))
abbrev spec0 : Fin 12 → Pipeline.WinSpec sig grid0.rank := fun w => (win0 w).toWinSpec

abbrev idle0 : Fin 12 → grid0.Coords → Bool := fun | 0 => fun _ => false | 1 => fun _ => false | 2 => fun _ => false | 3 => fun _ => false | 4 => fun _ => false | 5 => fun _ => false | 6 => fun _ => false | 7 => fun _ => false | 8 => fun _ => false | 9 => fun _ => false | 10 => fun i => !(k0_cond2 i == 1#1) | 11 => fun i => !(k0_cond2 i == 1#1) | ⟨_ + 12, h⟩ => absurd h (Nat.not_lt.2 (Nat.le_add_left _ _))

class Facts : Prop extends Facts₀ where

variable [Facts]
-- ==== ReferenceIdeal.lean ====
abbrev S4096x640 : Shape := ⟨2, ![4096, 640]⟩
abbrev S49152x640 : Shape := ⟨2, ![49152, 640]⟩
abbrev S4096 : Shape := ⟨1, ![4096]⟩
abbrev S128x640 : Shape := ⟨2, ![128, 640]⟩
abbrev S128 : Shape := ⟨1, ![128]⟩
abbrev S128x128 : Shape := ⟨2, ![128, 128]⟩
abbrev S640x128 : Shape := ⟨2, ![640, 128]⟩
abbrev S4096x128 : Shape := ⟨2, ![4096, 128]⟩
abbrev S1x128 : Shape := ⟨2, ![1, 128]⟩
abbrev S_ : Shape := ⟨0, ![]⟩
abbrev S4096x1 : Shape := ⟨2, ![4096, 1]⟩
abbrev S49152x128 : Shape := ⟨2, ![49152, 128]⟩
abbrev S49152 : Shape := ⟨1, ![49152]⟩
abbrev S49152x1 : Shape := ⟨2, ![49152, 1]⟩
abbrev S12x4096x128 : Shape := ⟨3, ![12, 4096, 128]⟩
abbrev S4096x12x128 : Shape := ⟨3, ![4096, 12, 128]⟩
abbrev S4096x1x128 : Shape := ⟨3, ![4096, 1, 128]⟩
abbrev S4096x12 : Shape := ⟨2, ![4096, 12]⟩
abbrev S4096x12x1 : Shape := ⟨3, ![4096, 12, 1]⟩

abbrev nBuf : Space → Nat
  | .hbm => 262
  | .vmem => 0
  | .smem => 0
  | _ => 0

abbrev hbmTy0_0 (i : Nat) : BufTy := match i % 128 with
  | 0 => ⟨S4096x640, .f32⟩
  | 1 => ⟨S49152x640, .f32⟩
  | 2 => ⟨S4096, .i32⟩
  | 3 => ⟨S128x640, .f32⟩
  | 4 => ⟨S128, .f32⟩
  | 5 => ⟨S128x128, .f32⟩
  | 6 => ⟨S128, .f32⟩
  | 7 => ⟨S128x640, .f32⟩
  | 8 => ⟨S128, .f32⟩
  | 9 => ⟨S128x128, .f32⟩
  | 10 => ⟨S128, .f32⟩
  | 11 => ⟨S640x128, .f32⟩
  | 12 => ⟨S4096x128, .f32⟩
  | 13 => ⟨S1x128, .f32⟩
  | 14 => ⟨S4096x128, .f32⟩
  | 15 => ⟨S4096x128, .f32⟩
  | 16 => ⟨S_, .f32⟩
  | 17 => ⟨S4096x128, .f32⟩
  | 18 => ⟨S4096x128, .f32⟩
  | 19 => ⟨S128x128, .f32⟩
  | 20 => ⟨S4096x128, .f32⟩
  | 21 => ⟨S1x128, .f32⟩
  | 22 => ⟨S4096x128, .f32⟩
  | 23 => ⟨S4096x128, .f32⟩
  | 24 => ⟨S4096x128, .f32⟩
  | 25 => ⟨S_, .f32⟩
  | 26 => ⟨S4096, .f32⟩
  | 27 => ⟨S4096x1, .f32⟩
  | 28 => ⟨S4096x1, .f32⟩
  | 29 => ⟨S4096x128, .f32⟩
  | 30 => ⟨S4096x128, .f32⟩
  | 31 => ⟨S640x128, .f32⟩
  | 32 => ⟨S49152x128, .f32⟩
  | 33 => ⟨S1x128, .f32⟩
  | 34 => ⟨S49152x128, .f32⟩
  | 35 => ⟨S49152x128, .f32⟩
  | 36 => ⟨S_, .f32⟩
  | 37 => ⟨S49152x128, .f32⟩
  | 38 => ⟨S49152x128, .f32⟩
  | 39 => ⟨S128x128, .f32⟩
  | 40 => ⟨S49152x128, .f32⟩
  | 41 => ⟨S1x128, .f32⟩
  | 42 => ⟨S49152x128, .f32⟩
  | 43 => ⟨S49152x128, .f32⟩
  | 44 => ⟨S49152x128, .f32⟩
  | 45 => ⟨S_, .f32⟩
  | 46 => ⟨S49152, .f32⟩
  | 47 => ⟨S49152x1, .f32⟩
  | 48 => ⟨S49152x1, .f32⟩
  | 49 => ⟨S49152x128, .f32⟩
  | 50 => ⟨S49152x128, .f32⟩
  | 51 => ⟨S12x4096x128, .f32⟩
  | 52 => ⟨S_, .f32⟩
  | 53 => ⟨S4096x128, .f32⟩
  | 54 => ⟨S_, .f32⟩
  | 55 => ⟨S4096x128, .f32⟩
  | 56 => ⟨S4096x128, .f32⟩
  | 57 => ⟨S_, .f32⟩
  | 58 => ⟨S4096x128, .f32⟩
  | 59 => ⟨S4096x128, .f32⟩
  | 60 => ⟨S_, .f32⟩
  | 61 => ⟨S4096, .f32⟩
  | 62 => ⟨S_, .f32⟩
  | 63 => ⟨S4096, .f32⟩
  | 64 => ⟨S4096, .f32⟩
  | 65 => ⟨S4096x1, .f32⟩
  | 66 => ⟨S4096x128, .f32⟩
  | 67 => ⟨S4096x128, .f32⟩
  | 68 => ⟨S4096x128, .f32⟩
  | 69 => ⟨S_, .f32⟩
  | 70 => ⟨S4096, .f32⟩
  | 71 => ⟨S4096x1, .f32⟩
  | 72 => ⟨S4096x1, .f32⟩
  | 73 => ⟨S4096x128, .f32⟩
  | 74 => ⟨S4096x128, .f32⟩
  | 75 => ⟨S_, .f32⟩
  | 76 => ⟨S4096x128, .f32⟩
  | 77 => ⟨S4096x128, .f32⟩
  | 78 => ⟨S_, .f32⟩
  | 79 => ⟨S4096, .f32⟩
  | 80 => ⟨S_, .f32⟩
  | 81 => ⟨S4096, .f32⟩
  | 82 => ⟨S4096, .f32⟩
  | 83 => ⟨S4096x1, .f32⟩
  | 84 => ⟨S4096x128, .f32⟩
  | 85 => ⟨S4096x128, .f32⟩
  | 86 => ⟨S4096x128, .f32⟩
  | 87 => ⟨S_, .f32⟩
  | 88 => ⟨S4096, .f32⟩
  | 89 => ⟨S4096x1, .f32⟩
  | 90 => ⟨S4096x1, .f32⟩
  | 91 => ⟨S4096x128, .f32⟩
  | 92 => ⟨S4096x128, .f32⟩
  | 93 => ⟨S4096x128, .f32⟩
  | 94 => ⟨S4096x128, .f32⟩
  | 95 => ⟨S4096x128, .f32⟩
  | 96 => ⟨S_, .f32⟩
  | 97 => ⟨S4096, .f32⟩
  | 98 => ⟨S_, .f32⟩
  | 99 => ⟨S4096, .f32⟩
  | 100 => ⟨S4096, .f32⟩
  | 101 => ⟨S_, .f32⟩
  | 102 => ⟨S4096, .f32⟩
  | 103 => ⟨S4096, .f32⟩
  | 104 => ⟨S_, .f32⟩
  | 105 => ⟨S4096x128, .f32⟩
  | 106 => ⟨S4096x128, .f32⟩
  | 107 => ⟨S_, .f32⟩
  | 108 => ⟨S4096, .f32⟩
  | 109 => ⟨S_, .f32⟩
  | 110 => ⟨S4096, .f32⟩
  | 111 => ⟨S4096, .f32⟩
  | 112 => ⟨S4096x1, .f32⟩
  | 113 => ⟨S4096x128, .f32⟩
  | 114 => ⟨S4096x128, .f32⟩
  | 115 => ⟨S4096x128, .f32⟩
  | 116 => ⟨S_, .f32⟩
  | 117 => ⟨S4096, .f32⟩
  | 118 => ⟨S4096x1, .f32⟩
  | 119 => ⟨S4096x1, .f32⟩
  | 120 => ⟨S4096x128, .f32⟩
  | 121 => ⟨S4096x128, .f32⟩
  | 122 => ⟨S_, .f32⟩
  | 123 => ⟨S4096x128, .f32⟩
  | 124 => ⟨S4096x128, .f32⟩
  | 125 => ⟨S_, .f32⟩
  | 126 => ⟨S4096, .f32⟩
  | 127 => ⟨S_, .f32⟩
  | _ => ⟨S4096x640, .f32⟩

abbrev hbmTy0_1 (i : Nat) : BufTy := match i % 128 with
  | 0 => ⟨S4096, .f32⟩
  | 1 => ⟨S4096, .f32⟩
  | 2 => ⟨S4096x1, .f32⟩
  | 3 => ⟨S4096x128, .f32⟩
  | 4 => ⟨S4096x128, .f32⟩
  | 5 => ⟨S4096x128, .f32⟩
  | 6 => ⟨S_, .f32⟩
  | 7 => ⟨S4096, .f32⟩
  | 8 => ⟨S4096x1, .f32⟩
  | 9 => ⟨S4096x1, .f32⟩
  | 10 => ⟨S4096x128, .f32⟩
  | 11 => ⟨S4096x128, .f32⟩
  | 12 => ⟨S4096x128, .f32⟩
  | 13 => ⟨S4096x128, .f32⟩
  | 14 => ⟨S4096x128, .f32⟩
  | 15 => ⟨S_, .f32⟩
  | 16 => ⟨S4096, .f32⟩
  | 17 => ⟨S_, .f32⟩
  | 18 => ⟨S4096, .f32⟩
  | 19 => ⟨S4096, .f32⟩
  | 20 => ⟨S_, .f32⟩
  | 21 => ⟨S4096, .f32⟩
  | 22 => ⟨S4096, .f32⟩
  | 23 => ⟨S4096, .f32⟩
  | 24 => ⟨S_, .f32⟩
  | 25 => ⟨S_, .f32⟩
  | 26 => ⟨S4096x12x128, .f32⟩
  | 27 => ⟨S4096x1x128, .f32⟩
  | 28 => ⟨S4096x12x128, .f32⟩
  | 29 => ⟨S4096x12x128, .f32⟩
  | 30 => ⟨S4096x12x128, .f32⟩
  | 31 => ⟨S4096x1x128, .f32⟩
  | 32 => ⟨S4096x12x128, .f32⟩
  | 33 => ⟨S4096x12x128, .f32⟩
  | 34 => ⟨S4096x12x128, .f32⟩
  | 35 => ⟨S_, .f32⟩
  | 36 => ⟨S4096x12x128, .f32⟩
  | 37 => ⟨S4096x12x128, .f32⟩
  | 38 => ⟨S_, .f32⟩
  | 39 => ⟨S4096x12, .f32⟩
  | 40 => ⟨S_, .f32⟩
  | 41 => ⟨S4096x12, .f32⟩
  | 42 => ⟨S4096x12, .f32⟩
  | 43 => ⟨S4096x12x1, .f32⟩
  | 44 => ⟨S4096x12x128, .f32⟩
  | 45 => ⟨S4096x12x128, .f32⟩
  | 46 => ⟨S4096x12x128, .f32⟩
  | 47 => ⟨S_, .f32⟩
  | 48 => ⟨S4096x12, .f32⟩
  | 49 => ⟨S4096x12x1, .f32⟩
  | 50 => ⟨S4096x12x1, .f32⟩
  | 51 => ⟨S4096x12x128, .f32⟩
  | 52 => ⟨S4096x12x128, .f32⟩
  | 53 => ⟨S_, .f32⟩
  | 54 => ⟨S4096x12x128, .f32⟩
  | 55 => ⟨S4096x12x128, .f32⟩
  | 56 => ⟨S_, .f32⟩
  | 57 => ⟨S4096x12, .f32⟩
  | 58 => ⟨S_, .f32⟩
  | 59 => ⟨S4096x12, .f32⟩
  | 60 => ⟨S4096x12, .f32⟩
  | 61 => ⟨S4096x12x1, .f32⟩
  | 62 => ⟨S4096x12x128, .f32⟩
  | 63 => ⟨S4096x12x128, .f32⟩
  | 64 => ⟨S4096x12x128, .f32⟩
  | 65 => ⟨S_, .f32⟩
  | 66 => ⟨S4096x12, .f32⟩
  | 67 => ⟨S4096x12x1, .f32⟩
  | 68 => ⟨S4096x12x1, .f32⟩
  | 69 => ⟨S4096x12x128, .f32⟩
  | 70 => ⟨S4096x12x128, .f32⟩
  | 71 => ⟨S4096x12x128, .f32⟩
  | 72 => ⟨S4096x12x128, .f32⟩
  | 73 => ⟨S4096x12x128, .f32⟩
  | 74 => ⟨S_, .f32⟩
  | 75 => ⟨S4096x12, .f32⟩
  | 76 => ⟨S_, .f32⟩
  | 77 => ⟨S4096x12, .f32⟩
  | 78 => ⟨S4096x12, .f32⟩
  | 79 => ⟨S_, .f32⟩
  | 80 => ⟨S4096x12, .f32⟩
  | 81 => ⟨S4096x12, .f32⟩
  | 82 => ⟨S_, .f32⟩
  | 83 => ⟨S4096x12x128, .f32⟩
  | 84 => ⟨S4096x12x128, .f32⟩
  | 85 => ⟨S_, .f32⟩
  | 86 => ⟨S4096x12, .f32⟩
  | 87 => ⟨S_, .f32⟩
  | 88 => ⟨S4096x12, .f32⟩
  | 89 => ⟨S4096x12, .f32⟩
  | 90 => ⟨S4096x12x1, .f32⟩
  | 91 => ⟨S4096x12x128, .f32⟩
  | 92 => ⟨S4096x12x128, .f32⟩
  | 93 => ⟨S4096x12x128, .f32⟩
  | 94 => ⟨S_, .f32⟩
  | 95 => ⟨S4096x12, .f32⟩
  | 96 => ⟨S4096x12x1, .f32⟩
  | 97 => ⟨S4096x12x1, .f32⟩
  | 98 => ⟨S4096x12x128, .f32⟩
  | 99 => ⟨S4096x12x128, .f32⟩
  | 100 => ⟨S_, .f32⟩
  | 101 => ⟨S4096x12x128, .f32⟩
  | 102 => ⟨S4096x12x128, .f32⟩
  | 103 => ⟨S_, .f32⟩
  | 104 => ⟨S4096x12, .f32⟩
  | 105 => ⟨S_, .f32⟩
  | 106 => ⟨S4096x12, .f32⟩
  | 107 => ⟨S4096x12, .f32⟩
  | 108 => ⟨S4096x12x1, .f32⟩
  | 109 => ⟨S4096x12x128, .f32⟩
  | 110 => ⟨S4096x12x128, .f32⟩
  | 111 => ⟨S4096x12x128, .f32⟩
  | 112 => ⟨S_, .f32⟩
  | 113 => ⟨S4096x12, .f32⟩
  | 114 => ⟨S4096x12x1, .f32⟩
  | 115 => ⟨S4096x12x1, .f32⟩
  | 116 => ⟨S4096x12x128, .f32⟩
  | 117 => ⟨S4096x12x128, .f32⟩
  | 118 => ⟨S4096x12x128, .f32⟩
  | 119 => ⟨S4096x12x128, .f32⟩
  | 120 => ⟨S4096x12x128, .f32⟩
  | 121 => ⟨S_, .f32⟩
  | 122 => ⟨S4096x12, .f32⟩
  | 123 => ⟨S_, .f32⟩
  | 124 => ⟨S4096x12, .f32⟩
  | 125 => ⟨S4096x12, .f32⟩
  | 126 => ⟨S_, .f32⟩
  | 127 => ⟨S4096x12, .f32⟩
  | _ => ⟨S4096x640, .f32⟩

abbrev hbmTy0_2 (i : Nat) : BufTy := match i % 128 with
  | 0 => ⟨S4096x12, .f32⟩
  | 1 => ⟨S4096x12, .f32⟩
  | 2 => ⟨S_, .f32⟩
  | 3 => ⟨S_, .f32⟩
  | 4 => ⟨S_, .f32⟩
  | 5 => ⟨S_, .f32⟩
  | _ => ⟨S4096x640, .f32⟩

abbrev hbmTy (i : Nat) : BufTy := match i / 128 with
  | 0 => hbmTy0_0 i
  | 1 => hbmTy0_1 i
  | 2 => hbmTy0_2 i
  | _ => ⟨S4096x640, .f32⟩

abbrev bufTy : (tb : Table) → Fin (tcTables nBuf tb) → BufTy
  | .hbm, ⟨i, _⟩ => hbmTy i
  | _, _ => ⟨S4096x640, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_call0_cst : Ref sig .tc := ⟨.hbm, 16, rfl⟩
abbrev main_call0_v0 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_cst : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_call1_cst : Ref sig .tc := ⟨.hbm, 36, rfl⟩
abbrev main_call1_v0 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_cst_0 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_cst_1 : Ref sig .tc := ⟨.hbm, 52, rfl⟩
abbrev main_v35 : Ref sig .tc := ⟨.hbm, 53, rfl⟩
abbrev main_cst_2 : Ref sig .tc := ⟨.hbm, 54, rfl⟩
abbrev main_v36 : Ref sig .tc := ⟨.hbm, 55, rfl⟩
abbrev main_v37 : Ref sig .tc := ⟨.hbm, 56, rfl⟩
abbrev main_cst_3 : Ref sig .tc := ⟨.hbm, 57, rfl⟩
abbrev main_v38 : Ref sig .tc := ⟨.hbm, 58, rfl⟩
abbrev main_v39 : Ref sig .tc := ⟨.hbm, 59, rfl⟩
abbrev main_call2_cst : Ref sig .tc := ⟨.hbm, 60, rfl⟩
abbrev main_call2_v0 : Ref sig .tc := ⟨.hbm, 61, rfl⟩
abbrev main_call2_cst_0 : Ref sig .tc := ⟨.hbm, 62, rfl⟩
abbrev main_call2_v1 : Ref sig .tc := ⟨.hbm, 63, rfl⟩
abbrev main_call2_v2 : Ref sig .tc := ⟨.hbm, 64, rfl⟩
abbrev main_call2_v3 : Ref sig .tc := ⟨.hbm, 65, rfl⟩
abbrev main_call2_v4 : Ref sig .tc := ⟨.hbm, 66, rfl⟩
abbrev main_call2_v5 : Ref sig .tc := ⟨.hbm, 67, rfl⟩
abbrev main_call2_v6 : Ref sig .tc := ⟨.hbm, 68, rfl⟩
abbrev main_call2_cst_1 : Ref sig .tc := ⟨.hbm, 69, rfl⟩
abbrev main_call2_v7 : Ref sig .tc := ⟨.hbm, 70, rfl⟩
abbrev main_call2_v8 : Ref sig .tc := ⟨.hbm, 71, rfl⟩
abbrev main_call2_v9 : Ref sig .tc := ⟨.hbm, 72, rfl⟩
abbrev main_call2_v10 : Ref sig .tc := ⟨.hbm, 73, rfl⟩
abbrev main_v40 : Ref sig .tc := ⟨.hbm, 74, rfl⟩
abbrev main_cst_4 : Ref sig .tc := ⟨.hbm, 75, rfl⟩
abbrev main_v41 : Ref sig .tc := ⟨.hbm, 76, rfl⟩
abbrev main_v42 : Ref sig .tc := ⟨.hbm, 77, rfl⟩
abbrev main_call3_cst : Ref sig .tc := ⟨.hbm, 78, rfl⟩
abbrev main_call3_v0 : Ref sig .tc := ⟨.hbm, 79, rfl⟩
abbrev main_call3_cst_0 : Ref sig .tc := ⟨.hbm, 80, rfl⟩
abbrev main_call3_v1 : Ref sig .tc := ⟨.hbm, 81, rfl⟩
abbrev main_call3_v2 : Ref sig .tc := ⟨.hbm, 82, rfl⟩
abbrev main_call3_v3 : Ref sig .tc := ⟨.hbm, 83, rfl⟩
abbrev main_call3_v4 : Ref sig .tc := ⟨.hbm, 84, rfl⟩
abbrev main_call3_v5 : Ref sig .tc := ⟨.hbm, 85, rfl⟩
abbrev main_call3_v6 : Ref sig .tc := ⟨.hbm, 86, rfl⟩
abbrev main_call3_cst_1 : Ref sig .tc := ⟨.hbm, 87, rfl⟩
abbrev main_call3_v7 : Ref sig .tc := ⟨.hbm, 88, rfl⟩
abbrev main_call3_v8 : Ref sig .tc := ⟨.hbm, 89, rfl⟩
abbrev main_call3_v9 : Ref sig .tc := ⟨.hbm, 90, rfl⟩
abbrev main_call3_v10 : Ref sig .tc := ⟨.hbm, 91, rfl⟩
abbrev main_v43 : Ref sig .tc := ⟨.hbm, 92, rfl⟩
abbrev main_v44 : Ref sig .tc := ⟨.hbm, 93, rfl⟩
abbrev main_v45 : Ref sig .tc := ⟨.hbm, 94, rfl⟩
abbrev main_v46 : Ref sig .tc := ⟨.hbm, 95, rfl⟩
abbrev main_cst_5 : Ref sig .tc := ⟨.hbm, 96, rfl⟩
abbrev main_v47 : Ref sig .tc := ⟨.hbm, 97, rfl⟩
abbrev main_cst_6 : Ref sig .tc := ⟨.hbm, 98, rfl⟩
abbrev main_v48 : Ref sig .tc := ⟨.hbm, 99, rfl⟩
abbrev main_v49 : Ref sig .tc := ⟨.hbm, 100, rfl⟩
abbrev main_cst_7 : Ref sig .tc := ⟨.hbm, 101, rfl⟩
abbrev main_v50 : Ref sig .tc := ⟨.hbm, 102, rfl⟩
abbrev main_v51 : Ref sig .tc := ⟨.hbm, 103, rfl⟩
abbrev main_cst_8 : Ref sig .tc := ⟨.hbm, 104, rfl⟩
abbrev main_v52 : Ref sig .tc := ⟨.hbm, 105, rfl⟩
abbrev main_v53 : Ref sig .tc := ⟨.hbm, 106, rfl⟩
abbrev main_call4_cst : Ref sig .tc := ⟨.hbm, 107, rfl⟩
abbrev main_call4_v0 : Ref sig .tc := ⟨.hbm, 108, rfl⟩
abbrev main_call4_cst_0 : Ref sig .tc := ⟨.hbm, 109, rfl⟩
abbrev main_call4_v1 : Ref sig .tc := ⟨.hbm, 110, rfl⟩
abbrev main_call4_v2 : Ref sig .tc := ⟨.hbm, 111, rfl⟩
abbrev main_call4_v3 : Ref sig .tc := ⟨.hbm, 112, rfl⟩
abbrev main_call4_v4 : Ref sig .tc := ⟨.hbm, 113, rfl⟩
abbrev main_call4_v5 : Ref sig .tc := ⟨.hbm, 114, rfl⟩
abbrev main_call4_v6 : Ref sig .tc := ⟨.hbm, 115, rfl⟩
abbrev main_call4_cst_1 : Ref sig .tc := ⟨.hbm, 116, rfl⟩
abbrev main_call4_v7 : Ref sig .tc := ⟨.hbm, 117, rfl⟩
abbrev main_call4_v8 : Ref sig .tc := ⟨.hbm, 118, rfl⟩
abbrev main_call4_v9 : Ref sig .tc := ⟨.hbm, 119, rfl⟩
abbrev main_call4_v10 : Ref sig .tc := ⟨.hbm, 120, rfl⟩
abbrev main_v54 : Ref sig .tc := ⟨.hbm, 121, rfl⟩
abbrev main_cst_9 : Ref sig .tc := ⟨.hbm, 122, rfl⟩
abbrev main_v55 : Ref sig .tc := ⟨.hbm, 123, rfl⟩
abbrev main_v56 : Ref sig .tc := ⟨.hbm, 124, rfl⟩
abbrev main_call5_cst : Ref sig .tc := ⟨.hbm, 125, rfl⟩
abbrev main_call5_v0 : Ref sig .tc := ⟨.hbm, 126, rfl⟩
abbrev main_call5_cst_0 : Ref sig .tc := ⟨.hbm, 127, rfl⟩
abbrev main_call5_v1 : Ref sig .tc := ⟨.hbm, 128, rfl⟩
abbrev main_call5_v2 : Ref sig .tc := ⟨.hbm, 129, rfl⟩
abbrev main_call5_v3 : Ref sig .tc := ⟨.hbm, 130, rfl⟩
abbrev main_call5_v4 : Ref sig .tc := ⟨.hbm, 131, rfl⟩
abbrev main_call5_v5 : Ref sig .tc := ⟨.hbm, 132, rfl⟩
abbrev main_call5_v6 : Ref sig .tc := ⟨.hbm, 133, rfl⟩
abbrev main_call5_cst_1 : Ref sig .tc := ⟨.hbm, 134, rfl⟩
abbrev main_call5_v7 : Ref sig .tc := ⟨.hbm, 135, rfl⟩
abbrev main_call5_v8 : Ref sig .tc := ⟨.hbm, 136, rfl⟩
abbrev main_call5_v9 : Ref sig .tc := ⟨.hbm, 137, rfl⟩
abbrev main_call5_v10 : Ref sig .tc := ⟨.hbm, 138, rfl⟩
abbrev main_v57 : Ref sig .tc := ⟨.hbm, 139, rfl⟩
abbrev main_v58 : Ref sig .tc := ⟨.hbm, 140, rfl⟩
abbrev main_v59 : Ref sig .tc := ⟨.hbm, 141, rfl⟩
abbrev main_v60 : Ref sig .tc := ⟨.hbm, 142, rfl⟩
abbrev main_cst_10 : Ref sig .tc := ⟨.hbm, 143, rfl⟩
abbrev main_v61 : Ref sig .tc := ⟨.hbm, 144, rfl⟩
abbrev main_cst_11 : Ref sig .tc := ⟨.hbm, 145, rfl⟩
abbrev main_v62 : Ref sig .tc := ⟨.hbm, 146, rfl⟩
abbrev main_v63 : Ref sig .tc := ⟨.hbm, 147, rfl⟩
abbrev main_cst_12 : Ref sig .tc := ⟨.hbm, 148, rfl⟩
abbrev main_v64 : Ref sig .tc := ⟨.hbm, 149, rfl⟩
abbrev main_v65 : Ref sig .tc := ⟨.hbm, 150, rfl⟩
abbrev main_v66 : Ref sig .tc := ⟨.hbm, 151, rfl⟩
abbrev main_cst_13 : Ref sig .tc := ⟨.hbm, 152, rfl⟩
abbrev main_v67 : Ref sig .tc := ⟨.hbm, 153, rfl⟩
abbrev main_v68 : Ref sig .tc := ⟨.hbm, 154, rfl⟩
abbrev main_v69 : Ref sig .tc := ⟨.hbm, 155, rfl⟩
abbrev main_v70 : Ref sig .tc := ⟨.hbm, 156, rfl⟩
abbrev main_v71 : Ref sig .tc := ⟨.hbm, 157, rfl⟩
abbrev main_v72 : Ref sig .tc := ⟨.hbm, 158, rfl⟩
abbrev main_v73 : Ref sig .tc := ⟨.hbm, 159, rfl⟩
abbrev main_v74 : Ref sig .tc := ⟨.hbm, 160, rfl⟩
abbrev main_v75 : Ref sig .tc := ⟨.hbm, 161, rfl⟩
abbrev main_v76 : Ref sig .tc := ⟨.hbm, 162, rfl⟩
abbrev main_cst_14 : Ref sig .tc := ⟨.hbm, 163, rfl⟩
abbrev main_v77 : Ref sig .tc := ⟨.hbm, 164, rfl⟩
abbrev main_v78 : Ref sig .tc := ⟨.hbm, 165, rfl⟩
abbrev main_call6_cst : Ref sig .tc := ⟨.hbm, 166, rfl⟩
abbrev main_call6_v0 : Ref sig .tc := ⟨.hbm, 167, rfl⟩
abbrev main_call6_cst_0 : Ref sig .tc := ⟨.hbm, 168, rfl⟩
abbrev main_call6_v1 : Ref sig .tc := ⟨.hbm, 169, rfl⟩
abbrev main_call6_v2 : Ref sig .tc := ⟨.hbm, 170, rfl⟩
abbrev main_call6_v3 : Ref sig .tc := ⟨.hbm, 171, rfl⟩
abbrev main_call6_v4 : Ref sig .tc := ⟨.hbm, 172, rfl⟩
abbrev main_call6_v5 : Ref sig .tc := ⟨.hbm, 173, rfl⟩
abbrev main_call6_v6 : Ref sig .tc := ⟨.hbm, 174, rfl⟩
abbrev main_call6_cst_1 : Ref sig .tc := ⟨.hbm, 175, rfl⟩
abbrev main_call6_v7 : Ref sig .tc := ⟨.hbm, 176, rfl⟩
abbrev main_call6_v8 : Ref sig .tc := ⟨.hbm, 177, rfl⟩
abbrev main_call6_v9 : Ref sig .tc := ⟨.hbm, 178, rfl⟩
abbrev main_call6_v10 : Ref sig .tc := ⟨.hbm, 179, rfl⟩
abbrev main_v79 : Ref sig .tc := ⟨.hbm, 180, rfl⟩
abbrev main_cst_15 : Ref sig .tc := ⟨.hbm, 181, rfl⟩
abbrev main_v80 : Ref sig .tc := ⟨.hbm, 182, rfl⟩
abbrev main_v81 : Ref sig .tc := ⟨.hbm, 183, rfl⟩
abbrev main_call7_cst : Ref sig .tc := ⟨.hbm, 184, rfl⟩
abbrev main_call7_v0 : Ref sig .tc := ⟨.hbm, 185, rfl⟩
abbrev main_call7_cst_0 : Ref sig .tc := ⟨.hbm, 186, rfl⟩
abbrev main_call7_v1 : Ref sig .tc := ⟨.hbm, 187, rfl⟩
abbrev main_call7_v2 : Ref sig .tc := ⟨.hbm, 188, rfl⟩
abbrev main_call7_v3 : Ref sig .tc := ⟨.hbm, 189, rfl⟩
abbrev main_call7_v4 : Ref sig .tc := ⟨.hbm, 190, rfl⟩
abbrev main_call7_v5 : Ref sig .tc := ⟨.hbm, 191, rfl⟩
abbrev main_call7_v6 : Ref sig .tc := ⟨.hbm, 192, rfl⟩
abbrev main_call7_cst_1 : Ref sig .tc := ⟨.hbm, 193, rfl⟩
abbrev main_call7_v7 : Ref sig .tc := ⟨.hbm, 194, rfl⟩
abbrev main_call7_v8 : Ref sig .tc := ⟨.hbm, 195, rfl⟩
abbrev main_call7_v9 : Ref sig .tc := ⟨.hbm, 196, rfl⟩
abbrev main_call7_v10 : Ref sig .tc := ⟨.hbm, 197, rfl⟩
abbrev main_v82 : Ref sig .tc := ⟨.hbm, 198, rfl⟩
abbrev main_v83 : Ref sig .tc := ⟨.hbm, 199, rfl⟩
abbrev main_v84 : Ref sig .tc := ⟨.hbm, 200, rfl⟩
abbrev main_v85 : Ref sig .tc := ⟨.hbm, 201, rfl⟩
abbrev main_cst_16 : Ref sig .tc := ⟨.hbm, 202, rfl⟩
abbrev main_v86 : Ref sig .tc := ⟨.hbm, 203, rfl⟩
abbrev main_cst_17 : Ref sig .tc := ⟨.hbm, 204, rfl⟩
abbrev main_v87 : Ref sig .tc := ⟨.hbm, 205, rfl⟩
abbrev main_v88 : Ref sig .tc := ⟨.hbm, 206, rfl⟩
abbrev main_cst_18 : Ref sig .tc := ⟨.hbm, 207, rfl⟩
abbrev main_v89 : Ref sig .tc := ⟨.hbm, 208, rfl⟩
abbrev main_v90 : Ref sig .tc := ⟨.hbm, 209, rfl⟩
abbrev main_cst_19 : Ref sig .tc := ⟨.hbm, 210, rfl⟩
abbrev main_v91 : Ref sig .tc := ⟨.hbm, 211, rfl⟩
abbrev main_v92 : Ref sig .tc := ⟨.hbm, 212, rfl⟩
abbrev main_call8_cst : Ref sig .tc := ⟨.hbm, 213, rfl⟩
abbrev main_call8_v0 : Ref sig .tc := ⟨.hbm, 214, rfl⟩
abbrev main_call8_cst_0 : Ref sig .tc := ⟨.hbm, 215, rfl⟩
abbrev main_call8_v1 : Ref sig .tc := ⟨.hbm, 216, rfl⟩
abbrev main_call8_v2 : Ref sig .tc := ⟨.hbm, 217, rfl⟩
abbrev main_call8_v3 : Ref sig .tc := ⟨.hbm, 218, rfl⟩
abbrev main_call8_v4 : Ref sig .tc := ⟨.hbm, 219, rfl⟩
abbrev main_call8_v5 : Ref sig .tc := ⟨.hbm, 220, rfl⟩
abbrev main_call8_v6 : Ref sig .tc := ⟨.hbm, 221, rfl⟩
abbrev main_call8_cst_1 : Ref sig .tc := ⟨.hbm, 222, rfl⟩
abbrev main_call8_v7 : Ref sig .tc := ⟨.hbm, 223, rfl⟩
abbrev main_call8_v8 : Ref sig .tc := ⟨.hbm, 224, rfl⟩
abbrev main_call8_v9 : Ref sig .tc := ⟨.hbm, 225, rfl⟩
abbrev main_call8_v10 : Ref sig .tc := ⟨.hbm, 226, rfl⟩
abbrev main_v93 : Ref sig .tc := ⟨.hbm, 227, rfl⟩
abbrev main_cst_20 : Ref sig .tc := ⟨.hbm, 228, rfl⟩
abbrev main_v94 : Ref sig .tc := ⟨.hbm, 229, rfl⟩
abbrev main_v95 : Ref sig .tc := ⟨.hbm, 230, rfl⟩
abbrev main_call9_cst : Ref sig .tc := ⟨.hbm, 231, rfl⟩
abbrev main_call9_v0 : Ref sig .tc := ⟨.hbm, 232, rfl⟩
abbrev main_call9_cst_0 : Ref sig .tc := ⟨.hbm, 233, rfl⟩
abbrev main_call9_v1 : Ref sig .tc := ⟨.hbm, 234, rfl⟩
abbrev main_call9_v2 : Ref sig .tc := ⟨.hbm, 235, rfl⟩
abbrev main_call9_v3 : Ref sig .tc := ⟨.hbm, 236, rfl⟩
abbrev main_call9_v4 : Ref sig .tc := ⟨.hbm, 237, rfl⟩
abbrev main_call9_v5 : Ref sig .tc := ⟨.hbm, 238, rfl⟩
abbrev main_call9_v6 : Ref sig .tc := ⟨.hbm, 239, rfl⟩
abbrev main_call9_cst_1 : Ref sig .tc := ⟨.hbm, 240, rfl⟩
abbrev main_call9_v7 : Ref sig .tc := ⟨.hbm, 241, rfl⟩
abbrev main_call9_v8 : Ref sig .tc := ⟨.hbm, 242, rfl⟩
abbrev main_call9_v9 : Ref sig .tc := ⟨.hbm, 243, rfl⟩
abbrev main_call9_v10 : Ref sig .tc := ⟨.hbm, 244, rfl⟩
abbrev main_v96 : Ref sig .tc := ⟨.hbm, 245, rfl⟩
abbrev main_v97 : Ref sig .tc := ⟨.hbm, 246, rfl⟩
abbrev main_v98 : Ref sig .tc := ⟨.hbm, 247, rfl⟩
abbrev main_v99 : Ref sig .tc := ⟨.hbm, 248, rfl⟩
abbrev main_cst_21 : Ref sig .tc := ⟨.hbm, 249, rfl⟩
abbrev main_v100 : Ref sig .tc := ⟨.hbm, 250, rfl⟩
abbrev main_cst_22 : Ref sig .tc := ⟨.hbm, 251, rfl⟩
abbrev main_v101 : Ref sig .tc := ⟨.hbm, 252, rfl⟩
abbrev main_v102 : Ref sig .tc := ⟨.hbm, 253, rfl⟩
abbrev main_cst_23 : Ref sig .tc := ⟨.hbm, 254, rfl⟩
abbrev main_v103 : Ref sig .tc := ⟨.hbm, 255, rfl⟩
abbrev main_v104 : Ref sig .tc := ⟨.hbm, 256, rfl⟩
abbrev main_v105 : Ref sig .tc := ⟨.hbm, 257, rfl⟩
abbrev main_cst_24 : Ref sig .tc := ⟨.hbm, 258, rfl⟩
abbrev main_v106 : Ref sig .tc := ⟨.hbm, 259, rfl⟩
abbrev main_cst_25 : Ref sig .tc := ⟨.hbm, 260, rfl⟩
abbrev main_v107 : Ref sig .tc := ⟨.hbm, 261, rfl⟩

abbrev nD : Nat := 1
abbrev τ : Topo := Topo.v7x

variable {F : FTy → Type} [FloatOps F]

class Facts₀ : Prop where
  transposes_S128x640_S640x128_1_0 : S128x640.Transposes [1, 0] S640x128
  bcast_S128_S1x128_1 : S128.BroadcastsInDim S1x128 (![1] : Fin 1 → Fin S1x128.rank)
  bcast_S1x128_S4096x128_0_1 : S1x128.BroadcastsInDim S4096x128 (![0, 1] : Fin 2 → Fin S4096x128.rank)
  bcast_S_S4096x128 : S_.BroadcastsInDim S4096x128 (![] : Fin 0 → Fin S4096x128.rank)
  transposes_S128x128_S128x128_1_0 : S128x128.Transposes [1, 0] S128x128
  reducesTo_S4096x128_S4096_d1 : S4096x128.ReducesTo [1] S4096
  h_S_ : 0 < S_.numel
  bcast_S4096_S4096x1_0 : S4096.BroadcastsInDim S4096x1 (![0] : Fin 1 → Fin S4096x1.rank)
  bcast_S4096x1_S4096x128_0_1 : S4096x1.BroadcastsInDim S4096x128 (![0, 1] : Fin 2 → Fin S4096x128.rank)
  bcast_S1x128_S49152x128_0_1 : S1x128.BroadcastsInDim S49152x128 (![0, 1] : Fin 2 → Fin S49152x128.rank)
  bcast_S_S49152x128 : S_.BroadcastsInDim S49152x128 (![] : Fin 0 → Fin S49152x128.rank)
  reducesTo_S49152x128_S49152_d1 : S49152x128.ReducesTo [1] S49152
  bcast_S49152_S49152x1_0 : S49152.BroadcastsInDim S49152x1 (![0] : Fin 1 → Fin S49152x1.rank)
  bcast_S49152x1_S49152x128_0_1 : S49152x1.BroadcastsInDim S49152x128 (![0, 1] : Fin 2 → Fin S49152x128.rank)
  shapeCasts_S49152x128_S12x4096x128 : S49152x128.ShapeCasts S12x4096x128
  reducesTo_S12x4096x128_S4096x128_d0 : S12x4096x128.ReducesTo [0] S4096x128
  bcast_S_S4096 : S_.BroadcastsInDim S4096 (![] : Fin 0 → Fin S4096.rank)
  reducesTo_S4096_S_d0 : S4096.ReducesTo [0] S_
  transposes_S12x4096x128_S4096x12x128_1_0_2 : S12x4096x128.Transposes [1, 0, 2] S4096x12x128
  bcast_S4096x128_S4096x1x128_0_2 : S4096x128.BroadcastsInDim S4096x1x128 (![0, 2] : Fin 2 → Fin S4096x1x128.rank)
  bcast_S4096x1x128_S4096x12x128_0_1_2 : S4096x1x128.BroadcastsInDim S4096x12x128 (![0, 1, 2] : Fin 3 → Fin S4096x12x128.rank)
  bcast_S_S4096x12x128 : S_.BroadcastsInDim S4096x12x128 (![] : Fin 0 → Fin S4096x12x128.rank)
  reducesTo_S4096x12x128_S4096x12_d2 : S4096x12x128.ReducesTo [2] S4096x12
  bcast_S_S4096x12 : S_.BroadcastsInDim S4096x12 (![] : Fin 0 → Fin S4096x12.rank)
  bcast_S4096x12_S4096x12x1_0_1 : S4096x12.BroadcastsInDim S4096x12x1 (![0, 1] : Fin 2 → Fin S4096x12x1.rank)
  bcast_S4096x12x1_S4096x12x128_0_1_2 : S4096x12x1.BroadcastsInDim S4096x12x128 (![0, 1, 2] : Fin 3 → Fin S4096x12x128.rank)
  reducesTo_S4096x12_S_d0_1 : S4096x12.ReducesTo [0, 1] S_
  dot_S4096x640_S640x128_S4096x128_1_0_0_1_n_n_wf : DotDims.WF S4096x640 S640x128 S4096x128 [1] [0] [0] [1] [] []
  dot_S4096x128_S128x128_S4096x128_1_0_0_1_n_n_wf : DotDims.WF S4096x128 S128x128 S4096x128 [1] [0] [0] [1] [] []
  dot_S49152x640_S640x128_S49152x128_1_0_0_1_n_n_wf : DotDims.WF S49152x640 S640x128 S49152x128 [1] [0] [0] [1] [] []
  dot_S49152x128_S128x128_S49152x128_1_0_0_1_n_n_wf : DotDims.WF S49152x128 S128x128 S49152x128 [1] [0] [0] [1] [] []

variable [Facts₀]

def dot_S4096x640_S640x128_S4096x128_1_0_0_1_n_n : DotDims S4096x640 S640x128 S4096x128 where
  lhsContracting := [1]
  rhsContracting := [0]
  lhsNonContracting := [0]
  rhsNonContracting := [1]
  lhsBatch := []
  rhsBatch := []
  wf := dot_S4096x640_S640x128_S4096x128_1_0_0_1_n_n_wf
def dot_S4096x128_S128x128_S4096x128_1_0_0_1_n_n : DotDims S4096x128 S128x128 S4096x128 where
  lhsContracting := [1]
  rhsContracting := [0]
  lhsNonContracting := [0]
  rhsNonContracting := [1]
  lhsBatch := []
  rhsBatch := []
  wf := dot_S4096x128_S128x128_S4096x128_1_0_0_1_n_n_wf
def dot_S49152x640_S640x128_S49152x128_1_0_0_1_n_n : DotDims S49152x640 S640x128 S49152x128 where
  lhsContracting := [1]
  rhsContracting := [0]
  lhsNonContracting := [0]
  rhsNonContracting := [1]
  lhsBatch := []
  rhsBatch := []
  wf := dot_S49152x640_S640x128_S49152x128_1_0_0_1_n_n_wf
def dot_S49152x128_S128x128_S49152x128_1_0_0_1_n_n : DotDims S49152x128 S128x128 S49152x128 where
  lhsContracting := [1]
  rhsContracting := [0]
  lhsNonContracting := [0]
  rhsNonContracting := [1]
  lhsBatch := []
  rhsBatch := []
  wf := dot_S49152x128_S128x128_S49152x128_1_0_0_1_n_n_wf

class Facts : Prop extends Facts₀ where

variable [Facts]
-- ==== Proof.WordPoints.lean ====
/-
  The grid of the fused loss kernel, point by point.

  The grid is 4 tiles of 1024 samples by 12 patches: point `t` is patch `t mod 12` of tile `t / 12`. The body branches
  twice on the patch number: at a tile's FIRST patch (`t mod 12 = 0`) it embeds the tile's global rows into the first
  scratch buffer and zeroes the second; at every patch it embeds the patch rows, stores them as slice `t mod 12` of the
  third scratch buffer and adds them to the second; at a tile's LAST patch (`t mod 12 = 11`) it computes the tile's two
  partial losses from the three scratch buffers and stores them in the two output blocks, which are written back
  there and nowhere else. This module decides those facts over the 48 points and names what the body is called with.
-/
import proofs.«133262_j27453430956191_2_alg».proof.Proof.Gen.Kernel.Frame
import proofs.«133262_j27453430956191_2_alg».proof.Proof.Gen.Kernel.Skeleton
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The two branch conditions, in closed form -/

/-- The condition "this is the tile's first patch", as the body computes it from the grid coordinates. -/
abbrev isFirst (i : grid0.Coords) : Prop :=
  (Scalar.cmpi .ne (Scalar.extui (Scalar.cmpi .eq (BitVec.ofNat 32 (i 1).val) 0#32)) 0#32) = 1#1
/-- It holds exactly at the points `≡ 0 (mod 12)`. -/
theorem isFirst_iff : ∀ t : Fin cfg0.N, isFirst (grid0.coords t) ↔ t.val % 12 = 0 :=
  (by decide +kernel : ∀ t : Fin grid0.N, isFirst (grid0.coords t) ↔ t.val % 12 = 0)

/-- The condition "this is the tile's last patch". -/
abbrev isLast (i : grid0.Coords) : Prop := k0_cond2 i = 1#1
/-- It holds exactly at the points `≡ 11 (mod 12)`. -/
theorem isLast_iff : ∀ t : Fin cfg0.N, isLast (grid0.coords t) ↔ t.val % 12 = 11 :=
  (by decide +kernel : ∀ t : Fin grid0.N, isLast (grid0.coords t) ↔ t.val % 12 = 11)

/-! ## Where the windows are idle -/

theorem live0 : ∀ t : Fin cfg0.N, cfg0.idle 0 (grid0.coords t) = false := by decide +kernel
theorem live1 : ∀ t : Fin cfg0.N, cfg0.idle 1 (grid0.coords t) = false := by decide +kernel
theorem live2 : ∀ t : Fin cfg0.N, cfg0.idle 2 (grid0.coords t) = false := by decide +kernel
theorem live3 : ∀ t : Fin cfg0.N, cfg0.idle 3 (grid0.coords t) = false := by decide +kernel
theorem live4 : ∀ t : Fin cfg0.N, cfg0.idle 4 (grid0.coords t) = false := by decide +kernel
theorem live5 : ∀ t : Fin cfg0.N, cfg0.idle 5 (grid0.coords t) = false := by decide +kernel
theorem live6 : ∀ t : Fin cfg0.N, cfg0.idle 6 (grid0.coords t) = false := by decide +kernel
theorem live7 : ∀ t : Fin cfg0.N, cfg0.idle 7 (grid0.coords t) = false := by decide +kernel
theorem live8 : ∀ t : Fin cfg0.N, cfg0.idle 8 (grid0.coords t) = false := by decide +kernel
theorem live9 : ∀ t : Fin cfg0.N, cfg0.idle 9 (grid0.coords t) = false := by decide +kernel
/-- The two output windows are idle exactly off a tile's last patch. -/
theorem idle10_iff : ∀ t : Fin cfg0.N, cfg0.idle 10 (grid0.coords t) = true ↔ ¬ t.val % 12 = 11 := by decide +kernel
theorem idle11_iff : ∀ t : Fin cfg0.N, cfg0.idle 11 (grid0.coords t) = true ↔ ¬ t.val % 12 = 11 := by decide +kernel

/-! ## What the body is called with at a point -/

abbrev ms0 (t : Fin cfg0.N) : Memref sig .tc .vmem S1024x640 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S1x1024x640 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S640x128 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S128 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S128x128 .f32 := win0_4.stage (cfg0.slots t 4)
abbrev hs4 (t : Fin cfg0.N) : (ms4 t).IsWhole := hstage0_4 ((cfg0.slots t 4).cast nbuf0_4)
abbrev ms5 (t : Fin cfg0.N) : Memref sig .tc .vmem S128 .f32 := win0_5.stage (cfg0.slots t 5)
abbrev hs5 (t : Fin cfg0.N) : (ms5 t).IsWhole := hstage0_5 ((cfg0.slots t 5).cast nbuf0_5)
abbrev ms6 (t : Fin cfg0.N) : Memref sig .tc .vmem S640x128 .f32 := win0_6.stage (cfg0.slots t 6)
abbrev hs6 (t : Fin cfg0.N) : (ms6 t).IsWhole := hstage0_6 ((cfg0.slots t 6).cast nbuf0_6)
abbrev ms7 (t : Fin cfg0.N) : Memref sig .tc .vmem S128 .f32 := win0_7.stage (cfg0.slots t 7)
abbrev hs7 (t : Fin cfg0.N) : (ms7 t).IsWhole := hstage0_7 ((cfg0.slots t 7).cast nbuf0_7)
abbrev ms8 (t : Fin cfg0.N) : Memref sig .tc .vmem S128x128 .f32 := win0_8.stage (cfg0.slots t 8)
abbrev hs8 (t : Fin cfg0.N) : (ms8 t).IsWhole := hstage0_8 ((cfg0.slots t 8).cast nbuf0_8)
abbrev ms9 (t : Fin cfg0.N) : Memref sig .tc .vmem S128 .f32 := win0_9.stage (cfg0.slots t 9)
abbrev hs9 (t : Fin cfg0.N) : (ms9 t).IsWhole := hstage0_9 ((cfg0.slots t 9).cast nbuf0_9)
abbrev ms10 (t : Fin cfg0.N) : Memref sig .tc .vmem S1x1x128 .f32 := win0_10.stage (cfg0.slots t 10)
abbrev hs10 (t : Fin cfg0.N) : (ms10 t).IsWhole := hstage0_10 ((cfg0.slots t 10).cast nbuf0_10)
abbrev ms11 (t : Fin cfg0.N) : Memref sig .tc .vmem S1x1x128 .f32 := win0_11.stage (cfg0.slots t 11)
abbrev hs11 (t : Fin cfg0.N) : (ms11 t).IsWhole := hstage0_11 ((cfg0.slots t 11).cast nbuf0_11)

/-- The three scratch buffers: the tile's embedded global rows, the running sum of its embedded patch rows, and
    the twelve embedded patch tiles. -/
abbrev scG : Memref sig .tc .vmem S1024x128 .f32 := Memref.whole cc0_scratch0
abbrev scSum : Memref sig .tc .vmem S1024x128 .f32 := Memref.whole cc0_scratch1
abbrev scStash : Memref sig .tc .vmem S12x1024x128 .f32 := Memref.whole cc0_scratch2

/-- What the launch hands the region, opened: the three scratch buffers at some contents and the generator
    register at some state. -/
theorem rest_eq (c : Dev nD) :
    (Pipeline.ΦA spec0 c : sProp 𝕄)
      = iprop(iprop((∃ d, owns (c : Thread nD τ) scG fullShare d) ∗ (∃ d, owns (c : Thread nD τ) scSum fullShare d) ∗ (∃ d, owns (c : Thread nD τ) scStash fullShare d)) ∗ (∃ r, prngReg c r)) := by
  unfold Pipeline.ΦA; rw [scopedRest0_eq]; simp only [scG, scSum, scStash, owns_whole]; try rfl

end Cert.Kernel.Hand

end
-- ==== Proof.WordRunFirst.lean ====
/-
  The body at a tile's FIRST patch, run symbolically.

  On whole staging buffers — the ten inputs at their blocks, the two output blocks and the first two scratch buffers at
  anything, the patch stash at contents `xs2` — the body runs to its end and leaves: the inputs as they were, the
  output blocks untouched, the first scratch buffer overwritten by the pieces `LG` (the tile's embedded global rows),
  the second by `LSum` (zero, then the first patch's embedded rows added), and the stash at `xs2` with the pieces
  `LStash` written over it (one slice, the first patch's). The piece lists are found by the run itself.
-/
import proofs.«133262_j27453430956191_2_alg».proof.Proof.WordPoints

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
noncomputable def runFirst (c : Dev nD) (i : grid0.Coords) (arg2 : Memref sig .tc .vmem S1024x640 .f32) (harg2 : arg2.IsWhole) (arg3 : Memref sig .tc .vmem S1x1024x640 .f32) (harg3 : arg3.IsWhole) (arg4 : Memref sig .tc .vmem S640x128 .f32) (harg4 : arg4.IsWhole) (arg5 : Memref sig .tc .vmem S128 .f32) (harg5 : arg5.IsWhole) (arg6 : Memref sig .tc .vmem S128x128 .f32) (harg6 : arg6.IsWhole) (arg7 : Memref sig .tc .vmem S128 .f32) (harg7 : arg7.IsWhole) (arg8 : Memref sig .tc .vmem S640x128 .f32) (harg8 : arg8.IsWhole) (arg9 : Memref sig .tc .vmem S128 .f32) (harg9 : arg9.IsWhole) (arg10 : Memref sig .tc .vmem S128x128 .f32) (harg10 : arg10.IsWhole) (arg11 : Memref sig .tc .vmem S128 .f32) (harg11 : arg11.IsWhole) (arg12 : Memref sig .tc .vmem S1x1x128 .f32) (harg12 : arg12.IsWhole) (arg13 : Memref sig .tc .vmem S1x1x128 .f32) (harg13 : arg13.IsWhole) (arg14 : Memref sig .tc .vmem S1024x128 .f32) (harg14 : arg14.IsWhole) (arg15 : Memref sig .tc .vmem S1024x128 .f32) (harg15 : arg15.IsWhole) (arg16 : Memref sig .tc .vmem S12x1024x128 .f32) (harg16 : arg16.IsWhole) (hc0 : isFirst i) (hc1 : ¬isLast i)
    (x0 : Vec F S1024x640 .f32) (x1 : Vec F S1x1024x640 .f32) (x2 : Vec F S640x128 .f32) (x3 : Vec F S128 .f32) (x4 : Vec F S128x128 .f32) (x5 : Vec F S128 .f32) (x6 : Vec F S640x128 .f32) (x7 : Vec F S128 .f32) (x8 : Vec F S128x128 .f32) (x9 : Vec F S128 .f32) (xs2 : Vec F S12x1024x128 .f32) :
    Σ' (LG : List (View.Piece (Elt F) S1024x128 .f32)) (LSum : List (View.Piece (Elt F) S1024x128 .f32)), { LStash : List (View.Piece (Elt F) S12x1024x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ owns (c : Thread nD τ) arg16 fullShare xs2
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ (∃ d, owns (c : Thread nD τ) arg12 fullShare d) ∗ (∃ d, owns (c : Thread nD τ) arg13 fullShare d) ∗ (∃ f, arg14.view.loc (c : Thread nD τ) ↦[arg14.view.set]{fullShare} arg14.view.writes (Elt F) f LG) ∗ (∃ f, arg15.view.loc (c : Thread nD τ) ↦[arg15.view.set]{fullShare} arg15.view.writes (Elt F) f LSum) ∗ (arg16.view.loc (c : Thread nD τ) ↦[arg16.view.set]{fullShare} arg16.view.writes (Elt F) (harg16.unread xs2) LStash)) -∗ K ⟨⟩))
          ⊢ wp frame (wpE (defs₀ (F := F)) Variants.none c none) E (cc0__kernel i arg2 harg2 arg3 harg3 arg4 harg4 arg5 harg5 arg6 harg6 arg7 harg7 arg8 harg8 arg9 harg9 arg10 harg10 arg11 harg11 arg12 harg12 arg13 harg13 arg14 harg14 arg15 harg15 arg16 harg16) K } := by
  refine ⟨?_, ?_, ?_, fun E K => ?run⟩
  case run =>
    simp only [cc0__kernel_eq_skeleton]; unfold cc0__kernel_skel
    simp only [k0_part14_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%d11, %f11, -, H11⟩, ⟨%ds0, %fs0, -, HS0⟩, ⟨%ds1, %fs1, -, HS1⟩, ⟨%fs2, %hfs2, HS2⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg16.eq_unread hfs2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _, _; isplitr; swap; · iexact H10
      ipureintro; rfl
    isplitl [H11]
    · iexists _, _; isplitr; swap; · iexact H11
      ipureintro; rfl
    isplitl [HS0]; · iexists _; iexact HS0
    isplitl [HS1]; · iexists _; iexact HS1
    iexact HS2

end Cert.Kernel.Hand

end
-- ==== Proof.WordRunMid.lean ====
/-
  The body at a patch that is neither a tile's first nor its last, run symbolically.

  The embedded global rows (first scratch buffer, contents `xs0`) are not touched; the running sum (second scratch
  buffer, contents `xs1`) is overwritten whole by the pieces `LSum` (the sum plus this patch's embedded rows); one
  slice of the stash (contents `xs2`) is overwritten by `LStash`; the two output blocks are left as found.
-/
import proofs.«133262_j27453430956191_2_alg».proof.Proof.WordRunFirst

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
noncomputable def runMid (c : Dev nD) (i : grid0.Coords) (arg2 : Memref sig .tc .vmem S1024x640 .f32) (harg2 : arg2.IsWhole) (arg3 : Memref sig .tc .vmem S1x1024x640 .f32) (harg3 : arg3.IsWhole) (arg4 : Memref sig .tc .vmem S640x128 .f32) (harg4 : arg4.IsWhole) (arg5 : Memref sig .tc .vmem S128 .f32) (harg5 : arg5.IsWhole) (arg6 : Memref sig .tc .vmem S128x128 .f32) (harg6 : arg6.IsWhole) (arg7 : Memref sig .tc .vmem S128 .f32) (harg7 : arg7.IsWhole) (arg8 : Memref sig .tc .vmem S640x128 .f32) (harg8 : arg8.IsWhole) (arg9 : Memref sig .tc .vmem S128 .f32) (harg9 : arg9.IsWhole) (arg10 : Memref sig .tc .vmem S128x128 .f32) (harg10 : arg10.IsWhole) (arg11 : Memref sig .tc .vmem S128 .f32) (harg11 : arg11.IsWhole) (arg12 : Memref sig .tc .vmem S1x1x128 .f32) (harg12 : arg12.IsWhole) (arg13 : Memref sig .tc .vmem S1x1x128 .f32) (harg13 : arg13.IsWhole) (arg14 : Memref sig .tc .vmem S1024x128 .f32) (harg14 : arg14.IsWhole) (arg15 : Memref sig .tc .vmem S1024x128 .f32) (harg15 : arg15.IsWhole) (arg16 : Memref sig .tc .vmem S12x1024x128 .f32) (harg16 : arg16.IsWhole) (hc0 : ¬isFirst i) (hc1 : ¬isLast i)
    (x0 : Vec F S1024x640 .f32) (x1 : Vec F S1x1024x640 .f32) (x2 : Vec F S640x128 .f32) (x3 : Vec F S128 .f32) (x4 : Vec F S128x128 .f32) (x5 : Vec F S128 .f32) (x6 : Vec F S640x128 .f32) (x7 : Vec F S128 .f32) (x8 : Vec F S128x128 .f32) (x9 : Vec F S128 .f32) (xs0 : Vec F S1024x128 .f32) (xs1 : Vec F S1024x128 .f32) (xs2 : Vec F S12x1024x128 .f32) :
    Σ' (LSum : List (View.Piece (Elt F) S1024x128 .f32)), { LStash : List (View.Piece (Elt F) S12x1024x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ (∃ d, owns (c : Thread nD τ) arg12 fullShare d) ∗ (∃ d, owns (c : Thread nD τ) arg13 fullShare d) ∗ owns (c : Thread nD τ) arg14 fullShare xs0 ∗ owns (c : Thread nD τ) arg15 fullShare xs1 ∗ owns (c : Thread nD τ) arg16 fullShare xs2
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ (∃ d, owns (c : Thread nD τ) arg12 fullShare d) ∗ (∃ d, owns (c : Thread nD τ) arg13 fullShare d) ∗ owns (c : Thread nD τ) arg14 fullShare xs0 ∗ (∃ f, arg15.view.loc (c : Thread nD τ) ↦[arg15.view.set]{fullShare} arg15.view.writes (Elt F) f LSum) ∗ (arg16.view.loc (c : Thread nD τ) ↦[arg16.view.set]{fullShare} arg16.view.writes (Elt F) (harg16.unread xs2) LStash)) -∗ K ⟨⟩))
          ⊢ wp frame (wpE (defs₀ (F := F)) Variants.none c none) E (cc0__kernel i arg2 harg2 arg3 harg3 arg4 harg4 arg5 harg5 arg6 harg6 arg7 harg7 arg8 harg8 arg9 harg9 arg10 harg10 arg11 harg11 arg12 harg12 arg13 harg13 arg14 harg14 arg15 harg15 arg16 harg16) K } := by
  refine ⟨?_, ?_, fun E K => ?run⟩
  case run =>
    simp only [cc0__kernel_eq_skeleton]; unfold cc0__kernel_skel
    simp only [k0_part14_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%d11, %f11, -, H11⟩, ⟨%fs0, %hfs0, HS0⟩, ⟨%fs1, %hfs1, HS1⟩, ⟨%fs2, %hfs2, HS2⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg14.eq_unread hfs0; obtain rfl := harg15.eq_unread hfs1; obtain rfl := harg16.eq_unread hfs2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _, _; isplitr; swap; · iexact H10
      ipureintro; rfl
    isplitl [H11]
    · iexists _, _; isplitr; swap; · iexact H11
      ipureintro; rfl
    isplitl [HS0]
    · iexists _; isplitr; · ipureintro; exact harg14.read_unread _
      iexact HS0
    isplitl [HS1]; · iexists _; iexact HS1
    iexact HS2

end Cert.Kernel.Hand

end
-- ==== Proof.WordRunLast.lean ====
/-
  The body at a tile's LAST patch, run symbolically.

  As at a middle patch the running sum is overwritten (`LSum`) and one slice of the stash written (`LStash`); then the
  tile's two partial losses are computed from the embedded global rows (`xs0`), the completed sum and the twelve
  slices of the stash, and stored whole into the two output blocks (pieces `L10`, `L11`).
-/
import proofs.«133262_j27453430956191_2_alg».proof.Proof.WordRunMid

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
noncomputable def runLast (c : Dev nD) (i : grid0.Coords) (arg2 : Memref sig .tc .vmem S1024x640 .f32) (harg2 : arg2.IsWhole) (arg3 : Memref sig .tc .vmem S1x1024x640 .f32) (harg3 : arg3.IsWhole) (arg4 : Memref sig .tc .vmem S640x128 .f32) (harg4 : arg4.IsWhole) (arg5 : Memref sig .tc .vmem S128 .f32) (harg5 : arg5.IsWhole) (arg6 : Memref sig .tc .vmem S128x128 .f32) (harg6 : arg6.IsWhole) (arg7 : Memref sig .tc .vmem S128 .f32) (harg7 : arg7.IsWhole) (arg8 : Memref sig .tc .vmem S640x128 .f32) (harg8 : arg8.IsWhole) (arg9 : Memref sig .tc .vmem S128 .f32) (harg9 : arg9.IsWhole) (arg10 : Memref sig .tc .vmem S128x128 .f32) (harg10 : arg10.IsWhole) (arg11 : Memref sig .tc .vmem S128 .f32) (harg11 : arg11.IsWhole) (arg12 : Memref sig .tc .vmem S1x1x128 .f32) (harg12 : arg12.IsWhole) (arg13 : Memref sig .tc .vmem S1x1x128 .f32) (harg13 : arg13.IsWhole) (arg14 : Memref sig .tc .vmem S1024x128 .f32) (harg14 : arg14.IsWhole) (arg15 : Memref sig .tc .vmem S1024x128 .f32) (harg15 : arg15.IsWhole) (arg16 : Memref sig .tc .vmem S12x1024x128 .f32) (harg16 : arg16.IsWhole) (hc0 : ¬isFirst i) (hc1 : isLast i)
    (x0 : Vec F S1024x640 .f32) (x1 : Vec F S1x1024x640 .f32) (x2 : Vec F S640x128 .f32) (x3 : Vec F S128 .f32) (x4 : Vec F S128x128 .f32) (x5 : Vec F S128 .f32) (x6 : Vec F S640x128 .f32) (x7 : Vec F S128 .f32) (x8 : Vec F S128x128 .f32) (x9 : Vec F S128 .f32) (xs0 : Vec F S1024x128 .f32) (xs1 : Vec F S1024x128 .f32) (xs2 : Vec F S12x1024x128 .f32) :
    Σ' (L10 : List (View.Piece (Elt F) S1x1x128 .f32)) (L11 : List (View.Piece (Elt F) S1x1x128 .f32)) (LSum : List (View.Piece (Elt F) S1024x128 .f32)), { LStash : List (View.Piece (Elt F) S12x1024x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ (∃ d, owns (c : Thread nD τ) arg12 fullShare d) ∗ (∃ d, owns (c : Thread nD τ) arg13 fullShare d) ∗ owns (c : Thread nD τ) arg14 fullShare xs0 ∗ owns (c : Thread nD τ) arg15 fullShare xs1 ∗ owns (c : Thread nD τ) arg16 fullShare xs2
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ (∃ f, arg12.view.loc (c : Thread nD τ) ↦[arg12.view.set]{fullShare} arg12.view.writes (Elt F) f L10) ∗ (∃ f, arg13.view.loc (c : Thread nD τ) ↦[arg13.view.set]{fullShare} arg13.view.writes (Elt F) f L11) ∗ owns (c : Thread nD τ) arg14 fullShare xs0 ∗ (∃ f, arg15.view.loc (c : Thread nD τ) ↦[arg15.view.set]{fullShare} arg15.view.writes (Elt F) f LSum) ∗ (arg16.view.loc (c : Thread nD τ) ↦[arg16.view.set]{fullShare} arg16.view.writes (Elt F) (harg16.unread xs2) LStash)) -∗ K ⟨⟩))
          ⊢ wp frame (wpE (defs₀ (F := F)) Variants.none c none) E (cc0__kernel i arg2 harg2 arg3 harg3 arg4 harg4 arg5 harg5 arg6 harg6 arg7 harg7 arg8 harg8 arg9 harg9 arg10 harg10 arg11 harg11 arg12 harg12 arg13 harg13 arg14 harg14 arg15 harg15 arg16 harg16) K } := by
  refine ⟨?_, ?_, ?_, ?_, fun E K => ?run⟩
  case run =>
    simp only [cc0__kernel_eq_skeleton]; unfold cc0__kernel_skel
    simp only [k0_part14_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%d11, %f11, -, H11⟩, ⟨%fs0, %hfs0, HS0⟩, ⟨%fs1, %hfs1, HS1⟩, ⟨%fs2, %hfs2, HS2⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg14.eq_unread hfs0; obtain rfl := harg15.eq_unread hfs1; obtain rfl := harg16.eq_unread hfs2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]; · iexists _; iexact H10
    isplitl [H11]; · iexists _; iexact H11
    isplitl [HS0]
    · iexists _; isplitr; · ipureintro; exact harg14.read_unread _
      iexact HS0
    isplitl [HS1]; · iexists _; iexact HS1
    iexact HS2

end Cert.Kernel.Hand

end
-- ==== Proof.WordPieces.lean ====
/-
  What the three symbolic runs found, as closed forms over the body's arithmetic.

  Each run left, per buffer, a list of pieces (rectangle, payload). Read back, a list that covers its buffer is one
  function of the body's loads, and every load of a whole staging buffer reads that buffer's contents: the embedded
  global tile `k0_pay30`; the running sum `k0_pay1 (k0_pay34 … previous)` (previous = the zero fill at a tile's first
  patch); the one stash slice `k0_pay33` written at the patch's own slot; and, at a tile's last patch, the two partial
  losses broadcast over the lanes.
-/
import proofs.«133262_j27453430956191_2_alg».proof.Proof.WordRunLast
import Idealize.ShloMosaic.Lib.Pipeline.Value

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

theorem hz1 : (![0] : Fin 1 → ℕ) = fun _ => 0 := by funext a; fin_cases a; rfl
theorem hz2 : (![0, 0] : Fin 2 → ℕ) = fun _ => 0 := by funext a; fin_cases a <;> rfl
theorem hz3 : (![0, 0, 0] : Fin 3 → ℕ) = fun _ => 0 := by funext a; fin_cases a <;> rfl

/-- The slice of the stash the body writes at grid coordinates `i`: slot `i 1`, all rows, all lanes. -/
abbrev slotRect (i : grid0.Coords) : Rect S12x1024x128 := Rect.unit (k0_off1 i) S1x1024x128.size (k0_off1_inb i)

/-- The patch's embedded rows as the sum update and the stash see them. -/
abbrev sumNext (x1 : Vec F S1x1024x640 .f32) (x6 : Vec F S640x128 .f32) (x7 : Vec F S128 .f32) (x8 : Vec F S128x128 .f32)
    (x9 : Vec F S128 .f32) (prev : Vec F S1024x128 .f32) : Vec F S1024x128 .f32 :=
  k0_pay1 (k0_pay34 x1 x6 x7 x8 x9 prev)

/-- One write through a rectangle, read back: the rectangle's part replaced by the payload. -/
theorem read_writes_one {sig' : RefSig} {κ' : Kind} {sp' : Space} {s : Shape} (v : View sig' κ' sp' s .f32)
    (f : v.ty.Contents (Elt F)) (r : Rect s) (w : r.shape.Idx → Elt F .f32) :
    v.read (Elt F) (v.writes (Elt F) f [⟨r, w⟩]) = r.overlay (v.read (Elt F) f) w := by
  funext y
  by_cases hy : y ∈ r.set
  · obtain ⟨x, rfl⟩ := r.exists_idx_of_mem hy
    rw [show r.idx x = r.emb x from rfl, View.read_writes_cons_emb]; exact (r.overlay_emb _ _ x).symm
  · rw [View.writes_singleton, View.read_slice_write_of_not_mem r _ _ _ (by rwa [Rect.map_emb_univ]),
      r.overlay_of_not_mem _ _ hy]

/-! ## A tile's first patch -/

theorem first_G (c : Dev nD) (i : grid0.Coords) (arg2 : Memref sig .tc .vmem S1024x640 .f32) (harg2 : arg2.IsWhole) (arg3 : Memref sig .tc .vmem S1x1024x640 .f32) (harg3 : arg3.IsWhole) (arg4 : Memref sig .tc .vmem S640x128 .f32) (harg4 : arg4.IsWhole) (arg5 : Memref sig .tc .vmem S128 .f32) (harg5 : arg5.IsWhole) (arg6 : Memref sig .tc .vmem S128x128 .f32) (harg6 : arg6.IsWhole) (arg7 : Memref sig .tc .vmem S128 .f32) (harg7 : arg7.IsWhole) (arg8 : Memref sig .tc .vmem S640x128 .f32) (harg8 : arg8.IsWhole) (arg9 : Memref sig .tc .vmem S128 .f32) (harg9 : arg9.IsWhole) (arg10 : Memref sig .tc .vmem S128x128 .f32) (harg10 : arg10.IsWhole) (arg11 : Memref sig .tc .vmem S128 .f32) (harg11 : arg11.IsWhole) (arg12 : Memref sig .tc .vmem S1x1x128 .f32) (harg12 : arg12.IsWhole) (arg13 : Memref sig .tc .vmem S1x1x128 .f32) (harg13 : arg13.IsWhole) (arg14 : Memref sig .tc .vmem S1024x128 .f32) (harg14 : arg14.IsWhole) (arg15 : Memref sig .tc .vmem S1024x128 .f32) (harg15 : arg15.IsWhole) (arg16 : Memref sig .tc .vmem S12x1024x128 .f32) (harg16 : arg16.IsWhole) (hc0 : isFirst i) (hc1 : ¬isLast i) (x0 : Vec F S1024x640 .f32) (x1 : Vec F S1x1024x640 .f32) (x2 : Vec F S640x128 .f32) (x3 : Vec F S128 .f32) (x4 : Vec F S128x128 .f32) (x5 : Vec F S128 .f32) (x6 : Vec F S640x128 .f32) (x7 : Vec F S128 .f32) (x8 : Vec F S128x128 .f32) (x9 : Vec F S128 .f32) (xs2 : Vec F S12x1024x128 .f32) {sig' : RefSig} {κ' : Kind} {sp' : Space} (v : View sig' κ' sp' S1024x128 .f32) (f : v.ty.Contents (Elt F)) :
    v.read (Elt F) (v.writes (Elt F) f (runFirst c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9 xs2).1) = k0_pay30 x0 x2 x3 x4 x5 := by
  rw [View.read_writes_eq_canon _ _ _ (fun y => View.cover_of_tiledL _ S1024x128.size (by sl_kernel_rfl) y)]
  unfold runFirst; dsimp only; sl_unfold_words
  rw [View.canon_unit_zero hz2]
  simp only [View.readAt_eq_ld, harg2.read_unread, harg3.read_unread, harg4.read_unread, harg5.read_unread, harg6.read_unread, harg7.read_unread, harg8.read_unread, harg9.read_unread, harg10.read_unread, harg11.read_unread, harg14.read_unread, harg15.read_unread, harg16.read_unread, View.ld_unit_zero (S := S1024x640) hz2, View.ld_unit_zero (S := S640x128) hz2, View.ld_unit_zero (S := S128x128) hz2, View.ld_unit_zero (S := S128) hz1, View.ld_unit_zero (S := S1x1024x640) hz3, View.ld_unit_zero (S := S1024x128) hz2, View.readCov_unit_zero (S := S1024x128) _ hz2]

theorem first_Sum (c : Dev nD) (i : grid0.Coords) (arg2 : Memref sig .tc .vmem S1024x640 .f32) (harg2 : arg2.IsWhole) (arg3 : Memref sig .tc .vmem S1x1024x640 .f32) (harg3 : arg3.IsWhole) (arg4 : Memref sig .tc .vmem S640x128 .f32) (harg4 : arg4.IsWhole) (arg5 : Memref sig .tc .vmem S128 .f32) (harg5 : arg5.IsWhole) (arg6 : Memref sig .tc .vmem S128x128 .f32) (harg6 : arg6.IsWhole) (arg7 : Memref sig .tc .vmem S128 .f32) (harg7 : arg7.IsWhole) (arg8 : Memref sig .tc .vmem S640x128 .f32) (harg8 : arg8.IsWhole) (arg9 : Memref sig .tc .vmem S128 .f32) (harg9 : arg9.IsWhole) (arg10 : Memref sig .tc .vmem S128x128 .f32) (harg10 : arg10.IsWhole) (arg11 : Memref sig .tc .vmem S128 .f32) (harg11 : arg11.IsWhole) (arg12 : Memref sig .tc .vmem S1x1x128 .f32) (harg12 : arg12.IsWhole) (arg13 : Memref sig .tc .vmem S1x1x128 .f32) (harg13 : arg13.IsWhole) (arg14 : Memref sig .tc .vmem S1024x128 .f32) (harg14 : arg14.IsWhole) (arg15 : Memref sig .tc .vmem S1024x128 .f32) (harg15 : arg15.IsWhole) (arg16 : Memref sig .tc .vmem S12x1024x128 .f32) (harg16 : arg16.IsWhole) (hc0 : isFirst i) (hc1 : ¬isLast i) (x0 : Vec F S1024x640 .f32) (x1 : Vec F S1x1024x640 .f32) (x2 : Vec F S640x128 .f32) (x3 : Vec F S128 .f32) (x4 : Vec F S128x128 .f32) (x5 : Vec F S128 .f32) (x6 : Vec F S640x128 .f32) (x7 : Vec F S128 .f32) (x8 : Vec F S128x128 .f32) (x9 : Vec F S128 .f32) (xs2 : Vec F S12x1024x128 .f32) {sig' : RefSig} {κ' : Kind} {sp' : Space} (v : View sig' κ' sp' S1024x128 .f32) (f : v.ty.Contents (Elt F)) :
    v.read (Elt F) (v.writes (Elt F) f (runFirst c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9 xs2).2.1) = sumNext x1 x6 x7 x8 x9 k0_pay31 := by
  rw [View.read_writes_eq_canon _ _ _ (fun y => View.cover_of_tiledL _ S1024x128.size (by sl_kernel_rfl) y)]
  unfold runFirst; dsimp only; sl_unfold_words
  rw [View.canon_cons_unit_zero hz2]
  simp only [View.readAt_eq_ld, harg2.read_unread, harg3.read_unread, harg4.read_unread, harg5.read_unread, harg6.read_unread, harg7.read_unread, harg8.read_unread, harg9.read_unread, harg10.read_unread, harg11.read_unread, harg14.read_unread, harg15.read_unread, harg16.read_unread, View.ld_unit_zero (S := S1024x640) hz2, View.ld_unit_zero (S := S640x128) hz2, View.ld_unit_zero (S := S128x128) hz2, View.ld_unit_zero (S := S128) hz1, View.ld_unit_zero (S := S1x1024x640) hz3, View.ld_unit_zero (S := S1024x128) hz2, View.readCov_unit_zero (S := S1024x128) _ hz2]

theorem first_Stash (c : Dev nD) (i : grid0.Coords) (arg2 : Memref sig .tc .vmem S1024x640 .f32) (harg2 : arg2.IsWhole) (arg3 : Memref sig .tc .vmem S1x1024x640 .f32) (harg3 : arg3.IsWhole) (arg4 : Memref sig .tc .vmem S640x128 .f32) (harg4 : arg4.IsWhole) (arg5 : Memref sig .tc .vmem S128 .f32) (harg5 : arg5.IsWhole) (arg6 : Memref sig .tc .vmem S128x128 .f32) (harg6 : arg6.IsWhole) (arg7 : Memref sig .tc .vmem S128 .f32) (harg7 : arg7.IsWhole) (arg8 : Memref sig .tc .vmem S640x128 .f32) (harg8 : arg8.IsWhole) (arg9 : Memref sig .tc .vmem S128 .f32) (harg9 : arg9.IsWhole) (arg10 : Memref sig .tc .vmem S128x128 .f32) (harg10 : arg10.IsWhole) (arg11 : Memref sig .tc .vmem S128 .f32) (harg11 : arg11.IsWhole) (arg12 : Memref sig .tc .vmem S1x1x128 .f32) (harg12 : arg12.IsWhole) (arg13 : Memref sig .tc .vmem S1x1x128 .f32) (harg13 : arg13.IsWhole) (arg14 : Memref sig .tc .vmem S1024x128 .f32) (harg14 : arg14.IsWhole) (arg15 : Memref sig .tc .vmem S1024x128 .f32) (harg15 : arg15.IsWhole) (arg16 : Memref sig .tc .vmem S12x1024x128 .f32) (harg16 : arg16.IsWhole) (hc0 : isFirst i) (hc1 : ¬isLast i) (x0 : Vec F S1024x640 .f32) (x1 : Vec F S1x1024x640 .f32) (x2 : Vec F S640x128 .f32) (x3 : Vec F S128 .f32) (x4 : Vec F S128x128 .f32) (x5 : Vec F S128 .f32) (x6 : Vec F S640x128 .f32) (x7 : Vec F S128 .f32) (x8 : Vec F S128x128 .f32) (x9 : Vec F S128 .f32) (xs2 : Vec F S12x1024x128 .f32) :
    (runFirst c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9 xs2).2.2.1 = [⟨slotRect i, k0_pay33 x1 x6 x7 x8 x9⟩] := by
  unfold runFirst; dsimp only; sl_unfold_words
  simp only [View.readAt_eq_ld, harg2.read_unread, harg3.read_unread, harg4.read_unread, harg5.read_unread, harg6.read_unread, harg7.read_unread, harg8.read_unread, harg9.read_unread, harg10.read_unread, harg11.read_unread, harg14.read_unread, harg15.read_unread, harg16.read_unread, View.ld_unit_zero (S := S1024x640) hz2, View.ld_unit_zero (S := S640x128) hz2, View.ld_unit_zero (S := S128x128) hz2, View.ld_unit_zero (S := S128) hz1, View.ld_unit_zero (S := S1x1024x640) hz3, View.ld_unit_zero (S := S1024x128) hz2, View.readCov_unit_zero (S := S1024x128) _ hz2]
  rfl

/-! ## A middle patch -/

theorem mid_Sum (c : Dev nD) (i : grid0.Coords) (arg2 : Memref sig .tc .vmem S1024x640 .f32) (harg2 : arg2.IsWhole) (arg3 : Memref sig .tc .vmem S1x1024x640 .f32) (harg3 : arg3.IsWhole) (arg4 : Memref sig .tc .vmem S640x128 .f32) (harg4 : arg4.IsWhole) (arg5 : Memref sig .tc .vmem S128 .f32) (harg5 : arg5.IsWhole) (arg6 : Memref sig .tc .vmem S128x128 .f32) (harg6 : arg6.IsWhole) (arg7 : Memref sig .tc .vmem S128 .f32) (harg7 : arg7.IsWhole) (arg8 : Memref sig .tc .vmem S640x128 .f32) (harg8 : arg8.IsWhole) (arg9 : Memref sig .tc .vmem S128 .f32) (harg9 : arg9.IsWhole) (arg10 : Memref sig .tc .vmem S128x128 .f32) (harg10 : arg10.IsWhole) (arg11 : Memref sig .tc .vmem S128 .f32) (harg11 : arg11.IsWhole) (arg12 : Memref sig .tc .vmem S1x1x128 .f32) (harg12 : arg12.IsWhole) (arg13 : Memref sig .tc .vmem S1x1x128 .f32) (harg13 : arg13.IsWhole) (arg14 : Memref sig .tc .vmem S1024x128 .f32) (harg14 : arg14.IsWhole) (arg15 : Memref sig .tc .vmem S1024x128 .f32) (harg15 : arg15.IsWhole) (arg16 : Memref sig .tc .vmem S12x1024x128 .f32) (harg16 : arg16.IsWhole) (hc0 : ¬isFirst i) (hc1 : ¬isLast i) (x0 : Vec F S1024x640 .f32) (x1 : Vec F S1x1024x640 .f32) (x2 : Vec F S640x128 .f32) (x3 : Vec F S128 .f32) (x4 : Vec F S128x128 .f32) (x5 : Vec F S128 .f32) (x6 : Vec F S640x128 .f32) (x7 : Vec F S128 .f32) (x8 : Vec F S128x128 .f32) (x9 : Vec F S128 .f32) (xs0 : Vec F S1024x128 .f32) (xs1 : Vec F S1024x128 .f32) (xs2 : Vec F S12x1024x128 .f32) {sig' : RefSig} {κ' : Kind} {sp' : Space} (v : View sig' κ' sp' S1024x128 .f32) (f : v.ty.Contents (Elt F)) :
    v.read (Elt F) (v.writes (Elt F) f (runMid c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9 xs0 xs1 xs2).1) = sumNext x1 x6 x7 x8 x9 xs1 := by
  rw [View.read_writes_eq_canon _ _ _ (fun y => View.cover_of_tiledL _ S1024x128.size (by sl_kernel_rfl) y)]
  unfold runMid; dsimp only; sl_unfold_words
  rw [View.canon_unit_zero hz2]
  simp only [View.readAt_eq_ld, harg2.read_unread, harg3.read_unread, harg4.read_unread, harg5.read_unread, harg6.read_unread, harg7.read_unread, harg8.read_unread, harg9.read_unread, harg10.read_unread, harg11.read_unread, harg14.read_unread, harg15.read_unread, harg16.read_unread, View.ld_unit_zero (S := S1024x640) hz2, View.ld_unit_zero (S := S640x128) hz2, View.ld_unit_zero (S := S128x128) hz2, View.ld_unit_zero (S := S128) hz1, View.ld_unit_zero (S := S1x1024x640) hz3, View.ld_unit_zero (S := S1024x128) hz2, View.readCov_unit_zero (S := S1024x128) _ hz2]

theorem mid_Stash (c : Dev nD) (i : grid0.Coords) (arg2 : Memref sig .tc .vmem S1024x640 .f32) (harg2 : arg2.IsWhole) (arg3 : Memref sig .tc .vmem S1x1024x640 .f32) (harg3 : arg3.IsWhole) (arg4 : Memref sig .tc .vmem S640x128 .f32) (harg4 : arg4.IsWhole) (arg5 : Memref sig .tc .vmem S128 .f32) (harg5 : arg5.IsWhole) (arg6 : Memref sig .tc .vmem S128x128 .f32) (harg6 : arg6.IsWhole) (arg7 : Memref sig .tc .vmem S128 .f32) (harg7 : arg7.IsWhole) (arg8 : Memref sig .tc .vmem S640x128 .f32) (harg8 : arg8.IsWhole) (arg9 : Memref sig .tc .vmem S128 .f32) (harg9 : arg9.IsWhole) (arg10 : Memref sig .tc .vmem S128x128 .f32) (harg10 : arg10.IsWhole) (arg11 : Memref sig .tc .vmem S128 .f32) (harg11 : arg11.IsWhole) (arg12 : Memref sig .tc .vmem S1x1x128 .f32) (harg12 : arg12.IsWhole) (arg13 : Memref sig .tc .vmem S1x1x128 .f32) (harg13 : arg13.IsWhole) (arg14 : Memref sig .tc .vmem S1024x128 .f32) (harg14 : arg14.IsWhole) (arg15 : Memref sig .tc .vmem S1024x128 .f32) (harg15 : arg15.IsWhole) (arg16 : Memref sig .tc .vmem S12x1024x128 .f32) (harg16 : arg16.IsWhole) (hc0 : ¬isFirst i) (hc1 : ¬isLast i) (x0 : Vec F S1024x640 .f32) (x1 : Vec F S1x1024x640 .f32) (x2 : Vec F S640x128 .f32) (x3 : Vec F S128 .f32) (x4 : Vec F S128x128 .f32) (x5 : Vec F S128 .f32) (x6 : Vec F S640x128 .f32) (x7 : Vec F S128 .f32) (x8 : Vec F S128x128 .f32) (x9 : Vec F S128 .f32) (xs0 : Vec F S1024x128 .f32) (xs1 : Vec F S1024x128 .f32) (xs2 : Vec F S12x1024x128 .f32) :
    (runMid c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9 xs0 xs1 xs2).2.1 = [⟨slotRect i, k0_pay33 x1 x6 x7 x8 x9⟩] := by
  unfold runMid; dsimp only; sl_unfold_words
  simp only [View.readAt_eq_ld, harg2.read_unread, harg3.read_unread, harg4.read_unread, harg5.read_unread, harg6.read_unread, harg7.read_unread, harg8.read_unread, harg9.read_unread, harg10.read_unread, harg11.read_unread, harg14.read_unread, harg15.read_unread, harg16.read_unread, View.ld_unit_zero (S := S1024x640) hz2, View.ld_unit_zero (S := S640x128) hz2, View.ld_unit_zero (S := S128x128) hz2, View.ld_unit_zero (S := S128) hz1, View.ld_unit_zero (S := S1x1024x640) hz3, View.ld_unit_zero (S := S1024x128) hz2, View.readCov_unit_zero (S := S1024x128) _ hz2]
  rfl

/-! ## A tile's last patch -/

/-- The tile's `dcl` partial, broadcast over the lanes: the twelve per-patch terms accumulated from zero in patch
    order, over the mean rows `k0_pay4 s`, the global rows `g` and the twelve stash slices `s0 … s11`. -/
def dclChain (s g : Vec F S1024x128 .f32) (s0 s1 s2 s3 s4 s5 s6 s7 s8 s9 s10 s11 : Vec F S1x1024x128 .f32) : FVec F S1x1x128 .f32 :=
  k0_pay3 (k0_pay28 (k0_pay26 (k0_pay24 (k0_pay22 (k0_pay20 (k0_pay18 (k0_pay16 (k0_pay14 (k0_pay12 (k0_pay10 (k0_pay8 (k0_pay6 (FloatOps.ofBits .f32 0#32)) (k0_pay7 (k0_pay4 s) g s0)) (k0_pay9 (k0_pay4 s) g s1)) (k0_pay11 (k0_pay4 s) g s2)) (k0_pay13 (k0_pay4 s) g s3)) (k0_pay15 (k0_pay4 s) g s4)) (k0_pay17 (k0_pay4 s) g s5)) (k0_pay19 (k0_pay4 s) g s6)) (k0_pay21 (k0_pay4 s) g s7)) (k0_pay23 (k0_pay4 s) g s8)) (k0_pay25 (k0_pay4 s) g s9)) (k0_pay27 (k0_pay4 s) g s10)) (k0_pay29 (k0_pay4 s) g s11)

/-- The tile's `dil` partial, broadcast over the lanes. -/
def dilOf (s g : Vec F S1024x128 .f32) : FVec F S1x1x128 .f32 := k0_pay2 (k0_pay5 s g)

theorem last_Dil (c : Dev nD) (i : grid0.Coords) (arg2 : Memref sig .tc .vmem S1024x640 .f32) (harg2 : arg2.IsWhole) (arg3 : Memref sig .tc .vmem S1x1024x640 .f32) (harg3 : arg3.IsWhole) (arg4 : Memref sig .tc .vmem S640x128 .f32) (harg4 : arg4.IsWhole) (arg5 : Memref sig .tc .vmem S128 .f32) (harg5 : arg5.IsWhole) (arg6 : Memref sig .tc .vmem S128x128 .f32) (harg6 : arg6.IsWhole) (arg7 : Memref sig .tc .vmem S128 .f32) (harg7 : arg7.IsWhole) (arg8 : Memref sig .tc .vmem S640x128 .f32) (harg8 : arg8.IsWhole) (arg9 : Memref sig .tc .vmem S128 .f32) (harg9 : arg9.IsWhole) (arg10 : Memref sig .tc .vmem S128x128 .f32) (harg10 : arg10.IsWhole) (arg11 : Memref sig .tc .vmem S128 .f32) (harg11 : arg11.IsWhole) (arg12 : Memref sig .tc .vmem S1x1x128 .f32) (harg12 : arg12.IsWhole) (arg13 : Memref sig .tc .vmem S1x1x128 .f32) (harg13 : arg13.IsWhole) (arg14 : Memref sig .tc .vmem S1024x128 .f32) (harg14 : arg14.IsWhole) (arg15 : Memref sig .tc .vmem S1024x128 .f32) (harg15 : arg15.IsWhole) (arg16 : Memref sig .tc .vmem S12x1024x128 .f32) (harg16 : arg16.IsWhole) (hc0 : ¬isFirst i) (hc1 : isLast i) (x0 : Vec F S1024x640 .f32) (x1 : Vec F S1x1024x640 .f32) (x2 : Vec F S640x128 .f32) (x3 : Vec F S128 .f32) (x4 : Vec F S128x128 .f32) (x5 : Vec F S128 .f32) (x6 : Vec F S640x128 .f32) (x7 : Vec F S128 .f32) (x8 : Vec F S128x128 .f32) (x9 : Vec F S128 .f32) (xs0 : Vec F S1024x128 .f32) (xs1 : Vec F S1024x128 .f32) (xs2 : Vec F S12x1024x128 .f32) {sig' : RefSig} {κ' : Kind} {sp' : Space} (v : View sig' κ' sp' S1x1x128 .f32) (f : v.ty.Contents (Elt F)) :
    v.read (Elt F) (v.writes (Elt F) f (runLast c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9 xs0 xs1 xs2).1) = dilOf (sumNext x1 x6 x7 x8 x9 xs1) xs0 := by
  rw [View.read_writes_eq_canon _ _ _ (fun y => View.cover_of_tiledL _ S1x1x128.size (by sl_kernel_rfl) y)]
  unfold runLast; dsimp only; sl_unfold_words
  rw [View.canon_unit_zero hz3]
  simp only [View.readAt_eq_ld, harg2.read_unread, harg3.read_unread, harg4.read_unread, harg5.read_unread, harg6.read_unread, harg7.read_unread, harg8.read_unread, harg9.read_unread, harg10.read_unread, harg11.read_unread, harg14.read_unread, harg15.read_unread, harg16.read_unread, View.ld_unit_zero (S := S1024x640) hz2, View.ld_unit_zero (S := S640x128) hz2, View.ld_unit_zero (S := S128x128) hz2, View.ld_unit_zero (S := S128) hz1, View.ld_unit_zero (S := S1x1024x640) hz3, View.ld_unit_zero (S := S1024x128) hz2, View.readCov_unit_zero (S := S1024x128) _ hz2]
  rfl

set_option maxHeartbeats 1600000 in
theorem last_Dcl (c : Dev nD) (i : grid0.Coords) (arg2 : Memref sig .tc .vmem S1024x640 .f32) (harg2 : arg2.IsWhole) (arg3 : Memref sig .tc .vmem S1x1024x640 .f32) (harg3 : arg3.IsWhole) (arg4 : Memref sig .tc .vmem S640x128 .f32) (harg4 : arg4.IsWhole) (arg5 : Memref sig .tc .vmem S128 .f32) (harg5 : arg5.IsWhole) (arg6 : Memref sig .tc .vmem S128x128 .f32) (harg6 : arg6.IsWhole) (arg7 : Memref sig .tc .vmem S128 .f32) (harg7 : arg7.IsWhole) (arg8 : Memref sig .tc .vmem S640x128 .f32) (harg8 : arg8.IsWhole) (arg9 : Memref sig .tc .vmem S128 .f32) (harg9 : arg9.IsWhole) (arg10 : Memref sig .tc .vmem S128x128 .f32) (harg10 : arg10.IsWhole) (arg11 : Memref sig .tc .vmem S128 .f32) (harg11 : arg11.IsWhole) (arg12 : Memref sig .tc .vmem S1x1x128 .f32) (harg12 : arg12.IsWhole) (arg13 : Memref sig .tc .vmem S1x1x128 .f32) (harg13 : arg13.IsWhole) (arg14 : Memref sig .tc .vmem S1024x128 .f32) (harg14 : arg14.IsWhole) (arg15 : Memref sig .tc .vmem S1024x128 .f32) (harg15 : arg15.IsWhole) (arg16 : Memref sig .tc .vmem S12x1024x128 .f32) (harg16 : arg16.IsWhole) (hc0 : ¬isFirst i) (hc1 : isLast i) (x0 : Vec F S1024x640 .f32) (x1 : Vec F S1x1024x640 .f32) (x2 : Vec F S640x128 .f32) (x3 : Vec F S128 .f32) (x4 : Vec F S128x128 .f32) (x5 : Vec F S128 .f32) (x6 : Vec F S640x128 .f32) (x7 : Vec F S128 .f32) (x8 : Vec F S128x128 .f32) (x9 : Vec F S128 .f32) (xs0 : Vec F S1024x128 .f32) (xs1 : Vec F S1024x128 .f32) (xs2 : Vec F S12x1024x128 .f32) {sig' : RefSig} {κ' : Kind} {sp' : Space} (v : View sig' κ' sp' S1x1x128 .f32) (f : v.ty.Contents (Elt F)) :
    v.read (Elt F) (v.writes (Elt F) f (runLast c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9 xs0 xs1 xs2).2.1)
      = dclChain (sumNext x1 x6 x7 x8 x9 xs1) xs0
          (View.ld ((slotRect i).overlay xs2 (k0_pay33 x1 x6 x7 x8 x9)) (Rect.unit (s := S12x1024x128) ![0, 0, 0] S1x1024x128.size inb_S12x1024x128_S1x1024x128_0_0_0))
          (View.ld ((slotRect i).overlay xs2 (k0_pay33 x1 x6 x7 x8 x9)) (Rect.unit (s := S12x1024x128) ![1, 0, 0] S1x1024x128.size inb_S12x1024x128_S1x1024x128_1_0_0))
          (View.ld ((slotRect i).overlay xs2 (k0_pay33 x1 x6 x7 x8 x9)) (Rect.unit (s := S12x1024x128) ![2, 0, 0] S1x1024x128.size inb_S12x1024x128_S1x1024x128_2_0_0))
          (View.ld ((slotRect i).overlay xs2 (k0_pay33 x1 x6 x7 x8 x9)) (Rect.unit (s := S12x1024x128) ![3, 0, 0] S1x1024x128.size inb_S12x1024x128_S1x1024x128_3_0_0))
          (View.ld ((slotRect i).overlay xs2 (k0_pay33 x1 x6 x7 x8 x9)) (Rect.unit (s := S12x1024x128) ![4, 0, 0] S1x1024x128.size inb_S12x1024x128_S1x1024x128_4_0_0))
          (View.ld ((slotRect i).overlay xs2 (k0_pay33 x1 x6 x7 x8 x9)) (Rect.unit (s := S12x1024x128) ![5, 0, 0] S1x1024x128.size inb_S12x1024x128_S1x1024x128_5_0_0))
          (View.ld ((slotRect i).overlay xs2 (k0_pay33 x1 x6 x7 x8 x9)) (Rect.unit (s := S12x1024x128) ![6, 0, 0] S1x1024x128.size inb_S12x1024x128_S1x1024x128_6_0_0))
          (View.ld ((slotRect i).overlay xs2 (k0_pay33 x1 x6 x7 x8 x9)) (Rect.unit (s := S12x1024x128) ![7, 0, 0] S1x1024x128.size inb_S12x1024x128_S1x1024x128_7_0_0))
          (View.ld ((slotRect i).overlay xs2 (k0_pay33 x1 x6 x7 x8 x9)) (Rect.unit (s := S12x1024x128) ![8, 0, 0] S1x1024x128.size inb_S12x1024x128_S1x1024x128_8_0_0))
          (View.ld ((slotRect i).overlay xs2 (k0_pay33 x1 x6 x7 x8 x9)) (Rect.unit (s := S12x1024x128) ![9, 0, 0] S1x1024x128.size inb_S12x1024x128_S1x1024x128_9_0_0))
          (View.ld ((slotRect i).overlay xs2 (k0_pay33 x1 x6 x7 x8 x9)) (Rect.unit (s := S12x1024x128) ![10, 0, 0] S1x1024x128.size inb_S12x1024x128_S1x1024x128_10_0_0))
          (View.ld ((slotRect i).overlay xs2 (k0_pay33 x1 x6 x7 x8 x9)) (Rect.unit (s := S12x1024x128) ![11, 0, 0] S1x1024x128.size inb_S12x1024x128_S1x1024x128_11_0_0)) := by
  rw [View.read_writes_eq_canon _ _ _ (fun y => View.cover_of_tiledL _ S1x1x128.size (by sl_kernel_rfl) y)]
  unfold runLast; dsimp only; sl_unfold_words
  rw [View.canon_unit_zero hz3]
  simp only [View.readAt_eq_ld, read_writes_one, harg2.read_unread, harg3.read_unread, harg4.read_unread, harg5.read_unread, harg6.read_unread, harg7.read_unread, harg8.read_unread, harg9.read_unread, harg10.read_unread, harg11.read_unread, harg14.read_unread, harg15.read_unread, harg16.read_unread, View.ld_unit_zero (S := S1024x640) hz2, View.ld_unit_zero (S := S640x128) hz2, View.ld_unit_zero (S := S128x128) hz2, View.ld_unit_zero (S := S128) hz1, View.ld_unit_zero (S := S1x1024x640) hz3, View.ld_unit_zero (S := S1024x128) hz2, View.readCov_unit_zero (S := S1024x128) _ hz2]
  unfold dclChain sumNext
  rfl

theorem last_Sum (c : Dev nD) (i : grid0.Coords) (arg2 : Memref sig .tc .vmem S1024x640 .f32) (harg2 : arg2.IsWhole) (arg3 : Memref sig .tc .vmem S1x1024x640 .f32) (harg3 : arg3.IsWhole) (arg4 : Memref sig .tc .vmem S640x128 .f32) (harg4 : arg4.IsWhole) (arg5 : Memref sig .tc .vmem S128 .f32) (harg5 : arg5.IsWhole) (arg6 : Memref sig .tc .vmem S128x128 .f32) (harg6 : arg6.IsWhole) (arg7 : Memref sig .tc .vmem S128 .f32) (harg7 : arg7.IsWhole) (arg8 : Memref sig .tc .vmem S640x128 .f32) (harg8 : arg8.IsWhole) (arg9 : Memref sig .tc .vmem S128 .f32) (harg9 : arg9.IsWhole) (arg10 : Memref sig .tc .vmem S128x128 .f32) (harg10 : arg10.IsWhole) (arg11 : Memref sig .tc .vmem S128 .f32) (harg11 : arg11.IsWhole) (arg12 : Memref sig .tc .vmem S1x1x128 .f32) (harg12 : arg12.IsWhole) (arg13 : Memref sig .tc .vmem S1x1x128 .f32) (harg13 : arg13.IsWhole) (arg14 : Memref sig .tc .vmem S1024x128 .f32) (harg14 : arg14.IsWhole) (arg15 : Memref sig .tc .vmem S1024x128 .f32) (harg15 : arg15.IsWhole) (arg16 : Memref sig .tc .vmem S12x1024x128 .f32) (harg16 : arg16.IsWhole) (hc0 : ¬isFirst i) (hc1 : isLast i) (x0 : Vec F S1024x640 .f32) (x1 : Vec F S1x1024x640 .f32) (x2 : Vec F S640x128 .f32) (x3 : Vec F S128 .f32) (x4 : Vec F S128x128 .f32) (x5 : Vec F S128 .f32) (x6 : Vec F S640x128 .f32) (x7 : Vec F S128 .f32) (x8 : Vec F S128x128 .f32) (x9 : Vec F S128 .f32) (xs0 : Vec F S1024x128 .f32) (xs1 : Vec F S1024x128 .f32) (xs2 : Vec F S12x1024x128 .f32) {sig' : RefSig} {κ' : Kind} {sp' : Space} (v : View sig' κ' sp' S1024x128 .f32) (f : v.ty.Contents (Elt F)) :
    v.read (Elt F) (v.writes (Elt F) f (runLast c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9 xs0 xs1 xs2).2.2.1) = sumNext x1 x6 x7 x8 x9 xs1 := by
  rw [View.read_writes_eq_canon _ _ _ (fun y => View.cover_of_tiledL _ S1024x128.size (by sl_kernel_rfl) y)]
  unfold runLast; dsimp only; sl_unfold_words
  rw [View.canon_unit_zero hz2]
  simp only [View.readAt_eq_ld, harg2.read_unread, harg3.read_unread, harg4.read_unread, harg5.read_unread, harg6.read_unread, harg7.read_unread, harg8.read_unread, harg9.read_unread, harg10.read_unread, harg11.read_unread, harg14.read_unread, harg15.read_unread, harg16.read_unread, View.ld_unit_zero (S := S1024x640) hz2, View.ld_unit_zero (S := S640x128) hz2, View.ld_unit_zero (S := S128x128) hz2, View.ld_unit_zero (S := S128) hz1, View.ld_unit_zero (S := S1x1024x640) hz3, View.ld_unit_zero (S := S1024x128) hz2, View.readCov_unit_zero (S := S1024x128) _ hz2]

theorem last_Stash (c : Dev nD) (i : grid0.Coords) (arg2 : Memref sig .tc .vmem S1024x640 .f32) (harg2 : arg2.IsWhole) (arg3 : Memref sig .tc .vmem S1x1024x640 .f32) (harg3 : arg3.IsWhole) (arg4 : Memref sig .tc .vmem S640x128 .f32) (harg4 : arg4.IsWhole) (arg5 : Memref sig .tc .vmem S128 .f32) (harg5 : arg5.IsWhole) (arg6 : Memref sig .tc .vmem S128x128 .f32) (harg6 : arg6.IsWhole) (arg7 : Memref sig .tc .vmem S128 .f32) (harg7 : arg7.IsWhole) (arg8 : Memref sig .tc .vmem S640x128 .f32) (harg8 : arg8.IsWhole) (arg9 : Memref sig .tc .vmem S128 .f32) (harg9 : arg9.IsWhole) (arg10 : Memref sig .tc .vmem S128x128 .f32) (harg10 : arg10.IsWhole) (arg11 : Memref sig .tc .vmem S128 .f32) (harg11 : arg11.IsWhole) (arg12 : Memref sig .tc .vmem S1x1x128 .f32) (harg12 : arg12.IsWhole) (arg13 : Memref sig .tc .vmem S1x1x128 .f32) (harg13 : arg13.IsWhole) (arg14 : Memref sig .tc .vmem S1024x128 .f32) (harg14 : arg14.IsWhole) (arg15 : Memref sig .tc .vmem S1024x128 .f32) (harg15 : arg15.IsWhole) (arg16 : Memref sig .tc .vmem S12x1024x128 .f32) (harg16 : arg16.IsWhole) (hc0 : ¬isFirst i) (hc1 : isLast i) (x0 : Vec F S1024x640 .f32) (x1 : Vec F S1x1024x640 .f32) (x2 : Vec F S640x128 .f32) (x3 : Vec F S128 .f32) (x4 : Vec F S128x128 .f32) (x5 : Vec F S128 .f32) (x6 : Vec F S640x128 .f32) (x7 : Vec F S128 .f32) (x8 : Vec F S128x128 .f32) (x9 : Vec F S128 .f32) (xs0 : Vec F S1024x128 .f32) (xs1 : Vec F S1024x128 .f32) (xs2 : Vec F S12x1024x128 .f32) :
    (runLast c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9 xs0 xs1 xs2).2.2.2.1 = [⟨slotRect i, k0_pay33 x1 x6 x7 x8 x9⟩] := by
  unfold runLast; dsimp only; sl_unfold_words
  simp only [View.readAt_eq_ld, harg2.read_unread, harg3.read_unread, harg4.read_unread, harg5.read_unread, harg6.read_unread, harg7.read_unread, harg8.read_unread, harg9.read_unread, harg10.read_unread, harg11.read_unread, harg14.read_unread, harg15.read_unread, harg16.read_unread, View.ld_unit_zero (S := S1024x640) hz2, View.ld_unit_zero (S := S640x128) hz2, View.ld_unit_zero (S := S128x128) hz2, View.ld_unit_zero (S := S128) hz1, View.ld_unit_zero (S := S1x1024x640) hz3, View.ld_unit_zero (S := S1024x128) hz2, View.readCov_unit_zero (S := S1024x128) _ hz2]
  rfl

end Cert.Kernel.Hand

end
-- ==== Proof.WordData.lean ====
/-
  What the kernel holds between grid points, and the pipeline's proof data.

  After point `n` (patch `n mod 12` of tile `n / 12`): the first scratch buffer holds the embedded global rows of the
  tile (computed at the tile's first point, `n − n mod 12`); the second holds the sum of the tile's embedded patch rows
  so far, folded from zero in patch order; the third — the stash — holds, in slices `0 … n mod 12`, the tile's embedded
  patch tiles so far (its other slices hold whatever they held: nothing reads them before they are written). At a
  tile's last point the two output blocks receive the tile's two partial losses, functions of exactly these.
-/
import proofs.«133262_j27453430956191_2_alg».proof.Proof.WordPieces
import Idealize.ShloMosaic.Lib.ValueIdx

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.ValueIdx (ix3)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## Arithmetic of points -/

theorem N48 : cfg0.N = 48 := N_0

theorem tile_lt {n l : ℕ} (h : n < cfg0.N) (hl : l ≤ n % 12) : n - n % 12 + l < cfg0.N := by
  have := N48; omega

theorem slice_lt (t : Fin cfg0.N) (l : Fin 12) : t.val - t.val % 12 + l.val < cfg0.N := by
  have := N48; have := t.isLt; have := l.isLt; omega

/-- The stash slot written at point `t` is the patch number `t mod 12`. -/
theorem slot_eq : ∀ t : Fin cfg0.N, k0_off1 (grid0.coords t) = ![t.val % 12, 0, 0] :=
  (by decide +kernel : ∀ t : Fin grid0.N, k0_off1 (grid0.coords t) = ![t.val % 12, 0, 0])

/-! ## The scratch buffers' contents, point by point -/

/-- The embedded global rows of the tile, from the blocks at point `t`. -/
def gTile (c : Dev nD) (t : Fin cfg0.N) : Vec F S1024x128 .f32 :=
  k0_pay30 (iblk m c 0 t) (iblk m c 2 t) (iblk m c 3 t) (iblk m c 4 t) (iblk m c 5 t)

/-- The embedded patch tile of point `t`, as a one-slice block. -/
def pTile (c : Dev nD) (t : Fin cfg0.N) : Vec F S1x1024x128 .f32 :=
  k0_pay33 (iblk m c 1 t) (iblk m c 6 t) (iblk m c 7 t) (iblk m c 8 t) (iblk m c 9 t)

/-- The running sum after point `t`, from the sum before it. -/
def sumStep (c : Dev nD) (t : Fin cfg0.N) (prev : Vec F S1024x128 .f32) : Vec F S1024x128 .f32 :=
  sumNext (iblk m c 1 t) (iblk m c 6 t) (iblk m c 7 t) (iblk m c 8 t) (iblk m c 9 t) prev

/-- The running sum after point `n`: restarted from zero at each tile's first point. -/
def sumAt (c : Dev nD) : (n : ℕ) → n < cfg0.N → Vec F S1024x128 .f32
  | 0, h => sumStep m c ⟨0, h⟩ k0_pay31
  | n + 1, h =>
    if (n + 1) % 12 = 0 then sumStep m c ⟨n + 1, h⟩ k0_pay31
    else sumStep m c ⟨n + 1, h⟩ (sumAt c n (Nat.lt_of_succ_lt h))

theorem sumAt_first (c : Dev nD) (t : Fin cfg0.N) (h0 : t.val % 12 = 0) :
    sumAt m c t.val t.isLt = sumStep m c t k0_pay31 := by
  obtain ⟨n, hn⟩ := t
  cases n with
  | zero => rfl
  | succ n => exact (if_pos h0)

theorem sumAt_next (c : Dev nD) (t : Fin cfg0.N) (h0 : ¬t.val % 12 = 0) (hp : t.val - 1 < cfg0.N) :
    sumAt m c t.val t.isLt = sumStep m c t (sumAt m c (t.val - 1) hp) := by
  obtain ⟨n, hn⟩ := t
  cases n with
  | zero => exact absurd (Nat.zero_mod _) h0
  | succ n => exact (if_neg h0)

/-- The embedded global rows held after point `n`: those of the tile's first point. -/
def gAt (c : Dev nD) (n : ℕ) (h : n < cfg0.N) : Vec F S1024x128 .f32 :=
  gTile m c ⟨n - n % 12, lt_of_le_of_lt (Nat.sub_le _ _) h⟩

theorem gAt_first (c : Dev nD) (t : Fin cfg0.N) (h0 : t.val % 12 = 0) : gAt m c t.val t.isLt = gTile m c t := by
  unfold gAt; congr 1; apply Fin.ext; show t.val - t.val % 12 = t.val; omega

theorem gAt_next (c : Dev nD) (t : Fin cfg0.N) (h0 : ¬t.val % 12 = 0) (hp : t.val - 1 < cfg0.N) :
    gAt m c t.val t.isLt = gAt m c (t.val - 1) hp := by
  unfold gAt; congr 1; apply Fin.ext; show t.val - t.val % 12 = t.val - 1 - (t.val - 1) % 12; omega

/-- The stash after point `n`: slices `0 … n mod 12` hold the tile's embedded patch tiles so far. -/
def StashOK (c : Dev nD) (n : ℕ) (h : n < cfg0.N) (S : Vec F S12x1024x128 .f32) : Prop :=
  ∀ (l : Fin 12) (hl : l.val ≤ n % 12) (r : Fin 1024) (d : Fin 128),
    S (ix3 l r d) = pTile m c ⟨n - n % 12 + l.val, tile_lt h hl⟩ (ix3 (0 : Fin 1) r d)

/-- The twelve patch tiles of the tile that point `t` belongs to. -/
def slicesAt (c : Dev nD) (t : Fin cfg0.N) : Fin 12 → Vec F S1x1024x128 .f32 :=
  fun l => pTile m c ⟨t.val - t.val % 12 + l.val, slice_lt t l⟩

/-- What the two output blocks receive at a tile's last point. -/
def dilAt (c : Dev nD) (t : Fin cfg0.N) : FVec F S1x1x128 .f32 := dilOf (sumAt m c t.val t.isLt) (gAt m c t.val t.isLt)
def dclAt (c : Dev nD) (t : Fin cfg0.N) : FVec F S1x1x128 .f32 :=
  dclChain (sumAt m c t.val t.isLt) (gAt m c t.val t.isLt)
    (slicesAt m c t 0) (slicesAt m c t 1) (slicesAt m c t 2) (slicesAt m c t 3) (slicesAt m c t 4) (slicesAt m c t 5) (slicesAt m c t 6) (slicesAt m c t 7) (slicesAt m c t 8) (slicesAt m c t 9) (slicesAt m c t 10) (slicesAt m c t 11)

/-! ## The invariant between points -/

/-- Before the first point: what the launch hands over. After point `n`: the three scratch buffers as above. -/
def Phi (c : Dev nD) : (n : ℕ) → n ≤ cfg0.N → sProp 𝕄
  | 0, _ => Pipeline.ΦA spec0 c
  | n + 1, hn => iprop(iprop(owns (c : Thread nD τ) scG fullShare (gAt m c n hn) ∗ owns (c : Thread nD τ) scSum fullShare (sumAt m c n hn)
      ∗ (∃ S, ⌜StashOK m c n hn S⌝ ∗ owns (c : Thread nD τ) scStash fullShare S)) ∗ (∃ r, prngReg c r))

theorem Phi_zero (c : Dev nD) (n : ℕ) (h : n ≤ cfg0.N) (hz : n = 0) : Phi m c n h = Pipeline.ΦA spec0 c := by
  subst hz; rfl

theorem Phi_succ (c : Dev nD) (n : ℕ) (hn : n < cfg0.N) :
    Phi m c (n + 1) hn = iprop(iprop(owns (c : Thread nD τ) scG fullShare (gAt m c n hn) ∗ owns (c : Thread nD τ) scSum fullShare (sumAt m c n hn)
      ∗ (∃ S, ⌜StashOK m c n hn S⌝ ∗ owns (c : Thread nD τ) scStash fullShare S)) ∗ (∃ r, prngReg c r)) := rfl

theorem Phi_pos (c : Dev nD) (n : ℕ) (h : n ≤ cfg0.N) (hz : n ≠ 0) :
    Phi m c n h = iprop(iprop(owns (c : Thread nD τ) scG fullShare (gAt m c (n - 1) (by omega)) ∗ owns (c : Thread nD τ) scSum fullShare (sumAt m c (n - 1) (by omega))
      ∗ (∃ S, ⌜StashOK m c (n - 1) (by omega) S⌝ ∗ owns (c : Thread nD τ) scStash fullShare S)) ∗ (∃ r, prngReg c r)) := by
  cases n with
  | zero => exact absurd rfl hz
  | succ n => rfl

/-- At any point the invariant yields the three scratch buffers at SOME contents (what a tile's first point needs). -/
theorem Phi_forget (c : Dev nD) (n : ℕ) (h : n ≤ cfg0.N) :
    Phi m c n h ⊢ iprop(iprop((∃ d, owns (c : Thread nD τ) scG fullShare d) ∗ (∃ d, owns (c : Thread nD τ) scSum fullShare d) ∗ (∃ d, owns (c : Thread nD τ) scStash fullShare d)) ∗ (∃ r, prngReg c r)) := by
  cases n with
  | zero => rw [Phi_zero m c 0 h rfl, rest_eq]
  | succ n =>
    rw [Phi_succ]
    iintro ⟨⟨HG, HS, ⟨%S, -, HT⟩⟩, Hg⟩
    isplitl [HG HS HT]
    · isplitl [HG]; · iexists _; iexact HG
      isplitl [HS]; · iexists _; iexact HS
      iexists _; iexact HT
    iexact Hg

/-! ## The proof data -/

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => dilAt m c t
    | ⟨11, _⟩ => dclAt m c t
  Φ t := Phi m c t.val (Nat.le_of_lt_succ t.isLt)
  q _ := fullShare
  owed _ := 0

theorem A_eq (c : Dev nD) (w : Fin cfg0.W) : (dats m 0 c).A w = V m c (Pipeline.arrRef spec0 w) := by
  dsimp only [dats]

theorem Phi_castSucc (c : Dev nD) (t : Fin cfg0.N) :
    (dats m 0 c).Φ t.castSucc = Phi m c t.val (Nat.le_of_lt t.isLt) := by
  dsimp only [dats]; simp only [Fin.coe_castSucc]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = iblk m c 6 t := by dsimp only [dats]
theorem after7 (c : Dev nD) (t : Fin cfg0.N) : (dats m 0 c).after 7 t = iblk m c 7 t := by dsimp only [dats]
theorem after8 (c : Dev nD) (t : Fin cfg0.N) : (dats m 0 c).after 8 t = iblk m c 8 t := by dsimp only [dats]
theorem after9 (c : Dev nD) (t : Fin cfg0.N) : (dats m 0 c).after 9 t = iblk m c 9 t := by dsimp only [dats]
theorem after10 (c : Dev nD) (t : Fin cfg0.N) : (dats m 0 c).after 10 t = dilAt m c t := by dsimp only [dats]
theorem after11 (c : Dev nD) (t : Fin cfg0.N) : (dats m 0 c).after 11 t = dclAt m c t := by dsimp only [dats]

theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d
theorem before3 (c : Dev nD) (t : Fin cfg0.N) (d) : (dats m 0 c).before 3 t d = iblk m c 3 t :=
  before0_3_of m (dats m 0 c) (A_eq m c 3) (after3 m c) t d
theorem before4 (c : Dev nD) (t : Fin cfg0.N) (d) : (dats m 0 c).before 4 t d = iblk m c 4 t :=
  before0_4_of m (dats m 0 c) (A_eq m c 4) (after4 m c) t d
theorem before5 (c : Dev nD) (t : Fin cfg0.N) (d) : (dats m 0 c).before 5 t d = iblk m c 5 t :=
  before0_5_of m (dats m 0 c) (A_eq m c 5) (after5 m c) t d
theorem before6 (c : Dev nD) (t : Fin cfg0.N) (d) : (dats m 0 c).before 6 t d = iblk m c 6 t :=
  before0_6_of m (dats m 0 c) (A_eq m c 6) (after6 m c) t d
theorem before7 (c : Dev nD) (t : Fin cfg0.N) (d) : (dats m 0 c).before 7 t d = iblk m c 7 t :=
  before0_7_of m (dats m 0 c) (A_eq m c 7) (after7 m c) t d
theorem before8 (c : Dev nD) (t : Fin cfg0.N) (d) : (dats m 0 c).before 8 t d = iblk m c 8 t :=
  before0_8_of m (dats m 0 c) (A_eq m c 8) (after8 m c) t d
theorem before9 (c : Dev nD) (t : Fin cfg0.N) (d) : (dats m 0 c).before 9 t d = iblk m c 9 t :=
  before0_9_of m (dats m 0 c) (A_eq m c 9) (after9 m c) t d

/-- An output block's buffer, written back at a tile's last point and idle elsewhere, is found at a point as the
    pipeline last left it blank: nothing the body stored survives a write-back, and off the last point it stores nothing. -/
theorem before_out_id (c : Dev nD) (w : Fin cfg0.W) (hw : (cfg0.win w).isOut = true)
    (hflush : ∀ t : Fin cfg0.N, (cfg0.win w).flush t = true ↔ t.val % 12 = 11)
    (hidle : ∀ t : Fin cfg0.N, cfg0.idle w (grid0.coords t) = true ↔ ¬t.val % 12 = 11) :
    ∀ (n : ℕ) (hn : n < cfg0.N) (d), (dats m 0 c).before w ⟨n, hn⟩ d = d := by
  intro n
  induction n with
  | zero => intro hn d; exact (dats m 0 c).before_out_reset w hw ⟨0, hn⟩ (.inl rfl) d
  | succ n ih =>
    intro hn d
    have hn' : n < cfg0.N := Nat.lt_of_succ_lt hn
    have e : (⟨n + 1 - 1, Nat.lt_of_le_of_lt (Nat.sub_le _ _) hn⟩ : Fin cfg0.N) = ⟨n, hn'⟩ := Fin.ext (by show n + 1 - 1 = n; omega)
    by_cases h11 : n % 12 = 11
    · exact (dats m 0 c).before_out_reset w hw ⟨n + 1, hn⟩
        (.inr ⟨Nat.succ_ne_zero n, by rw [e]; exact (hflush ⟨n, hn'⟩).mpr h11⟩) d
    · have hfl : (cfg0.win w).flush ⟨n, hn'⟩ = false := by
        cases hh : (cfg0.win w).flush ⟨n, hn'⟩
        · rfl
        · exact absurd ((hflush ⟨n, hn'⟩).mp hh) h11
      rw [(dats m 0 c).before_of_pos w ⟨n + 1, hn⟩ (Nat.succ_ne_zero n) ((cfg0.win w).fetch_out hw _)]
      dsimp only
      rw [e, hfl, if_neg Bool.false_ne_true]
      unfold Dat.left
      rw [show cfg0.grid.coords ⟨n, hn'⟩ = grid0.coords ⟨n, hn'⟩ from rfl, (hidle ⟨n, hn'⟩).mpr h11]
      exact ih hn' d

theorem before10 (c : Dev nD) (t : Fin cfg0.N) (d) : (dats m 0 c).before 10 t d = d :=
  before_out_id m c 10 rfl flush0_10 idle10_iff t.val t.isLt d
theorem before11 (c : Dev nD) (t : Fin cfg0.N) (d) : (dats m 0 c).before 11 t d = d :=
  before_out_id m c 11 rfl flush0_11 idle11_iff t.val t.isLt d

end Cert.Kernel.Hand

end
-- ==== Proof.WordBodyDefs.lean ====
/-
  The body obligation's two sides at a grid point, written out.

  Before the body: the invariant, the (empty) debts, every input's current buffer at its block, the two output
  blocks' buffers at anything. After it: the invariant at the next point, every input's buffer as it was, and the two
  output blocks — off a tile's last point as they were found (the body stores nothing there), at a tile's last point
  at the tile's two partial losses.
-/
import proofs.«133262_j27453430956191_2_alg».proof.Proof.WordData

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d))
    ∗ (∃ d, owns (c : Thread nD τ) (ms7 t) fullShare ((dats m 0 c).before 7 t d))
    ∗ (∃ d, owns (c : Thread nD τ) (ms8 t) fullShare ((dats m 0 c).before 8 t d))
    ∗ (∃ d, owns (c : Thread nD τ) (ms9 t) fullShare ((dats m 0 c).before 9 t d))
    ∗ (∃ d, owns (c : Thread nD τ) (ms10 t) fullShare ((dats m 0 c).before 10 t d))
    ∗ (∃ d, owns (c : Thread nD τ) (ms11 t) fullShare ((dats m 0 c).before 11 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t
    ∗ (dats m 0 c).leavesExact 11 t)

theorem bodyPre_eq (c : Dev nD) (t : Fin cfg0.N) :
    bodyPre m c t = iprop(Phi m c t.val (Nat.le_of_lt t.isLt) ∗ (dats m 0 c).owesAt () t.castSucc
    ∗ (∃ d : (cfg0.win 0).block.Idx → Elt F (cfg0.win 0).elt, owns (c : Thread nD τ) (ms0 t) fullShare (iblk m c 0 t))
    ∗ (∃ d : (cfg0.win 1).block.Idx → Elt F (cfg0.win 1).elt, owns (c : Thread nD τ) (ms1 t) fullShare (iblk m c 1 t))
    ∗ (∃ d : (cfg0.win 2).block.Idx → Elt F (cfg0.win 2).elt, owns (c : Thread nD τ) (ms2 t) fullShare (iblk m c 2 t))
    ∗ (∃ d : (cfg0.win 3).block.Idx → Elt F (cfg0.win 3).elt, owns (c : Thread nD τ) (ms3 t) fullShare (iblk m c 3 t))
    ∗ (∃ d : (cfg0.win 4).block.Idx → Elt F (cfg0.win 4).elt, owns (c : Thread nD τ) (ms4 t) fullShare (iblk m c 4 t))
    ∗ (∃ d : (cfg0.win 5).block.Idx → Elt F (cfg0.win 5).elt, owns (c : Thread nD τ) (ms5 t) fullShare (iblk m c 5 t))
    ∗ (∃ d : (cfg0.win 6).block.Idx → Elt F (cfg0.win 6).elt, owns (c : Thread nD τ) (ms6 t) fullShare (iblk m c 6 t))
    ∗ (∃ d : (cfg0.win 7).block.Idx → Elt F (cfg0.win 7).elt, owns (c : Thread nD τ) (ms7 t) fullShare (iblk m c 7 t))
    ∗ (∃ d : (cfg0.win 8).block.Idx → Elt F (cfg0.win 8).elt, owns (c : Thread nD τ) (ms8 t) fullShare (iblk m c 8 t))
    ∗ (∃ d : (cfg0.win 9).block.Idx → Elt F (cfg0.win 9).elt, owns (c : Thread nD τ) (ms9 t) fullShare (iblk m c 9 t))
    ∗ (∃ d, owns (c : Thread nD τ) (ms10 t) fullShare d)
    ∗ (∃ d, owns (c : Thread nD τ) (ms11 t) fullShare d)) := by
  unfold bodyPre
  simp only [before0, before1, before2, before3, before4, before5, before6, before7, before8, before9, before10, before11]
  rw [Phi_castSucc]
  try rfl

theorem flush10_false (t : Fin cfg0.N) (h1 : ¬t.val % 12 = 11) : (cfg0.win 10).flush t = false := by
  cases hh : (cfg0.win 10).flush t
  · rfl
  · exact absurd ((flush0_10 t).mp hh) h1
theorem flush11_false (t : Fin cfg0.N) (h1 : ¬t.val % 12 = 11) : (cfg0.win 11).flush t = false := by
  cases hh : (cfg0.win 11).flush t
  · rfl
  · exact absurd ((flush0_11 t).mp hh) h1
theorem idle10_false (t : Fin cfg0.N) (h1 : t.val % 12 = 11) : cfg0.idle 10 (cfg0.grid.coords t) = false := by
  cases hh : cfg0.idle 10 (cfg0.grid.coords t)
  · rfl
  · exact absurd h1 ((idle10_iff t).mp hh)
theorem idle11_false (t : Fin cfg0.N) (h1 : t.val % 12 = 11) : cfg0.idle 11 (cfg0.grid.coords t) = false := by
  cases hh : cfg0.idle 11 (cfg0.grid.coords t)
  · rfl
  · exact absurd h1 ((idle11_iff t).mp hh)

/-- Off a tile's last point. -/
theorem bodyPost_idle (c : Dev nD) (t : Fin cfg0.N) (h1 : ¬t.val % 12 = 11) :
    bodyPost m c t = iprop(Phi m c (t.val + 1) t.isLt ∗ (dats m 0 c).owesAt () t.castSucc
    ∗ owns (c : Thread nD τ) (ms0 t) fullShare (iblk m c 0 t)
    ∗ owns (c : Thread nD τ) (ms1 t) fullShare (iblk m c 1 t)
    ∗ owns (c : Thread nD τ) (ms2 t) fullShare (iblk m c 2 t)
    ∗ owns (c : Thread nD τ) (ms3 t) fullShare (iblk m c 3 t)
    ∗ owns (c : Thread nD τ) (ms4 t) fullShare (iblk m c 4 t)
    ∗ owns (c : Thread nD τ) (ms5 t) fullShare (iblk m c 5 t)
    ∗ owns (c : Thread nD τ) (ms6 t) fullShare (iblk m c 6 t)
    ∗ owns (c : Thread nD τ) (ms7 t) fullShare (iblk m c 7 t)
    ∗ owns (c : Thread nD τ) (ms8 t) fullShare (iblk m c 8 t)
    ∗ owns (c : Thread nD τ) (ms9 t) fullShare (iblk m c 9 t)
    ∗ (∃ d, owns (c : Thread nD τ) (ms10 t) fullShare d)
    ∗ (∃ d, owns (c : Thread nD τ) (ms11 t) fullShare d)) := by
  unfold bodyPost
  rw [show (dats m 0 c).owesAt () t.succ = (dats m 0 c).owesAt () t.castSucc from rfl]
  rw [show (dats m 0 c).Φ t.succ = Phi m c (t.val + 1) t.isLt from rfl]
  rw [show (dats m 0 c).leavesExact 0 t = owns (c : Thread nD τ) (ms0 t) fullShare ((dats m 0 c).after 0 t) from by
    unfold Dat.leavesExact; rw [live0 t], after0]
  rw [show (dats m 0 c).leavesExact 1 t = owns (c : Thread nD τ) (ms1 t) fullShare ((dats m 0 c).after 1 t) from by
    unfold Dat.leavesExact; rw [live1 t], after1]
  rw [show (dats m 0 c).leavesExact 2 t = owns (c : Thread nD τ) (ms2 t) fullShare ((dats m 0 c).after 2 t) from by
    unfold Dat.leavesExact; rw [live2 t], after2]
  rw [show (dats m 0 c).leavesExact 3 t = owns (c : Thread nD τ) (ms3 t) fullShare ((dats m 0 c).after 3 t) from by
    unfold Dat.leavesExact; rw [live3 t], after3]
  rw [show (dats m 0 c).leavesExact 4 t = owns (c : Thread nD τ) (ms4 t) fullShare ((dats m 0 c).after 4 t) from by
    unfold Dat.leavesExact; rw [live4 t], after4]
  rw [show (dats m 0 c).leavesExact 5 t = owns (c : Thread nD τ) (ms5 t) fullShare ((dats m 0 c).after 5 t) from by
    unfold Dat.leavesExact; rw [live5 t], after5]
  rw [show (dats m 0 c).leavesExact 6 t = owns (c : Thread nD τ) (ms6 t) fullShare ((dats m 0 c).after 6 t) from by
    unfold Dat.leavesExact; rw [live6 t], after6]
  rw [show (dats m 0 c).leavesExact 7 t = owns (c : Thread nD τ) (ms7 t) fullShare ((dats m 0 c).after 7 t) from by
    unfold Dat.leavesExact; rw [live7 t], after7]
  rw [show (dats m 0 c).leavesExact 8 t = owns (c : Thread nD τ) (ms8 t) fullShare ((dats m 0 c).after 8 t) from by
    unfold Dat.leavesExact; rw [live8 t], after8]
  rw [show (dats m 0 c).leavesExact 9 t = owns (c : Thread nD τ) (ms9 t) fullShare ((dats m 0 c).after 9 t) from by
    unfold Dat.leavesExact; rw [live9 t], after9]
  rw [(dats m 0 c).leavesExact_idle 10 t ((idle10_iff t).mpr h1) (flush10_false t h1),
    (dats m 0 c).leavesExact_idle 11 t ((idle11_iff t).mpr h1) (flush11_false t h1)]
  simp only [before10, before11]
  try rfl

/-- At a tile's last point. -/
theorem bodyPost_live (c : Dev nD) (t : Fin cfg0.N) (h1 : t.val % 12 = 11) :
    bodyPost m c t = iprop(Phi m c (t.val + 1) t.isLt ∗ (dats m 0 c).owesAt () t.castSucc
    ∗ owns (c : Thread nD τ) (ms0 t) fullShare (iblk m c 0 t)
    ∗ owns (c : Thread nD τ) (ms1 t) fullShare (iblk m c 1 t)
    ∗ owns (c : Thread nD τ) (ms2 t) fullShare (iblk m c 2 t)
    ∗ owns (c : Thread nD τ) (ms3 t) fullShare (iblk m c 3 t)
    ∗ owns (c : Thread nD τ) (ms4 t) fullShare (iblk m c 4 t)
    ∗ owns (c : Thread nD τ) (ms5 t) fullShare (iblk m c 5 t)
    ∗ owns (c : Thread nD τ) (ms6 t) fullShare (iblk m c 6 t)
    ∗ owns (c : Thread nD τ) (ms7 t) fullShare (iblk m c 7 t)
    ∗ owns (c : Thread nD τ) (ms8 t) fullShare (iblk m c 8 t)
    ∗ owns (c : Thread nD τ) (ms9 t) fullShare (iblk m c 9 t)
    ∗ owns (c : Thread nD τ) (ms10 t) fullShare (dilAt m c t)
    ∗ owns (c : Thread nD τ) (ms11 t) fullShare (dclAt m c t)) := by
  unfold bodyPost
  rw [show (dats m 0 c).owesAt () t.succ = (dats m 0 c).owesAt () t.castSucc from rfl]
  rw [show (dats m 0 c).Φ t.succ = Phi m c (t.val + 1) t.isLt from rfl]
  rw [show (dats m 0 c).leavesExact 0 t = owns (c : Thread nD τ) (ms0 t) fullShare ((dats m 0 c).after 0 t) from by
    unfold Dat.leavesExact; rw [live0 t], after0]
  rw [show (dats m 0 c).leavesExact 1 t = owns (c : Thread nD τ) (ms1 t) fullShare ((dats m 0 c).after 1 t) from by
    unfold Dat.leavesExact; rw [live1 t], after1]
  rw [show (dats m 0 c).leavesExact 2 t = owns (c : Thread nD τ) (ms2 t) fullShare ((dats m 0 c).after 2 t) from by
    unfold Dat.leavesExact; rw [live2 t], after2]
  rw [show (dats m 0 c).leavesExact 3 t = owns (c : Thread nD τ) (ms3 t) fullShare ((dats m 0 c).after 3 t) from by
    unfold Dat.leavesExact; rw [live3 t], after3]
  rw [show (dats m 0 c).leavesExact 4 t = owns (c : Thread nD τ) (ms4 t) fullShare ((dats m 0 c).after 4 t) from by
    unfold Dat.leavesExact; rw [live4 t], after4]
  rw [show (dats m 0 c).leavesExact 5 t = owns (c : Thread nD τ) (ms5 t) fullShare ((dats m 0 c).after 5 t) from by
    unfold Dat.leavesExact; rw [live5 t], after5]
  rw [show (dats m 0 c).leavesExact 6 t = owns (c : Thread nD τ) (ms6 t) fullShare ((dats m 0 c).after 6 t) from by
    unfold Dat.leavesExact; rw [live6 t], after6]
  rw [show (dats m 0 c).leavesExact 7 t = owns (c : Thread nD τ) (ms7 t) fullShare ((dats m 0 c).after 7 t) from by
    unfold Dat.leavesExact; rw [live7 t], after7]
  rw [show (dats m 0 c).leavesExact 8 t = owns (c : Thread nD τ) (ms8 t) fullShare ((dats m 0 c).after 8 t) from by
    unfold Dat.leavesExact; rw [live8 t], after8]
  rw [show (dats m 0 c).leavesExact 9 t = owns (c : Thread nD τ) (ms9 t) fullShare ((dats m 0 c).after 9 t) from by
    unfold Dat.leavesExact; rw [live9 t], after9]
  rw [show (dats m 0 c).leavesExact 10 t = owns (c : Thread nD τ) (ms10 t) fullShare ((dats m 0 c).after 10 t) from by
    unfold Dat.leavesExact; rw [idle10_false t h1], after10]
  rw [show (dats m 0 c).leavesExact 11 t = owns (c : Thread nD τ) (ms11 t) fullShare ((dats m 0 c).after 11 t) from by
    unfold Dat.leavesExact; rw [idle11_false t h1], after11]
  try rfl

end Cert.Kernel.Hand

end
-- ==== Proof.WordStash.lean ====
/-
  The stash, one slice at a time.

  Point `t` overwrites slice `t mod 12` of the stash with its embedded patch tile and leaves the other slices alone.
  Hence the invariant: after point `t`, slices `0 … t mod 12` hold the patch tiles of the tile's points so far — at
  a tile's first point that is the one slice just written; later, the slice just written and, untouched, the slices
  the invariant already described.
-/
import proofs.«133262_j27453430956191_2_alg».proof.Proof.WordData

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.ValueIdx (ix3)

variable {F : FTy → Type} [FloatOps F]

variable (m : (ℓ : Loc nD τ sig) → Buf (Elt F) ℓ)

theorem mod12_lt (n : ℕ) : n % 12 < 12 := Nat.mod_lt _ (by norm_num)

/-- Entry `(0, r, d)` of the written slice sits at `(t mod 12, r, d)` of the stash. -/
theorem slot_emb (t : Fin cfg0.N) (r : Fin 1024) (d : Fin 128) :
    (slotRect (grid0.coords t)).emb (ix3 (0 : Fin 1) r d) = ix3 (⟨t.val % 12, mod12_lt _⟩ : Fin 12) r d := by
  funext a
  apply Fin.ext
  rw [Rect.emb_apply]
  show (k0_off1 (grid0.coords t)) a + 1 * _ = _
  rw [slot_eq t]
  match a with
  | ⟨0, _⟩ => show t.val % 12 + 1 * 0 = t.val % 12; omega
  | ⟨1, _⟩ => show 0 + 1 * r.val = r.val; omega
  | ⟨2, _⟩ => show 0 + 1 * d.val = d.val; omega

/-- In the written slice the stash holds the new tile; -/
theorem overlay_at (t : Fin cfg0.N) (S : Vec F S12x1024x128 .f32) (p : Vec F S1x1024x128 .f32) (r : Fin 1024) (d : Fin 128) :
    (slotRect (grid0.coords t)).overlay S p (ix3 (⟨t.val % 12, mod12_lt _⟩ : Fin 12) r d) = p (ix3 (0 : Fin 1) r d) := by
  rw [← slot_emb t r d]; exact Rect.overlay_emb _ _ _ _

/-- in every other slice what it held. -/
theorem overlay_off (t : Fin cfg0.N) (S : Vec F S12x1024x128 .f32) (p : Vec F S1x1024x128 .f32) (l : Fin 12)
    (hl : l.val ≠ t.val % 12) (r : Fin 1024) (d : Fin 128) :
    (slotRect (grid0.coords t)).overlay S p (ix3 l r d) = S (ix3 l r d) := by
  apply Rect.overlay_of_not_mem
  intro hm
  have h0 := (Rect.mem_set_unit.mp hm) 0
  rw [slot_eq t] at h0
  have h0' : t.val % 12 ≤ l.val ∧ l.val < t.val % 12 + 1 := h0
  omega

theorem pTile_congr (c : Dev nD) {a b : ℕ} (ha : a < cfg0.N) (hb : b < cfg0.N) (e : a = b) :
    pTile m c ⟨a, ha⟩ = pTile m c ⟨b, hb⟩ := by subst e; rfl

/-- The invariant after a tile's first point. -/
theorem stash_first (c : Dev nD) (t : Fin cfg0.N) (h0 : t.val % 12 = 0) (S : Vec F S12x1024x128 .f32) :
    StashOK m c t.val t.isLt ((slotRect (grid0.coords t)).overlay S (pTile m c t)) := by
  intro l hl r d
  have hl0 : l.val = t.val % 12 := by omega
  have el : l = ⟨t.val % 12, mod12_lt _⟩ := Fin.ext hl0
  refine ((congrArg (fun l' : Fin 12 => (slotRect (grid0.coords t)).overlay S (pTile m c t) (ix3 l' r d)) el).trans
    (overlay_at t S _ r d)).trans ?_
  exact congrFun (pTile_congr m c t.isLt _ (by show t.val = t.val - t.val % 12 + l.val; omega)) _

/-- The invariant after a later point, from the invariant after the point before. -/
theorem stash_next (c : Dev nD) (t : Fin cfg0.N) (h0 : ¬t.val % 12 = 0) (hp : t.val - 1 < cfg0.N)
    (S : Vec F S12x1024x128 .f32) (hS : StashOK m c (t.val - 1) hp S) :
    StashOK m c t.val t.isLt ((slotRect (grid0.coords t)).overlay S (pTile m c t)) := by
  intro l hl r d
  by_cases hl0 : l.val = t.val % 12
  · have el : l = ⟨t.val % 12, mod12_lt _⟩ := Fin.ext hl0
    refine ((congrArg (fun l' : Fin 12 => (slotRect (grid0.coords t)).overlay S (pTile m c t) (ix3 l' r d)) el).trans
      (overlay_at t S _ r d)).trans ?_
    exact congrFun (pTile_congr m c t.isLt _ (by show t.val = t.val - t.val % 12 + l.val; omega)) _
  · rw [overlay_off t S _ l hl0, hS l (by omega) r d]
    exact congrFun (pTile_congr m c _ _ (by omega)) _

/-- With every slice written (a tile's last point), each slice loaded back is that patch's tile. -/
theorem load_slice (c : Dev nD) (t : Fin cfg0.N) (h11 : t.val % 12 = 11) (S : Vec F S12x1024x128 .f32)
    (hS : StashOK m c t.val t.isLt S) (l : Fin 12) (off : Fin 3 → ℕ) (hoff : off = ![l.val, 0, 0])
    (inb : ∀ a, off a + S1x1024x128.size a ≤ S12x1024x128.size a) :
    View.ld S (Rect.unit (s := S12x1024x128) off S1x1024x128.size inb) = slicesAt m c t l := by
  subst hoff
  funext y
  obtain ⟨u, r, d, rfl⟩ : ∃ (u : Fin 1) (r : Fin 1024) (d : Fin 128), y = ix3 u r d := ⟨y 0, y 1, y 2, ValueIdx.eq_ix3 y⟩
  have hu : u = 0 := Subsingleton.elim _ _
  subst hu
  have e : (Rect.unit (s := S12x1024x128) ![l.val, 0, 0] S1x1024x128.size inb).idx (ix3 (0 : Fin 1) r d) = ix3 l r d := by
    funext a
    apply Fin.ext
    match a with
    | ⟨0, _⟩ => show l.val + 1 * 0 = l.val; omega
    | ⟨1, _⟩ => show 0 + 1 * r.val = r.val; omega
    | ⟨2, _⟩ => show 0 + 1 * d.val = d.val; omega
  show S ((Rect.unit (s := S12x1024x128) ![l.val, 0, 0] S1x1024x128.size inb).idx (ix3 (0 : Fin 1) r d)) = _
  rw [e, hS l (by have := l.isLt; omega) r d]
  rfl

end Cert.Kernel.Hand

end
-- ==== Proof.WordBodyFirst.lean ====
/-
  The body obligation at a tile's first patch.

  Whatever the three scratch buffers held (the launch's contents at the very first point, the previous tile's
  afterwards), the body overwrites the first with the tile's embedded global rows and the second with this patch's
  embedded rows over zero, and writes slice 0 of the stash; the output blocks are not touched.
-/
import proofs.«133262_j27453430956191_2_alg».proof.Proof.WordBodyDefs
import proofs.«133262_j27453430956191_2_alg».proof.Proof.WordStash

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
theorem body_first (c : Dev nD) (t : Fin cfg0.N) (h0 : t.val % 12 = 0) :
    bodyPre m c t ⊢ wp frame (wpE (defs₀ (F := F)) Variants.none c none) Set.univ (bodyAt0 t) (fun _ => bodyPost m c t) := by
  have h1 : ¬t.val % 12 = 11 := by omega
  rw [bodyPre_eq, bodyPost_idle m c t h1, Phi_succ]
  unfold bodyAt0
  by_cases hz : t.val = 0
  · rw [Phi_zero m c _ _ hz, rest_eq]
    iintro ⟨⟨⟨HG, HS, ⟨%S, HT⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
    iapply ((runFirst c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) scG (Memref.isWhole_whole _) scSum (Memref.isWhole_whole _) scStash (Memref.isWhole_whole _) ((isFirst_iff t).mpr h0) (fun h => h1 ((isLast_iff t).mp h)) (iblk m c 0 t) (iblk m c 1 t) (iblk m c 2 t) (iblk m c 3 t) (iblk m c 4 t) (iblk m c 5 t) (iblk m c 6 t) (iblk m c 7 t) (iblk m c 8 t) (iblk m c 9 t) S).2.2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexists _; iexact H10
    isplitl [H11]; · iexists _; iexact H11
    isplitl [HG]; · iexact HG
    isplitl [HS]; · iexact HS
    isplitl [HT]; · iexact HT
    iintro ⟨H0, H1, H2, H3, H4, H5, H6, H7, H8, H9, H10, H11, ⟨%fG, HG⟩, ⟨%fS, HS⟩, HT⟩
    isplitl [HG HS HT Hg]
    · isplitl [HG HS HT]
      · isplitl [HG]
        · unfold owns; iexists _; isplitr; swap; · iexact HG
          ipureintro
          exact (first_G c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) scG (Memref.isWhole_whole _) scSum (Memref.isWhole_whole _) scStash (Memref.isWhole_whole _) ((isFirst_iff t).mpr h0) (fun h => h1 ((isLast_iff t).mp h)) (iblk m c 0 t) (iblk m c 1 t) (iblk m c 2 t) (iblk m c 3 t) (iblk m c 4 t) (iblk m c 5 t) (iblk m c 6 t) (iblk m c 7 t) (iblk m c 8 t) (iblk m c 9 t) S scG.view fG).trans (gAt_first m c t h0).symm
        isplitl [HS]
        · unfold owns; iexists _; isplitr; swap; · iexact HS
          ipureintro
          exact (first_Sum c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) scG (Memref.isWhole_whole _) scSum (Memref.isWhole_whole _) scStash (Memref.isWhole_whole _) ((isFirst_iff t).mpr h0) (fun h => h1 ((isLast_iff t).mp h)) (iblk m c 0 t) (iblk m c 1 t) (iblk m c 2 t) (iblk m c 3 t) (iblk m c 4 t) (iblk m c 5 t) (iblk m c 6 t) (iblk m c 7 t) (iblk m c 8 t) (iblk m c 9 t) S scSum.view fS).trans (sumAt_first m c t h0).symm
        iexists ((slotRect (grid0.coords t)).overlay S (pTile m c t))
        isplitr
        · ipureintro; exact stash_first m c t h0 S
        unfold owns; iexists _; isplitr; swap; · iexact HT
        ipureintro
        rw [first_Stash, read_writes_one, Memref.IsWhole.read_unread]
        rfl
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    iexact H11
  · rw [Phi_pos m c _ _ hz]
    iintro ⟨⟨⟨HG, HS, ⟨%S, -, HT⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
    iapply ((runFirst c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) scG (Memref.isWhole_whole _) scSum (Memref.isWhole_whole _) scStash (Memref.isWhole_whole _) ((isFirst_iff t).mpr h0) (fun h => h1 ((isLast_iff t).mp h)) (iblk m c 0 t) (iblk m c 1 t) (iblk m c 2 t) (iblk m c 3 t) (iblk m c 4 t) (iblk m c 5 t) (iblk m c 6 t) (iblk m c 7 t) (iblk m c 8 t) (iblk m c 9 t) S).2.2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexists _; iexact H10
    isplitl [H11]; · iexists _; iexact H11
    isplitl [HG]; · iexists _; iexact HG
    isplitl [HS]; · iexists _; iexact HS
    isplitl [HT]; · iexact HT
    iintro ⟨H0, H1, H2, H3, H4, H5, H6, H7, H8, H9, H10, H11, ⟨%fG, HG⟩, ⟨%fS, HS⟩, HT⟩
    isplitl [HG HS HT Hg]
    · isplitl [HG HS HT]
      · isplitl [HG]
        · unfold owns; iexists _; isplitr; swap; · iexact HG
          ipureintro
          exact (first_G c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) scG (Memref.isWhole_whole _) scSum (Memref.isWhole_whole _) scStash (Memref.isWhole_whole _) ((isFirst_iff t).mpr h0) (fun h => h1 ((isLast_iff t).mp h)) (iblk m c 0 t) (iblk m c 1 t) (iblk m c 2 t) (iblk m c 3 t) (iblk m c 4 t) (iblk m c 5 t) (iblk m c 6 t) (iblk m c 7 t) (iblk m c 8 t) (iblk m c 9 t) S scG.view fG).trans (gAt_first m c t h0).symm
        isplitl [HS]
        · unfold owns; iexists _; isplitr; swap; · iexact HS
          ipureintro
          exact (first_Sum c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) scG (Memref.isWhole_whole _) scSum (Memref.isWhole_whole _) scStash (Memref.isWhole_whole _) ((isFirst_iff t).mpr h0) (fun h => h1 ((isLast_iff t).mp h)) (iblk m c 0 t) (iblk m c 1 t) (iblk m c 2 t) (iblk m c 3 t) (iblk m c 4 t) (iblk m c 5 t) (iblk m c 6 t) (iblk m c 7 t) (iblk m c 8 t) (iblk m c 9 t) S scSum.view fS).trans (sumAt_first m c t h0).symm
        iexists ((slotRect (grid0.coords t)).overlay S (pTile m c t))
        isplitr
        · ipureintro; exact stash_first m c t h0 S
        unfold owns; iexists _; isplitr; swap; · iexact HT
        ipureintro
        rw [first_Stash, read_writes_one, Memref.IsWhole.read_unread]
        rfl
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    iexact H11

end Cert.Kernel.Hand

end
-- ==== Proof.WordBodyMid.lean ====
/-
  The body obligation at a patch that is neither a tile's first nor its last.

  The embedded global rows stay; the running sum takes this patch's embedded rows; slice `t mod 12` of the stash is
  written and the slices before it are as the invariant said; the output blocks are not touched.
-/
import proofs.«133262_j27453430956191_2_alg».proof.Proof.WordBodyDefs
import proofs.«133262_j27453430956191_2_alg».proof.Proof.WordStash

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
theorem body_mid (c : Dev nD) (t : Fin cfg0.N) (h0 : ¬t.val % 12 = 0) (h1 : ¬t.val % 12 = 11) :
    bodyPre m c t ⊢ wp frame (wpE (defs₀ (F := F)) Variants.none c none) Set.univ (bodyAt0 t) (fun _ => bodyPost m c t) := by
  have hz : t.val ≠ 0 := fun e => h0 (by rw [e])
  have hp : t.val - 1 < cfg0.N := lt_of_le_of_lt (Nat.sub_le _ _) t.isLt
  rw [bodyPre_eq, bodyPost_idle m c t h1, Phi_succ, Phi_pos m c _ _ hz, gAt_next m c t h0 hp]
  unfold bodyAt0
  iintro ⟨⟨⟨HG, HS, ⟨%S, %hS, HT⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  iapply ((runMid c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) scG (Memref.isWhole_whole _) scSum (Memref.isWhole_whole _) scStash (Memref.isWhole_whole _) (fun h => h0 ((isFirst_iff t).mp h)) (fun h => h1 ((isLast_iff t).mp h)) (iblk m c 0 t) (iblk m c 1 t) (iblk m c 2 t) (iblk m c 3 t) (iblk m c 4 t) (iblk m c 5 t) (iblk m c 6 t) (iblk m c 7 t) (iblk m c 8 t) (iblk m c 9 t) (gAt m c (t.val - 1) hp) (sumAt m c (t.val - 1) hp) S).2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexists _; iexact H10
  isplitl [H11]; · iexists _; iexact H11
  isplitl [HG]; · iexact HG
  isplitl [HS]; · iexact HS
  isplitl [HT]; · iexact HT
  iintro ⟨H0, H1, H2, H3, H4, H5, H6, H7, H8, H9, H10, H11, HG, ⟨%fS, HS⟩, HT⟩
  isplitl [HG HS HT Hg]
  · isplitl [HG HS HT]
    · isplitl [HG]; · iexact HG
      isplitl [HS]
      · unfold owns; iexists _; isplitr; swap; · iexact HS
        ipureintro
        exact (mid_Sum c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) scG (Memref.isWhole_whole _) scSum (Memref.isWhole_whole _) scStash (Memref.isWhole_whole _) (fun h => h0 ((isFirst_iff t).mp h)) (fun h => h1 ((isLast_iff t).mp h)) (iblk m c 0 t) (iblk m c 1 t) (iblk m c 2 t) (iblk m c 3 t) (iblk m c 4 t) (iblk m c 5 t) (iblk m c 6 t) (iblk m c 7 t) (iblk m c 8 t) (iblk m c 9 t) (gAt m c (t.val - 1) hp) (sumAt m c (t.val - 1) hp) S scSum.view fS).trans (sumAt_next m c t h0 hp).symm
      iexists ((slotRect (grid0.coords t)).overlay S (pTile m c t))
      isplitr
      · ipureintro; exact stash_next m c t h0 hp S hS
      unfold owns; iexists _; isplitr; swap; · iexact HT
      ipureintro
      rw [mid_Stash, read_writes_one, Memref.IsWhole.read_unread]
      rfl
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iexact H11

end Cert.Kernel.Hand

end
-- ==== Proof.WordBodyLast.lean ====
/-
  The body obligation at a tile's last patch.

  As at a middle patch for the three scratch buffers; with the stash now complete, the twelve slices the body loads
  back are the tile's twelve embedded patch tiles, and the two output blocks receive the tile's partial losses.
-/
import proofs.«133262_j27453430956191_2_alg».proof.Proof.WordBodyDefs
import proofs.«133262_j27453430956191_2_alg».proof.Proof.WordStash

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The `dil` partial the run found is the one the proof data states. -/
theorem dil_last (c : Dev nD) (t : Fin cfg0.N) (h0 : ¬t.val % 12 = 0) (hp : t.val - 1 < cfg0.N) :
    dilOf (sumNext (iblk m c 1 t) (iblk m c 6 t) (iblk m c 7 t) (iblk m c 8 t) (iblk m c 9 t) (sumAt m c (t.val - 1) hp)) (gAt m c (t.val - 1) hp)
      = dilAt m c t := by
  unfold dilAt; rw [sumAt_next m c t h0 hp, gAt_next m c t h0 hp]; rfl

/-- The `dcl` partial the run found — over the stash as this point's store left it — is the one the proof data states. -/
theorem dcl_last (c : Dev nD) (t : Fin cfg0.N) (h0 : ¬t.val % 12 = 0) (h1 : t.val % 12 = 11) (hp : t.val - 1 < cfg0.N)
    (S : Vec F S12x1024x128 .f32) (hS : StashOK m c (t.val - 1) hp S) :
    dclChain (sumNext (iblk m c 1 t) (iblk m c 6 t) (iblk m c 7 t) (iblk m c 8 t) (iblk m c 9 t) (sumAt m c (t.val - 1) hp)) (gAt m c (t.val - 1) hp)
          (View.ld ((slotRect (grid0.coords t)).overlay S (k0_pay33 (iblk m c 1 t) (iblk m c 6 t) (iblk m c 7 t) (iblk m c 8 t) (iblk m c 9 t))) (Rect.unit (s := S12x1024x128) ![0, 0, 0] S1x1024x128.size inb_S12x1024x128_S1x1024x128_0_0_0))
          (View.ld ((slotRect (grid0.coords t)).overlay S (k0_pay33 (iblk m c 1 t) (iblk m c 6 t) (iblk m c 7 t) (iblk m c 8 t) (iblk m c 9 t))) (Rect.unit (s := S12x1024x128) ![1, 0, 0] S1x1024x128.size inb_S12x1024x128_S1x1024x128_1_0_0))
          (View.ld ((slotRect (grid0.coords t)).overlay S (k0_pay33 (iblk m c 1 t) (iblk m c 6 t) (iblk m c 7 t) (iblk m c 8 t) (iblk m c 9 t))) (Rect.unit (s := S12x1024x128) ![2, 0, 0] S1x1024x128.size inb_S12x1024x128_S1x1024x128_2_0_0))
          (View.ld ((slotRect (grid0.coords t)).overlay S (k0_pay33 (iblk m c 1 t) (iblk m c 6 t) (iblk m c 7 t) (iblk m c 8 t) (iblk m c 9 t))) (Rect.unit (s := S12x1024x128) ![3, 0, 0] S1x1024x128.size inb_S12x1024x128_S1x1024x128_3_0_0))
          (View.ld ((slotRect (grid0.coords t)).overlay S (k0_pay33 (iblk m c 1 t) (iblk m c 6 t) (iblk m c 7 t) (iblk m c 8 t) (iblk m c 9 t))) (Rect.unit (s := S12x1024x128) ![4, 0, 0] S1x1024x128.size inb_S12x1024x128_S1x1024x128_4_0_0))
          (View.ld ((slotRect (grid0.coords t)).overlay S (k0_pay33 (iblk m c 1 t) (iblk m c 6 t) (iblk m c 7 t) (iblk m c 8 t) (iblk m c 9 t))) (Rect.unit (s := S12x1024x128) ![5, 0, 0] S1x1024x128.size inb_S12x1024x128_S1x1024x128_5_0_0))
          (View.ld ((slotRect (grid0.coords t)).overlay S (k0_pay33 (iblk m c 1 t) (iblk m c 6 t) (iblk m c 7 t) (iblk m c 8 t) (iblk m c 9 t))) (Rect.unit (s := S12x1024x128) ![6, 0, 0] S1x1024x128.size inb_S12x1024x128_S1x1024x128_6_0_0))
          (View.ld ((slotRect (grid0.coords t)).overlay S (k0_pay33 (iblk m c 1 t) (iblk m c 6 t) (iblk m c 7 t) (iblk m c 8 t) (iblk m c 9 t))) (Rect.unit (s := S12x1024x128) ![7, 0, 0] S1x1024x128.size inb_S12x1024x128_S1x1024x128_7_0_0))
          (View.ld ((slotRect (grid0.coords t)).overlay S (k0_pay33 (iblk m c 1 t) (iblk m c 6 t) (iblk m c 7 t) (iblk m c 8 t) (iblk m c 9 t))) (Rect.unit (s := S12x1024x128) ![8, 0, 0] S1x1024x128.size inb_S12x1024x128_S1x1024x128_8_0_0))
          (View.ld ((slotRect (grid0.coords t)).overlay S (k0_pay33 (iblk m c 1 t) (iblk m c 6 t) (iblk m c 7 t) (iblk m c 8 t) (iblk m c 9 t))) (Rect.unit (s := S12x1024x128) ![9, 0, 0] S1x1024x128.size inb_S12x1024x128_S1x1024x128_9_0_0))
          (View.ld ((slotRect (grid0.coords t)).overlay S (k0_pay33 (iblk m c 1 t) (iblk m c 6 t) (iblk m c 7 t) (iblk m c 8 t) (iblk m c 9 t))) (Rect.unit (s := S12x1024x128) ![10, 0, 0] S1x1024x128.size inb_S12x1024x128_S1x1024x128_10_0_0))
          (View.ld ((slotRect (grid0.coords t)).overlay S (k0_pay33 (iblk m c 1 t) (iblk m c 6 t) (iblk m c 7 t) (iblk m c 8 t) (iblk m c 9 t))) (Rect.unit (s := S12x1024x128) ![11, 0, 0] S1x1024x128.size inb_S12x1024x128_S1x1024x128_11_0_0))
      = dclAt m c t := by
  have hS' : StashOK m c t.val t.isLt ((slotRect (grid0.coords t)).overlay S (k0_pay33 (iblk m c 1 t) (iblk m c 6 t) (iblk m c 7 t) (iblk m c 8 t) (iblk m c 9 t))) := stash_next m c t h0 hp S hS
  unfold dclAt
  rw [sumAt_next m c t h0 hp, gAt_next m c t h0 hp]
  rw [load_slice m c t h1 ((slotRect (grid0.coords t)).overlay S (k0_pay33 (iblk m c 1 t) (iblk m c 6 t) (iblk m c 7 t) (iblk m c 8 t) (iblk m c 9 t))) hS' 0 ![0, 0, 0] rfl inb_S12x1024x128_S1x1024x128_0_0_0,
    load_slice m c t h1 ((slotRect (grid0.coords t)).overlay S (k0_pay33 (iblk m c 1 t) (iblk m c 6 t) (iblk m c 7 t) (iblk m c 8 t) (iblk m c 9 t))) hS' 1 ![1, 0, 0] rfl inb_S12x1024x128_S1x1024x128_1_0_0,
    load_slice m c t h1 ((slotRect (grid0.coords t)).overlay S (k0_pay33 (iblk m c 1 t) (iblk m c 6 t) (iblk m c 7 t) (iblk m c 8 t) (iblk m c 9 t))) hS' 2 ![2, 0, 0] rfl inb_S12x1024x128_S1x1024x128_2_0_0,
    load_slice m c t h1 ((slotRect (grid0.coords t)).overlay S (k0_pay33 (iblk m c 1 t) (iblk m c 6 t) (iblk m c 7 t) (iblk m c 8 t) (iblk m c 9 t))) hS' 3 ![3, 0, 0] rfl inb_S12x1024x128_S1x1024x128_3_0_0,
    load_slice m c t h1 ((slotRect (grid0.coords t)).overlay S (k0_pay33 (iblk m c 1 t) (iblk m c 6 t) (iblk m c 7 t) (iblk m c 8 t) (iblk m c 9 t))) hS' 4 ![4, 0, 0] rfl inb_S12x1024x128_S1x1024x128_4_0_0,
    load_slice m c t h1 ((slotRect (grid0.coords t)).overlay S (k0_pay33 (iblk m c 1 t) (iblk m c 6 t) (iblk m c 7 t) (iblk m c 8 t) (iblk m c 9 t))) hS' 5 ![5, 0, 0] rfl inb_S12x1024x128_S1x1024x128_5_0_0,
    load_slice m c t h1 ((slotRect (grid0.coords t)).overlay S (k0_pay33 (iblk m c 1 t) (iblk m c 6 t) (iblk m c 7 t) (iblk m c 8 t) (iblk m c 9 t))) hS' 6 ![6, 0, 0] rfl inb_S12x1024x128_S1x1024x128_6_0_0,
    load_slice m c t h1 ((slotRect (grid0.coords t)).overlay S (k0_pay33 (iblk m c 1 t) (iblk m c 6 t) (iblk m c 7 t) (iblk m c 8 t) (iblk m c 9 t))) hS' 7 ![7, 0, 0] rfl inb_S12x1024x128_S1x1024x128_7_0_0,
    load_slice m c t h1 ((slotRect (grid0.coords t)).overlay S (k0_pay33 (iblk m c 1 t) (iblk m c 6 t) (iblk m c 7 t) (iblk m c 8 t) (iblk m c 9 t))) hS' 8 ![8, 0, 0] rfl inb_S12x1024x128_S1x1024x128_8_0_0,
    load_slice m c t h1 ((slotRect (grid0.coords t)).overlay S (k0_pay33 (iblk m c 1 t) (iblk m c 6 t) (iblk m c 7 t) (iblk m c 8 t) (iblk m c 9 t))) hS' 9 ![9, 0, 0] rfl inb_S12x1024x128_S1x1024x128_9_0_0,
    load_slice m c t h1 ((slotRect (grid0.coords t)).overlay S (k0_pay33 (iblk m c 1 t) (iblk m c 6 t) (iblk m c 7 t) (iblk m c 8 t) (iblk m c 9 t))) hS' 10 ![10, 0, 0] rfl inb_S12x1024x128_S1x1024x128_10_0_0,
    load_slice m c t h1 ((slotRect (grid0.coords t)).overlay S (k0_pay33 (iblk m c 1 t) (iblk m c 6 t) (iblk m c 7 t) (iblk m c 8 t) (iblk m c 9 t))) hS' 11 ![11, 0, 0] rfl inb_S12x1024x128_S1x1024x128_11_0_0]
  rfl

set_option maxHeartbeats 4000000 in
theorem body_last (c : Dev nD) (t : Fin cfg0.N) (h0 : ¬t.val % 12 = 0) (h1 : t.val % 12 = 11) :
    bodyPre m c t ⊢ wp frame (wpE (defs₀ (F := F)) Variants.none c none) Set.univ (bodyAt0 t) (fun _ => bodyPost m c t) := by
  have hz : t.val ≠ 0 := fun e => h0 (by rw [e])
  have hp : t.val - 1 < cfg0.N := lt_of_le_of_lt (Nat.sub_le _ _) t.isLt
  rw [bodyPre_eq, bodyPost_live m c t h1, Phi_succ, Phi_pos m c _ _ hz, gAt_next m c t h0 hp]
  unfold bodyAt0
  iintro ⟨⟨⟨HG, HS, ⟨%S, %hS, HT⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  iapply ((runLast c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) scG (Memref.isWhole_whole _) scSum (Memref.isWhole_whole _) scStash (Memref.isWhole_whole _) (fun h => h0 ((isFirst_iff t).mp h)) ((isLast_iff t).mpr h1) (iblk m c 0 t) (iblk m c 1 t) (iblk m c 2 t) (iblk m c 3 t) (iblk m c 4 t) (iblk m c 5 t) (iblk m c 6 t) (iblk m c 7 t) (iblk m c 8 t) (iblk m c 9 t) (gAt m c (t.val - 1) hp) (sumAt m c (t.val - 1) hp) S).2.2.2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexists _; iexact H10
  isplitl [H11]; · iexists _; iexact H11
  isplitl [HG]; · iexact HG
  isplitl [HS]; · iexact HS
  isplitl [HT]; · iexact HT
  iintro ⟨H0, H1, H2, H3, H4, H5, H6, H7, H8, H9, ⟨%f10, H10⟩, ⟨%f11, H11⟩, HG, ⟨%fS, HS⟩, HT⟩
  isplitl [HG HS HT Hg]
  · isplitl [HG HS HT]
    · isplitl [HG]; · iexact HG
      isplitl [HS]
      · unfold owns; iexists _; isplitr; swap; · iexact HS
        ipureintro
        exact (last_Sum c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) scG (Memref.isWhole_whole _) scSum (Memref.isWhole_whole _) scStash (Memref.isWhole_whole _) (fun h => h0 ((isFirst_iff t).mp h)) ((isLast_iff t).mpr h1) (iblk m c 0 t) (iblk m c 1 t) (iblk m c 2 t) (iblk m c 3 t) (iblk m c 4 t) (iblk m c 5 t) (iblk m c 6 t) (iblk m c 7 t) (iblk m c 8 t) (iblk m c 9 t) (gAt m c (t.val - 1) hp) (sumAt m c (t.val - 1) hp) S scSum.view fS).trans (sumAt_next m c t h0 hp).symm
      iexists ((slotRect (grid0.coords t)).overlay S (pTile m c t))
      isplitr
      · ipureintro; exact stash_next m c t h0 hp S hS
      unfold owns; iexists _; isplitr; swap; · iexact HT
      ipureintro
      rw [last_Stash, read_writes_one, Memref.IsWhole.read_unread]
      rfl
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]
  · unfold owns; iexists _; isplitr; swap; · iexact H10
    ipureintro
    exact (last_Dil c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) scG (Memref.isWhole_whole _) scSum (Memref.isWhole_whole _) scStash (Memref.isWhole_whole _) (fun h => h0 ((isFirst_iff t).mp h)) ((isLast_iff t).mpr h1) (iblk m c 0 t) (iblk m c 1 t) (iblk m c 2 t) (iblk m c 3 t) (iblk m c 4 t) (iblk m c 5 t) (iblk m c 6 t) (iblk m c 7 t) (iblk m c 8 t) (iblk m c 9 t) (gAt m c (t.val - 1) hp) (sumAt m c (t.val - 1) hp) S (ms10 t).view f10).trans (dil_last m c t h0 hp)
  unfold owns; iexists _; isplitr; swap; · iexact H11
  ipureintro
  exact (last_Dcl c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) scG (Memref.isWhole_whole _) scSum (Memref.isWhole_whole _) scStash (Memref.isWhole_whole _) (fun h => h0 ((isFirst_iff t).mp h)) ((isLast_iff t).mpr h1) (iblk m c 0 t) (iblk m c 1 t) (iblk m c 2 t) (iblk m c 3 t) (iblk m c 4 t) (iblk m c 5 t) (iblk m c 6 t) (iblk m c 7 t) (iblk m c 8 t) (iblk m c 9 t) (gAt m c (t.val - 1) hp) (sumAt m c (t.val - 1) hp) S (ms11 t).view f11).trans (dcl_last m c t h0 h1 hp S hS)

end Cert.Kernel.Hand

end
-- ==== Proof.WordFrame.lean ====
/-
  The kernel's frame: every fair execution terminates without a fault and leaves the argument arrays unchanged.

  The body obligation at a generic point is one of three cases by the patch number; the invariant starts as what the
  launch hands over and ends by forgetting what the scratch buffers hold; the library's launch theorem for a region
  followed by host operations then gives the run, with every array of the pipeline at what the proof data computes.
-/
import proofs.«133262_j27453430956191_2_alg».proof.Proof.WordBodyFirst
import proofs.«133262_j27453430956191_2_alg».proof.Proof.WordBodyMid
import proofs.«133262_j27453430956191_2_alg».proof.Proof.WordBodyLast

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem sound_body (c : Dev nD) (t : Fin cfg0.N) :
    bodyPre m c t ⊢ wp frame (wpE (defs₀ (F := F)) Variants.none c none) Set.univ (bodyAt0 t) (fun _ => bodyPost m c t) := by
  by_cases h0 : t.val % 12 = 0
  · exact body_first m c t h0
  · by_cases h1 : t.val % 12 = 11
    · exact body_last m c t h0 h1
    · exact body_mid m c t h0 h1

theorem body_obligation (c : Dev nD) : BodyObligation (dats (F := F) m 0 c) (defs₀ (F := F)) Variants.none () Set.univ := fun t => by
  rw [bigSep_W0, bigSep_W0]
  exact sound_body m c t

theorem hin (c : Dev nD) : Pipeline.ΦA spec0 c ⊢ (dats m 0 c).Φ 0 := by
  rw [show (dats m 0 c).Φ 0 = Phi m c 0 (Nat.zero_le _) from rfl, Phi_zero m c 0 _ rfl]
  try exact Idealize.SL.BI.Entails.refl _

theorem hout (c : Dev nD) : (dats m 0 c).Φ (Fin.last cfg0.N) ⊢ Pipeline.ΦA spec0 c := by
  rw [show (dats m 0 c).Φ (Fin.last cfg0.N) = Phi m c (Fin.last cfg0.N).val (Nat.le_of_lt_succ (Fin.last cfg0.N).isLt) from rfl]
  refine (Phi_forget m c _ _).trans ?_
  rw [rest_eq]
  try exact Idealize.SL.BI.Entails.refl _

set_option backward.isDefEq.respectTransparency.types false in
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around_track cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  frame_of m ρ (dats m) (A_eq m) (run_main m ρ)

end Cert.Kernel.Hand

end
-- ==== Proof.IdealPoints.lean ====
/-
  The grid of the fused loss kernel, point by point.

  The grid is 4 tiles of 1024 samples by 12 patches: point `t` is patch `t mod 12` of tile `t / 12`. The body branches
  twice on the patch number: at a tile's FIRST patch (`t mod 12 = 0`) it embeds the tile's global rows into the first
  scratch buffer and zeroes the second; at every patch it embeds the patch rows, stores them as slice `t mod 12` of the
  third scratch buffer and adds them to the second; at a tile's LAST patch (`t mod 12 = 11`) it computes the tile's two
  partial losses from the three scratch buffers and stores them in the two output blocks, which are written back
  there and nowhere else. This module decides those facts over the 48 points and names what the body is called with.
-/
import proofs.«133262_j27453430956191_2_alg».proof.Proof.Gen.KernelIdeal.Frame
import proofs.«133262_j27453430956191_2_alg».proof.Proof.Gen.KernelIdeal.Skeleton
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-! ## The two branch conditions, in closed form -/

/-- The condition "this is the tile's first patch", as the body computes it from the grid coordinates. -/
abbrev isFirst (i : grid0.Coords) : Prop :=
  (Scalar.cmpi .ne (Scalar.extui (Scalar.cmpi .eq (BitVec.ofNat 32 (i 1).val) 0#32)) 0#32) = 1#1
/-- It holds exactly at the points `≡ 0 (mod 12)`. -/
theorem isFirst_iff : ∀ t : Fin cfg0.N, isFirst (grid0.coords t) ↔ t.val % 12 = 0 :=
  (by decide +kernel : ∀ t : Fin grid0.N, isFirst (grid0.coords t) ↔ t.val % 12 = 0)

/-- The condition "this is the tile's last patch". -/
abbrev isLast (i : grid0.Coords) : Prop := k0_cond2 i = 1#1
/-- It holds exactly at the points `≡ 11 (mod 12)`. -/
theorem isLast_iff : ∀ t : Fin cfg0.N, isLast (grid0.coords t) ↔ t.val % 12 = 11 :=
  (by decide +kernel : ∀ t : Fin grid0.N, isLast (grid0.coords t) ↔ t.val % 12 = 11)

/-! ## Where the windows are idle -/

theorem live0 : ∀ t : Fin cfg0.N, cfg0.idle 0 (grid0.coords t) = false := by decide +kernel
theorem live1 : ∀ t : Fin cfg0.N, cfg0.idle 1 (grid0.coords t) = false := by decide +kernel
theorem live2 : ∀ t : Fin cfg0.N, cfg0.idle 2 (grid0.coords t) = false := by decide +kernel
theorem live3 : ∀ t : Fin cfg0.N, cfg0.idle 3 (grid0.coords t) = false := by decide +kernel
theorem live4 : ∀ t : Fin cfg0.N, cfg0.idle 4 (grid0.coords t) = false := by decide +kernel
theorem live5 : ∀ t : Fin cfg0.N, cfg0.idle 5 (grid0.coords t) = false := by decide +kernel
theorem live6 : ∀ t : Fin cfg0.N, cfg0.idle 6 (grid0.coords t) = false := by decide +kernel
theorem live7 : ∀ t : Fin cfg0.N, cfg0.idle 7 (grid0.coords t) = false := by decide +kernel
theorem live8 : ∀ t : Fin cfg0.N, cfg0.idle 8 (grid0.coords t) = false := by decide +kernel
theorem live9 : ∀ t : Fin cfg0.N, cfg0.idle 9 (grid0.coords t) = false := by decide +kernel
/-- The two output windows are idle exactly off a tile's last patch. -/
theorem idle10_iff : ∀ t : Fin cfg0.N, cfg0.idle 10 (grid0.coords t) = true ↔ ¬ t.val % 12 = 11 := by decide +kernel
theorem idle11_iff : ∀ t : Fin cfg0.N, cfg0.idle 11 (grid0.coords t) = true ↔ ¬ t.val % 12 = 11 := by decide +kernel

/-! ## What the body is called with at a point -/

abbrev ms0 (t : Fin cfg0.N) : Memref sig .tc .vmem S1024x640 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S1x1024x640 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S640x128 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S128 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S128x128 .f32 := win0_4.stage (cfg0.slots t 4)
abbrev hs4 (t : Fin cfg0.N) : (ms4 t).IsWhole := hstage0_4 ((cfg0.slots t 4).cast nbuf0_4)
abbrev ms5 (t : Fin cfg0.N) : Memref sig .tc .vmem S128 .f32 := win0_5.stage (cfg0.slots t 5)
abbrev hs5 (t : Fin cfg0.N) : (ms5 t).IsWhole := hstage0_5 ((cfg0.slots t 5).cast nbuf0_5)
abbrev ms6 (t : Fin cfg0.N) : Memref sig .tc .vmem S640x128 .f32 := win0_6.stage (cfg0.slots t 6)
abbrev hs6 (t : Fin cfg0.N) : (ms6 t).IsWhole := hstage0_6 ((cfg0.slots t 6).cast nbuf0_6)
abbrev ms7 (t : Fin cfg0.N) : Memref sig .tc .vmem S128 .f32 := win0_7.stage (cfg0.slots t 7)
abbrev hs7 (t : Fin cfg0.N) : (ms7 t).IsWhole := hstage0_7 ((cfg0.slots t 7).cast nbuf0_7)
abbrev ms8 (t : Fin cfg0.N) : Memref sig .tc .vmem S128x128 .f32 := win0_8.stage (cfg0.slots t 8)
abbrev hs8 (t : Fin cfg0.N) : (ms8 t).IsWhole := hstage0_8 ((cfg0.slots t 8).cast nbuf0_8)
abbrev ms9 (t : Fin cfg0.N) : Memref sig .tc .vmem S128 .f32 := win0_9.stage (cfg0.slots t 9)
abbrev hs9 (t : Fin cfg0.N) : (ms9 t).IsWhole := hstage0_9 ((cfg0.slots t 9).cast nbuf0_9)
abbrev ms10 (t : Fin cfg0.N) : Memref sig .tc .vmem S1x1x128 .f32 := win0_10.stage (cfg0.slots t 10)
abbrev hs10 (t : Fin cfg0.N) : (ms10 t).IsWhole := hstage0_10 ((cfg0.slots t 10).cast nbuf0_10)
abbrev ms11 (t : Fin cfg0.N) : Memref sig .tc .vmem S1x1x128 .f32 := win0_11.stage (cfg0.slots t 11)
abbrev hs11 (t : Fin cfg0.N) : (ms11 t).IsWhole := hstage0_11 ((cfg0.slots t 11).cast nbuf0_11)

/-- The three scratch buffers: the tile's embedded global rows, the running sum of its embedded patch rows, and
    the twelve embedded patch tiles. -/
abbrev scG : Memref sig .tc .vmem S1024x128 .f32 := Memref.whole cc0_scratch0
abbrev scSum : Memref sig .tc .vmem S1024x128 .f32 := Memref.whole cc0_scratch1
abbrev scStash : Memref sig .tc .vmem S12x1024x128 .f32 := Memref.whole cc0_scratch2

/-- What the launch hands the region, opened: the three scratch buffers at some contents and the generator
    register at some state. -/
theorem rest_eq (c : Dev nD) :
    (Pipeline.ΦA spec0 c : sProp 𝕄)
      = iprop(iprop((∃ d, owns (c : Thread nD τ) scG fullShare d) ∗ (∃ d, owns (c : Thread nD τ) scSum fullShare d) ∗ (∃ d, owns (c : Thread nD τ) scStash fullShare d)) ∗ (∃ r, prngReg c r)) := by
  unfold Pipeline.ΦA; rw [scopedRest0_eq]; simp only [scG, scSum, scStash, owns_whole]; try rfl

end Cert.KernelIdeal.Hand

end
-- ==== Proof.IdealRunFirst.lean ====
/-
  The body at a tile's FIRST patch, run symbolically.

  On whole staging buffers — the ten inputs at their blocks, the two output blocks and the first two scratch buffers at
  anything, the patch stash at contents `xs2` — the body runs to its end and leaves: the inputs as they were, the
  output blocks untouched, the first scratch buffer overwritten by the pieces `LG` (the tile's embedded global rows),
  the second by `LSum` (zero, then the first patch's embedded rows added), and the stash at `xs2` with the pieces
  `LStash` written over it (one slice, the first patch's). The piece lists are found by the run itself.
-/
import proofs.«133262_j27453430956191_2_alg».proof.Proof.IdealPoints

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 1000000 in
noncomputable def runFirst (c : Dev nD) (i : grid0.Coords) (arg2 : Memref sig .tc .vmem S1024x640 .f32) (harg2 : arg2.IsWhole) (arg3 : Memref sig .tc .vmem S1x1024x640 .f32) (harg3 : arg3.IsWhole) (arg4 : Memref sig .tc .vmem S640x128 .f32) (harg4 : arg4.IsWhole) (arg5 : Memref sig .tc .vmem S128 .f32) (harg5 : arg5.IsWhole) (arg6 : Memref sig .tc .vmem S128x128 .f32) (harg6 : arg6.IsWhole) (arg7 : Memref sig .tc .vmem S128 .f32) (harg7 : arg7.IsWhole) (arg8 : Memref sig .tc .vmem S640x128 .f32) (harg8 : arg8.IsWhole) (arg9 : Memref sig .tc .vmem S128 .f32) (harg9 : arg9.IsWhole) (arg10 : Memref sig .tc .vmem S128x128 .f32) (harg10 : arg10.IsWhole) (arg11 : Memref sig .tc .vmem S128 .f32) (harg11 : arg11.IsWhole) (arg12 : Memref sig .tc .vmem S1x1x128 .f32) (harg12 : arg12.IsWhole) (arg13 : Memref sig .tc .vmem S1x1x128 .f32) (harg13 : arg13.IsWhole) (arg14 : Memref sig .tc .vmem S1024x128 .f32) (harg14 : arg14.IsWhole) (arg15 : Memref sig .tc .vmem S1024x128 .f32) (harg15 : arg15.IsWhole) (arg16 : Memref sig .tc .vmem S12x1024x128 .f32) (harg16 : arg16.IsWhole) (hc0 : isFirst i) (hc1 : ¬isLast i)
    (x0 : Vec F S1024x640 .f32) (x1 : Vec F S1x1024x640 .f32) (x2 : Vec F S640x128 .f32) (x3 : Vec F S128 .f32) (x4 : Vec F S128x128 .f32) (x5 : Vec F S128 .f32) (x6 : Vec F S640x128 .f32) (x7 : Vec F S128 .f32) (x8 : Vec F S128x128 .f32) (x9 : Vec F S128 .f32) (xs2 : Vec F S12x1024x128 .f32) :
    Σ' (LG : List (View.Piece (Elt F) S1024x128 .f32)) (LSum : List (View.Piece (Elt F) S1024x128 .f32)), { LStash : List (View.Piece (Elt F) S12x1024x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ owns (c : Thread nD τ) arg16 fullShare xs2
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ (∃ d, owns (c : Thread nD τ) arg12 fullShare d) ∗ (∃ d, owns (c : Thread nD τ) arg13 fullShare d) ∗ (∃ f, arg14.view.loc (c : Thread nD τ) ↦[arg14.view.set]{fullShare} arg14.view.writes (Elt F) f LG) ∗ (∃ f, arg15.view.loc (c : Thread nD τ) ↦[arg15.view.set]{fullShare} arg15.view.writes (Elt F) f LSum) ∗ (arg16.view.loc (c : Thread nD τ) ↦[arg16.view.set]{fullShare} arg16.view.writes (Elt F) (harg16.unread xs2) LStash)) -∗ K ⟨⟩))
          ⊢ wp frame (wpE (defs₀ (F := F)) Variants.none c none) E (cc0__kernel i arg2 harg2 arg3 harg3 arg4 harg4 arg5 harg5 arg6 harg6 arg7 harg7 arg8 harg8 arg9 harg9 arg10 harg10 arg11 harg11 arg12 harg12 arg13 harg13 arg14 harg14 arg15 harg15 arg16 harg16) K } := by
  refine ⟨?_, ?_, ?_, fun E K => ?run⟩
  case run =>
    simp only [cc0__kernel_eq_skeleton]; unfold cc0__kernel_skel
    simp only [k0_part14_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%d11, %f11, -, H11⟩, ⟨%ds0, %fs0, -, HS0⟩, ⟨%ds1, %fs1, -, HS1⟩, ⟨%fs2, %hfs2, HS2⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg16.eq_unread hfs2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _, _; isplitr; swap; · iexact H10
      ipureintro; rfl
    isplitl [H11]
    · iexists _, _; isplitr; swap; · iexact H11
      ipureintro; rfl
    isplitl [HS0]; · iexists _; iexact HS0
    isplitl [HS1]; · iexists _; iexact HS1
    iexact HS2

end Cert.KernelIdeal.Hand

end
-- ==== Proof.IdealRunMid.lean ====
/-
  The body at a patch that is neither a tile's first nor its last, run symbolically.

  The embedded global rows (first scratch buffer, contents `xs0`) are not touched; the running sum (second scratch
  buffer, contents `xs1`) is overwritten whole by the pieces `LSum` (the sum plus this patch's embedded rows); one
  slice of the stash (contents `xs2`) is overwritten by `LStash`; the two output blocks are left as found.
-/
import proofs.«133262_j27453430956191_2_alg».proof.Proof.IdealRunFirst

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 1000000 in
noncomputable def runMid (c : Dev nD) (i : grid0.Coords) (arg2 : Memref sig .tc .vmem S1024x640 .f32) (harg2 : arg2.IsWhole) (arg3 : Memref sig .tc .vmem S1x1024x640 .f32) (harg3 : arg3.IsWhole) (arg4 : Memref sig .tc .vmem S640x128 .f32) (harg4 : arg4.IsWhole) (arg5 : Memref sig .tc .vmem S128 .f32) (harg5 : arg5.IsWhole) (arg6 : Memref sig .tc .vmem S128x128 .f32) (harg6 : arg6.IsWhole) (arg7 : Memref sig .tc .vmem S128 .f32) (harg7 : arg7.IsWhole) (arg8 : Memref sig .tc .vmem S640x128 .f32) (harg8 : arg8.IsWhole) (arg9 : Memref sig .tc .vmem S128 .f32) (harg9 : arg9.IsWhole) (arg10 : Memref sig .tc .vmem S128x128 .f32) (harg10 : arg10.IsWhole) (arg11 : Memref sig .tc .vmem S128 .f32) (harg11 : arg11.IsWhole) (arg12 : Memref sig .tc .vmem S1x1x128 .f32) (harg12 : arg12.IsWhole) (arg13 : Memref sig .tc .vmem S1x1x128 .f32) (harg13 : arg13.IsWhole) (arg14 : Memref sig .tc .vmem S1024x128 .f32) (harg14 : arg14.IsWhole) (arg15 : Memref sig .tc .vmem S1024x128 .f32) (harg15 : arg15.IsWhole) (arg16 : Memref sig .tc .vmem S12x1024x128 .f32) (harg16 : arg16.IsWhole) (hc0 : ¬isFirst i) (hc1 : ¬isLast i)
    (x0 : Vec F S1024x640 .f32) (x1 : Vec F S1x1024x640 .f32) (x2 : Vec F S640x128 .f32) (x3 : Vec F S128 .f32) (x4 : Vec F S128x128 .f32) (x5 : Vec F S128 .f32) (x6 : Vec F S640x128 .f32) (x7 : Vec F S128 .f32) (x8 : Vec F S128x128 .f32) (x9 : Vec F S128 .f32) (xs0 : Vec F S1024x128 .f32) (xs1 : Vec F S1024x128 .f32) (xs2 : Vec F S12x1024x128 .f32) :
    Σ' (LSum : List (View.Piece (Elt F) S1024x128 .f32)), { LStash : List (View.Piece (Elt F) S12x1024x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ (∃ d, owns (c : Thread nD τ) arg12 fullShare d) ∗ (∃ d, owns (c : Thread nD τ) arg13 fullShare d) ∗ owns (c : Thread nD τ) arg14 fullShare xs0 ∗ owns (c : Thread nD τ) arg15 fullShare xs1 ∗ owns (c : Thread nD τ) arg16 fullShare xs2
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ (∃ d, owns (c : Thread nD τ) arg12 fullShare d) ∗ (∃ d, owns (c : Thread nD τ) arg13 fullShare d) ∗ owns (c : Thread nD τ) arg14 fullShare xs0 ∗ (∃ f, arg15.view.loc (c : Thread nD τ) ↦[arg15.view.set]{fullShare} arg15.view.writes (Elt F) f LSum) ∗ (arg16.view.loc (c : Thread nD τ) ↦[arg16.view.set]{fullShare} arg16.view.writes (Elt F) (harg16.unread xs2) LStash)) -∗ K ⟨⟩))
          ⊢ wp frame (wpE (defs₀ (F := F)) Variants.none c none) E (cc0__kernel i arg2 harg2 arg3 harg3 arg4 harg4 arg5 harg5 arg6 harg6 arg7 harg7 arg8 harg8 arg9 harg9 arg10 harg10 arg11 harg11 arg12 harg12 arg13 harg13 arg14 harg14 arg15 harg15 arg16 harg16) K } := by
  refine ⟨?_, ?_, fun E K => ?run⟩
  case run =>
    simp only [cc0__kernel_eq_skeleton]; unfold cc0__kernel_skel
    simp only [k0_part14_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%d11, %f11, -, H11⟩, ⟨%fs0, %hfs0, HS0⟩, ⟨%fs1, %hfs1, HS1⟩, ⟨%fs2, %hfs2, HS2⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg14.eq_unread hfs0; obtain rfl := harg15.eq_unread hfs1; obtain rfl := harg16.eq_unread hfs2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _, _; isplitr; swap; · iexact H10
      ipureintro; rfl
    isplitl [H11]
    · iexists _, _; isplitr; swap; · iexact H11
      ipureintro; rfl
    isplitl [HS0]
    · iexists _; isplitr; · ipureintro; exact harg14.read_unread _
      iexact HS0
    isplitl [HS1]; · iexists _; iexact HS1
    iexact HS2

end Cert.KernelIdeal.Hand

end
-- ==== Proof.IdealRunLast.lean ====
/-
  The body at a tile's LAST patch, run symbolically.

  As at a middle patch the running sum is overwritten (`LSum`) and one slice of the stash written (`LStash`); then the
  tile's two partial losses are computed from the embedded global rows (`xs0`), the completed sum and the twelve
  slices of the stash, and stored whole into the two output blocks (pieces `L10`, `L11`).
-/
import proofs.«133262_j27453430956191_2_alg».proof.Proof.IdealRunMid

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 1000000 in
noncomputable def runLast (c : Dev nD) (i : grid0.Coords) (arg2 : Memref sig .tc .vmem S1024x640 .f32) (harg2 : arg2.IsWhole) (arg3 : Memref sig .tc .vmem S1x1024x640 .f32) (harg3 : arg3.IsWhole) (arg4 : Memref sig .tc .vmem S640x128 .f32) (harg4 : arg4.IsWhole) (arg5 : Memref sig .tc .vmem S128 .f32) (harg5 : arg5.IsWhole) (arg6 : Memref sig .tc .vmem S128x128 .f32) (harg6 : arg6.IsWhole) (arg7 : Memref sig .tc .vmem S128 .f32) (harg7 : arg7.IsWhole) (arg8 : Memref sig .tc .vmem S640x128 .f32) (harg8 : arg8.IsWhole) (arg9 : Memref sig .tc .vmem S128 .f32) (harg9 : arg9.IsWhole) (arg10 : Memref sig .tc .vmem S128x128 .f32) (harg10 : arg10.IsWhole) (arg11 : Memref sig .tc .vmem S128 .f32) (harg11 : arg11.IsWhole) (arg12 : Memref sig .tc .vmem S1x1x128 .f32) (harg12 : arg12.IsWhole) (arg13 : Memref sig .tc .vmem S1x1x128 .f32) (harg13 : arg13.IsWhole) (arg14 : Memref sig .tc .vmem S1024x128 .f32) (harg14 : arg14.IsWhole) (arg15 : Memref sig .tc .vmem S1024x128 .f32) (harg15 : arg15.IsWhole) (arg16 : Memref sig .tc .vmem S12x1024x128 .f32) (harg16 : arg16.IsWhole) (hc0 : ¬isFirst i) (hc1 : isLast i)
    (x0 : Vec F S1024x640 .f32) (x1 : Vec F S1x1024x640 .f32) (x2 : Vec F S640x128 .f32) (x3 : Vec F S128 .f32) (x4 : Vec F S128x128 .f32) (x5 : Vec F S128 .f32) (x6 : Vec F S640x128 .f32) (x7 : Vec F S128 .f32) (x8 : Vec F S128x128 .f32) (x9 : Vec F S128 .f32) (xs0 : Vec F S1024x128 .f32) (xs1 : Vec F S1024x128 .f32) (xs2 : Vec F S12x1024x128 .f32) :
    Σ' (L10 : List (View.Piece (Elt F) S1x1x128 .f32)) (L11 : List (View.Piece (Elt F) S1x1x128 .f32)) (LSum : List (View.Piece (Elt F) S1024x128 .f32)), { LStash : List (View.Piece (Elt F) S12x1024x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ (∃ d, owns (c : Thread nD τ) arg12 fullShare d) ∗ (∃ d, owns (c : Thread nD τ) arg13 fullShare d) ∗ owns (c : Thread nD τ) arg14 fullShare xs0 ∗ owns (c : Thread nD τ) arg15 fullShare xs1 ∗ owns (c : Thread nD τ) arg16 fullShare xs2
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ (∃ f, arg12.view.loc (c : Thread nD τ) ↦[arg12.view.set]{fullShare} arg12.view.writes (Elt F) f L10) ∗ (∃ f, arg13.view.loc (c : Thread nD τ) ↦[arg13.view.set]{fullShare} arg13.view.writes (Elt F) f L11) ∗ owns (c : Thread nD τ) arg14 fullShare xs0 ∗ (∃ f, arg15.view.loc (c : Thread nD τ) ↦[arg15.view.set]{fullShare} arg15.view.writes (Elt F) f LSum) ∗ (arg16.view.loc (c : Thread nD τ) ↦[arg16.view.set]{fullShare} arg16.view.writes (Elt F) (harg16.unread xs2) LStash)) -∗ K ⟨⟩))
          ⊢ wp frame (wpE (defs₀ (F := F)) Variants.none c none) E (cc0__kernel i arg2 harg2 arg3 harg3 arg4 harg4 arg5 harg5 arg6 harg6 arg7 harg7 arg8 harg8 arg9 harg9 arg10 harg10 arg11 harg11 arg12 harg12 arg13 harg13 arg14 harg14 arg15 harg15 arg16 harg16) K } := by
  refine ⟨?_, ?_, ?_, ?_, fun E K => ?run⟩
  case run =>
    simp only [cc0__kernel_eq_skeleton]; unfold cc0__kernel_skel
    simp only [k0_part14_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%d11, %f11, -, H11⟩, ⟨%fs0, %hfs0, HS0⟩, ⟨%fs1, %hfs1, HS1⟩, ⟨%fs2, %hfs2, HS2⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg14.eq_unread hfs0; obtain rfl := harg15.eq_unread hfs1; obtain rfl := harg16.eq_unread hfs2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]; · iexists _; iexact H10
    isplitl [H11]; · iexists _; iexact H11
    isplitl [HS0]
    · iexists _; isplitr; · ipureintro; exact harg14.read_unread _
      iexact HS0
    isplitl [HS1]; · iexists _; iexact HS1
    iexact HS2

end Cert.KernelIdeal.Hand

end
-- ==== Proof.IdealPieces.lean ====
/-
  What the three symbolic runs found, as closed forms over the body's arithmetic.

  Each run left, per buffer, a list of pieces (rectangle, payload). Read back, a list that covers its buffer is one
  function of the body's loads, and every load of a whole staging buffer reads that buffer's contents: the embedded
  global tile `k0_pay30`; the running sum `k0_pay1 (k0_pay34 … previous)` (previous = the zero fill at a tile's first
  patch); the one stash slice `k0_pay33` written at the patch's own slot; and, at a tile's last patch, the two partial
  losses broadcast over the lanes.
-/
import proofs.«133262_j27453430956191_2_alg».proof.Proof.IdealRunLast
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

theorem hz1 : (![0] : Fin 1 → ℕ) = fun _ => 0 := by funext a; fin_cases a; rfl
theorem hz2 : (![0, 0] : Fin 2 → ℕ) = fun _ => 0 := by funext a; fin_cases a <;> rfl
theorem hz3 : (![0, 0, 0] : Fin 3 → ℕ) = fun _ => 0 := by funext a; fin_cases a <;> rfl

/-- The slice of the stash the body writes at grid coordinates `i`: slot `i 1`, all rows, all lanes. -/
abbrev slotRect (i : grid0.Coords) : Rect S12x1024x128 := Rect.unit (k0_off1 i) S1x1024x128.size (k0_off1_inb i)

/-- The patch's embedded rows as the sum update and the stash see them. -/
abbrev sumNext (x1 : Vec F S1x1024x640 .f32) (x6 : Vec F S640x128 .f32) (x7 : Vec F S128 .f32) (x8 : Vec F S128x128 .f32)
    (x9 : Vec F S128 .f32) (prev : Vec F S1024x128 .f32) : Vec F S1024x128 .f32 :=
  k0_pay1 (k0_pay34 x1 x6 x7 x8 x9 prev)

/-- One write through a rectangle, read back: the rectangle's part replaced by the payload. -/
theorem read_writes_one {sig' : RefSig} {κ' : Kind} {sp' : Space} {s : Shape} (v : View sig' κ' sp' s .f32)
    (f : v.ty.Contents (Elt F)) (r : Rect s) (w : r.shape.Idx → Elt F .f32) :
    v.read (Elt F) (v.writes (Elt F) f [⟨r, w⟩]) = r.overlay (v.read (Elt F) f) w := by
  funext y
  by_cases hy : y ∈ r.set
  · obtain ⟨x, rfl⟩ := r.exists_idx_of_mem hy
    rw [show r.idx x = r.emb x from rfl, View.read_writes_cons_emb]; exact (r.overlay_emb _ _ x).symm
  · rw [View.writes_singleton, View.read_slice_write_of_not_mem r _ _ _ (by rwa [Rect.map_emb_univ]),
      r.overlay_of_not_mem _ _ hy]

/-! ## A tile's first patch -/

theorem first_G (c : Dev nD) (i : grid0.Coords) (arg2 : Memref sig .tc .vmem S1024x640 .f32) (harg2 : arg2.IsWhole) (arg3 : Memref sig .tc .vmem S1x1024x640 .f32) (harg3 : arg3.IsWhole) (arg4 : Memref sig .tc .vmem S640x128 .f32) (harg4 : arg4.IsWhole) (arg5 : Memref sig .tc .vmem S128 .f32) (harg5 : arg5.IsWhole) (arg6 : Memref sig .tc .vmem S128x128 .f32) (harg6 : arg6.IsWhole) (arg7 : Memref sig .tc .vmem S128 .f32) (harg7 : arg7.IsWhole) (arg8 : Memref sig .tc .vmem S640x128 .f32) (harg8 : arg8.IsWhole) (arg9 : Memref sig .tc .vmem S128 .f32) (harg9 : arg9.IsWhole) (arg10 : Memref sig .tc .vmem S128x128 .f32) (harg10 : arg10.IsWhole) (arg11 : Memref sig .tc .vmem S128 .f32) (harg11 : arg11.IsWhole) (arg12 : Memref sig .tc .vmem S1x1x128 .f32) (harg12 : arg12.IsWhole) (arg13 : Memref sig .tc .vmem S1x1x128 .f32) (harg13 : arg13.IsWhole) (arg14 : Memref sig .tc .vmem S1024x128 .f32) (harg14 : arg14.IsWhole) (arg15 : Memref sig .tc .vmem S1024x128 .f32) (harg15 : arg15.IsWhole) (arg16 : Memref sig .tc .vmem S12x1024x128 .f32) (harg16 : arg16.IsWhole) (hc0 : isFirst i) (hc1 : ¬isLast i) (x0 : Vec F S1024x640 .f32) (x1 : Vec F S1x1024x640 .f32) (x2 : Vec F S640x128 .f32) (x3 : Vec F S128 .f32) (x4 : Vec F S128x128 .f32) (x5 : Vec F S128 .f32) (x6 : Vec F S640x128 .f32) (x7 : Vec F S128 .f32) (x8 : Vec F S128x128 .f32) (x9 : Vec F S128 .f32) (xs2 : Vec F S12x1024x128 .f32) {sig' : RefSig} {κ' : Kind} {sp' : Space} (v : View sig' κ' sp' S1024x128 .f32) (f : v.ty.Contents (Elt F)) :
    v.read (Elt F) (v.writes (Elt F) f (runFirst c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9 xs2).1) = k0_pay30 x0 x2 x3 x4 x5 := by
  rw [View.read_writes_eq_canon _ _ _ (fun y => View.cover_of_tiledL _ S1024x128.size (by sl_kernel_rfl) y)]
  unfold runFirst; dsimp only; sl_unfold_words
  rw [View.canon_unit_zero hz2]
  simp only [View.readAt_eq_ld, harg2.read_unread, harg3.read_unread, harg4.read_unread, harg5.read_unread, harg6.read_unread, harg7.read_unread, harg8.read_unread, harg9.read_unread, harg10.read_unread, harg11.read_unread, harg14.read_unread, harg15.read_unread, harg16.read_unread, View.ld_unit_zero (S := S1024x640) hz2, View.ld_unit_zero (S := S640x128) hz2, View.ld_unit_zero (S := S128x128) hz2, View.ld_unit_zero (S := S128) hz1, View.ld_unit_zero (S := S1x1024x640) hz3, View.ld_unit_zero (S := S1024x128) hz2, View.readCov_unit_zero (S := S1024x128) _ hz2]

theorem first_Sum (c : Dev nD) (i : grid0.Coords) (arg2 : Memref sig .tc .vmem S1024x640 .f32) (harg2 : arg2.IsWhole) (arg3 : Memref sig .tc .vmem S1x1024x640 .f32) (harg3 : arg3.IsWhole) (arg4 : Memref sig .tc .vmem S640x128 .f32) (harg4 : arg4.IsWhole) (arg5 : Memref sig .tc .vmem S128 .f32) (harg5 : arg5.IsWhole) (arg6 : Memref sig .tc .vmem S128x128 .f32) (harg6 : arg6.IsWhole) (arg7 : Memref sig .tc .vmem S128 .f32) (harg7 : arg7.IsWhole) (arg8 : Memref sig .tc .vmem S640x128 .f32) (harg8 : arg8.IsWhole) (arg9 : Memref sig .tc .vmem S128 .f32) (harg9 : arg9.IsWhole) (arg10 : Memref sig .tc .vmem S128x128 .f32) (harg10 : arg10.IsWhole) (arg11 : Memref sig .tc .vmem S128 .f32) (harg11 : arg11.IsWhole) (arg12 : Memref sig .tc .vmem S1x1x128 .f32) (harg12 : arg12.IsWhole) (arg13 : Memref sig .tc .vmem S1x1x128 .f32) (harg13 : arg13.IsWhole) (arg14 : Memref sig .tc .vmem S1024x128 .f32) (harg14 : arg14.IsWhole) (arg15 : Memref sig .tc .vmem S1024x128 .f32) (harg15 : arg15.IsWhole) (arg16 : Memref sig .tc .vmem S12x1024x128 .f32) (harg16 : arg16.IsWhole) (hc0 : isFirst i) (hc1 : ¬isLast i) (x0 : Vec F S1024x640 .f32) (x1 : Vec F S1x1024x640 .f32) (x2 : Vec F S640x128 .f32) (x3 : Vec F S128 .f32) (x4 : Vec F S128x128 .f32) (x5 : Vec F S128 .f32) (x6 : Vec F S640x128 .f32) (x7 : Vec F S128 .f32) (x8 : Vec F S128x128 .f32) (x9 : Vec F S128 .f32) (xs2 : Vec F S12x1024x128 .f32) {sig' : RefSig} {κ' : Kind} {sp' : Space} (v : View sig' κ' sp' S1024x128 .f32) (f : v.ty.Contents (Elt F)) :
    v.read (Elt F) (v.writes (Elt F) f (runFirst c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9 xs2).2.1) = sumNext x1 x6 x7 x8 x9 k0_pay31 := by
  rw [View.read_writes_eq_canon _ _ _ (fun y => View.cover_of_tiledL _ S1024x128.size (by sl_kernel_rfl) y)]
  unfold runFirst; dsimp only; sl_unfold_words
  rw [View.canon_cons_unit_zero hz2]
  simp only [View.readAt_eq_ld, harg2.read_unread, harg3.read_unread, harg4.read_unread, harg5.read_unread, harg6.read_unread, harg7.read_unread, harg8.read_unread, harg9.read_unread, harg10.read_unread, harg11.read_unread, harg14.read_unread, harg15.read_unread, harg16.read_unread, View.ld_unit_zero (S := S1024x640) hz2, View.ld_unit_zero (S := S640x128) hz2, View.ld_unit_zero (S := S128x128) hz2, View.ld_unit_zero (S := S128) hz1, View.ld_unit_zero (S := S1x1024x640) hz3, View.ld_unit_zero (S := S1024x128) hz2, View.readCov_unit_zero (S := S1024x128) _ hz2]

theorem first_Stash (c : Dev nD) (i : grid0.Coords) (arg2 : Memref sig .tc .vmem S1024x640 .f32) (harg2 : arg2.IsWhole) (arg3 : Memref sig .tc .vmem S1x1024x640 .f32) (harg3 : arg3.IsWhole) (arg4 : Memref sig .tc .vmem S640x128 .f32) (harg4 : arg4.IsWhole) (arg5 : Memref sig .tc .vmem S128 .f32) (harg5 : arg5.IsWhole) (arg6 : Memref sig .tc .vmem S128x128 .f32) (harg6 : arg6.IsWhole) (arg7 : Memref sig .tc .vmem S128 .f32) (harg7 : arg7.IsWhole) (arg8 : Memref sig .tc .vmem S640x128 .f32) (harg8 : arg8.IsWhole) (arg9 : Memref sig .tc .vmem S128 .f32) (harg9 : arg9.IsWhole) (arg10 : Memref sig .tc .vmem S128x128 .f32) (harg10 : arg10.IsWhole) (arg11 : Memref sig .tc .vmem S128 .f32) (harg11 : arg11.IsWhole) (arg12 : Memref sig .tc .vmem S1x1x128 .f32) (harg12 : arg12.IsWhole) (arg13 : Memref sig .tc .vmem S1x1x128 .f32) (harg13 : arg13.IsWhole) (arg14 : Memref sig .tc .vmem S1024x128 .f32) (harg14 : arg14.IsWhole) (arg15 : Memref sig .tc .vmem S1024x128 .f32) (harg15 : arg15.IsWhole) (arg16 : Memref sig .tc .vmem S12x1024x128 .f32) (harg16 : arg16.IsWhole) (hc0 : isFirst i) (hc1 : ¬isLast i) (x0 : Vec F S1024x640 .f32) (x1 : Vec F S1x1024x640 .f32) (x2 : Vec F S640x128 .f32) (x3 : Vec F S128 .f32) (x4 : Vec F S128x128 .f32) (x5 : Vec F S128 .f32) (x6 : Vec F S640x128 .f32) (x7 : Vec F S128 .f32) (x8 : Vec F S128x128 .f32) (x9 : Vec F S128 .f32) (xs2 : Vec F S12x1024x128 .f32) :
    (runFirst c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9 xs2).2.2.1 = [⟨slotRect i, k0_pay33 x1 x6 x7 x8 x9⟩] := by
  unfold runFirst; dsimp only; sl_unfold_words
  simp only [View.readAt_eq_ld, harg2.read_unread, harg3.read_unread, harg4.read_unread, harg5.read_unread, harg6.read_unread, harg7.read_unread, harg8.read_unread, harg9.read_unread, harg10.read_unread, harg11.read_unread, harg14.read_unread, harg15.read_unread, harg16.read_unread, View.ld_unit_zero (S := S1024x640) hz2, View.ld_unit_zero (S := S640x128) hz2, View.ld_unit_zero (S := S128x128) hz2, View.ld_unit_zero (S := S128) hz1, View.ld_unit_zero (S := S1x1024x640) hz3, View.ld_unit_zero (S := S1024x128) hz2, View.readCov_unit_zero (S := S1024x128) _ hz2]
  rfl

/-! ## A middle patch -/

theorem mid_Sum (c : Dev nD) (i : grid0.Coords) (arg2 : Memref sig .tc .vmem S1024x640 .f32) (harg2 : arg2.IsWhole) (arg3 : Memref sig .tc .vmem S1x1024x640 .f32) (harg3 : arg3.IsWhole) (arg4 : Memref sig .tc .vmem S640x128 .f32) (harg4 : arg4.IsWhole) (arg5 : Memref sig .tc .vmem S128 .f32) (harg5 : arg5.IsWhole) (arg6 : Memref sig .tc .vmem S128x128 .f32) (harg6 : arg6.IsWhole) (arg7 : Memref sig .tc .vmem S128 .f32) (harg7 : arg7.IsWhole) (arg8 : Memref sig .tc .vmem S640x128 .f32) (harg8 : arg8.IsWhole) (arg9 : Memref sig .tc .vmem S128 .f32) (harg9 : arg9.IsWhole) (arg10 : Memref sig .tc .vmem S128x128 .f32) (harg10 : arg10.IsWhole) (arg11 : Memref sig .tc .vmem S128 .f32) (harg11 : arg11.IsWhole) (arg12 : Memref sig .tc .vmem S1x1x128 .f32) (harg12 : arg12.IsWhole) (arg13 : Memref sig .tc .vmem S1x1x128 .f32) (harg13 : arg13.IsWhole) (arg14 : Memref sig .tc .vmem S1024x128 .f32) (harg14 : arg14.IsWhole) (arg15 : Memref sig .tc .vmem S1024x128 .f32) (harg15 : arg15.IsWhole) (arg16 : Memref sig .tc .vmem S12x1024x128 .f32) (harg16 : arg16.IsWhole) (hc0 : ¬isFirst i) (hc1 : ¬isLast i) (x0 : Vec F S1024x640 .f32) (x1 : Vec F S1x1024x640 .f32) (x2 : Vec F S640x128 .f32) (x3 : Vec F S128 .f32) (x4 : Vec F S128x128 .f32) (x5 : Vec F S128 .f32) (x6 : Vec F S640x128 .f32) (x7 : Vec F S128 .f32) (x8 : Vec F S128x128 .f32) (x9 : Vec F S128 .f32) (xs0 : Vec F S1024x128 .f32) (xs1 : Vec F S1024x128 .f32) (xs2 : Vec F S12x1024x128 .f32) {sig' : RefSig} {κ' : Kind} {sp' : Space} (v : View sig' κ' sp' S1024x128 .f32) (f : v.ty.Contents (Elt F)) :
    v.read (Elt F) (v.writes (Elt F) f (runMid c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9 xs0 xs1 xs2).1) = sumNext x1 x6 x7 x8 x9 xs1 := by
  rw [View.read_writes_eq_canon _ _ _ (fun y => View.cover_of_tiledL _ S1024x128.size (by sl_kernel_rfl) y)]
  unfold runMid; dsimp only; sl_unfold_words
  rw [View.canon_unit_zero hz2]
  simp only [View.readAt_eq_ld, harg2.read_unread, harg3.read_unread, harg4.read_unread, harg5.read_unread, harg6.read_unread, harg7.read_unread, harg8.read_unread, harg9.read_unread, harg10.read_unread, harg11.read_unread, harg14.read_unread, harg15.read_unread, harg16.read_unread, View.ld_unit_zero (S := S1024x640) hz2, View.ld_unit_zero (S := S640x128) hz2, View.ld_unit_zero (S := S128x128) hz2, View.ld_unit_zero (S := S128) hz1, View.ld_unit_zero (S := S1x1024x640) hz3, View.ld_unit_zero (S := S1024x128) hz2, View.readCov_unit_zero (S := S1024x128) _ hz2]

theorem mid_Stash (c : Dev nD) (i : grid0.Coords) (arg2 : Memref sig .tc .vmem S1024x640 .f32) (harg2 : arg2.IsWhole) (arg3 : Memref sig .tc .vmem S1x1024x640 .f32) (harg3 : arg3.IsWhole) (arg4 : Memref sig .tc .vmem S640x128 .f32) (harg4 : arg4.IsWhole) (arg5 : Memref sig .tc .vmem S128 .f32) (harg5 : arg5.IsWhole) (arg6 : Memref sig .tc .vmem S128x128 .f32) (harg6 : arg6.IsWhole) (arg7 : Memref sig .tc .vmem S128 .f32) (harg7 : arg7.IsWhole) (arg8 : Memref sig .tc .vmem S640x128 .f32) (harg8 : arg8.IsWhole) (arg9 : Memref sig .tc .vmem S128 .f32) (harg9 : arg9.IsWhole) (arg10 : Memref sig .tc .vmem S128x128 .f32) (harg10 : arg10.IsWhole) (arg11 : Memref sig .tc .vmem S128 .f32) (harg11 : arg11.IsWhole) (arg12 : Memref sig .tc .vmem S1x1x128 .f32) (harg12 : arg12.IsWhole) (arg13 : Memref sig .tc .vmem S1x1x128 .f32) (harg13 : arg13.IsWhole) (arg14 : Memref sig .tc .vmem S1024x128 .f32) (harg14 : arg14.IsWhole) (arg15 : Memref sig .tc .vmem S1024x128 .f32) (harg15 : arg15.IsWhole) (arg16 : Memref sig .tc .vmem S12x1024x128 .f32) (harg16 : arg16.IsWhole) (hc0 : ¬isFirst i) (hc1 : ¬isLast i) (x0 : Vec F S1024x640 .f32) (x1 : Vec F S1x1024x640 .f32) (x2 : Vec F S640x128 .f32) (x3 : Vec F S128 .f32) (x4 : Vec F S128x128 .f32) (x5 : Vec F S128 .f32) (x6 : Vec F S640x128 .f32) (x7 : Vec F S128 .f32) (x8 : Vec F S128x128 .f32) (x9 : Vec F S128 .f32) (xs0 : Vec F S1024x128 .f32) (xs1 : Vec F S1024x128 .f32) (xs2 : Vec F S12x1024x128 .f32) :
    (runMid c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9 xs0 xs1 xs2).2.1 = [⟨slotRect i, k0_pay33 x1 x6 x7 x8 x9⟩] := by
  unfold runMid; dsimp only; sl_unfold_words
  simp only [View.readAt_eq_ld, harg2.read_unread, harg3.read_unread, harg4.read_unread, harg5.read_unread, harg6.read_unread, harg7.read_unread, harg8.read_unread, harg9.read_unread, harg10.read_unread, harg11.read_unread, harg14.read_unread, harg15.read_unread, harg16.read_unread, View.ld_unit_zero (S := S1024x640) hz2, View.ld_unit_zero (S := S640x128) hz2, View.ld_unit_zero (S := S128x128) hz2, View.ld_unit_zero (S := S128) hz1, View.ld_unit_zero (S := S1x1024x640) hz3, View.ld_unit_zero (S := S1024x128) hz2, View.readCov_unit_zero (S := S1024x128) _ hz2]
  rfl

/-! ## A tile's last patch -/

/-- The tile's `dcl` partial, broadcast over the lanes: the twelve per-patch terms accumulated from zero in patch
    order, over the mean rows `k0_pay4 s`, the global rows `g` and the twelve stash slices `s0 … s11`. -/
def dclChain (s g : Vec F S1024x128 .f32) (s0 s1 s2 s3 s4 s5 s6 s7 s8 s9 s10 s11 : Vec F S1x1024x128 .f32) : FVec F S1x1x128 .f32 :=
  k0_pay3 (k0_pay28 (k0_pay26 (k0_pay24 (k0_pay22 (k0_pay20 (k0_pay18 (k0_pay16 (k0_pay14 (k0_pay12 (k0_pay10 (k0_pay8 (k0_pay6 (FloatOps.ofBits .f32 0#32)) (k0_pay7 (k0_pay4 s) g s0)) (k0_pay9 (k0_pay4 s) g s1)) (k0_pay11 (k0_pay4 s) g s2)) (k0_pay13 (k0_pay4 s) g s3)) (k0_pay15 (k0_pay4 s) g s4)) (k0_pay17 (k0_pay4 s) g s5)) (k0_pay19 (k0_pay4 s) g s6)) (k0_pay21 (k0_pay4 s) g s7)) (k0_pay23 (k0_pay4 s) g s8)) (k0_pay25 (k0_pay4 s) g s9)) (k0_pay27 (k0_pay4 s) g s10)) (k0_pay29 (k0_pay4 s) g s11)

/-- The tile's `dil` partial, broadcast over the lanes. -/
def dilOf (s g : Vec F S1024x128 .f32) : FVec F S1x1x128 .f32 := k0_pay2 (k0_pay5 s g)

theorem last_Dil (c : Dev nD) (i : grid0.Coords) (arg2 : Memref sig .tc .vmem S1024x640 .f32) (harg2 : arg2.IsWhole) (arg3 : Memref sig .tc .vmem S1x1024x640 .f32) (harg3 : arg3.IsWhole) (arg4 : Memref sig .tc .vmem S640x128 .f32) (harg4 : arg4.IsWhole) (arg5 : Memref sig .tc .vmem S128 .f32) (harg5 : arg5.IsWhole) (arg6 : Memref sig .tc .vmem S128x128 .f32) (harg6 : arg6.IsWhole) (arg7 : Memref sig .tc .vmem S128 .f32) (harg7 : arg7.IsWhole) (arg8 : Memref sig .tc .vmem S640x128 .f32) (harg8 : arg8.IsWhole) (arg9 : Memref sig .tc .vmem S128 .f32) (harg9 : arg9.IsWhole) (arg10 : Memref sig .tc .vmem S128x128 .f32) (harg10 : arg10.IsWhole) (arg11 : Memref sig .tc .vmem S128 .f32) (harg11 : arg11.IsWhole) (arg12 : Memref sig .tc .vmem S1x1x128 .f32) (harg12 : arg12.IsWhole) (arg13 : Memref sig .tc .vmem S1x1x128 .f32) (harg13 : arg13.IsWhole) (arg14 : Memref sig .tc .vmem S1024x128 .f32) (harg14 : arg14.IsWhole) (arg15 : Memref sig .tc .vmem S1024x128 .f32) (harg15 : arg15.IsWhole) (arg16 : Memref sig .tc .vmem S12x1024x128 .f32) (harg16 : arg16.IsWhole) (hc0 : ¬isFirst i) (hc1 : isLast i) (x0 : Vec F S1024x640 .f32) (x1 : Vec F S1x1024x640 .f32) (x2 : Vec F S640x128 .f32) (x3 : Vec F S128 .f32) (x4 : Vec F S128x128 .f32) (x5 : Vec F S128 .f32) (x6 : Vec F S640x128 .f32) (x7 : Vec F S128 .f32) (x8 : Vec F S128x128 .f32) (x9 : Vec F S128 .f32) (xs0 : Vec F S1024x128 .f32) (xs1 : Vec F S1024x128 .f32) (xs2 : Vec F S12x1024x128 .f32) {sig' : RefSig} {κ' : Kind} {sp' : Space} (v : View sig' κ' sp' S1x1x128 .f32) (f : v.ty.Contents (Elt F)) :
    v.read (Elt F) (v.writes (Elt F) f (runLast c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9 xs0 xs1 xs2).1) = dilOf (sumNext x1 x6 x7 x8 x9 xs1) xs0 := by
  rw [View.read_writes_eq_canon _ _ _ (fun y => View.cover_of_tiledL _ S1x1x128.size (by sl_kernel_rfl) y)]
  unfold runLast; dsimp only; sl_unfold_words
  rw [View.canon_unit_zero hz3]
  simp only [View.readAt_eq_ld, harg2.read_unread, harg3.read_unread, harg4.read_unread, harg5.read_unread, harg6.read_unread, harg7.read_unread, harg8.read_unread, harg9.read_unread, harg10.read_unread, harg11.read_unread, harg14.read_unread, harg15.read_unread, harg16.read_unread, View.ld_unit_zero (S := S1024x640) hz2, View.ld_unit_zero (S := S640x128) hz2, View.ld_unit_zero (S := S128x128) hz2, View.ld_unit_zero (S := S128) hz1, View.ld_unit_zero (S := S1x1024x640) hz3, View.ld_unit_zero (S := S1024x128) hz2, View.readCov_unit_zero (S := S1024x128) _ hz2]
  rfl

set_option maxHeartbeats 1600000 in
theorem last_Dcl (c : Dev nD) (i : grid0.Coords) (arg2 : Memref sig .tc .vmem S1024x640 .f32) (harg2 : arg2.IsWhole) (arg3 : Memref sig .tc .vmem S1x1024x640 .f32) (harg3 : arg3.IsWhole) (arg4 : Memref sig .tc .vmem S640x128 .f32) (harg4 : arg4.IsWhole) (arg5 : Memref sig .tc .vmem S128 .f32) (harg5 : arg5.IsWhole) (arg6 : Memref sig .tc .vmem S128x128 .f32) (harg6 : arg6.IsWhole) (arg7 : Memref sig .tc .vmem S128 .f32) (harg7 : arg7.IsWhole) (arg8 : Memref sig .tc .vmem S640x128 .f32) (harg8 : arg8.IsWhole) (arg9 : Memref sig .tc .vmem S128 .f32) (harg9 : arg9.IsWhole) (arg10 : Memref sig .tc .vmem S128x128 .f32) (harg10 : arg10.IsWhole) (arg11 : Memref sig .tc .vmem S128 .f32) (harg11 : arg11.IsWhole) (arg12 : Memref sig .tc .vmem S1x1x128 .f32) (harg12 : arg12.IsWhole) (arg13 : Memref sig .tc .vmem S1x1x128 .f32) (harg13 : arg13.IsWhole) (arg14 : Memref sig .tc .vmem S1024x128 .f32) (harg14 : arg14.IsWhole) (arg15 : Memref sig .tc .vmem S1024x128 .f32) (harg15 : arg15.IsWhole) (arg16 : Memref sig .tc .vmem S12x1024x128 .f32) (harg16 : arg16.IsWhole) (hc0 : ¬isFirst i) (hc1 : isLast i) (x0 : Vec F S1024x640 .f32) (x1 : Vec F S1x1024x640 .f32) (x2 : Vec F S640x128 .f32) (x3 : Vec F S128 .f32) (x4 : Vec F S128x128 .f32) (x5 : Vec F S128 .f32) (x6 : Vec F S640x128 .f32) (x7 : Vec F S128 .f32) (x8 : Vec F S128x128 .f32) (x9 : Vec F S128 .f32) (xs0 : Vec F S1024x128 .f32) (xs1 : Vec F S1024x128 .f32) (xs2 : Vec F S12x1024x128 .f32) {sig' : RefSig} {κ' : Kind} {sp' : Space} (v : View sig' κ' sp' S1x1x128 .f32) (f : v.ty.Contents (Elt F)) :
    v.read (Elt F) (v.writes (Elt F) f (runLast c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9 xs0 xs1 xs2).2.1)
      = dclChain (sumNext x1 x6 x7 x8 x9 xs1) xs0
          (View.ld ((slotRect i).overlay xs2 (k0_pay33 x1 x6 x7 x8 x9)) (Rect.unit (s := S12x1024x128) ![0, 0, 0] S1x1024x128.size inb_S12x1024x128_S1x1024x128_0_0_0))
          (View.ld ((slotRect i).overlay xs2 (k0_pay33 x1 x6 x7 x8 x9)) (Rect.unit (s := S12x1024x128) ![1, 0, 0] S1x1024x128.size inb_S12x1024x128_S1x1024x128_1_0_0))
          (View.ld ((slotRect i).overlay xs2 (k0_pay33 x1 x6 x7 x8 x9)) (Rect.unit (s := S12x1024x128) ![2, 0, 0] S1x1024x128.size inb_S12x1024x128_S1x1024x128_2_0_0))
          (View.ld ((slotRect i).overlay xs2 (k0_pay33 x1 x6 x7 x8 x9)) (Rect.unit (s := S12x1024x128) ![3, 0, 0] S1x1024x128.size inb_S12x1024x128_S1x1024x128_3_0_0))
          (View.ld ((slotRect i).overlay xs2 (k0_pay33 x1 x6 x7 x8 x9)) (Rect.unit (s := S12x1024x128) ![4, 0, 0] S1x1024x128.size inb_S12x1024x128_S1x1024x128_4_0_0))
          (View.ld ((slotRect i).overlay xs2 (k0_pay33 x1 x6 x7 x8 x9)) (Rect.unit (s := S12x1024x128) ![5, 0, 0] S1x1024x128.size inb_S12x1024x128_S1x1024x128_5_0_0))
          (View.ld ((slotRect i).overlay xs2 (k0_pay33 x1 x6 x7 x8 x9)) (Rect.unit (s := S12x1024x128) ![6, 0, 0] S1x1024x128.size inb_S12x1024x128_S1x1024x128_6_0_0))
          (View.ld ((slotRect i).overlay xs2 (k0_pay33 x1 x6 x7 x8 x9)) (Rect.unit (s := S12x1024x128) ![7, 0, 0] S1x1024x128.size inb_S12x1024x128_S1x1024x128_7_0_0))
          (View.ld ((slotRect i).overlay xs2 (k0_pay33 x1 x6 x7 x8 x9)) (Rect.unit (s := S12x1024x128) ![8, 0, 0] S1x1024x128.size inb_S12x1024x128_S1x1024x128_8_0_0))
          (View.ld ((slotRect i).overlay xs2 (k0_pay33 x1 x6 x7 x8 x9)) (Rect.unit (s := S12x1024x128) ![9, 0, 0] S1x1024x128.size inb_S12x1024x128_S1x1024x128_9_0_0))
          (View.ld ((slotRect i).overlay xs2 (k0_pay33 x1 x6 x7 x8 x9)) (Rect.unit (s := S12x1024x128) ![10, 0, 0] S1x1024x128.size inb_S12x1024x128_S1x1024x128_10_0_0))
          (View.ld ((slotRect i).overlay xs2 (k0_pay33 x1 x6 x7 x8 x9)) (Rect.unit (s := S12x1024x128) ![11, 0, 0] S1x1024x128.size inb_S12x1024x128_S1x1024x128_11_0_0)) := by
  rw [View.read_writes_eq_canon _ _ _ (fun y => View.cover_of_tiledL _ S1x1x128.size (by sl_kernel_rfl) y)]
  unfold runLast; dsimp only; sl_unfold_words
  rw [View.canon_unit_zero hz3]
  simp only [View.readAt_eq_ld, read_writes_one, harg2.read_unread, harg3.read_unread, harg4.read_unread, harg5.read_unread, harg6.read_unread, harg7.read_unread, harg8.read_unread, harg9.read_unread, harg10.read_unread, harg11.read_unread, harg14.read_unread, harg15.read_unread, harg16.read_unread, View.ld_unit_zero (S := S1024x640) hz2, View.ld_unit_zero (S := S640x128) hz2, View.ld_unit_zero (S := S128x128) hz2, View.ld_unit_zero (S := S128) hz1, View.ld_unit_zero (S := S1x1024x640) hz3, View.ld_unit_zero (S := S1024x128) hz2, View.readCov_unit_zero (S := S1024x128) _ hz2]
  unfold dclChain sumNext
  rfl

theorem last_Sum (c : Dev nD) (i : grid0.Coords) (arg2 : Memref sig .tc .vmem S1024x640 .f32) (harg2 : arg2.IsWhole) (arg3 : Memref sig .tc .vmem S1x1024x640 .f32) (harg3 : arg3.IsWhole) (arg4 : Memref sig .tc .vmem S640x128 .f32) (harg4 : arg4.IsWhole) (arg5 : Memref sig .tc .vmem S128 .f32) (harg5 : arg5.IsWhole) (arg6 : Memref sig .tc .vmem S128x128 .f32) (harg6 : arg6.IsWhole) (arg7 : Memref sig .tc .vmem S128 .f32) (harg7 : arg7.IsWhole) (arg8 : Memref sig .tc .vmem S640x128 .f32) (harg8 : arg8.IsWhole) (arg9 : Memref sig .tc .vmem S128 .f32) (harg9 : arg9.IsWhole) (arg10 : Memref sig .tc .vmem S128x128 .f32) (harg10 : arg10.IsWhole) (arg11 : Memref sig .tc .vmem S128 .f32) (harg11 : arg11.IsWhole) (arg12 : Memref sig .tc .vmem S1x1x128 .f32) (harg12 : arg12.IsWhole) (arg13 : Memref sig .tc .vmem S1x1x128 .f32) (harg13 : arg13.IsWhole) (arg14 : Memref sig .tc .vmem S1024x128 .f32) (harg14 : arg14.IsWhole) (arg15 : Memref sig .tc .vmem S1024x128 .f32) (harg15 : arg15.IsWhole) (arg16 : Memref sig .tc .vmem S12x1024x128 .f32) (harg16 : arg16.IsWhole) (hc0 : ¬isFirst i) (hc1 : isLast i) (x0 : Vec F S1024x640 .f32) (x1 : Vec F S1x1024x640 .f32) (x2 : Vec F S640x128 .f32) (x3 : Vec F S128 .f32) (x4 : Vec F S128x128 .f32) (x5 : Vec F S128 .f32) (x6 : Vec F S640x128 .f32) (x7 : Vec F S128 .f32) (x8 : Vec F S128x128 .f32) (x9 : Vec F S128 .f32) (xs0 : Vec F S1024x128 .f32) (xs1 : Vec F S1024x128 .f32) (xs2 : Vec F S12x1024x128 .f32) {sig' : RefSig} {κ' : Kind} {sp' : Space} (v : View sig' κ' sp' S1024x128 .f32) (f : v.ty.Contents (Elt F)) :
    v.read (Elt F) (v.writes (Elt F) f (runLast c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9 xs0 xs1 xs2).2.2.1) = sumNext x1 x6 x7 x8 x9 xs1 := by
  rw [View.read_writes_eq_canon _ _ _ (fun y => View.cover_of_tiledL _ S1024x128.size (by sl_kernel_rfl) y)]
  unfold runLast; dsimp only; sl_unfold_words
  rw [View.canon_unit_zero hz2]
  simp only [View.readAt_eq_ld, harg2.read_unread, harg3.read_unread, harg4.read_unread, harg5.read_unread, harg6.read_unread, harg7.read_unread, harg8.read_unread, harg9.read_unread, harg10.read_unread, harg11.read_unread, harg14.read_unread, harg15.read_unread, harg16.read_unread, View.ld_unit_zero (S := S1024x640) hz2, View.ld_unit_zero (S := S640x128) hz2, View.ld_unit_zero (S := S128x128) hz2, View.ld_unit_zero (S := S128) hz1, View.ld_unit_zero (S := S1x1024x640) hz3, View.ld_unit_zero (S := S1024x128) hz2, View.readCov_unit_zero (S := S1024x128) _ hz2]

theorem last_Stash (c : Dev nD) (i : grid0.Coords) (arg2 : Memref sig .tc .vmem S1024x640 .f32) (harg2 : arg2.IsWhole) (arg3 : Memref sig .tc .vmem S1x1024x640 .f32) (harg3 : arg3.IsWhole) (arg4 : Memref sig .tc .vmem S640x128 .f32) (harg4 : arg4.IsWhole) (arg5 : Memref sig .tc .vmem S128 .f32) (harg5 : arg5.IsWhole) (arg6 : Memref sig .tc .vmem S128x128 .f32) (harg6 : arg6.IsWhole) (arg7 : Memref sig .tc .vmem S128 .f32) (harg7 : arg7.IsWhole) (arg8 : Memref sig .tc .vmem S640x128 .f32) (harg8 : arg8.IsWhole) (arg9 : Memref sig .tc .vmem S128 .f32) (harg9 : arg9.IsWhole) (arg10 : Memref sig .tc .vmem S128x128 .f32) (harg10 : arg10.IsWhole) (arg11 : Memref sig .tc .vmem S128 .f32) (harg11 : arg11.IsWhole) (arg12 : Memref sig .tc .vmem S1x1x128 .f32) (harg12 : arg12.IsWhole) (arg13 : Memref sig .tc .vmem S1x1x128 .f32) (harg13 : arg13.IsWhole) (arg14 : Memref sig .tc .vmem S1024x128 .f32) (harg14 : arg14.IsWhole) (arg15 : Memref sig .tc .vmem S1024x128 .f32) (harg15 : arg15.IsWhole) (arg16 : Memref sig .tc .vmem S12x1024x128 .f32) (harg16 : arg16.IsWhole) (hc0 : ¬isFirst i) (hc1 : isLast i) (x0 : Vec F S1024x640 .f32) (x1 : Vec F S1x1024x640 .f32) (x2 : Vec F S640x128 .f32) (x3 : Vec F S128 .f32) (x4 : Vec F S128x128 .f32) (x5 : Vec F S128 .f32) (x6 : Vec F S640x128 .f32) (x7 : Vec F S128 .f32) (x8 : Vec F S128x128 .f32) (x9 : Vec F S128 .f32) (xs0 : Vec F S1024x128 .f32) (xs1 : Vec F S1024x128 .f32) (xs2 : Vec F S12x1024x128 .f32) :
    (runLast c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9 xs0 xs1 xs2).2.2.2.1 = [⟨slotRect i, k0_pay33 x1 x6 x7 x8 x9⟩] := by
  unfold runLast; dsimp only; sl_unfold_words
  simp only [View.readAt_eq_ld, harg2.read_unread, harg3.read_unread, harg4.read_unread, harg5.read_unread, harg6.read_unread, harg7.read_unread, harg8.read_unread, harg9.read_unread, harg10.read_unread, harg11.read_unread, harg14.read_unread, harg15.read_unread, harg16.read_unread, View.ld_unit_zero (S := S1024x640) hz2, View.ld_unit_zero (S := S640x128) hz2, View.ld_unit_zero (S := S128x128) hz2, View.ld_unit_zero (S := S128) hz1, View.ld_unit_zero (S := S1x1024x640) hz3, View.ld_unit_zero (S := S1024x128) hz2, View.readCov_unit_zero (S := S1024x128) _ hz2]
  rfl

end Cert.KernelIdeal.Hand

end
-- ==== Proof.IdealData.lean ====
/-
  What the kernel holds between grid points, and the pipeline's proof data.

  After point `n` (patch `n mod 12` of tile `n / 12`): the first scratch buffer holds the embedded global rows of the
  tile (computed at the tile's first point, `n − n mod 12`); the second holds the sum of the tile's embedded patch rows
  so far, folded from zero in patch order; the third — the stash — holds, in slices `0 … n mod 12`, the tile's embedded
  patch tiles so far (its other slices hold whatever they held: nothing reads them before they are written). At a
  tile's last point the two output blocks receive the tile's two partial losses, functions of exactly these.
-/
import proofs.«133262_j27453430956191_2_alg».proof.Proof.IdealPieces
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.ValueIdx (ix3)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## Arithmetic of points -/

theorem N48 : cfg0.N = 48 := N_0

theorem tile_lt {n l : ℕ} (h : n < cfg0.N) (hl : l ≤ n % 12) : n - n % 12 + l < cfg0.N := by
  have := N48; omega

theorem slice_lt (t : Fin cfg0.N) (l : Fin 12) : t.val - t.val % 12 + l.val < cfg0.N := by
  have := N48; have := t.isLt; have := l.isLt; omega

/-- The stash slot written at point `t` is the patch number `t mod 12`. -/
theorem slot_eq : ∀ t : Fin cfg0.N, k0_off1 (grid0.coords t) = ![t.val % 12, 0, 0] :=
  (by decide +kernel : ∀ t : Fin grid0.N, k0_off1 (grid0.coords t) = ![t.val % 12, 0, 0])

/-! ## The scratch buffers' contents, point by point -/

/-- The embedded global rows of the tile, from the blocks at point `t`. -/
def gTile (c : Dev nD) (t : Fin cfg0.N) : Vec F S1024x128 .f32 :=
  k0_pay30 (iblk m c 0 t) (iblk m c 2 t) (iblk m c 3 t) (iblk m c 4 t) (iblk m c 5 t)

/-- The embedded patch tile of point `t`, as a one-slice block. -/
def pTile (c : Dev nD) (t : Fin cfg0.N) : Vec F S1x1024x128 .f32 :=
  k0_pay33 (iblk m c 1 t) (iblk m c 6 t) (iblk m c 7 t) (iblk m c 8 t) (iblk m c 9 t)

/-- The running sum after point `t`, from the sum before it. -/
def sumStep (c : Dev nD) (t : Fin cfg0.N) (prev : Vec F S1024x128 .f32) : Vec F S1024x128 .f32 :=
  sumNext (iblk m c 1 t) (iblk m c 6 t) (iblk m c 7 t) (iblk m c 8 t) (iblk m c 9 t) prev

/-- The running sum after point `n`: restarted from zero at each tile's first point. -/
def sumAt (c : Dev nD) : (n : ℕ) → n < cfg0.N → Vec F S1024x128 .f32
  | 0, h => sumStep m c ⟨0, h⟩ k0_pay31
  | n + 1, h =>
    if (n + 1) % 12 = 0 then sumStep m c ⟨n + 1, h⟩ k0_pay31
    else sumStep m c ⟨n + 1, h⟩ (sumAt c n (Nat.lt_of_succ_lt h))

theorem sumAt_first (c : Dev nD) (t : Fin cfg0.N) (h0 : t.val % 12 = 0) :
    sumAt m c t.val t.isLt = sumStep m c t k0_pay31 := by
  obtain ⟨n, hn⟩ := t
  cases n with
  | zero => rfl
  | succ n => exact (if_pos h0)

theorem sumAt_next (c : Dev nD) (t : Fin cfg0.N) (h0 : ¬t.val % 12 = 0) (hp : t.val - 1 < cfg0.N) :
    sumAt m c t.val t.isLt = sumStep m c t (sumAt m c (t.val - 1) hp) := by
  obtain ⟨n, hn⟩ := t
  cases n with
  | zero => exact absurd (Nat.zero_mod _) h0
  | succ n => exact (if_neg h0)

/-- The embedded global rows held after point `n`: those of the tile's first point. -/
def gAt (c : Dev nD) (n : ℕ) (h : n < cfg0.N) : Vec F S1024x128 .f32 :=
  gTile m c ⟨n - n % 12, lt_of_le_of_lt (Nat.sub_le _ _) h⟩

theorem gAt_first (c : Dev nD) (t : Fin cfg0.N) (h0 : t.val % 12 = 0) : gAt m c t.val t.isLt = gTile m c t := by
  unfold gAt; congr 1; apply Fin.ext; show t.val - t.val % 12 = t.val; omega

theorem gAt_next (c : Dev nD) (t : Fin cfg0.N) (h0 : ¬t.val % 12 = 0) (hp : t.val - 1 < cfg0.N) :
    gAt m c t.val t.isLt = gAt m c (t.val - 1) hp := by
  unfold gAt; congr 1; apply Fin.ext; show t.val - t.val % 12 = t.val - 1 - (t.val - 1) % 12; omega

/-- The stash after point `n`: slices `0 … n mod 12` hold the tile's embedded patch tiles so far. -/
def StashOK (c : Dev nD) (n : ℕ) (h : n < cfg0.N) (S : Vec F S12x1024x128 .f32) : Prop :=
  ∀ (l : Fin 12) (hl : l.val ≤ n % 12) (r : Fin 1024) (d : Fin 128),
    S (ix3 l r d) = pTile m c ⟨n - n % 12 + l.val, tile_lt h hl⟩ (ix3 (0 : Fin 1) r d)

/-- The twelve patch tiles of the tile that point `t` belongs to. -/
def slicesAt (c : Dev nD) (t : Fin cfg0.N) : Fin 12 → Vec F S1x1024x128 .f32 :=
  fun l => pTile m c ⟨t.val - t.val % 12 + l.val, slice_lt t l⟩

/-- What the two output blocks receive at a tile's last point. -/
def dilAt (c : Dev nD) (t : Fin cfg0.N) : FVec F S1x1x128 .f32 := dilOf (sumAt m c t.val t.isLt) (gAt m c t.val t.isLt)
def dclAt (c : Dev nD) (t : Fin cfg0.N) : FVec F S1x1x128 .f32 :=
  dclChain (sumAt m c t.val t.isLt) (gAt m c t.val t.isLt)
    (slicesAt m c t 0) (slicesAt m c t 1) (slicesAt m c t 2) (slicesAt m c t 3) (slicesAt m c t 4) (slicesAt m c t 5) (slicesAt m c t 6) (slicesAt m c t 7) (slicesAt m c t 8) (slicesAt m c t 9) (slicesAt m c t 10) (slicesAt m c t 11)

/-! ## The invariant between points -/

/-- Before the first point: what the launch hands over. After point `n`: the three scratch buffers as above. -/
def Phi (c : Dev nD) : (n : ℕ) → n ≤ cfg0.N → sProp 𝕄
  | 0, _ => Pipeline.ΦA spec0 c
  | n + 1, hn => iprop(iprop(owns (c : Thread nD τ) scG fullShare (gAt m c n hn) ∗ owns (c : Thread nD τ) scSum fullShare (sumAt m c n hn)
      ∗ (∃ S, ⌜StashOK m c n hn S⌝ ∗ owns (c : Thread nD τ) scStash fullShare S)) ∗ (∃ r, prngReg c r))

theorem Phi_zero (c : Dev nD) (n : ℕ) (h : n ≤ cfg0.N) (hz : n = 0) : Phi m c n h = Pipeline.ΦA spec0 c := by
  subst hz; rfl

theorem Phi_succ (c : Dev nD) (n : ℕ) (hn : n < cfg0.N) :
    Phi m c (n + 1) hn = iprop(iprop(owns (c : Thread nD τ) scG fullShare (gAt m c n hn) ∗ owns (c : Thread nD τ) scSum fullShare (sumAt m c n hn)
      ∗ (∃ S, ⌜StashOK m c n hn S⌝ ∗ owns (c : Thread nD τ) scStash fullShare S)) ∗ (∃ r, prngReg c r)) := rfl

theorem Phi_pos (c : Dev nD) (n : ℕ) (h : n ≤ cfg0.N) (hz : n ≠ 0) :
    Phi m c n h = iprop(iprop(owns (c : Thread nD τ) scG fullShare (gAt m c (n - 1) (by omega)) ∗ owns (c : Thread nD τ) scSum fullShare (sumAt m c (n - 1) (by omega))
      ∗ (∃ S, ⌜StashOK m c (n - 1) (by omega) S⌝ ∗ owns (c : Thread nD τ) scStash fullShare S)) ∗ (∃ r, prngReg c r)) := by
  cases n with
  | zero => exact absurd rfl hz
  | succ n => rfl

/-- At any point the invariant yields the three scratch buffers at SOME contents (what a tile's first point needs). -/
theorem Phi_forget (c : Dev nD) (n : ℕ) (h : n ≤ cfg0.N) :
    Phi m c n h ⊢ iprop(iprop((∃ d, owns (c : Thread nD τ) scG fullShare d) ∗ (∃ d, owns (c : Thread nD τ) scSum fullShare d) ∗ (∃ d, owns (c : Thread nD τ) scStash fullShare d)) ∗ (∃ r, prngReg c r)) := by
  cases n with
  | zero => rw [Phi_zero m c 0 h rfl, rest_eq]
  | succ n =>
    rw [Phi_succ]
    iintro ⟨⟨HG, HS, ⟨%S, -, HT⟩⟩, Hg⟩
    isplitl [HG HS HT]
    · isplitl [HG]; · iexists _; iexact HG
      isplitl [HS]; · iexists _; iexact HS
      iexists _; iexact HT
    iexact Hg

/-! ## The proof data -/

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => dilAt m c t
    | ⟨11, _⟩ => dclAt m c t
  Φ t := Phi m c t.val (Nat.le_of_lt_succ t.isLt)
  q _ := fullShare
  owed _ := 0

theorem A_eq (c : Dev nD) (w : Fin cfg0.W) : (dats m 0 c).A w = V m c (Pipeline.arrRef spec0 w) := by
  dsimp only [dats]

theorem Phi_castSucc (c : Dev nD) (t : Fin cfg0.N) :
    (dats m 0 c).Φ t.castSucc = Phi m c t.val (Nat.le_of_lt t.isLt) := by
  dsimp only [dats]; simp only [Fin.coe_castSucc]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = iblk m c 6 t := by dsimp only [dats]
theorem after7 (c : Dev nD) (t : Fin cfg0.N) : (dats m 0 c).after 7 t = iblk m c 7 t := by dsimp only [dats]
theorem after8 (c : Dev nD) (t : Fin cfg0.N) : (dats m 0 c).after 8 t = iblk m c 8 t := by dsimp only [dats]
theorem after9 (c : Dev nD) (t : Fin cfg0.N) : (dats m 0 c).after 9 t = iblk m c 9 t := by dsimp only [dats]
theorem after10 (c : Dev nD) (t : Fin cfg0.N) : (dats m 0 c).after 10 t = dilAt m c t := by dsimp only [dats]
theorem after11 (c : Dev nD) (t : Fin cfg0.N) : (dats m 0 c).after 11 t = dclAt m c t := by dsimp only [dats]

theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d
theorem before3 (c : Dev nD) (t : Fin cfg0.N) (d) : (dats m 0 c).before 3 t d = iblk m c 3 t :=
  before0_3_of m (dats m 0 c) (A_eq m c 3) (after3 m c) t d
theorem before4 (c : Dev nD) (t : Fin cfg0.N) (d) : (dats m 0 c).before 4 t d = iblk m c 4 t :=
  before0_4_of m (dats m 0 c) (A_eq m c 4) (after4 m c) t d
theorem before5 (c : Dev nD) (t : Fin cfg0.N) (d) : (dats m 0 c).before 5 t d = iblk m c 5 t :=
  before0_5_of m (dats m 0 c) (A_eq m c 5) (after5 m c) t d
theorem before6 (c : Dev nD) (t : Fin cfg0.N) (d) : (dats m 0 c).before 6 t d = iblk m c 6 t :=
  before0_6_of m (dats m 0 c) (A_eq m c 6) (after6 m c) t d
theorem before7 (c : Dev nD) (t : Fin cfg0.N) (d) : (dats m 0 c).before 7 t d = iblk m c 7 t :=
  before0_7_of m (dats m 0 c) (A_eq m c 7) (after7 m c) t d
theorem before8 (c : Dev nD) (t : Fin cfg0.N) (d) : (dats m 0 c).before 8 t d = iblk m c 8 t :=
  before0_8_of m (dats m 0 c) (A_eq m c 8) (after8 m c) t d
theorem before9 (c : Dev nD) (t : Fin cfg0.N) (d) : (dats m 0 c).before 9 t d = iblk m c 9 t :=
  before0_9_of m (dats m 0 c) (A_eq m c 9) (after9 m c) t d

/-- An output block's buffer, written back at a tile's last point and idle elsewhere, is found at a point as the
    pipeline last left it blank: nothing the body stored survives a write-back, and off the last point it stores nothing. -/
theorem before_out_id (c : Dev nD) (w : Fin cfg0.W) (hw : (cfg0.win w).isOut = true)
    (hflush : ∀ t : Fin cfg0.N, (cfg0.win w).flush t = true ↔ t.val % 12 = 11)
    (hidle : ∀ t : Fin cfg0.N, cfg0.idle w (grid0.coords t) = true ↔ ¬t.val % 12 = 11) :
    ∀ (n : ℕ) (hn : n < cfg0.N) (d), (dats m 0 c).before w ⟨n, hn⟩ d = d := by
  intro n
  induction n with
  | zero => intro hn d; exact (dats m 0 c).before_out_reset w hw ⟨0, hn⟩ (.inl rfl) d
  | succ n ih =>
    intro hn d
    have hn' : n < cfg0.N := Nat.lt_of_succ_lt hn
    have e : (⟨n + 1 - 1, Nat.lt_of_le_of_lt (Nat.sub_le _ _) hn⟩ : Fin cfg0.N) = ⟨n, hn'⟩ := Fin.ext (by show n + 1 - 1 = n; omega)
    by_cases h11 : n % 12 = 11
    · exact (dats m 0 c).before_out_reset w hw ⟨n + 1, hn⟩
        (.inr ⟨Nat.succ_ne_zero n, by rw [e]; exact (hflush ⟨n, hn'⟩).mpr h11⟩) d
    · have hfl : (cfg0.win w).flush ⟨n, hn'⟩ = false := by
        cases hh : (cfg0.win w).flush ⟨n, hn'⟩
        · rfl
        · exact absurd ((hflush ⟨n, hn'⟩).mp hh) h11
      rw [(dats m 0 c).before_of_pos w ⟨n + 1, hn⟩ (Nat.succ_ne_zero n) ((cfg0.win w).fetch_out hw _)]
      dsimp only
      rw [e, hfl, if_neg Bool.false_ne_true]
      unfold Dat.left
      rw [show cfg0.grid.coords ⟨n, hn'⟩ = grid0.coords ⟨n, hn'⟩ from rfl, (hidle ⟨n, hn'⟩).mpr h11]
      exact ih hn' d

theorem before10 (c : Dev nD) (t : Fin cfg0.N) (d) : (dats m 0 c).before 10 t d = d :=
  before_out_id m c 10 rfl flush0_10 idle10_iff t.val t.isLt d
theorem before11 (c : Dev nD) (t : Fin cfg0.N) (d) : (dats m 0 c).before 11 t d = d :=
  before_out_id m c 11 rfl flush0_11 idle11_iff t.val t.isLt d

end Cert.KernelIdeal.Hand

end
-- ==== Proof.IdealBodyDefs.lean ====
/-
  The body obligation's two sides at a grid point, written out.

  Before the body: the invariant, the (empty) debts, every input's current buffer at its block, the two output
  blocks' buffers at anything. After it: the invariant at the next point, every input's buffer as it was, and the two
  output blocks — off a tile's last point as they were found (the body stores nothing there), at a tile's last point
  at the tile's two partial losses.
-/
import proofs.«133262_j27453430956191_2_alg».proof.Proof.IdealData

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d))
    ∗ (∃ d, owns (c : Thread nD τ) (ms7 t) fullShare ((dats m 0 c).before 7 t d))
    ∗ (∃ d, owns (c : Thread nD τ) (ms8 t) fullShare ((dats m 0 c).before 8 t d))
    ∗ (∃ d, owns (c : Thread nD τ) (ms9 t) fullShare ((dats m 0 c).before 9 t d))
    ∗ (∃ d, owns (c : Thread nD τ) (ms10 t) fullShare ((dats m 0 c).before 10 t d))
    ∗ (∃ d, owns (c : Thread nD τ) (ms11 t) fullShare ((dats m 0 c).before 11 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t
    ∗ (dats m 0 c).leavesExact 11 t)

theorem bodyPre_eq (c : Dev nD) (t : Fin cfg0.N) :
    bodyPre m c t = iprop(Phi m c t.val (Nat.le_of_lt t.isLt) ∗ (dats m 0 c).owesAt () t.castSucc
    ∗ (∃ d : (cfg0.win 0).block.Idx → Elt F (cfg0.win 0).elt, owns (c : Thread nD τ) (ms0 t) fullShare (iblk m c 0 t))
    ∗ (∃ d : (cfg0.win 1).block.Idx → Elt F (cfg0.win 1).elt, owns (c : Thread nD τ) (ms1 t) fullShare (iblk m c 1 t))
    ∗ (∃ d : (cfg0.win 2).block.Idx → Elt F (cfg0.win 2).elt, owns (c : Thread nD τ) (ms2 t) fullShare (iblk m c 2 t))
    ∗ (∃ d : (cfg0.win 3).block.Idx → Elt F (cfg0.win 3).elt, owns (c : Thread nD τ) (ms3 t) fullShare (iblk m c 3 t))
    ∗ (∃ d : (cfg0.win 4).block.Idx → Elt F (cfg0.win 4).elt, owns (c : Thread nD τ) (ms4 t) fullShare (iblk m c 4 t))
    ∗ (∃ d : (cfg0.win 5).block.Idx → Elt F (cfg0.win 5).elt, owns (c : Thread nD τ) (ms5 t) fullShare (iblk m c 5 t))
    ∗ (∃ d : (cfg0.win 6).block.Idx → Elt F (cfg0.win 6).elt, owns (c : Thread nD τ) (ms6 t) fullShare (iblk m c 6 t))
    ∗ (∃ d : (cfg0.win 7).block.Idx → Elt F (cfg0.win 7).elt, owns (c : Thread nD τ) (ms7 t) fullShare (iblk m c 7 t))
    ∗ (∃ d : (cfg0.win 8).block.Idx → Elt F (cfg0.win 8).elt, owns (c : Thread nD τ) (ms8 t) fullShare (iblk m c 8 t))
    ∗ (∃ d : (cfg0.win 9).block.Idx → Elt F (cfg0.win 9).elt, owns (c : Thread nD τ) (ms9 t) fullShare (iblk m c 9 t))
    ∗ (∃ d, owns (c : Thread nD τ) (ms10 t) fullShare d)
    ∗ (∃ d, owns (c : Thread nD τ) (ms11 t) fullShare d)) := by
  unfold bodyPre
  simp only [before0, before1, before2, before3, before4, before5, before6, before7, before8, before9, before10, before11]
  rw [Phi_castSucc]
  try rfl

theorem flush10_false (t : Fin cfg0.N) (h1 : ¬t.val % 12 = 11) : (cfg0.win 10).flush t = false := by
  cases hh : (cfg0.win 10).flush t
  · rfl
  · exact absurd ((flush0_10 t).mp hh) h1
theorem flush11_false (t : Fin cfg0.N) (h1 : ¬t.val % 12 = 11) : (cfg0.win 11).flush t = false := by
  cases hh : (cfg0.win 11).flush t
  · rfl
  · exact absurd ((flush0_11 t).mp hh) h1
theorem idle10_false (t : Fin cfg0.N) (h1 : t.val % 12 = 11) : cfg0.idle 10 (cfg0.grid.coords t) = false := by
  cases hh : cfg0.idle 10 (cfg0.grid.coords t)
  · rfl
  · exact absurd h1 ((idle10_iff t).mp hh)
theorem idle11_false (t : Fin cfg0.N) (h1 : t.val % 12 = 11) : cfg0.idle 11 (cfg0.grid.coords t) = false := by
  cases hh : cfg0.idle 11 (cfg0.grid.coords t)
  · rfl
  · exact absurd h1 ((idle11_iff t).mp hh)

/-- Off a tile's last point. -/
theorem bodyPost_idle (c : Dev nD) (t : Fin cfg0.N) (h1 : ¬t.val % 12 = 11) :
    bodyPost m c t = iprop(Phi m c (t.val + 1) t.isLt ∗ (dats m 0 c).owesAt () t.castSucc
    ∗ owns (c : Thread nD τ) (ms0 t) fullShare (iblk m c 0 t)
    ∗ owns (c : Thread nD τ) (ms1 t) fullShare (iblk m c 1 t)
    ∗ owns (c : Thread nD τ) (ms2 t) fullShare (iblk m c 2 t)
    ∗ owns (c : Thread nD τ) (ms3 t) fullShare (iblk m c 3 t)
    ∗ owns (c : Thread nD τ) (ms4 t) fullShare (iblk m c 4 t)
    ∗ owns (c : Thread nD τ) (ms5 t) fullShare (iblk m c 5 t)
    ∗ owns (c : Thread nD τ) (ms6 t) fullShare (iblk m c 6 t)
    ∗ owns (c : Thread nD τ) (ms7 t) fullShare (iblk m c 7 t)
    ∗ owns (c : Thread nD τ) (ms8 t) fullShare (iblk m c 8 t)
    ∗ owns (c : Thread nD τ) (ms9 t) fullShare (iblk m c 9 t)
    ∗ (∃ d, owns (c : Thread nD τ) (ms10 t) fullShare d)
    ∗ (∃ d, owns (c : Thread nD τ) (ms11 t) fullShare d)) := by
  unfold bodyPost
  rw [show (dats m 0 c).owesAt () t.succ = (dats m 0 c).owesAt () t.castSucc from rfl]
  rw [show (dats m 0 c).Φ t.succ = Phi m c (t.val + 1) t.isLt from rfl]
  rw [show (dats m 0 c).leavesExact 0 t = owns (c : Thread nD τ) (ms0 t) fullShare ((dats m 0 c).after 0 t) from by
    unfold Dat.leavesExact; rw [live0 t], after0]
  rw [show (dats m 0 c).leavesExact 1 t = owns (c : Thread nD τ) (ms1 t) fullShare ((dats m 0 c).after 1 t) from by
    unfold Dat.leavesExact; rw [live1 t], after1]
  rw [show (dats m 0 c).leavesExact 2 t = owns (c : Thread nD τ) (ms2 t) fullShare ((dats m 0 c).after 2 t) from by
    unfold Dat.leavesExact; rw [live2 t], after2]
  rw [show (dats m 0 c).leavesExact 3 t = owns (c : Thread nD τ) (ms3 t) fullShare ((dats m 0 c).after 3 t) from by
    unfold Dat.leavesExact; rw [live3 t], after3]
  rw [show (dats m 0 c).leavesExact 4 t = owns (c : Thread nD τ) (ms4 t) fullShare ((dats m 0 c).after 4 t) from by
    unfold Dat.leavesExact; rw [live4 t], after4]
  rw [show (dats m 0 c).leavesExact 5 t = owns (c : Thread nD τ) (ms5 t) fullShare ((dats m 0 c).after 5 t) from by
    unfold Dat.leavesExact; rw [live5 t], after5]
  rw [show (dats m 0 c).leavesExact 6 t = owns (c : Thread nD τ) (ms6 t) fullShare ((dats m 0 c).after 6 t) from by
    unfold Dat.leavesExact; rw [live6 t], after6]
  rw [show (dats m 0 c).leavesExact 7 t = owns (c : Thread nD τ) (ms7 t) fullShare ((dats m 0 c).after 7 t) from by
    unfold Dat.leavesExact; rw [live7 t], after7]
  rw [show (dats m 0 c).leavesExact 8 t = owns (c : Thread nD τ) (ms8 t) fullShare ((dats m 0 c).after 8 t) from by
    unfold Dat.leavesExact; rw [live8 t], after8]
  rw [show (dats m 0 c).leavesExact 9 t = owns (c : Thread nD τ) (ms9 t) fullShare ((dats m 0 c).after 9 t) from by
    unfold Dat.leavesExact; rw [live9 t], after9]
  rw [(dats m 0 c).leavesExact_idle 10 t ((idle10_iff t).mpr h1) (flush10_false t h1),
    (dats m 0 c).leavesExact_idle 11 t ((idle11_iff t).mpr h1) (flush11_false t h1)]
  simp only [before10, before11]
  try rfl

/-- At a tile's last point. -/
theorem bodyPost_live (c : Dev nD) (t : Fin cfg0.N) (h1 : t.val % 12 = 11) :
    bodyPost m c t = iprop(Phi m c (t.val + 1) t.isLt ∗ (dats m 0 c).owesAt () t.castSucc
    ∗ owns (c : Thread nD τ) (ms0 t) fullShare (iblk m c 0 t)
    ∗ owns (c : Thread nD τ) (ms1 t) fullShare (iblk m c 1 t)
    ∗ owns (c : Thread nD τ) (ms2 t) fullShare (iblk m c 2 t)
    ∗ owns (c : Thread nD τ) (ms3 t) fullShare (iblk m c 3 t)
    ∗ owns (c : Thread nD τ) (ms4 t) fullShare (iblk m c 4 t)
    ∗ owns (c : Thread nD τ) (ms5 t) fullShare (iblk m c 5 t)
    ∗ owns (c : Thread nD τ) (ms6 t) fullShare (iblk m c 6 t)
    ∗ owns (c : Thread nD τ) (ms7 t) fullShare (iblk m c 7 t)
    ∗ owns (c : Thread nD τ) (ms8 t) fullShare (iblk m c 8 t)
    ∗ owns (c : Thread nD τ) (ms9 t) fullShare (iblk m c 9 t)
    ∗ owns (c : Thread nD τ) (ms10 t) fullShare (dilAt m c t)
    ∗ owns (c : Thread nD τ) (ms11 t) fullShare (dclAt m c t)) := by
  unfold bodyPost
  rw [show (dats m 0 c).owesAt () t.succ = (dats m 0 c).owesAt () t.castSucc from rfl]
  rw [show (dats m 0 c).Φ t.succ = Phi m c (t.val + 1) t.isLt from rfl]
  rw [show (dats m 0 c).leavesExact 0 t = owns (c : Thread nD τ) (ms0 t) fullShare ((dats m 0 c).after 0 t) from by
    unfold Dat.leavesExact; rw [live0 t], after0]
  rw [show (dats m 0 c).leavesExact 1 t = owns (c : Thread nD τ) (ms1 t) fullShare ((dats m 0 c).after 1 t) from by
    unfold Dat.leavesExact; rw [live1 t], after1]
  rw [show (dats m 0 c).leavesExact 2 t = owns (c : Thread nD τ) (ms2 t) fullShare ((dats m 0 c).after 2 t) from by
    unfold Dat.leavesExact; rw [live2 t], after2]
  rw [show (dats m 0 c).leavesExact 3 t = owns (c : Thread nD τ) (ms3 t) fullShare ((dats m 0 c).after 3 t) from by
    unfold Dat.leavesExact; rw [live3 t], after3]
  rw [show (dats m 0 c).leavesExact 4 t = owns (c : Thread nD τ) (ms4 t) fullShare ((dats m 0 c).after 4 t) from by
    unfold Dat.leavesExact; rw [live4 t], after4]
  rw [show (dats m 0 c).leavesExact 5 t = owns (c : Thread nD τ) (ms5 t) fullShare ((dats m 0 c).after 5 t) from by
    unfold Dat.leavesExact; rw [live5 t], after5]
  rw [show (dats m 0 c).leavesExact 6 t = owns (c : Thread nD τ) (ms6 t) fullShare ((dats m 0 c).after 6 t) from by
    unfold Dat.leavesExact; rw [live6 t], after6]
  rw [show (dats m 0 c).leavesExact 7 t = owns (c : Thread nD τ) (ms7 t) fullShare ((dats m 0 c).after 7 t) from by
    unfold Dat.leavesExact; rw [live7 t], after7]
  rw [show (dats m 0 c).leavesExact 8 t = owns (c : Thread nD τ) (ms8 t) fullShare ((dats m 0 c).after 8 t) from by
    unfold Dat.leavesExact; rw [live8 t], after8]
  rw [show (dats m 0 c).leavesExact 9 t = owns (c : Thread nD τ) (ms9 t) fullShare ((dats m 0 c).after 9 t) from by
    unfold Dat.leavesExact; rw [live9 t], after9]
  rw [show (dats m 0 c).leavesExact 10 t = owns (c : Thread nD τ) (ms10 t) fullShare ((dats m 0 c).after 10 t) from by
    unfold Dat.leavesExact; rw [idle10_false t h1], after10]
  rw [show (dats m 0 c).leavesExact 11 t = owns (c : Thread nD τ) (ms11 t) fullShare ((dats m 0 c).after 11 t) from by
    unfold Dat.leavesExact; rw [idle11_false t h1], after11]
  try rfl

end Cert.KernelIdeal.Hand

end
-- ==== Proof.IdealStash.lean ====
/-
  The stash, one slice at a time.

  Point `t` overwrites slice `t mod 12` of the stash with its embedded patch tile and leaves the other slices alone.
  Hence the invariant: after point `t`, slices `0 … t mod 12` hold the patch tiles of the tile's points so far — at
  a tile's first point that is the one slice just written; later, the slice just written and, untouched, the slices
  the invariant already described.
-/
import proofs.«133262_j27453430956191_2_alg».proof.Proof.IdealData

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.ValueIdx (ix3)

variable {F : FTy → Type} [FloatOps F] [Named F]

variable (m : (ℓ : Loc nD τ sig) → Buf (Elt F) ℓ)

theorem mod12_lt (n : ℕ) : n % 12 < 12 := Nat.mod_lt _ (by norm_num)

/-- Entry `(0, r, d)` of the written slice sits at `(t mod 12, r, d)` of the stash. -/
theorem slot_emb (t : Fin cfg0.N) (r : Fin 1024) (d : Fin 128) :
    (slotRect (grid0.coords t)).emb (ix3 (0 : Fin 1) r d) = ix3 (⟨t.val % 12, mod12_lt _⟩ : Fin 12) r d := by
  funext a
  apply Fin.ext
  rw [Rect.emb_apply]
  show (k0_off1 (grid0.coords t)) a + 1 * _ = _
  rw [slot_eq t]
  match a with
  | ⟨0, _⟩ => show t.val % 12 + 1 * 0 = t.val % 12; omega
  | ⟨1, _⟩ => show 0 + 1 * r.val = r.val; omega
  | ⟨2, _⟩ => show 0 + 1 * d.val = d.val; omega

/-- In the written slice the stash holds the new tile; -/
theorem overlay_at (t : Fin cfg0.N) (S : Vec F S12x1024x128 .f32) (p : Vec F S1x1024x128 .f32) (r : Fin 1024) (d : Fin 128) :
    (slotRect (grid0.coords t)).overlay S p (ix3 (⟨t.val % 12, mod12_lt _⟩ : Fin 12) r d) = p (ix3 (0 : Fin 1) r d) := by
  rw [← slot_emb t r d]; exact Rect.overlay_emb _ _ _ _

/-- in every other slice what it held. -/
theorem overlay_off (t : Fin cfg0.N) (S : Vec F S12x1024x128 .f32) (p : Vec F S1x1024x128 .f32) (l : Fin 12)
    (hl : l.val ≠ t.val % 12) (r : Fin 1024) (d : Fin 128) :
    (slotRect (grid0.coords t)).overlay S p (ix3 l r d) = S (ix3 l r d) := by
  apply Rect.overlay_of_not_mem
  intro hm
  have h0 := (Rect.mem_set_unit.mp hm) 0
  rw [slot_eq t] at h0
  have h0' : t.val % 12 ≤ l.val ∧ l.val < t.val % 12 + 1 := h0
  omega

theorem pTile_congr (c : Dev nD) {a b : ℕ} (ha : a < cfg0.N) (hb : b < cfg0.N) (e : a = b) :
    pTile m c ⟨a, ha⟩ = pTile m c ⟨b, hb⟩ := by subst e; rfl

/-- The invariant after a tile's first point. -/
theorem stash_first (c : Dev nD) (t : Fin cfg0.N) (h0 : t.val % 12 = 0) (S : Vec F S12x1024x128 .f32) :
    StashOK m c t.val t.isLt ((slotRect (grid0.coords t)).overlay S (pTile m c t)) := by
  intro l hl r d
  have hl0 : l.val = t.val % 12 := by omega
  have el : l = ⟨t.val % 12, mod12_lt _⟩ := Fin.ext hl0
  refine ((congrArg (fun l' : Fin 12 => (slotRect (grid0.coords t)).overlay S (pTile m c t) (ix3 l' r d)) el).trans
    (overlay_at t S _ r d)).trans ?_
  exact congrFun (pTile_congr m c t.isLt _ (by show t.val = t.val - t.val % 12 + l.val; omega)) _

/-- The invariant after a later point, from the invariant after the point before. -/
theorem stash_next (c : Dev nD) (t : Fin cfg0.N) (h0 : ¬t.val % 12 = 0) (hp : t.val - 1 < cfg0.N)
    (S : Vec F S12x1024x128 .f32) (hS : StashOK m c (t.val - 1) hp S) :
    StashOK m c t.val t.isLt ((slotRect (grid0.coords t)).overlay S (pTile m c t)) := by
  intro l hl r d
  by_cases hl0 : l.val = t.val % 12
  · have el : l = ⟨t.val % 12, mod12_lt _⟩ := Fin.ext hl0
    refine ((congrArg (fun l' : Fin 12 => (slotRect (grid0.coords t)).overlay S (pTile m c t) (ix3 l' r d)) el).trans
      (overlay_at t S _ r d)).trans ?_
    exact congrFun (pTile_congr m c t.isLt _ (by show t.val = t.val - t.val % 12 + l.val; omega)) _
  · rw [overlay_off t S _ l hl0, hS l (by omega) r d]
    exact congrFun (pTile_congr m c _ _ (by omega)) _

/-- With every slice written (a tile's last point), each slice loaded back is that patch's tile. -/
theorem load_slice (c : Dev nD) (t : Fin cfg0.N) (h11 : t.val % 12 = 11) (S : Vec F S12x1024x128 .f32)
    (hS : StashOK m c t.val t.isLt S) (l : Fin 12) (off : Fin 3 → ℕ) (hoff : off = ![l.val, 0, 0])
    (inb : ∀ a, off a + S1x1024x128.size a ≤ S12x1024x128.size a) :
    View.ld S (Rect.unit (s := S12x1024x128) off S1x1024x128.size inb) = slicesAt m c t l := by
  subst hoff
  funext y
  obtain ⟨u, r, d, rfl⟩ : ∃ (u : Fin 1) (r : Fin 1024) (d : Fin 128), y = ix3 u r d := ⟨y 0, y 1, y 2, ValueIdx.eq_ix3 y⟩
  have hu : u = 0 := Subsingleton.elim _ _
  subst hu
  have e : (Rect.unit (s := S12x1024x128) ![l.val, 0, 0] S1x1024x128.size inb).idx (ix3 (0 : Fin 1) r d) = ix3 l r d := by
    funext a
    apply Fin.ext
    match a with
    | ⟨0, _⟩ => show l.val + 1 * 0 = l.val; omega
    | ⟨1, _⟩ => show 0 + 1 * r.val = r.val; omega
    | ⟨2, _⟩ => show 0 + 1 * d.val = d.val; omega
  show S ((Rect.unit (s := S12x1024x128) ![l.val, 0, 0] S1x1024x128.size inb).idx (ix3 (0 : Fin 1) r d)) = _
  rw [e, hS l (by have := l.isLt; omega) r d]
  rfl

end Cert.KernelIdeal.Hand

end
-- ==== Proof.IdealBodyFirst.lean ====
/-
  The body obligation at a tile's first patch.

  Whatever the three scratch buffers held (the launch's contents at the very first point, the previous tile's
  afterwards), the body overwrites the first with the tile's embedded global rows and the second with this patch's
  embedded rows over zero, and writes slice 0 of the stash; the output blocks are not touched.
-/
import proofs.«133262_j27453430956191_2_alg».proof.Proof.IdealBodyDefs
import proofs.«133262_j27453430956191_2_alg».proof.Proof.IdealStash

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

set_option maxHeartbeats 4000000 in
theorem body_first (c : Dev nD) (t : Fin cfg0.N) (h0 : t.val % 12 = 0) :
    bodyPre m c t ⊢ wp frame (wpE (defs₀ (F := F)) Variants.none c none) Set.univ (bodyAt0 t) (fun _ => bodyPost m c t) := by
  have h1 : ¬t.val % 12 = 11 := by omega
  rw [bodyPre_eq, bodyPost_idle m c t h1, Phi_succ]
  unfold bodyAt0
  by_cases hz : t.val = 0
  · rw [Phi_zero m c _ _ hz, rest_eq]
    iintro ⟨⟨⟨HG, HS, ⟨%S, HT⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
    iapply ((runFirst c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) scG (Memref.isWhole_whole _) scSum (Memref.isWhole_whole _) scStash (Memref.isWhole_whole _) ((isFirst_iff t).mpr h0) (fun h => h1 ((isLast_iff t).mp h)) (iblk m c 0 t) (iblk m c 1 t) (iblk m c 2 t) (iblk m c 3 t) (iblk m c 4 t) (iblk m c 5 t) (iblk m c 6 t) (iblk m c 7 t) (iblk m c 8 t) (iblk m c 9 t) S).2.2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexists _; iexact H10
    isplitl [H11]; · iexists _; iexact H11
    isplitl [HG]; · iexact HG
    isplitl [HS]; · iexact HS
    isplitl [HT]; · iexact HT
    iintro ⟨H0, H1, H2, H3, H4, H5, H6, H7, H8, H9, H10, H11, ⟨%fG, HG⟩, ⟨%fS, HS⟩, HT⟩
    isplitl [HG HS HT Hg]
    · isplitl [HG HS HT]
      · isplitl [HG]
        · unfold owns; iexists _; isplitr; swap; · iexact HG
          ipureintro
          exact (first_G c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) scG (Memref.isWhole_whole _) scSum (Memref.isWhole_whole _) scStash (Memref.isWhole_whole _) ((isFirst_iff t).mpr h0) (fun h => h1 ((isLast_iff t).mp h)) (iblk m c 0 t) (iblk m c 1 t) (iblk m c 2 t) (iblk m c 3 t) (iblk m c 4 t) (iblk m c 5 t) (iblk m c 6 t) (iblk m c 7 t) (iblk m c 8 t) (iblk m c 9 t) S scG.view fG).trans (gAt_first m c t h0).symm
        isplitl [HS]
        · unfold owns; iexists _; isplitr; swap; · iexact HS
          ipureintro
          exact (first_Sum c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) scG (Memref.isWhole_whole _) scSum (Memref.isWhole_whole _) scStash (Memref.isWhole_whole _) ((isFirst_iff t).mpr h0) (fun h => h1 ((isLast_iff t).mp h)) (iblk m c 0 t) (iblk m c 1 t) (iblk m c 2 t) (iblk m c 3 t) (iblk m c 4 t) (iblk m c 5 t) (iblk m c 6 t) (iblk m c 7 t) (iblk m c 8 t) (iblk m c 9 t) S scSum.view fS).trans (sumAt_first m c t h0).symm
        iexists ((slotRect (grid0.coords t)).overlay S (pTile m c t))
        isplitr
        · ipureintro; exact stash_first m c t h0 S
        unfold owns; iexists _; isplitr; swap; · iexact HT
        ipureintro
        rw [first_Stash, read_writes_one, Memref.IsWhole.read_unread]
        rfl
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    iexact H11
  · rw [Phi_pos m c _ _ hz]
    iintro ⟨⟨⟨HG, HS, ⟨%S, -, HT⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
    iapply ((runFirst c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) scG (Memref.isWhole_whole _) scSum (Memref.isWhole_whole _) scStash (Memref.isWhole_whole _) ((isFirst_iff t).mpr h0) (fun h => h1 ((isLast_iff t).mp h)) (iblk m c 0 t) (iblk m c 1 t) (iblk m c 2 t) (iblk m c 3 t) (iblk m c 4 t) (iblk m c 5 t) (iblk m c 6 t) (iblk m c 7 t) (iblk m c 8 t) (iblk m c 9 t) S).2.2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexists _; iexact H10
    isplitl [H11]; · iexists _; iexact H11
    isplitl [HG]; · iexists _; iexact HG
    isplitl [HS]; · iexists _; iexact HS
    isplitl [HT]; · iexact HT
    iintro ⟨H0, H1, H2, H3, H4, H5, H6, H7, H8, H9, H10, H11, ⟨%fG, HG⟩, ⟨%fS, HS⟩, HT⟩
    isplitl [HG HS HT Hg]
    · isplitl [HG HS HT]
      · isplitl [HG]
        · unfold owns; iexists _; isplitr; swap; · iexact HG
          ipureintro
          exact (first_G c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) scG (Memref.isWhole_whole _) scSum (Memref.isWhole_whole _) scStash (Memref.isWhole_whole _) ((isFirst_iff t).mpr h0) (fun h => h1 ((isLast_iff t).mp h)) (iblk m c 0 t) (iblk m c 1 t) (iblk m c 2 t) (iblk m c 3 t) (iblk m c 4 t) (iblk m c 5 t) (iblk m c 6 t) (iblk m c 7 t) (iblk m c 8 t) (iblk m c 9 t) S scG.view fG).trans (gAt_first m c t h0).symm
        isplitl [HS]
        · unfold owns; iexists _; isplitr; swap; · iexact HS
          ipureintro
          exact (first_Sum c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) scG (Memref.isWhole_whole _) scSum (Memref.isWhole_whole _) scStash (Memref.isWhole_whole _) ((isFirst_iff t).mpr h0) (fun h => h1 ((isLast_iff t).mp h)) (iblk m c 0 t) (iblk m c 1 t) (iblk m c 2 t) (iblk m c 3 t) (iblk m c 4 t) (iblk m c 5 t) (iblk m c 6 t) (iblk m c 7 t) (iblk m c 8 t) (iblk m c 9 t) S scSum.view fS).trans (sumAt_first m c t h0).symm
        iexists ((slotRect (grid0.coords t)).overlay S (pTile m c t))
        isplitr
        · ipureintro; exact stash_first m c t h0 S
        unfold owns; iexists _; isplitr; swap; · iexact HT
        ipureintro
        rw [first_Stash, read_writes_one, Memref.IsWhole.read_unread]
        rfl
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    iexact H11

end Cert.KernelIdeal.Hand

end
-- ==== Proof.IdealBodyMid.lean ====
/-
  The body obligation at a patch that is neither a tile's first nor its last.

  The embedded global rows stay; the running sum takes this patch's embedded rows; slice `t mod 12` of the stash is
  written and the slices before it are as the invariant said; the output blocks are not touched.
-/
import proofs.«133262_j27453430956191_2_alg».proof.Proof.IdealBodyDefs
import proofs.«133262_j27453430956191_2_alg».proof.Proof.IdealStash

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

set_option maxHeartbeats 4000000 in
theorem body_mid (c : Dev nD) (t : Fin cfg0.N) (h0 : ¬t.val % 12 = 0) (h1 : ¬t.val % 12 = 11) :
    bodyPre m c t ⊢ wp frame (wpE (defs₀ (F := F)) Variants.none c none) Set.univ (bodyAt0 t) (fun _ => bodyPost m c t) := by
  have hz : t.val ≠ 0 := fun e => h0 (by rw [e])
  have hp : t.val - 1 < cfg0.N := lt_of_le_of_lt (Nat.sub_le _ _) t.isLt
  rw [bodyPre_eq, bodyPost_idle m c t h1, Phi_succ, Phi_pos m c _ _ hz, gAt_next m c t h0 hp]
  unfold bodyAt0
  iintro ⟨⟨⟨HG, HS, ⟨%S, %hS, HT⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  iapply ((runMid c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) scG (Memref.isWhole_whole _) scSum (Memref.isWhole_whole _) scStash (Memref.isWhole_whole _) (fun h => h0 ((isFirst_iff t).mp h)) (fun h => h1 ((isLast_iff t).mp h)) (iblk m c 0 t) (iblk m c 1 t) (iblk m c 2 t) (iblk m c 3 t) (iblk m c 4 t) (iblk m c 5 t) (iblk m c 6 t) (iblk m c 7 t) (iblk m c 8 t) (iblk m c 9 t) (gAt m c (t.val - 1) hp) (sumAt m c (t.val - 1) hp) S).2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexists _; iexact H10
  isplitl [H11]; · iexists _; iexact H11
  isplitl [HG]; · iexact HG
  isplitl [HS]; · iexact HS
  isplitl [HT]; · iexact HT
  iintro ⟨H0, H1, H2, H3, H4, H5, H6, H7, H8, H9, H10, H11, HG, ⟨%fS, HS⟩, HT⟩
  isplitl [HG HS HT Hg]
  · isplitl [HG HS HT]
    · isplitl [HG]; · iexact HG
      isplitl [HS]
      · unfold owns; iexists _; isplitr; swap; · iexact HS
        ipureintro
        exact (mid_Sum c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) scG (Memref.isWhole_whole _) scSum (Memref.isWhole_whole _) scStash (Memref.isWhole_whole _) (fun h => h0 ((isFirst_iff t).mp h)) (fun h => h1 ((isLast_iff t).mp h)) (iblk m c 0 t) (iblk m c 1 t) (iblk m c 2 t) (iblk m c 3 t) (iblk m c 4 t) (iblk m c 5 t) (iblk m c 6 t) (iblk m c 7 t) (iblk m c 8 t) (iblk m c 9 t) (gAt m c (t.val - 1) hp) (sumAt m c (t.val - 1) hp) S scSum.view fS).trans (sumAt_next m c t h0 hp).symm
      iexists ((slotRect (grid0.coords t)).overlay S (pTile m c t))
      isplitr
      · ipureintro; exact stash_next m c t h0 hp S hS
      unfold owns; iexists _; isplitr; swap; · iexact HT
      ipureintro
      rw [mid_Stash, read_writes_one, Memref.IsWhole.read_unread]
      rfl
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iexact H11

end Cert.KernelIdeal.Hand

end
-- ==== Proof.IdealBodyLast.lean ====
/-
  The body obligation at a tile's last patch.

  As at a middle patch for the three scratch buffers; with the stash now complete, the twelve slices the body loads
  back are the tile's twelve embedded patch tiles, and the two output blocks receive the tile's partial losses.
-/
import proofs.«133262_j27453430956191_2_alg».proof.Proof.IdealBodyDefs
import proofs.«133262_j27453430956191_2_alg».proof.Proof.IdealStash

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- The `dil` partial the run found is the one the proof data states. -/
theorem dil_last (c : Dev nD) (t : Fin cfg0.N) (h0 : ¬t.val % 12 = 0) (hp : t.val - 1 < cfg0.N) :
    dilOf (sumNext (iblk m c 1 t) (iblk m c 6 t) (iblk m c 7 t) (iblk m c 8 t) (iblk m c 9 t) (sumAt m c (t.val - 1) hp)) (gAt m c (t.val - 1) hp)
      = dilAt m c t := by
  unfold dilAt; rw [sumAt_next m c t h0 hp, gAt_next m c t h0 hp]; rfl

/-- The `dcl` partial the run found — over the stash as this point's store left it — is the one the proof data states. -/
theorem dcl_last (c : Dev nD) (t : Fin cfg0.N) (h0 : ¬t.val % 12 = 0) (h1 : t.val % 12 = 11) (hp : t.val - 1 < cfg0.N)
    (S : Vec F S12x1024x128 .f32) (hS : StashOK m c (t.val - 1) hp S) :
    dclChain (sumNext (iblk m c 1 t) (iblk m c 6 t) (iblk m c 7 t) (iblk m c 8 t) (iblk m c 9 t) (sumAt m c (t.val - 1) hp)) (gAt m c (t.val - 1) hp)
          (View.ld ((slotRect (grid0.coords t)).overlay S (k0_pay33 (iblk m c 1 t) (iblk m c 6 t) (iblk m c 7 t) (iblk m c 8 t) (iblk m c 9 t))) (Rect.unit (s := S12x1024x128) ![0, 0, 0] S1x1024x128.size inb_S12x1024x128_S1x1024x128_0_0_0))
          (View.ld ((slotRect (grid0.coords t)).overlay S (k0_pay33 (iblk m c 1 t) (iblk m c 6 t) (iblk m c 7 t) (iblk m c 8 t) (iblk m c 9 t))) (Rect.unit (s := S12x1024x128) ![1, 0, 0] S1x1024x128.size inb_S12x1024x128_S1x1024x128_1_0_0))
          (View.ld ((slotRect (grid0.coords t)).overlay S (k0_pay33 (iblk m c 1 t) (iblk m c 6 t) (iblk m c 7 t) (iblk m c 8 t) (iblk m c 9 t))) (Rect.unit (s := S12x1024x128) ![2, 0, 0] S1x1024x128.size inb_S12x1024x128_S1x1024x128_2_0_0))
          (View.ld ((slotRect (grid0.coords t)).overlay S (k0_pay33 (iblk m c 1 t) (iblk m c 6 t) (iblk m c 7 t) (iblk m c 8 t) (iblk m c 9 t))) (Rect.unit (s := S12x1024x128) ![3, 0, 0] S1x1024x128.size inb_S12x1024x128_S1x1024x128_3_0_0))
          (View.ld ((slotRect (grid0.coords t)).overlay S (k0_pay33 (iblk m c 1 t) (iblk m c 6 t) (iblk m c 7 t) (iblk m c 8 t) (iblk m c 9 t))) (Rect.unit (s := S12x1024x128) ![4, 0, 0] S1x1024x128.size inb_S12x1024x128_S1x1024x128_4_0_0))
          (View.ld ((slotRect (grid0.coords t)).overlay S (k0_pay33 (iblk m c 1 t) (iblk m c 6 t) (iblk m c 7 t) (iblk m c 8 t) (iblk m c 9 t))) (Rect.unit (s := S12x1024x128) ![5, 0, 0] S1x1024x128.size inb_S12x1024x128_S1x1024x128_5_0_0))
          (View.ld ((slotRect (grid0.coords t)).overlay S (k0_pay33 (iblk m c 1 t) (iblk m c 6 t) (iblk m c 7 t) (iblk m c 8 t) (iblk m c 9 t))) (Rect.unit (s := S12x1024x128) ![6, 0, 0] S1x1024x128.size inb_S12x1024x128_S1x1024x128_6_0_0))
          (View.ld ((slotRect (grid0.coords t)).overlay S (k0_pay33 (iblk m c 1 t) (iblk m c 6 t) (iblk m c 7 t) (iblk m c 8 t) (iblk m c 9 t))) (Rect.unit (s := S12x1024x128) ![7, 0, 0] S1x1024x128.size inb_S12x1024x128_S1x1024x128_7_0_0))
          (View.ld ((slotRect (grid0.coords t)).overlay S (k0_pay33 (iblk m c 1 t) (iblk m c 6 t) (iblk m c 7 t) (iblk m c 8 t) (iblk m c 9 t))) (Rect.unit (s := S12x1024x128) ![8, 0, 0] S1x1024x128.size inb_S12x1024x128_S1x1024x128_8_0_0))
          (View.ld ((slotRect (grid0.coords t)).overlay S (k0_pay33 (iblk m c 1 t) (iblk m c 6 t) (iblk m c 7 t) (iblk m c 8 t) (iblk m c 9 t))) (Rect.unit (s := S12x1024x128) ![9, 0, 0] S1x1024x128.size inb_S12x1024x128_S1x1024x128_9_0_0))
          (View.ld ((slotRect (grid0.coords t)).overlay S (k0_pay33 (iblk m c 1 t) (iblk m c 6 t) (iblk m c 7 t) (iblk m c 8 t) (iblk m c 9 t))) (Rect.unit (s := S12x1024x128) ![10, 0, 0] S1x1024x128.size inb_S12x1024x128_S1x1024x128_10_0_0))
          (View.ld ((slotRect (grid0.coords t)).overlay S (k0_pay33 (iblk m c 1 t) (iblk m c 6 t) (iblk m c 7 t) (iblk m c 8 t) (iblk m c 9 t))) (Rect.unit (s := S12x1024x128) ![11, 0, 0] S1x1024x128.size inb_S12x1024x128_S1x1024x128_11_0_0))
      = dclAt m c t := by
  have hS' : StashOK m c t.val t.isLt ((slotRect (grid0.coords t)).overlay S (k0_pay33 (iblk m c 1 t) (iblk m c 6 t) (iblk m c 7 t) (iblk m c 8 t) (iblk m c 9 t))) := stash_next m c t h0 hp S hS
  unfold dclAt
  rw [sumAt_next m c t h0 hp, gAt_next m c t h0 hp]
  rw [load_slice m c t h1 ((slotRect (grid0.coords t)).overlay S (k0_pay33 (iblk m c 1 t) (iblk m c 6 t) (iblk m c 7 t) (iblk m c 8 t) (iblk m c 9 t))) hS' 0 ![0, 0, 0] rfl inb_S12x1024x128_S1x1024x128_0_0_0,
    load_slice m c t h1 ((slotRect (grid0.coords t)).overlay S (k0_pay33 (iblk m c 1 t) (iblk m c 6 t) (iblk m c 7 t) (iblk m c 8 t) (iblk m c 9 t))) hS' 1 ![1, 0, 0] rfl inb_S12x1024x128_S1x1024x128_1_0_0,
    load_slice m c t h1 ((slotRect (grid0.coords t)).overlay S (k0_pay33 (iblk m c 1 t) (iblk m c 6 t) (iblk m c 7 t) (iblk m c 8 t) (iblk m c 9 t))) hS' 2 ![2, 0, 0] rfl inb_S12x1024x128_S1x1024x128_2_0_0,
    load_slice m c t h1 ((slotRect (grid0.coords t)).overlay S (k0_pay33 (iblk m c 1 t) (iblk m c 6 t) (iblk m c 7 t) (iblk m c 8 t) (iblk m c 9 t))) hS' 3 ![3, 0, 0] rfl inb_S12x1024x128_S1x1024x128_3_0_0,
    load_slice m c t h1 ((slotRect (grid0.coords t)).overlay S (k0_pay33 (iblk m c 1 t) (iblk m c 6 t) (iblk m c 7 t) (iblk m c 8 t) (iblk m c 9 t))) hS' 4 ![4, 0, 0] rfl inb_S12x1024x128_S1x1024x128_4_0_0,
    load_slice m c t h1 ((slotRect (grid0.coords t)).overlay S (k0_pay33 (iblk m c 1 t) (iblk m c 6 t) (iblk m c 7 t) (iblk m c 8 t) (iblk m c 9 t))) hS' 5 ![5, 0, 0] rfl inb_S12x1024x128_S1x1024x128_5_0_0,
    load_slice m c t h1 ((slotRect (grid0.coords t)).overlay S (k0_pay33 (iblk m c 1 t) (iblk m c 6 t) (iblk m c 7 t) (iblk m c 8 t) (iblk m c 9 t))) hS' 6 ![6, 0, 0] rfl inb_S12x1024x128_S1x1024x128_6_0_0,
    load_slice m c t h1 ((slotRect (grid0.coords t)).overlay S (k0_pay33 (iblk m c 1 t) (iblk m c 6 t) (iblk m c 7 t) (iblk m c 8 t) (iblk m c 9 t))) hS' 7 ![7, 0, 0] rfl inb_S12x1024x128_S1x1024x128_7_0_0,
    load_slice m c t h1 ((slotRect (grid0.coords t)).overlay S (k0_pay33 (iblk m c 1 t) (iblk m c 6 t) (iblk m c 7 t) (iblk m c 8 t) (iblk m c 9 t))) hS' 8 ![8, 0, 0] rfl inb_S12x1024x128_S1x1024x128_8_0_0,
    load_slice m c t h1 ((slotRect (grid0.coords t)).overlay S (k0_pay33 (iblk m c 1 t) (iblk m c 6 t) (iblk m c 7 t) (iblk m c 8 t) (iblk m c 9 t))) hS' 9 ![9, 0, 0] rfl inb_S12x1024x128_S1x1024x128_9_0_0,
    load_slice m c t h1 ((slotRect (grid0.coords t)).overlay S (k0_pay33 (iblk m c 1 t) (iblk m c 6 t) (iblk m c 7 t) (iblk m c 8 t) (iblk m c 9 t))) hS' 10 ![10, 0, 0] rfl inb_S12x1024x128_S1x1024x128_10_0_0,
    load_slice m c t h1 ((slotRect (grid0.coords t)).overlay S (k0_pay33 (iblk m c 1 t) (iblk m c 6 t) (iblk m c 7 t) (iblk m c 8 t) (iblk m c 9 t))) hS' 11 ![11, 0, 0] rfl inb_S12x1024x128_S1x1024x128_11_0_0]
  rfl

set_option maxHeartbeats 4000000 in
theorem body_last (c : Dev nD) (t : Fin cfg0.N) (h0 : ¬t.val % 12 = 0) (h1 : t.val % 12 = 11) :
    bodyPre m c t ⊢ wp frame (wpE (defs₀ (F := F)) Variants.none c none) Set.univ (bodyAt0 t) (fun _ => bodyPost m c t) := by
  have hz : t.val ≠ 0 := fun e => h0 (by rw [e])
  have hp : t.val - 1 < cfg0.N := lt_of_le_of_lt (Nat.sub_le _ _) t.isLt
  rw [bodyPre_eq, bodyPost_live m c t h1, Phi_succ, Phi_pos m c _ _ hz, gAt_next m c t h0 hp]
  unfold bodyAt0
  iintro ⟨⟨⟨HG, HS, ⟨%S, %hS, HT⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  iapply ((runLast c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) scG (Memref.isWhole_whole _) scSum (Memref.isWhole_whole _) scStash (Memref.isWhole_whole _) (fun h => h0 ((isFirst_iff t).mp h)) ((isLast_iff t).mpr h1) (iblk m c 0 t) (iblk m c 1 t) (iblk m c 2 t) (iblk m c 3 t) (iblk m c 4 t) (iblk m c 5 t) (iblk m c 6 t) (iblk m c 7 t) (iblk m c 8 t) (iblk m c 9 t) (gAt m c (t.val - 1) hp) (sumAt m c (t.val - 1) hp) S).2.2.2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexists _; iexact H10
  isplitl [H11]; · iexists _; iexact H11
  isplitl [HG]; · iexact HG
  isplitl [HS]; · iexact HS
  isplitl [HT]; · iexact HT
  iintro ⟨H0, H1, H2, H3, H4, H5, H6, H7, H8, H9, ⟨%f10, H10⟩, ⟨%f11, H11⟩, HG, ⟨%fS, HS⟩, HT⟩
  isplitl [HG HS HT Hg]
  · isplitl [HG HS HT]
    · isplitl [HG]; · iexact HG
      isplitl [HS]
      · unfold owns; iexists _; isplitr; swap; · iexact HS
        ipureintro
        exact (last_Sum c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) scG (Memref.isWhole_whole _) scSum (Memref.isWhole_whole _) scStash (Memref.isWhole_whole _) (fun h => h0 ((isFirst_iff t).mp h)) ((isLast_iff t).mpr h1) (iblk m c 0 t) (iblk m c 1 t) (iblk m c 2 t) (iblk m c 3 t) (iblk m c 4 t) (iblk m c 5 t) (iblk m c 6 t) (iblk m c 7 t) (iblk m c 8 t) (iblk m c 9 t) (gAt m c (t.val - 1) hp) (sumAt m c (t.val - 1) hp) S scSum.view fS).trans (sumAt_next m c t h0 hp).symm
      iexists ((slotRect (grid0.coords t)).overlay S (pTile m c t))
      isplitr
      · ipureintro; exact stash_next m c t h0 hp S hS
      unfold owns; iexists _; isplitr; swap; · iexact HT
      ipureintro
      rw [last_Stash, read_writes_one, Memref.IsWhole.read_unread]
      rfl
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]
  · unfold owns; iexists _; isplitr; swap; · iexact H10
    ipureintro
    exact (last_Dil c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) scG (Memref.isWhole_whole _) scSum (Memref.isWhole_whole _) scStash (Memref.isWhole_whole _) (fun h => h0 ((isFirst_iff t).mp h)) ((isLast_iff t).mpr h1) (iblk m c 0 t) (iblk m c 1 t) (iblk m c 2 t) (iblk m c 3 t) (iblk m c 4 t) (iblk m c 5 t) (iblk m c 6 t) (iblk m c 7 t) (iblk m c 8 t) (iblk m c 9 t) (gAt m c (t.val - 1) hp) (sumAt m c (t.val - 1) hp) S (ms10 t).view f10).trans (dil_last m c t h0 hp)
  unfold owns; iexists _; isplitr; swap; · iexact H11
  ipureintro
  exact (last_Dcl c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) scG (Memref.isWhole_whole _) scSum (Memref.isWhole_whole _) scStash (Memref.isWhole_whole _) (fun h => h0 ((isFirst_iff t).mp h)) ((isLast_iff t).mpr h1) (iblk m c 0 t) (iblk m c 1 t) (iblk m c 2 t) (iblk m c 3 t) (iblk m c 4 t) (iblk m c 5 t) (iblk m c 6 t) (iblk m c 7 t) (iblk m c 8 t) (iblk m c 9 t) (gAt m c (t.val - 1) hp) (sumAt m c (t.val - 1) hp) S (ms11 t).view f11).trans (dcl_last m c t h0 h1 hp S hS)

end Cert.KernelIdeal.Hand

end
-- ==== Proof.IdealFrame.lean ====
/-
  The kernel's frame: every fair execution terminates without a fault and leaves the argument arrays unchanged.

  The body obligation at a generic point is one of three cases by the patch number; the invariant starts as what the
  launch hands over and ends by forgetting what the scratch buffers hold; the library's launch theorem for a region
  followed by host operations then gives the run, with every array of the pipeline at what the proof data computes.
-/
import proofs.«133262_j27453430956191_2_alg».proof.Proof.IdealBodyFirst
import proofs.«133262_j27453430956191_2_alg».proof.Proof.IdealBodyMid
import proofs.«133262_j27453430956191_2_alg».proof.Proof.IdealBodyLast

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

theorem sound_body (c : Dev nD) (t : Fin cfg0.N) :
    bodyPre m c t ⊢ wp frame (wpE (defs₀ (F := F)) Variants.none c none) Set.univ (bodyAt0 t) (fun _ => bodyPost m c t) := by
  by_cases h0 : t.val % 12 = 0
  · exact body_first m c t h0
  · by_cases h1 : t.val % 12 = 11
    · exact body_last m c t h0 h1
    · exact body_mid m c t h0 h1

theorem body_obligation (c : Dev nD) : BodyObligation (dats (F := F) m 0 c) (defs₀ (F := F)) Variants.none () Set.univ := fun t => by
  rw [bigSep_W0, bigSep_W0]
  exact sound_body m c t

theorem hin (c : Dev nD) : Pipeline.ΦA spec0 c ⊢ (dats m 0 c).Φ 0 := by
  rw [show (dats m 0 c).Φ 0 = Phi m c 0 (Nat.zero_le _) from rfl, Phi_zero m c 0 _ rfl]
  try exact Idealize.SL.BI.Entails.refl _

theorem hout (c : Dev nD) : (dats m 0 c).Φ (Fin.last cfg0.N) ⊢ Pipeline.ΦA spec0 c := by
  rw [show (dats m 0 c).Φ (Fin.last cfg0.N) = Phi m c (Fin.last cfg0.N).val (Nat.le_of_lt_succ (Fin.last cfg0.N).isLt) from rfl]
  refine (Phi_forget m c _ _).trans ?_
  rw [rest_eq]
  try exact Idealize.SL.BI.Entails.refl _

set_option backward.isDefEq.respectTransparency.types false in
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around_track cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  frame_of m ρ (dats m) (A_eq m) (run_main m ρ)

end Cert.KernelIdeal.Hand

end
-- ==== Proof.IdealFinal.lean ====
/-
  The two output arrays after the run.

  Output block `b` (one per tile: `[1, 1, 128]` of a `[4, 1, 128]` array) is written back once, at the tile's last
  point `12 b + 11`, with that point's partial loss broadcast over the lanes. So the array ends holding, at
  `(b, 0, j)`, the partial of tile `b` — whatever it held before: the four blocks cover it.
-/
import proofs.«133262_j27453430956191_2_alg».proof.Proof.IdealFrame
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.ValueIdx (ix3)

variable {F : FTy → Type} [FloatOps F] [Named F]

variable (m : (ℓ : Loc nD τ sig) → Buf (Elt F) ℓ) (ρ : Dev nD → PrngReg)

theorem last_lt (b : Fin 4) : 12 * b.val + 11 < cfg0.N := by have := N48; have := b.isLt; omega

/-- The last point of tile `b`. -/
def lastPt (b : Fin 4) : Fin cfg0.N := ⟨12 * b.val + 11, last_lt b⟩

/-- The two arrays' final contents. -/
def dilArr (c : Dev nD) : S4x1x128.Idx → Elt F .f32 := fun i => dilAt m c (lastPt (i 0)) (ix3 (0 : Fin 1) (0 : Fin 1) (i 2))
def dclArr (c : Dev nD) : S4x1x128.Idx → Elt F .f32 := fun i => dclAt m c (lastPt (i 0)) (ix3 (0 : Fin 1) (0 : Fin 1) (i 2))

/-- Where the two output windows' blocks sit: block `t / 12`, decided over the grid. -/
theorem idx10 : ∀ t : Fin cfg0.N, win0_10.index t (0 : Fin 3) = t.val / 12 ∧ win0_10.index t (1 : Fin 3) = 0 ∧ win0_10.index t (2 : Fin 3) = 0 :=
  (by decide +kernel : ∀ t : Fin grid0.N, _)
theorem idx11 : ∀ t : Fin cfg0.N, win0_11.index t (0 : Fin 3) = t.val / 12 ∧ win0_11.index t (1 : Fin 3) = 0 ∧ win0_11.index t (2 : Fin 3) = 0 :=
  (by decide +kernel : ∀ t : Fin grid0.N, _)

theorem lastPt_of (t : Fin cfg0.N) (h : t.val % 12 = 11) (b : Fin 4) (hb : b.val = t.val / 12) : lastPt b = t := by
  apply Fin.ext; show 12 * b.val + 11 = t.val; omega

/-- What a tile's last point writes back is that tile's block of the final array. -/
theorem flushed10_eq (c : Dev nD) (t : Fin cfg0.N) (hf : (cfg0.win 10).flush t = true) :
    (dats m 0 c).flushed 10 t = ((cfg0.win 10).blk t).view.read (Elt F) (dilArr m c) := by
  have h11 : t.val % 12 = 11 := (flush0_10 t).mp hf
  show (cfg0.win 10).cut (grid0.coords t) ((dats m 0 c).after 10 t) = _
  rw [after10]
  obtain ⟨e0, e1, e2⟩ := idx10 t
  funext j
  show dilAt m c t j = dilArr m c (((cfg0.win 10).blk t).view.emb j)
  have hj0 : (j 0).val < 1 := (j 0).isLt
  have hj1 : (j 1).val < 1 := (j 1).isLt
  have hb : ((((cfg0.win 10).blk t).view.emb j) 0).val = t.val / 12 := by
    show win0_10.index t (0 : Fin 3) * 1 + 1 * (j 0).val = t.val / 12; omega
  have hl : ((((cfg0.win 10).blk t).view.emb j) 2).val = (j 2).val := by
    show win0_10.index t (2 : Fin 3) * 128 + 1 * (j 2).val = (j 2).val; omega
  unfold dilArr
  have hj : j = ix3 (0 : Fin 1) (0 : Fin 1) (j 2) := by
    funext a
    match a with
    | ⟨0, _⟩ => exact Fin.ext (by show (j 0).val = 0; omega)
    | ⟨1, _⟩ => exact Fin.ext (by show (j 1).val = 0; omega)
    | ⟨2, _⟩ => rfl
  rw [lastPt_of t h11 _ hb, show ((((cfg0.win 10).blk t).view.emb j) 2) = j 2 from Fin.ext hl]
  exact congrArg _ hj

theorem flushed11_eq (c : Dev nD) (t : Fin cfg0.N) (hf : (cfg0.win 11).flush t = true) :
    (dats m 0 c).flushed 11 t = ((cfg0.win 11).blk t).view.read (Elt F) (dclArr m c) := by
  have h11 : t.val % 12 = 11 := (flush0_11 t).mp hf
  show (cfg0.win 11).cut (grid0.coords t) ((dats m 0 c).after 11 t) = _
  rw [after11]
  obtain ⟨e0, e1, e2⟩ := idx11 t
  funext j
  show dclAt m c t j = dclArr m c (((cfg0.win 11).blk t).view.emb j)
  have hj0 : (j 0).val < 1 := (j 0).isLt
  have hj1 : (j 1).val < 1 := (j 1).isLt
  have hb : ((((cfg0.win 11).blk t).view.emb j) 0).val = t.val / 12 := by
    show win0_11.index t (0 : Fin 3) * 1 + 1 * (j 0).val = t.val / 12; omega
  have hl : ((((cfg0.win 11).blk t).view.emb j) 2).val = (j 2).val := by
    show win0_11.index t (2 : Fin 3) * 128 + 1 * (j 2).val = (j 2).val; omega
  unfold dclArr
  have hj : j = ix3 (0 : Fin 1) (0 : Fin 1) (j 2) := by
    funext a
    match a with
    | ⟨0, _⟩ => exact Fin.ext (by show (j 0).val = 0; omega)
    | ⟨1, _⟩ => exact Fin.ext (by show (j 1).val = 0; omega)
    | ⟨2, _⟩ => rfl
  rw [lastPt_of t h11 _ hb, show ((((cfg0.win 11).blk t).view.emb j) 2) = j 2 from Fin.ext hl]
  exact congrArg _ hj

/-- An index of the array is in point `t`'s block iff each coordinate is in the block's range on its axis. -/
theorem mem_blk10 (t : Fin cfg0.N) (i : S4x1x128.Idx) :
    i ∈ ((cfg0.win 10).blk t).view.set ↔ ∀ a : Fin 3, win0_10.index t a * S1x1x128.size a ≤ (i a).val ∧ (i a).val < win0_10.index t a * S1x1x128.size a + S1x1x128.size a := by
  show i ∈ ((View.whole main_v5_0).slice (win0_10.rect t)).set ↔ _
  rw [View.set_slice_whole, Rect.mem_set_unit]
  exact Iff.rfl
theorem mem_blk11 (t : Fin cfg0.N) (i : S4x1x128.Idx) :
    i ∈ ((cfg0.win 11).blk t).view.set ↔ ∀ a : Fin 3, win0_11.index t a * S1x1x128.size a ≤ (i a).val ∧ (i a).val < win0_11.index t a * S1x1x128.size a + S1x1x128.size a := by
  show i ∈ ((View.whole main_v5_1).slice (win0_11.rect t)).set ↔ _
  rw [View.set_slice_whole, Rect.mem_set_unit]
  exact Iff.rfl

theorem cover10 (i : S4x1x128.Idx) : ∃ t : Fin cfg0.N, (cfg0.win 10).flush t = true ∧ i ∈ ((cfg0.win 10).blk t).view.set := by
  have hi0 : (i 0).val < 4 := (i 0).isLt
  have hi1 : (i 1).val < 1 := (i 1).isLt
  have hi2 : (i 2).val < 128 := (i 2).isLt
  refine ⟨lastPt ⟨(i 0).val, hi0⟩, (flush0_10 _).mpr (by show (12 * (i 0).val + 11) % 12 = 11; omega), ?_⟩
  rw [mem_blk10]
  obtain ⟨e0, e1, e2⟩ := idx10 (lastPt ⟨(i 0).val, hi0⟩)
  have ev : (lastPt ⟨(i 0).val, hi0⟩).val = 12 * (i 0).val + 11 := rfl
  intro a
  match a with
  | ⟨0, _⟩ => show win0_10.index _ (0 : Fin 3) * 1 ≤ (i 0).val ∧ (i 0).val < win0_10.index _ (0 : Fin 3) * 1 + 1; rw [e0, ev]; omega
  | ⟨1, _⟩ => show win0_10.index _ (1 : Fin 3) * 1 ≤ (i 1).val ∧ (i 1).val < win0_10.index _ (1 : Fin 3) * 1 + 1; rw [e1]; omega
  | ⟨2, _⟩ => show win0_10.index _ (2 : Fin 3) * 128 ≤ (i 2).val ∧ (i 2).val < win0_10.index _ (2 : Fin 3) * 128 + 128; rw [e2]; omega

theorem cover11 (i : S4x1x128.Idx) : ∃ t : Fin cfg0.N, (cfg0.win 11).flush t = true ∧ i ∈ ((cfg0.win 11).blk t).view.set := by
  have hi0 : (i 0).val < 4 := (i 0).isLt
  have hi1 : (i 1).val < 1 := (i 1).isLt
  have hi2 : (i 2).val < 128 := (i 2).isLt
  refine ⟨lastPt ⟨(i 0).val, hi0⟩, (flush0_11 _).mpr (by show (12 * (i 0).val + 11) % 12 = 11; omega), ?_⟩
  rw [mem_blk11]
  obtain ⟨e0, e1, e2⟩ := idx11 (lastPt ⟨(i 0).val, hi0⟩)
  have ev : (lastPt ⟨(i 0).val, hi0⟩).val = 12 * (i 0).val + 11 := rfl
  intro a
  match a with
  | ⟨0, _⟩ => show win0_11.index _ (0 : Fin 3) * 1 ≤ (i 0).val ∧ (i 0).val < win0_11.index _ (0 : Fin 3) * 1 + 1; rw [e0, ev]; omega
  | ⟨1, _⟩ => show win0_11.index _ (1 : Fin 3) * 1 ≤ (i 1).val ∧ (i 1).val < win0_11.index _ (1 : Fin 3) * 1 + 1; rw [e1]; omega
  | ⟨2, _⟩ => show win0_11.index _ (2 : Fin 3) * 128 ≤ (i 2).val ∧ (i 2).val < win0_11.index _ (2 : Fin 3) * 128 + 128; rw [e2]; omega

/-- THE TWO ARRAYS after the run. -/
theorem final10 (c : Dev nD) : (dats m 0 c).arrAt 10 cfg0.N = dilArr m c :=
  (dats m 0 c).arrAt_eq_of_cover 10 (dilArr m c) (fun t hf => flushed10_eq m c t hf) (cover10)
theorem final11 (c : Dev nD) : (dats m 0 c).arrAt 11 cfg0.N = dclArr m c :=
  (dats m 0 c).arrAt_eq_of_cover 11 (dclArr m c) (fun t hf => flushed11_eq m c t hf) (cover11)

end Cert.KernelIdeal.Hand

end
-- ==== Proof.IdealValue.lean ====
/-
  The kernel's two results.

  After the region the host takes lane 0 of each output array's four blocks, sums the four numbers from zero, and
  divides the second sum by 12. With the arrays' final contents known, the run ends with the two result buffers at
  these functions of the four tiles' partial losses, and the argument arrays unchanged.
-/
import proofs.«133262_j27453430956191_2_alg».proof.Proof.IdealFinal
import Idealize.ShloMosaic.Lib.StableHlo.Run

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

variable (m : (ℓ : Loc nD τ sig) → Buf (Elt F) ℓ) (ρ : Dev nD → PrngReg)

/-- Lane 0 of the four blocks, summed from zero. -/
def tailSum (X : S4x1x128.Idx → Elt F .f32) : S_.Idx → Elt F .f32 :=
  Host.reduceAdd (fun i => shapeCast S4 (extractStridedSlice S4x1x1 ![0, 0, 0] X slices_S4x1x128_S4x1x1_0_0_0) shapeCasts_S4x1x1_S4 i)
    (constant S_ .f32 0x00000000#32) reducesTo_S4_S_d0 h_S_

/-- The same, divided by the number of patches. -/
def tailMean (X : S4x1x128.Idx → Elt F .f32) : S_.Idx → Elt F .f32 :=
  Host.divf (tailSum X) (constant S_ .f32 0x41400000#32)

theorem tail_dil (c : Dev nD) :
    Pipeline.afterTail₀ cfgs (dats m) 0 (V0 m) [hostOps1] c main_v8 = tailSum (dilArr m c) := by
  unfold Pipeline.afterTail₀
  show StableHlo.after hostOps1 _ (Proc.devRef .tc main_v8) = _
  after_results
  have e : Pipeline.withArrays (cfgs 0).spec c (V0 m c) (fun w => (dats m 0 c).arrAt w (cfgs 0).N) (Proc.devRef .tc main_v5_0) = dilArr m c :=
    (Pipeline.withArrays_arr spec0 launch0.win.arr_inj c _ _ 10).trans (final10 m c)
  rw [e]
  rfl

theorem tail_dcl (c : Dev nD) :
    Pipeline.afterTail₀ cfgs (dats m) 0 (V0 m) [hostOps1] c main_v12 = tailMean (dclArr m c) := by
  unfold Pipeline.afterTail₀
  show StableHlo.after hostOps1 _ (Proc.devRef .tc main_v12) = _
  after_results
  have e : Pipeline.withArrays (cfgs 0).spec c (V0 m c) (fun w => (dats m 0 c).arrAt w (cfgs 0).N) (Proc.devRef .tc main_v5_1) = dclArr m c :=
    (Pipeline.withArrays_arr spec0 launch0.win.arr_inj c _ _ 11).trans (final11 m c)
  rw [e]
  rfl

/-- THE RUN with its results named: the two result buffers at the tails of the final arrays, the arguments unchanged. -/
theorem run_value : θ_run defs (onTc (τ := τ) (main (F := F))) ⟨m, fun _ => 0, ρ⟩ (fun r => ∀ c : Dev nD,
      r.2.mem ((c.tc : Thread nD τ).loc main_v8) = tailSum (dilArr m c)
      ∧ r.2.mem ((c.tc : Thread nD τ).loc main_v12) = tailMean (dclArr m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun _ h c => ⟨
      ((h c).2 main_v8 (Pipeline.mem_restRefs_of main_v8 (by decide) (by decide))).trans (tail_dil m c),
      ((h c).2 main_v12 (Pipeline.mem_restRefs_of main_v12 (by decide) (by decide))).trans (tail_dcl m c),
      ((h c).1 0).trans (((dats m 0 c).arrAt_in 0 rfl _).trans ((A_eq m c 0).trans (V_main_arg0 m c))),
      (((h c).2 main_arg1 (Pipeline.mem_restRefs_of main_arg1 (by decide) (by decide))).trans (W_main_arg1 m (dats m) c)),
      (((h c).2 main_arg2 (Pipeline.mem_restRefs_of main_arg2 (by decide) (by decide))).trans (W_main_arg2 m (dats m) c)),
      (((h c).2 main_arg3 (Pipeline.mem_restRefs_of main_arg3 (by decide) (by decide))).trans (W_main_arg3 m (dats m) c)),
      ((h c).1 3).trans (((dats m 0 c).arrAt_in 3 rfl _).trans ((A_eq m c 3).trans (V_main_arg4 m c))),
      (((h c).2 main_arg5 (Pipeline.mem_restRefs_of main_arg5 (by decide) (by decide))).trans (W_main_arg5 m (dats m) c)),
      ((h c).1 5).trans (((dats m 0 c).arrAt_in 5 rfl _).trans ((A_eq m c 5).trans (V_main_arg6 m c))),
      (((h c).2 main_arg7 (Pipeline.mem_restRefs_of main_arg7 (by decide) (by decide))).trans (W_main_arg7 m (dats m) c)),
      ((h c).1 7).trans (((dats m 0 c).arrAt_in 7 rfl _).trans ((A_eq m c 7).trans (V_main_arg8 m c))),
      (((h c).2 main_arg9 (Pipeline.mem_restRefs_of main_arg9 (by decide) (by decide))).trans (W_main_arg9 m (dats m) c)),
      ((h c).1 9).trans (((dats m 0 c).arrAt_in 9 rfl _).trans ((A_eq m c 9).trans (V_main_arg10 m c)))⟩) (run_main m ρ)

end Cert.KernelIdeal.Hand

end
-- ==== Proof.Loss.lean ====
/-
  The two losses as functions of the embedded rows, on the extended reals.

  A row is a vector of 128 extended reals. An input row `x` (640 entries) is embedded by a two-layer map,
  `y = W₂ · relu (W₁ · x + b₁) + b₂`, and divided by its Euclidean norm `√(Σ y²)`. With `g b` the embedded global row
  of sample `b` and `p l b` its `l`-th embedded patch row (12 patches), `p̄ b` is the mean of the patch rows, and

    dil = Σ_b  skl (g b) (p̄ b),        dcl = (Σ_b Σ_l  skl ((g b − p l b)²) ((p̄ b − p l b)²)) / 12,

  where `skl a b` is the symmetrised Kullback–Leibler divergence of the softmaxes of `a / 4` and `b / 4`, scaled by
  `16 / 128`. The two programs spell `skl` differently: one as a single sum `Σ_d (q_d − p_d)(log q_d − log p_d) · (1/8)`
  (`symKL`), the other as the sum of the two one-sided divergences, each `Σ_d q_d (log q_d − log p_d) / 128 · 16` (`kl`);
  and the mean as a product with `1/12` or as a quotient by `12`. This module only STATES the functions, in both
  spellings; that the spellings agree is LossLaws.lean.
-/
import Idealize.ShloMosaic.PureOps.Ideal

noncomputable section

namespace Cert.Loss

open Idealize.ShloMosaic

/-- A vector of 128 features. -/
abbrev Row := Fin 128 → EReal

/-! ## The embedding of one input row -/

/-- The hidden layer: `relu (W₁ · x + b₁)`. -/
def hidden (x : Fin 640 → EReal) (w1 : Fin 128 → Fin 640 → EReal) (b1 : Fin 128 → EReal) : Row :=
  fun k => max ((∑ i, x i * w1 k i) + b1 k) 0

/-- The output layer before normalisation: `W₂ · h + b₂`. -/
def outLayer (h : Row) (w2 : Fin 128 → Fin 128 → EReal) (b2 : Fin 128 → EReal) : Row :=
  fun j => (∑ k, h k * w2 j k) + b2 j

/-- A row divided by its Euclidean norm (the quotient and the root are the extended reals' conventions: a zero row
    gives `0 / 0`, which is `⊥` in every entry). -/
def normalise (y : Row) : Row :=
  fun j => Ideal.div (y j) (Ideal.sqrt (∑ d, y d * y d))

/-- The embedded row. -/
def embed (x : Fin 640 → EReal) (w1 : Fin 128 → Fin 640 → EReal) (b1 : Fin 128 → EReal)
    (w2 : Fin 128 → Fin 128 → EReal) (b2 : Fin 128 → EReal) : Row :=
  normalise (outLayer (hidden x w1 b1) w2 b2)

/-! ## The log-softmax at temperature 4 -/

/-- The maximum of a row, folded from `⊥`. -/
def rowMax (z : Row) : EReal := max ⊥ (Finset.univ.fold max ⊥ z)

/-- A row divided by the temperature. -/
def scaled (a : Row) : Row := fun d => Ideal.div (a d) ((4 : ℝ) : EReal)

/-- `log_softmax (a / 4)`: the scaled row shifted by its maximum, less the logarithm of the sum of the exponentials
    of the shifted row. -/
def lsm (a : Row) : Row :=
  fun d => (scaled a d - rowMax (scaled a)) - Ideal.log (∑ e, Ideal.exp (scaled a e - rowMax (scaled a)))

/-- The softmax probabilities `exp (lsm a)`. -/
def prob (a : Row) : Row := fun d => Ideal.exp (lsm a d)

/-! ## The divergence of two rows, in the two spellings -/

/-- The symmetrised divergence as ONE sum: `(Σ_d (q_d − p_d) (log q_d − log p_d)) · (1/8)`, `p` of `a`, `q` of `b`. -/
def symKL (a b : Row) : EReal :=
  (∑ d, (prob b d - prob a d) * (lsm b d - lsm a d)) * ((1 / 8 : ℝ) : EReal)

/-- The one-sided divergence of student `s` from teacher `t`: `(Σ_d q_d (log q_d − log p_d)) / 128 · 16`, `p` of `s`,
    `q` of `t`. -/
def kl (s t : Row) : EReal :=
  Ideal.div (∑ d, prob t d * (lsm t d - lsm s d)) ((128 : ℝ) : EReal) * ((16 : ℝ) : EReal)

/-- The entrywise squared difference of two rows. -/
def sqDiff (u v : Row) : Row := fun d => (u d - v d) * (u d - v d)

/-! ## The losses of a batch of 4096 samples, 12 patches each -/

/-- Sample `r` of tile `t` (4 tiles of 1024 samples). -/
def sample (t : Fin 4) (r : Fin 1024) : Fin 4096 := ⟨t.val * 1024 + r.val, by omega⟩

variable (g : Fin 4096 → Row) (p : Fin 12 → Fin 4096 → Row)

/-- The mean patch row as a product with `1/12`. -/
def meanMul (b : Fin 4096) : Row := fun d => (∑ l, p l b d) * ((1 / 12 : ℝ) : EReal)

/-- The mean patch row as a quotient by `12`. -/
def meanDiv (b : Fin 4096) : Row := fun d => Ideal.div (∑ l, p l b d) ((12 : ℝ) : EReal)

/-- `dil`, tile by tile, through the one-sum divergence and the product mean. -/
def dilTiled : EReal :=
  ∑ t : Fin 4, ∑ r : Fin 1024, symKL (g (sample t r)) (meanMul p (sample t r))

/-- `dil`, over the whole batch, through the two one-sided divergences and the quotient mean. -/
def dilBatch : EReal :=
  ∑ b : Fin 4096, (kl (g b) (meanDiv p b) + kl (meanDiv p b) (g b))

/-- `dcl`, tile by tile and patch by patch, through the one-sum divergence and the product mean. -/
def dclTiled : EReal :=
  Ideal.div (∑ t : Fin 4, ∑ l : Fin 12, ∑ r : Fin 1024,
      symKL (sqDiff (g (sample t r)) (p l (sample t r))) (sqDiff (meanMul p (sample t r)) (p l (sample t r))))
    ((12 : ℝ) : EReal)

/-- `dcl`, over the whole batch, through the two one-sided divergences and the quotient mean. -/
def dclBatch : EReal :=
  Ideal.div (∑ b : Fin 4096, ∑ l : Fin 12,
      (kl (sqDiff (g b) (p l b)) (sqDiff (meanDiv p b) (p l b)) + kl (sqDiff (meanDiv p b) (p l b)) (sqDiff (g b) (p l b))))
    ((12 : ℝ) : EReal)

/-! ## Rows that are real throughout, or `⊥` throughout -/

/-- A row is UNIFORM when every entry is a real number, or every entry is `⊥`: what normalising a real row gives
    (a non-zero row divided by its positive norm, or the zero row's `0 / 0`). -/
def Uniform (a : Row) : Prop := (∀ d, ∃ r : ℝ, a d = (r : EReal)) ∨ (∀ d, a d = ⊥)

end Cert.Loss

end
-- ==== Proof.Rows.lean ====
/-
  The embedded rows as functions of the argument arrays.

  The eleven arguments are the global inputs `ebg` [4096, 640], the patch inputs `ebp` [49152, 640] (patch `l` of sample
  `b` is row `l · 4096 + b`), an unused integer array, and two sets of weights `W₁` [128, 640], `b₁` [128], `W₂` [128, 128],
  `b₂` [128] (one for the global rows, one for the patch rows). `gRows` and `pRows` are the embedded rows of Loss.lean
  read off those arrays; both programs' results are stated over them.
-/
import proofs.«133262_j27453430956191_2_alg».proof.Proof.Loss
import Idealize.ShloMosaic.Lib.ValueIdx

noncomputable section

namespace Cert.Loss

open Idealize.ShloMosaic Idealize.ShloMosaic.ValueIdx

/-- Row `l · 4096 + b` of the patch inputs: patch `l` of sample `b`. -/
def patchRow (l : Fin 12) (b : Fin 4096) : Fin 49152 := ⟨l.val * 4096 + b.val, by omega⟩

/-- The embedded global rows. -/
def gRows (ebg : (⟨2, ![4096, 640]⟩ : Shape).Idx → EReal) (w1 : (⟨2, ![128, 640]⟩ : Shape).Idx → EReal)
    (b1 : (⟨1, ![128]⟩ : Shape).Idx → EReal) (w2 : (⟨2, ![128, 128]⟩ : Shape).Idx → EReal)
    (b2 : (⟨1, ![128]⟩ : Shape).Idx → EReal) : Fin 4096 → Row :=
  fun b => embed (fun i => ebg (ix2 b i)) (fun k i => w1 (ix2 k i)) (fun k => b1 (ix1 k)) (fun j k => w2 (ix2 j k))
    (fun j => b2 (ix1 j))

/-- The embedded patch rows. -/
def pRows (ebp : (⟨2, ![49152, 640]⟩ : Shape).Idx → EReal) (w1 : (⟨2, ![128, 640]⟩ : Shape).Idx → EReal)
    (b1 : (⟨1, ![128]⟩ : Shape).Idx → EReal) (w2 : (⟨2, ![128, 128]⟩ : Shape).Idx → EReal)
    (b2 : (⟨1, ![128]⟩ : Shape).Idx → EReal) : Fin 12 → Fin 4096 → Row :=
  fun l b => embed (fun i => ebp (ix2 (patchRow l b) i)) (fun k i => w1 (ix2 k i)) (fun k => b1 (ix1 k))
    (fun j k => w2 (ix2 j k)) (fun j => b2 (ix1 j))

end Cert.Loss

end
-- ==== Proof.PayConsts.lean ====
/-
  The float words the kernel's payloads spell, as the extended reals they denote: `4`, `1/8`, `0`, `⊥` (minus
  infinity), and the named reciprocal `1/12`. One module unfolds the bit patterns, once; the payload lemmas cite these.
-/
import Idealize.ShloMosaic.PureOps.Ideal
import Idealize.ShloMosaic.PureOps.Ideal.Laws
import Idealize.ShloMosaic.PureOps.IdealRules
import proofs.«133262_j27453430956191_2_alg».proof.KernelIdeal

noncomputable section

namespace Cert.KernelIdeal.Pay

open Idealize.ShloMosaic

/-- The word `0x40800000` denotes the real `4`. -/
theorem ofBits_four : Ideal.ofBits .f32 0x40800000#32 = ((4 : ℝ) : EReal) := by
  simp [Ideal.ofBits, Ideal.ieee, -EReal.coe_mul]; norm_num

/-- The word `0x3E000000` denotes the real `1/8`. -/
theorem ofBits_eighth : Ideal.ofBits .f32 0x3E000000#32 = ((1 / 8 : ℝ) : EReal) := by
  simp [Ideal.ofBits, Ideal.ieee, -EReal.coe_mul]; norm_num

/-- The word `0x00000000` denotes `0`. -/
theorem ofBits_zero : Ideal.ofBits .f32 0x00000000#32 = 0 := Ideal.ofBits_zero_f32

/-- The word `0xFF800000` denotes `⊥`. -/
theorem ofBits_negInf : Ideal.ofBits .f32 0xFF800000#32 = ⊥ := by
  simp [Ideal.ofBits, Ideal.ieee]

/-- The named reciprocal denotes the rational `1/12`, by the certificate's table. -/
theorem inv_12 : Named.named (F := Ideal) Cert.KernelIdeal.κ "inv_12" (φ := .f32) 0x3DAAAAAB#32 = ((1 / 12 : ℝ) : EReal) :=
  IdealRules.named_const.ideal_named_scalar _ _ _ _ rfl

/-- A scalar word at the ideal instance is what its pattern denotes. -/
theorem scalar_ofBits (b : BitVec 32) : Scalar.ofBits (F := Ideal) .f32 b = Ideal.ofBits .f32 b := rfl

end Cert.KernelIdeal.Pay

end
-- ==== Proof.PayLayout.lean ====
/-
  The kernel's non-pointwise operations read at an index given by coordinates: the column forms of a shape cast and a
  broadcast (`[a] → [a, 1]`, `[a, 1] → [a, b]`, `[1, 1, 1] → [1, 1, b]`), a lane sum and a lane maximum of a
  `[1024, 128]` tile, the sum of a `[1024, 1]` column over its rows, and the two matrix products into a zero accumulator.
-/
import Idealize.ShloMosaic.Lib.ValueIdx
import Idealize.ShloMosaic.Lib.Pipeline.Value
import Idealize.ShloMosaic.Lib.ValueLayout
import Idealize.ShloMosaic.PureOps.Ideal.Laws
import proofs.«133262_j27453430956191_2_alg».proof.Proof.Gen.KernelIdeal.Skeleton

noncomputable section

namespace Cert.KernelIdeal.Pay

open Idealize.ShloMosaic Idealize.ShloMosaic.ValueIdx
open Cert.KernelIdeal Cert.KernelIdeal.Gen

variable {α : Type}

/-! ## Column forms of a shape cast and a broadcast -/

/-- An `[a]` array cast to `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column's entry of row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A `[1, 1, 1]` array broadcast to `[1, 1, b]` reads its one entry everywhere. -/
theorem broadcastTo_111_11b_apply {b : ℕ} (v : (⟨3, ![1, 1, 1]⟩ : Shape).Idx → α)
    (h : (⟨3, ![1, 1, 1]⟩ : Shape).Broadcasts ⟨3, ![1, 1, b]⟩) (u w : Fin 1) (c : Fin b) :
    broadcastTo ⟨3, ![1, 1, b]⟩ v h (ix3 u w c) = v (ix3 (0 : Fin 1) (0 : Fin 1) (0 : Fin 1)) := by
  refine broadcastTo_apply v h (ix3 u w c) (ix3 (0 : Fin 1) (0 : Fin 1) (0 : Fin 1)) fun ax => ?_
  match ax with
  | ⟨0, _⟩ => rfl
  | ⟨1, _⟩ => rfl
  | ⟨2, _⟩ => rfl

/-! ## Reductions of a tile -/

/-- The sum over the lanes of a `[1024, 128]` tile, at row `r`. -/
theorem laneSum_apply (src : FVec Ideal S1024x128 .f32) (h : S1024x128.Reduces [1] S1024) (hφ : FKind.Formats .f32)
    (hacc : (0x00000000#32 : BitVec 32) = 0x00000000#32) (r : Fin 1024) :
    multiReduction (F := Ideal) .add [1] S1024 src 0x00000000#32 h hφ hacc (ix1 r) = ∑ k : Fin 128, src (ix2 r k) := by
  refine (Ideal.multiReduction_add_single src _ h hφ hacc (ix1 r)).trans ?_
  refine Finset.sum_congr rfl fun k _ => congrArg src ?_
  funext c
  apply Fin.ext
  match c with
  | ⟨0, _⟩ => rfl
  | ⟨1, _⟩ => rfl

/-- The maximum over the lanes of a `[1024, 128]` tile, at row `r`: the fold of `max` from the accumulator's value. -/
theorem laneMax_apply (src : FVec Ideal S1024x128 .f32) (h : S1024x128.Reduces [1] S1024)
    (hφ : FKind.Formats .f32) (hacc : (0xFF800000#32 : BitVec 32) = 0xFF800000#32) (r : Fin 1024) :
    multiReduction (F := Ideal) .maximumf [1] S1024 src 0xFF800000#32 h hφ hacc (ix1 r)
      = (Finset.univ : Finset (Fin 128)).fold max (Ideal.ofBits .f32 0xFF800000#32) (fun k => src (ix2 r k)) := by
  refine (Ideal.multiReduction_maximumf_single src 0xFF800000#32 h hφ hacc (ix1 r)).trans ?_
  refine congrArg (fun f => (Finset.univ : Finset (Fin 128)).fold max (Ideal.ofBits .f32 0xFF800000#32) f) ?_
  funext k
  refine congrArg src ?_
  funext c
  apply Fin.ext
  match c with
  | ⟨0, _⟩ => rfl
  | ⟨1, _⟩ => rfl

/-- The sum over the rows of a `[1024, 1]` column. -/
theorem rowSum_apply (src : FVec Ideal S1024x1 .f32) (h : S1024x1.Reduces [0] S1) (hφ : FKind.Formats .f32)
    (hacc : (0x00000000#32 : BitVec 32) = 0x00000000#32) (u : Fin 1) :
    multiReduction (F := Ideal) .add [0] S1 src 0x00000000#32 h hφ hacc (ix1 u) = ∑ r : Fin 1024, src (ix2 r (0 : Fin 1)) := by
  refine (Ideal.multiReduction_add_single src _ h hφ hacc (ix1 u)).trans ?_
  refine Finset.sum_congr rfl fun k _ => congrArg src ?_
  funext c
  apply Fin.ext
  have hu : u.val = 0 := by omega
  match c with
  | ⟨0, _⟩ => rfl
  | ⟨1, _⟩ => exact hu

/-! ## The two matrix products into a zero accumulator -/

theorem lhs640_0 (i : S1024x128.Idx) (q : dot_S1024x640_S640x128_S1024x128_1_0_0_1_n_n.contr.Idx) :
    (dot_S1024x640_S640x128_S1024x128_1_0_0_1_n_n.lhsIdx i q 0).val = (i 0).val := by
  unfold DotDims.lhsIdx
  rw [dif_neg (show ¬(0 : Fin S1024x640.rank) ∈ dot_S1024x640_S640x128_S1024x128_1_0_0_1_n_n.lhsBatch by decide),
    dif_pos (show (0 : Fin S1024x640.rank) ∈ dot_S1024x640_S640x128_S1024x128_1_0_0_1_n_n.lhsNonContracting by decide)]
  rfl
theorem rhs640_1 (i : S1024x128.Idx) (q : dot_S1024x640_S640x128_S1024x128_1_0_0_1_n_n.contr.Idx) :
    (dot_S1024x640_S640x128_S1024x128_1_0_0_1_n_n.rhsIdx i q 1).val = (i 1).val := by
  unfold DotDims.rhsIdx
  rw [dif_neg (show ¬(1 : Fin S640x128.rank) ∈ dot_S1024x640_S640x128_S1024x128_1_0_0_1_n_n.rhsBatch by decide),
    dif_pos (show (1 : Fin S640x128.rank) ∈ dot_S1024x640_S640x128_S1024x128_1_0_0_1_n_n.rhsNonContracting by decide)]
  rfl

/-- The `[1024, 640] × [640, 128]` product into zeros, at `(r, j)`: the sum over the 640 contracted coordinates. -/
theorem matmul640_apply (lhs : FVec Ideal S1024x640 .f32) (rhs : FVec Ideal S640x128 .f32) (r : Fin 1024) (j : Fin 128) :
    matmul (F := Ideal) dot_S1024x640_S640x128_S1024x128_1_0_0_1_n_n none lhs rhs (constant S1024x128 .f32 0x00000000#32) (ix2 r j)
      = ∑ i : Fin 640, lhs (ix2 r i) * rhs (ix2 i j) := by
  show FloatOps.matmul _ none lhs rhs _ (ix2 r j) = _
  rw [Ideal.matmul_constant_zero_apply,
    ← Equiv.sum_comp (contrEquiv1 dot_S1024x640_S640x128_S1024x128_1_0_0_1_n_n 640 rfl rfl).symm]
  refine Finset.sum_congr rfl fun k _ => ?_
  have hk := contrEquiv1_symm_val dot_S1024x640_S640x128_S1024x128_1_0_0_1_n_n 640 rfl rfl k
  have el : dot_S1024x640_S640x128_S1024x128_1_0_0_1_n_n.lhsIdx (ix2 r j)
      ((contrEquiv1 dot_S1024x640_S640x128_S1024x128_1_0_0_1_n_n 640 rfl rfl).symm k) = ix2 r k :=
    funext fun a => Fin.ext (by
      match a with
      | ⟨0, _⟩ => exact lhs640_0 _ _
      | ⟨1, _⟩ => exact (dot_S1024x640_S640x128_S1024x128_1_0_0_1_n_n.lhsIdx_val_of_single rfl _ _).trans hk)
  have er : dot_S1024x640_S640x128_S1024x128_1_0_0_1_n_n.rhsIdx (ix2 r j)
      ((contrEquiv1 dot_S1024x640_S640x128_S1024x128_1_0_0_1_n_n 640 rfl rfl).symm k) = ix2 k j :=
    funext fun a => Fin.ext (by
      match a with
      | ⟨0, _⟩ => exact (dot_S1024x640_S640x128_S1024x128_1_0_0_1_n_n.rhsIdx_val_of_single rfl _ _).trans hk
      | ⟨1, _⟩ => exact rhs640_1 _ _)
  rw [el, er]

theorem lhs128_0 (i : S1024x128.Idx) (q : dot_S1024x128_S128x128_S1024x128_1_0_0_1_n_n.contr.Idx) :
    (dot_S1024x128_S128x128_S1024x128_1_0_0_1_n_n.lhsIdx i q 0).val = (i 0).val := by
  unfold DotDims.lhsIdx
  rw [dif_neg (show ¬(0 : Fin S1024x128.rank) ∈ dot_S1024x128_S128x128_S1024x128_1_0_0_1_n_n.lhsBatch by decide),
    dif_pos (show (0 : Fin S1024x128.rank) ∈ dot_S1024x128_S128x128_S1024x128_1_0_0_1_n_n.lhsNonContracting by decide)]
  rfl
theorem rhs128_1 (i : S1024x128.Idx) (q : dot_S1024x128_S128x128_S1024x128_1_0_0_1_n_n.contr.Idx) :
    (dot_S1024x128_S128x128_S1024x128_1_0_0_1_n_n.rhsIdx i q 1).val = (i 1).val := by
  unfold DotDims.rhsIdx
  rw [dif_neg (show ¬(1 : Fin S128x128.rank) ∈ dot_S1024x128_S128x128_S1024x128_1_0_0_1_n_n.rhsBatch by decide),
    dif_pos (show (1 : Fin S128x128.rank) ∈ dot_S1024x128_S128x128_S1024x128_1_0_0_1_n_n.rhsNonContracting by decide)]
  rfl

/-- The `[1024, 128] × [128, 128]` product into zeros, at `(r, j)`: the sum over the 128 contracted coordinates. -/
theorem matmul128_apply (lhs : FVec Ideal S1024x128 .f32) (rhs : FVec Ideal S128x128 .f32) (r : Fin 1024) (j : Fin 128) :
    matmul (F := Ideal) dot_S1024x128_S128x128_S1024x128_1_0_0_1_n_n none lhs rhs (constant S1024x128 .f32 0x00000000#32) (ix2 r j)
      = ∑ k : Fin 128, lhs (ix2 r k) * rhs (ix2 k j) := by
  show FloatOps.matmul _ none lhs rhs _ (ix2 r j) = _
  rw [Ideal.matmul_constant_zero_apply,
    ← Equiv.sum_comp (contrEquiv1 dot_S1024x128_S128x128_S1024x128_1_0_0_1_n_n 128 rfl rfl).symm]
  refine Finset.sum_congr rfl fun k _ => ?_
  have hk := contrEquiv1_symm_val dot_S1024x128_S128x128_S1024x128_1_0_0_1_n_n 128 rfl rfl k
  have el : dot_S1024x128_S128x128_S1024x128_1_0_0_1_n_n.lhsIdx (ix2 r j)
      ((contrEquiv1 dot_S1024x128_S128x128_S1024x128_1_0_0_1_n_n 128 rfl rfl).symm k) = ix2 r k :=
    funext fun a => Fin.ext (by
      match a with
      | ⟨0, _⟩ => exact lhs128_0 _ _
      | ⟨1, _⟩ => exact (dot_S1024x128_S128x128_S1024x128_1_0_0_1_n_n.lhsIdx_val_of_single rfl _ _).trans hk)
  have er : dot_S1024x128_S128x128_S1024x128_1_0_0_1_n_n.rhsIdx (ix2 r j)
      ((contrEquiv1 dot_S1024x128_S128x128_S1024x128_1_0_0_1_n_n 128 rfl rfl).symm k) = ix2 k j :=
    funext fun a => Fin.ext (by
      match a with
      | ⟨0, _⟩ => exact (dot_S1024x128_S128x128_S1024x128_1_0_0_1_n_n.rhsIdx_val_of_single rfl _ _).trans hk
      | ⟨1, _⟩ => exact rhs128_1 _ _)
  rw [el, er]

end Cert.KernelIdeal.Pay

end
-- ==== Proof.PayEmbed.lean ====
/-
  The kernel's embedding payloads read at an index: the two-layer map of a `[1024, 640]` tile of input rows (a matrix
  product with `W₁ᵀ`, the bias, the positive part, a matrix product with `W₂ᵀ`, the bias) divided by the Euclidean norm
  of each row, is `Loss.embed` of the row; the global tile's payload and the patch tile's are that one function, and the
  payloads around them (the stash's leading unit axis, the running sum, the zero tile) read through.
-/
import Idealize.ShloMosaic.Lib.ValueIdx
import Idealize.ShloMosaic.Lib.Pipeline.Value
import Idealize.ShloMosaic.Lib.ValueLayout
import Idealize.ShloMosaic.PureOps.Ideal.Laws
import proofs.«133262_j27453430956191_2_alg».proof.Proof.Gen.KernelIdeal.Skeleton
import proofs.«133262_j27453430956191_2_alg».proof.Proof.Loss
import proofs.«133262_j27453430956191_2_alg».proof.Proof.PayConsts
import proofs.«133262_j27453430956191_2_alg».proof.Proof.PayLayout

noncomputable section

namespace Cert.KernelIdeal.Pay

open Idealize.ShloMosaic Idealize.ShloMosaic.ValueIdx
open Cert.KernelIdeal Cert.KernelIdeal.Gen

/-! ## The three stages, as the kernel spells them -/

/-- The hidden layer of a tile: `max (x · W₁ᵀ + b₁) 0`. -/
def hiddenK (x : FVec Ideal S1024x640 .f32) (w1t : FVec Ideal S640x128 .f32) (b1 : FVec Ideal S128 .f32) :
    FVec Ideal S1024x128 .f32 :=
  maximumf
    (addf (matmul dot_S1024x640_S640x128_S1024x128_1_0_0_1_n_n none x w1t (constant S1024x128 .f32 0x00000000#32))
      (broadcastTo S1024x128 (shapeCast S1x128 b1 shapeCasts_S128_S1x128) broadcasts_S1x128_S1024x128))
    (broadcast S1024x128 (Scalar.ofBits .f32 0x00000000#32))

/-- The output layer of a tile: `h · W₂ᵀ + b₂`. -/
def outK (h : FVec Ideal S1024x128 .f32) (w2t : FVec Ideal S128x128 .f32) (b2 : FVec Ideal S128 .f32) :
    FVec Ideal S1024x128 .f32 :=
  addf (matmul dot_S1024x128_S128x128_S1024x128_1_0_0_1_n_n none h w2t (constant S1024x128 .f32 0x00000000#32))
    (broadcastTo S1024x128 (shapeCast S1x128 b2 shapeCasts_S128_S1x128) broadcasts_S1x128_S1024x128)

/-- A tile's rows divided by their Euclidean norms. -/
def normK (y : FVec Ideal S1024x128 .f32) : FVec Ideal S1024x128 .f32 :=
  divf y
    (broadcastTo S1024x128
      (sqrt (shapeCast S1024x1
        (multiReduction (F := Ideal) .add [1] S1024 (mulf y y) 0x00000000#32 reduces_S1024x128_S1024 (.inl rfl) rfl)
        shapeCasts_S1024_S1024x1))
      broadcasts_S1024x1_S1024x128)

/-- The embedded tile. -/
def embedK (x : FVec Ideal S1024x640 .f32) (w1t : FVec Ideal S640x128 .f32) (b1 : FVec Ideal S128 .f32)
    (w2t : FVec Ideal S128x128 .f32) (b2 : FVec Ideal S128 .f32) : FVec Ideal S1024x128 .f32 :=
  normK (outK (hiddenK x w1t b1) w2t b2)

/-! ## Each stage at an index -/

/-- A bias row `[128]`, cast to `[1, 128]` and broadcast over the rows, reads the bias at the lane. -/
theorem bias_apply (b : FVec Ideal S128 .f32) (r : Fin 1024) (k : Fin 128) :
    broadcastTo S1024x128 (shapeCast S1x128 b shapeCasts_S128_S1x128) broadcasts_S1x128_S1024x128 (ix2 r k) = b (ix1 k) := by
  rw [broadcastTo_1b_ab_apply, shapeCast_a_1a_apply]

theorem hiddenK_apply (x : FVec Ideal S1024x640 .f32) (w1t : FVec Ideal S640x128 .f32) (b1 : FVec Ideal S128 .f32)
    (r : Fin 1024) (k : Fin 128) :
    hiddenK x w1t b1 (ix2 r k)
      = Loss.hidden (fun i => x (ix2 r i)) (fun k i => w1t (ix2 i k)) (fun k => b1 (ix1 k)) k := by
  unfold hiddenK Loss.hidden
  rw [maximumf_apply, addf_apply, matmul640_apply, bias_apply, broadcast_apply, scalar_ofBits, ofBits_zero]

theorem outK_apply (h : FVec Ideal S1024x128 .f32) (w2t : FVec Ideal S128x128 .f32) (b2 : FVec Ideal S128 .f32)
    (r : Fin 1024) (j : Fin 128) :
    outK h w2t b2 (ix2 r j)
      = Loss.outLayer (fun k => h (ix2 r k)) (fun j k => w2t (ix2 k j)) (fun j => b2 (ix1 j)) j := by
  unfold outK Loss.outLayer
  rw [addf_apply, matmul128_apply, bias_apply]

theorem normK_apply (y : FVec Ideal S1024x128 .f32) (r : Fin 1024) (j : Fin 128) :
    normK y (ix2 r j) = Loss.normalise (fun d => y (ix2 r d)) j := by
  unfold normK Loss.normalise
  rw [divf_apply, broadcastTo_a1_ab_apply]
  show Ideal.div (y (ix2 r j)) (Ideal.sqrt (shapeCast S1024x1 _ shapeCasts_S1024_S1024x1 (ix2 r (0 : Fin 1)))) = _
  rw [shapeCast_a_a1_apply, laneSum_apply]
  rfl

/-- The embedded tile at `(r, j)` is the embedding of row `r`, at feature `j`. -/
theorem embedK_apply (x : FVec Ideal S1024x640 .f32) (w1t : FVec Ideal S640x128 .f32) (b1 : FVec Ideal S128 .f32)
    (w2t : FVec Ideal S128x128 .f32) (b2 : FVec Ideal S128 .f32) (r : Fin 1024) (j : Fin 128) :
    embedK x w1t b1 w2t b2 (ix2 r j)
      = Loss.embed (fun i => x (ix2 r i)) (fun k i => w1t (ix2 i k)) (fun k => b1 (ix1 k))
          (fun j k => w2t (ix2 k j)) (fun j => b2 (ix1 j)) j := by
  unfold embedK Loss.embed
  rw [normK_apply]
  have e1 : (fun d => outK (hiddenK x w1t b1) w2t b2 (ix2 r d))
      = Loss.outLayer (fun k => hiddenK x w1t b1 (ix2 r k)) (fun j k => w2t (ix2 k j)) (fun j => b2 (ix1 j)) :=
    funext fun d => outK_apply _ _ _ r d
  have e2 : (fun k => hiddenK x w1t b1 (ix2 r k))
      = Loss.hidden (fun i => x (ix2 r i)) (fun k i => w1t (ix2 i k)) (fun k => b1 (ix1 k)) :=
    funext fun k => hiddenK_apply _ _ _ r k
  rw [e1, e2]

/-! ## The payloads -/

/-- The global tile's payload is the embedded tile. -/
theorem pay30_eq (x : FVec Ideal S1024x640 .f32) (w1t : FVec Ideal S640x128 .f32) (b1 : FVec Ideal S128 .f32)
    (w2t : FVec Ideal S128x128 .f32) (b2 : FVec Ideal S128 .f32) :
    k0_pay30 (F := Ideal) x w1t b1 w2t b2 = embedK x w1t b1 w2t b2 := by
  unfold k0_pay30 embedK normK outK hiddenK
  simp only [shapeCast_self]

/-- The patch tile's payload is the embedded tile of the block with its leading unit axis dropped. -/
theorem pay32_eq (x : FVec Ideal S1x1024x640 .f32) (w1t : FVec Ideal S640x128 .f32) (b1 : FVec Ideal S128 .f32)
    (w2t : FVec Ideal S128x128 .f32) (b2 : FVec Ideal S128 .f32) :
    k0_pay32 (F := Ideal) x w1t b1 w2t b2
      = embedK (shapeCast S1024x640 x shapeCasts_S1x1024x640_S1024x640) w1t b1 w2t b2 := by
  unfold k0_pay32 embedK normK outK hiddenK
  simp only [shapeCast_self]

/-- `embedG`: the global tile's payload at `(r, j)`. -/
theorem embedG (x : FVec Ideal S1024x640 .f32) (w1t : FVec Ideal S640x128 .f32) (b1 : FVec Ideal S128 .f32)
    (w2t : FVec Ideal S128x128 .f32) (b2 : FVec Ideal S128 .f32) (r : Fin 1024) (j : Fin 128) :
    k0_pay30 (F := Ideal) x w1t b1 w2t b2 (ix2 r j)
      = Loss.embed (fun i => x (ix2 r i)) (fun k i => w1t (ix2 i k)) (fun k => b1 (ix1 k))
          (fun j k => w2t (ix2 k j)) (fun j => b2 (ix1 j)) j := by
  rw [pay30_eq, embedK_apply]

/-- `embedP`: the patch tile's payload at `(r, j)`. -/
theorem embedP (x : FVec Ideal S1x1024x640 .f32) (w1t : FVec Ideal S640x128 .f32) (b1 : FVec Ideal S128 .f32)
    (w2t : FVec Ideal S128x128 .f32) (b2 : FVec Ideal S128 .f32) (r : Fin 1024) (j : Fin 128) :
    k0_pay32 (F := Ideal) x w1t b1 w2t b2 (ix2 r j)
      = Loss.embed (fun i => x (ix3 (0 : Fin 1) r i)) (fun k i => w1t (ix2 i k)) (fun k => b1 (ix1 k))
          (fun j k => w2t (ix2 k j)) (fun j => b2 (ix1 j)) j := by
  rw [pay32_eq, embedK_apply]
  have e : (fun i => shapeCast S1024x640 x shapeCasts_S1x1024x640_S1024x640 (ix2 r i)) = fun i => x (ix3 (0 : Fin 1) r i) :=
    funext fun i => shapeCast_1ab_ab_apply x _ r i
  rw [e]

/-- The stash's payload (the patch tile with a leading unit axis) reads the patch tile. -/
theorem pay33_apply (x : FVec Ideal S1x1024x640 .f32) (w1t : FVec Ideal S640x128 .f32) (b1 : FVec Ideal S128 .f32)
    (w2t : FVec Ideal S128x128 .f32) (b2 : FVec Ideal S128 .f32) (u : Fin 1) (r : Fin 1024) (j : Fin 128) :
    k0_pay33 (F := Ideal) x w1t b1 w2t b2 (ix3 u r j) = k0_pay32 (F := Ideal) x w1t b1 w2t b2 (ix2 r j) := by
  unfold k0_pay33
  exact shapeCast_ab_1ab_apply _ _ u r j

/-- The running sum's payload: the sum read so far plus the patch tile. -/
theorem pay34_apply (x : FVec Ideal S1x1024x640 .f32) (w1t : FVec Ideal S640x128 .f32) (b1 : FVec Ideal S128 .f32)
    (w2t : FVec Ideal S128x128 .f32) (b2 : FVec Ideal S128 .f32) (v31 : FVec Ideal S1024x128 .f32) (r : Fin 1024) (j : Fin 128) :
    k0_pay34 (F := Ideal) x w1t b1 w2t b2 v31 (ix2 r j)
      = v31 (ix2 r j) + k0_pay32 (F := Ideal) x w1t b1 w2t b2 (ix2 r j) := by
  unfold k0_pay34
  exact addf_apply _ _ _

/-- The zero tile. -/
theorem pay31_apply (i : S1024x128.Idx) : k0_pay31 (F := Ideal) i = 0 := by
  unfold k0_pay31
  simp only [shapeCast_self]
  exact ofBits_zero

/-- What is stored back into the running sum is the value itself. -/
theorem pay1_eq (v : FVec Ideal S1024x128 .f32) : k0_pay1 (F := Ideal) v = v := by
  unfold k0_pay1
  exact shapeCast_self _ _

end Cert.KernelIdeal.Pay

end
-- ==== Proof.PaySoftmax.lean ====
/-
  The kernel's log-softmax of a `[1024, 128]` tile at temperature 4, and its symmetrised divergence of two tiles summed
  over the rows, as the payloads spell them, read at an index: row `r` of the log-softmax tile is `Loss.lsm` of row `r`,
  and the `[1, 1]` sum is `∑ r, Loss.symKL (row r of a) (row r of b)`.
-/
import Idealize.ShloMosaic.Lib.ValueIdx
import Idealize.ShloMosaic.Lib.Pipeline.Value
import Idealize.ShloMosaic.Lib.ValueLayout
import Idealize.ShloMosaic.PureOps.Ideal.Laws
import proofs.«133262_j27453430956191_2_alg».proof.Proof.Gen.KernelIdeal.Skeleton
import proofs.«133262_j27453430956191_2_alg».proof.Proof.Loss
import proofs.«133262_j27453430956191_2_alg».proof.Proof.PayConsts
import proofs.«133262_j27453430956191_2_alg».proof.Proof.PayLayout

noncomputable section

namespace Cert.KernelIdeal.Pay

open Idealize.ShloMosaic Idealize.ShloMosaic.ValueIdx
open Cert.KernelIdeal Cert.KernelIdeal.Gen

/-! ## The log-softmax of a tile, as the kernel spells it -/

/-- The tile divided by the temperature. -/
def scaledK (v : FVec Ideal S1024x128 .f32) : FVec Ideal S1024x128 .f32 :=
  divf v (broadcast S1024x128 (Scalar.ofBits .f32 0x40800000#32))

/-- The scaled tile less each row's maximum (folded from minus infinity, then `max` with minus infinity again). -/
def shiftK (v : FVec Ideal S1024x128 .f32) : FVec Ideal S1024x128 .f32 :=
  subf (scaledK v)
    (broadcastTo S1024x128
      (shapeCast S1024x1
        (maximumf (broadcast S1024 (Scalar.ofBits .f32 0xFF800000#32))
          (multiReduction (F := Ideal) .maximumf [1] S1024 (scaledK v) 0xFF800000#32 reduces_S1024x128_S1024 (.inl rfl) rfl))
        shapeCasts_S1024_S1024x1)
      broadcasts_S1024x1_S1024x128)

/-- The shifted tile less the logarithm of each row's sum of exponentials. -/
def lsmK (v : FVec Ideal S1024x128 .f32) : FVec Ideal S1024x128 .f32 :=
  subf (shiftK v)
    (broadcastTo S1024x128
      (log (shapeCast S1024x1
        (multiReduction (F := Ideal) .add [1] S1024 (exp (shiftK v)) 0x00000000#32 reduces_S1024x128_S1024 (.inl rfl) rfl)
        shapeCasts_S1024_S1024x1))
      broadcasts_S1024x1_S1024x128)

/-- The symmetrised divergence of two tiles, row by row, times `1/8`, summed over the rows into `[1, 1]`. -/
def symKLK (a b : FVec Ideal S1024x128 .f32) : FVec Ideal S1x1 .f32 :=
  shapeCast S1x1
    (multiReduction (F := Ideal) .add [0] S1
      (mulf
        (shapeCast S1024x1
          (multiReduction (F := Ideal) .add [1] S1024
            (mulf (subf (exp (lsmK b)) (exp (lsmK a))) (subf (lsmK b) (lsmK a)))
            0x00000000#32 reduces_S1024x128_S1024 (.inl rfl) rfl)
          shapeCasts_S1024_S1024x1)
        (broadcast S1024x1 (Scalar.ofBits .f32 0x3E000000#32)))
      0x00000000#32 reduces_S1024x1_S1 (.inl rfl) rfl)
    shapeCasts_S1_S1x1

/-! ## At an index -/

/-- A `[1024]` vector cast to a column and broadcast over the lanes reads the vector at the row. -/
theorem column_apply (c : FVec Ideal S1024x1 .f32) (r : Fin 1024) (d : Fin 128) :
    broadcastTo S1024x128 c broadcasts_S1024x1_S1024x128 (ix2 r d) = c (ix2 r (0 : Fin 1)) :=
  broadcastTo_a1_ab_apply c _ r d

theorem scaledK_apply (v : FVec Ideal S1024x128 .f32) (r : Fin 1024) (d : Fin 128) :
    scaledK v (ix2 r d) = Loss.scaled (fun d => v (ix2 r d)) d := by
  unfold scaledK Loss.scaled
  rw [divf_apply, broadcast_apply, scalar_ofBits, ofBits_four]

theorem shiftK_apply (v : FVec Ideal S1024x128 .f32) (r : Fin 1024) (d : Fin 128) :
    shiftK v (ix2 r d)
      = Loss.scaled (fun d => v (ix2 r d)) d - Loss.rowMax (Loss.scaled (fun d => v (ix2 r d))) := by
  unfold shiftK Loss.rowMax
  rw [subf_apply, column_apply, shapeCast_a_a1_apply, maximumf_apply, broadcast_apply, laneMax_apply, scalar_ofBits,
    ofBits_negInf, scaledK_apply]
  have e : (fun k => scaledK v (ix2 r k)) = Loss.scaled (fun d => v (ix2 r d)) := funext fun k => scaledK_apply v r k
  rw [e]

/-- Row `r` of the kernel's log-softmax tile is the log-softmax of row `r`. -/
theorem lsmK_apply (v : FVec Ideal S1024x128 .f32) (r : Fin 1024) (d : Fin 128) :
    lsmK v (ix2 r d) = Loss.lsm (fun d => v (ix2 r d)) d := by
  unfold lsmK Loss.lsm
  rw [subf_apply, column_apply]
  show shiftK v (ix2 r d) - Ideal.log (shapeCast S1024x1 _ shapeCasts_S1024_S1024x1 (ix2 r (0 : Fin 1))) = _
  rw [shapeCast_a_a1_apply, laneSum_apply, shiftK_apply]
  have e : (fun k => exp (shiftK v) (ix2 r k))
      = fun e => Ideal.exp (Loss.scaled (fun d => v (ix2 r d)) e - Loss.rowMax (Loss.scaled (fun d => v (ix2 r d)))) :=
    funext fun k => by
      show Ideal.exp (shiftK v (ix2 r k)) = _
      rw [shiftK_apply]
  rw [e]

/-- The `[1, 1]` sum is the sum over the rows of the one-sum symmetrised divergence of the two rows. -/
theorem symKLK_apply (a b : FVec Ideal S1024x128 .f32) (u w : Fin 1) :
    symKLK a b (ix2 u w)
      = ∑ r : Fin 1024, Loss.symKL (fun d => a (ix2 r d)) (fun d => b (ix2 r d)) := by
  unfold symKLK
  rw [shapeCast_a_1a_apply, rowSum_apply]
  refine Finset.sum_congr rfl fun r _ => ?_
  unfold Loss.symKL Loss.prob
  rw [mulf_apply, shapeCast_a_a1_apply, laneSum_apply, broadcast_apply, scalar_ofBits, ofBits_eighth]
  refine congrArg (· * ((1 / 8 : ℝ) : EReal)) (Finset.sum_congr rfl fun d _ => ?_)
  rw [mulf_apply, subf_apply, subf_apply]
  show (Ideal.exp (lsmK b (ix2 r d)) - Ideal.exp (lsmK a (ix2 r d))) * _ = _
  rw [lsmK_apply, lsmK_apply]

end Cert.KernelIdeal.Pay

end
-- ==== Proof.PayLoss.lean ====
/-
  The kernel's loss payloads read at an index: the mean patch tile (the running sum times `1/12`), the `dil` term of a
  tile (the divergence of the global rows from the mean rows, summed over the rows), the `dcl` term of one stash slice
  (the divergence of the squared differences from the slice's rows), the accumulations and the two output broadcasts.
-/
import Idealize.ShloMosaic.Lib.ValueIdx
import Idealize.ShloMosaic.Lib.Pipeline.Value
import Idealize.ShloMosaic.Lib.ValueLayout
import Idealize.ShloMosaic.PureOps.Ideal.Laws
import proofs.«133262_j27453430956191_2_alg».proof.Proof.Gen.KernelIdeal.Skeleton
import proofs.«133262_j27453430956191_2_alg».proof.Proof.Loss
import proofs.«133262_j27453430956191_2_alg».proof.Proof.PayConsts
import proofs.«133262_j27453430956191_2_alg».proof.Proof.PayLayout
import proofs.«133262_j27453430956191_2_alg».proof.Proof.PaySoftmax

noncomputable section

namespace Cert.KernelIdeal.Pay

open Idealize.ShloMosaic Idealize.ShloMosaic.ValueIdx
open Cert.KernelIdeal Cert.KernelIdeal.Gen

/-! ## The mean tile and the `dil` term -/

/-- `meanRow`: the mean tile is the running sum times `1/12`. -/
theorem meanRow (s : FVec Ideal S1024x128 .f32) (r : Fin 1024) (d : Fin 128) :
    k0_pay4 (F := Ideal) s (ix2 r d) = s (ix2 r d) * ((1 / 12 : ℝ) : EReal) := by
  unfold k0_pay4
  rw [mulf_apply, broadcast_apply, inv_12]

/-- The `dil` payload is the divergence sum of the global tile and the mean tile. -/
theorem pay5_eq (s g : FVec Ideal S1024x128 .f32) : k0_pay5 (F := Ideal) s g = symKLK g (k0_pay4 (F := Ideal) s) := by
  unfold k0_pay5 symKLK lsmK shiftK scaledK
  rfl

/-- `dilTile`: the `dil` term of a tile. -/
theorem dilTile (s g : FVec Ideal S1024x128 .f32) (u w : Fin 1) :
    k0_pay5 (F := Ideal) s g (ix2 u w)
      = ∑ r : Fin 1024, Loss.symKL (fun d => g (ix2 r d)) (fun d => s (ix2 r d) * ((1 / 12 : ℝ) : EReal)) := by
  rw [pay5_eq, symKLK_apply]
  refine Finset.sum_congr rfl fun r _ => ?_
  have e : (fun d => k0_pay4 (F := Ideal) s (ix2 r d)) = fun d => s (ix2 r d) * ((1 / 12 : ℝ) : EReal) :=
    funext fun d => meanRow s r d
  rw [e]

/-! ## The `dcl` term of one stash slice -/

/-- The squared difference of a tile and a stash slice (the slice's leading unit axis dropped). -/
def sqDiffK (t : FVec Ideal S1024x128 .f32) (sl : FVec Ideal S1x1024x128 .f32) : FVec Ideal S1024x128 .f32 :=
  mulf (subf t (shapeCast S1024x128 sl shapeCasts_S1x1024x128_S1024x128))
    (subf t (shapeCast S1024x128 sl shapeCasts_S1x1024x128_S1024x128))

theorem sqDiffK_apply (t : FVec Ideal S1024x128 .f32) (sl : FVec Ideal S1x1024x128 .f32) (r : Fin 1024) (d : Fin 128) :
    sqDiffK t sl (ix2 r d) = Loss.sqDiff (fun d => t (ix2 r d)) (fun d => sl (ix3 (0 : Fin 1) r d)) d := by
  unfold sqDiffK Loss.sqDiff
  rw [mulf_apply, subf_apply, shapeCast_1ab_ab_apply]

/-- The divergence sum of the two squared-difference tiles of a slice. -/
theorem dclK_apply (pbar g : FVec Ideal S1024x128 .f32) (sl : FVec Ideal S1x1024x128 .f32) (u w : Fin 1) :
    symKLK (sqDiffK g sl) (sqDiffK pbar sl) (ix2 u w)
      = ∑ r : Fin 1024, Loss.symKL (Loss.sqDiff (fun d => g (ix2 r d)) (fun d => sl (ix3 (0 : Fin 1) r d)))
          (Loss.sqDiff (fun d => pbar (ix2 r d)) (fun d => sl (ix3 (0 : Fin 1) r d))) := by
  rw [symKLK_apply]
  refine Finset.sum_congr rfl fun r _ => ?_
  have e1 : (fun d => sqDiffK g sl (ix2 r d)) = Loss.sqDiff (fun d => g (ix2 r d)) (fun d => sl (ix3 (0 : Fin 1) r d)) :=
    funext fun d => sqDiffK_apply g sl r d
  have e2 : (fun d => sqDiffK pbar sl (ix2 r d)) = Loss.sqDiff (fun d => pbar (ix2 r d)) (fun d => sl (ix3 (0 : Fin 1) r d)) :=
    funext fun d => sqDiffK_apply pbar sl r d
  rw [e1, e2]

theorem pay7_eq (pbar g : FVec Ideal S1024x128 .f32) (sl : FVec Ideal S1x1024x128 .f32) :
    k0_pay7 (F := Ideal) pbar g sl = symKLK (sqDiffK g sl) (sqDiffK pbar sl) := by
  unfold k0_pay7 symKLK lsmK shiftK scaledK sqDiffK
  rfl

/-- The `dcl` term of a stash slice (payload 7). -/
theorem dclSlice7 (pbar g : FVec Ideal S1024x128 .f32) (sl : FVec Ideal S1x1024x128 .f32) (u w : Fin 1) :
    k0_pay7 (F := Ideal) pbar g sl (ix2 u w)
      = ∑ r : Fin 1024, Loss.symKL (Loss.sqDiff (fun d => g (ix2 r d)) (fun d => sl (ix3 (0 : Fin 1) r d)))
          (Loss.sqDiff (fun d => pbar (ix2 r d)) (fun d => sl (ix3 (0 : Fin 1) r d))) := by
  rw [pay7_eq, dclK_apply]

theorem pay9_eq (pbar g : FVec Ideal S1024x128 .f32) (sl : FVec Ideal S1x1024x128 .f32) :
    k0_pay9 (F := Ideal) pbar g sl = symKLK (sqDiffK g sl) (sqDiffK pbar sl) := by
  unfold k0_pay9 symKLK lsmK shiftK scaledK sqDiffK
  rfl

/-- The `dcl` term of a stash slice (payload 9). -/
theorem dclSlice9 (pbar g : FVec Ideal S1024x128 .f32) (sl : FVec Ideal S1x1024x128 .f32) (u w : Fin 1) :
    k0_pay9 (F := Ideal) pbar g sl (ix2 u w)
      = ∑ r : Fin 1024, Loss.symKL (Loss.sqDiff (fun d => g (ix2 r d)) (fun d => sl (ix3 (0 : Fin 1) r d)))
          (Loss.sqDiff (fun d => pbar (ix2 r d)) (fun d => sl (ix3 (0 : Fin 1) r d))) := by
  rw [pay9_eq, dclK_apply]

theorem pay11_eq (pbar g : FVec Ideal S1024x128 .f32) (sl : FVec Ideal S1x1024x128 .f32) :
    k0_pay11 (F := Ideal) pbar g sl = symKLK (sqDiffK g sl) (sqDiffK pbar sl) := by
  unfold k0_pay11 symKLK lsmK shiftK scaledK sqDiffK
  rfl

/-- The `dcl` term of a stash slice (payload 11). -/
theorem dclSlice11 (pbar g : FVec Ideal S1024x128 .f32) (sl : FVec Ideal S1x1024x128 .f32) (u w : Fin 1) :
    k0_pay11 (F := Ideal) pbar g sl (ix2 u w)
      = ∑ r : Fin 1024, Loss.symKL (Loss.sqDiff (fun d => g (ix2 r d)) (fun d => sl (ix3 (0 : Fin 1) r d)))
          (Loss.sqDiff (fun d => pbar (ix2 r d)) (fun d => sl (ix3 (0 : Fin 1) r d))) := by
  rw [pay11_eq, dclK_apply]

theorem pay13_eq (pbar g : FVec Ideal S1024x128 .f32) (sl : FVec Ideal S1x1024x128 .f32) :
    k0_pay13 (F := Ideal) pbar g sl = symKLK (sqDiffK g sl) (sqDiffK pbar sl) := by
  unfold k0_pay13 symKLK lsmK shiftK scaledK sqDiffK
  rfl

/-- The `dcl` term of a stash slice (payload 13). -/
theorem dclSlice13 (pbar g : FVec Ideal S1024x128 .f32) (sl : FVec Ideal S1x1024x128 .f32) (u w : Fin 1) :
    k0_pay13 (F := Ideal) pbar g sl (ix2 u w)
      = ∑ r : Fin 1024, Loss.symKL (Loss.sqDiff (fun d => g (ix2 r d)) (fun d => sl (ix3 (0 : Fin 1) r d)))
          (Loss.sqDiff (fun d => pbar (ix2 r d)) (fun d => sl (ix3 (0 : Fin 1) r d))) := by
  rw [pay13_eq, dclK_apply]

theorem pay15_eq (pbar g : FVec Ideal S1024x128 .f32) (sl : FVec Ideal S1x1024x128 .f32) :
    k0_pay15 (F := Ideal) pbar g sl = symKLK (sqDiffK g sl) (sqDiffK pbar sl) := by
  unfold k0_pay15 symKLK lsmK shiftK scaledK sqDiffK
  rfl

/-- The `dcl` term of a stash slice (payload 15). -/
theorem dclSlice15 (pbar g : FVec Ideal S1024x128 .f32) (sl : FVec Ideal S1x1024x128 .f32) (u w : Fin 1) :
    k0_pay15 (F := Ideal) pbar g sl (ix2 u w)
      = ∑ r : Fin 1024, Loss.symKL (Loss.sqDiff (fun d => g (ix2 r d)) (fun d => sl (ix3 (0 : Fin 1) r d)))
          (Loss.sqDiff (fun d => pbar (ix2 r d)) (fun d => sl (ix3 (0 : Fin 1) r d))) := by
  rw [pay15_eq, dclK_apply]

theorem pay17_eq (pbar g : FVec Ideal S1024x128 .f32) (sl : FVec Ideal S1x1024x128 .f32) :
    k0_pay17 (F := Ideal) pbar g sl = symKLK (sqDiffK g sl) (sqDiffK pbar sl) := by
  unfold k0_pay17 symKLK lsmK shiftK scaledK sqDiffK
  rfl

/-- The `dcl` term of a stash slice (payload 17). -/
theorem dclSlice17 (pbar g : FVec Ideal S1024x128 .f32) (sl : FVec Ideal S1x1024x128 .f32) (u w : Fin 1) :
    k0_pay17 (F := Ideal) pbar g sl (ix2 u w)
      = ∑ r : Fin 1024, Loss.symKL (Loss.sqDiff (fun d => g (ix2 r d)) (fun d => sl (ix3 (0 : Fin 1) r d)))
          (Loss.sqDiff (fun d => pbar (ix2 r d)) (fun d => sl (ix3 (0 : Fin 1) r d))) := by
  rw [pay17_eq, dclK_apply]

theorem pay19_eq (pbar g : FVec Ideal S1024x128 .f32) (sl : FVec Ideal S1x1024x128 .f32) :
    k0_pay19 (F := Ideal) pbar g sl = symKLK (sqDiffK g sl) (sqDiffK pbar sl) := by
  unfold k0_pay19 symKLK lsmK shiftK scaledK sqDiffK
  rfl

/-- The `dcl` term of a stash slice (payload 19). -/
theorem dclSlice19 (pbar g : FVec Ideal S1024x128 .f32) (sl : FVec Ideal S1x1024x128 .f32) (u w : Fin 1) :
    k0_pay19 (F := Ideal) pbar g sl (ix2 u w)
      = ∑ r : Fin 1024, Loss.symKL (Loss.sqDiff (fun d => g (ix2 r d)) (fun d => sl (ix3 (0 : Fin 1) r d)))
          (Loss.sqDiff (fun d => pbar (ix2 r d)) (fun d => sl (ix3 (0 : Fin 1) r d))) := by
  rw [pay19_eq, dclK_apply]

theorem pay21_eq (pbar g : FVec Ideal S1024x128 .f32) (sl : FVec Ideal S1x1024x128 .f32) :
    k0_pay21 (F := Ideal) pbar g sl = symKLK (sqDiffK g sl) (sqDiffK pbar sl) := by
  unfold k0_pay21 symKLK lsmK shiftK scaledK sqDiffK
  rfl

/-- The `dcl` term of a stash slice (payload 21). -/
theorem dclSlice21 (pbar g : FVec Ideal S1024x128 .f32) (sl : FVec Ideal S1x1024x128 .f32) (u w : Fin 1) :
    k0_pay21 (F := Ideal) pbar g sl (ix2 u w)
      = ∑ r : Fin 1024, Loss.symKL (Loss.sqDiff (fun d => g (ix2 r d)) (fun d => sl (ix3 (0 : Fin 1) r d)))
          (Loss.sqDiff (fun d => pbar (ix2 r d)) (fun d => sl (ix3 (0 : Fin 1) r d))) := by
  rw [pay21_eq, dclK_apply]

theorem pay23_eq (pbar g : FVec Ideal S1024x128 .f32) (sl : FVec Ideal S1x1024x128 .f32) :
    k0_pay23 (F := Ideal) pbar g sl = symKLK (sqDiffK g sl) (sqDiffK pbar sl) := by
  unfold k0_pay23 symKLK lsmK shiftK scaledK sqDiffK
  rfl

/-- The `dcl` term of a stash slice (payload 23). -/
theorem dclSlice23 (pbar g : FVec Ideal S1024x128 .f32) (sl : FVec Ideal S1x1024x128 .f32) (u w : Fin 1) :
    k0_pay23 (F := Ideal) pbar g sl (ix2 u w)
      = ∑ r : Fin 1024, Loss.symKL (Loss.sqDiff (fun d => g (ix2 r d)) (fun d => sl (ix3 (0 : Fin 1) r d)))
          (Loss.sqDiff (fun d => pbar (ix2 r d)) (fun d => sl (ix3 (0 : Fin 1) r d))) := by
  rw [pay23_eq, dclK_apply]

theorem pay25_eq (pbar g : FVec Ideal S1024x128 .f32) (sl : FVec Ideal S1x1024x128 .f32) :
    k0_pay25 (F := Ideal) pbar g sl = symKLK (sqDiffK g sl) (sqDiffK pbar sl) := by
  unfold k0_pay25 symKLK lsmK shiftK scaledK sqDiffK
  rfl

/-- The `dcl` term of a stash slice (payload 25). -/
theorem dclSlice25 (pbar g : FVec Ideal S1024x128 .f32) (sl : FVec Ideal S1x1024x128 .f32) (u w : Fin 1) :
    k0_pay25 (F := Ideal) pbar g sl (ix2 u w)
      = ∑ r : Fin 1024, Loss.symKL (Loss.sqDiff (fun d => g (ix2 r d)) (fun d => sl (ix3 (0 : Fin 1) r d)))
          (Loss.sqDiff (fun d => pbar (ix2 r d)) (fun d => sl (ix3 (0 : Fin 1) r d))) := by
  rw [pay25_eq, dclK_apply]

theorem pay27_eq (pbar g : FVec Ideal S1024x128 .f32) (sl : FVec Ideal S1x1024x128 .f32) :
    k0_pay27 (F := Ideal) pbar g sl = symKLK (sqDiffK g sl) (sqDiffK pbar sl) := by
  unfold k0_pay27 symKLK lsmK shiftK scaledK sqDiffK
  rfl

/-- The `dcl` term of a stash slice (payload 27). -/
theorem dclSlice27 (pbar g : FVec Ideal S1024x128 .f32) (sl : FVec Ideal S1x1024x128 .f32) (u w : Fin 1) :
    k0_pay27 (F := Ideal) pbar g sl (ix2 u w)
      = ∑ r : Fin 1024, Loss.symKL (Loss.sqDiff (fun d => g (ix2 r d)) (fun d => sl (ix3 (0 : Fin 1) r d)))
          (Loss.sqDiff (fun d => pbar (ix2 r d)) (fun d => sl (ix3 (0 : Fin 1) r d))) := by
  rw [pay27_eq, dclK_apply]

theorem pay29_eq (pbar g : FVec Ideal S1024x128 .f32) (sl : FVec Ideal S1x1024x128 .f32) :
    k0_pay29 (F := Ideal) pbar g sl = symKLK (sqDiffK g sl) (sqDiffK pbar sl) := by
  unfold k0_pay29 symKLK lsmK shiftK scaledK sqDiffK
  rfl

/-- The `dcl` term of a stash slice (payload 29). -/
theorem dclSlice29 (pbar g : FVec Ideal S1024x128 .f32) (sl : FVec Ideal S1x1024x128 .f32) (u w : Fin 1) :
    k0_pay29 (F := Ideal) pbar g sl (ix2 u w)
      = ∑ r : Fin 1024, Loss.symKL (Loss.sqDiff (fun d => g (ix2 r d)) (fun d => sl (ix3 (0 : Fin 1) r d)))
          (Loss.sqDiff (fun d => pbar (ix2 r d)) (fun d => sl (ix3 (0 : Fin 1) r d))) := by
  rw [pay29_eq, dclK_apply]

/-! ## The accumulations, the zero, and the two output broadcasts -/

/-- The accumulator's start. -/
theorem pay6_apply (c : Ideal .f32) (i : S1x1.Idx) : k0_pay6 (F := Ideal) c i = c := rfl

theorem accum8 (a b : FVec Ideal S1x1 .f32) (i : S1x1.Idx) : k0_pay8 (F := Ideal) a b i = a i + b i := rfl
theorem accum10 (a b : FVec Ideal S1x1 .f32) (i : S1x1.Idx) : k0_pay10 (F := Ideal) a b i = a i + b i := rfl
theorem accum12 (a b : FVec Ideal S1x1 .f32) (i : S1x1.Idx) : k0_pay12 (F := Ideal) a b i = a i + b i := rfl
theorem accum14 (a b : FVec Ideal S1x1 .f32) (i : S1x1.Idx) : k0_pay14 (F := Ideal) a b i = a i + b i := rfl
theorem accum16 (a b : FVec Ideal S1x1 .f32) (i : S1x1.Idx) : k0_pay16 (F := Ideal) a b i = a i + b i := rfl
theorem accum18 (a b : FVec Ideal S1x1 .f32) (i : S1x1.Idx) : k0_pay18 (F := Ideal) a b i = a i + b i := rfl
theorem accum20 (a b : FVec Ideal S1x1 .f32) (i : S1x1.Idx) : k0_pay20 (F := Ideal) a b i = a i + b i := rfl
theorem accum22 (a b : FVec Ideal S1x1 .f32) (i : S1x1.Idx) : k0_pay22 (F := Ideal) a b i = a i + b i := rfl
theorem accum24 (a b : FVec Ideal S1x1 .f32) (i : S1x1.Idx) : k0_pay24 (F := Ideal) a b i = a i + b i := rfl
theorem accum26 (a b : FVec Ideal S1x1 .f32) (i : S1x1.Idx) : k0_pay26 (F := Ideal) a b i = a i + b i := rfl
theorem accum28 (a b : FVec Ideal S1x1 .f32) (i : S1x1.Idx) : k0_pay28 (F := Ideal) a b i = a i + b i := rfl

/-- `bcast2`: a `[1, 1]` value broadcast over the 128 lanes of the output block. -/
theorem bcast2 (v : FVec Ideal S1x1 .f32) (u w : Fin 1) (j : Fin 128) :
    k0_pay2 (F := Ideal) v (ix3 u w j) = v (ix2 (0 : Fin 1) (0 : Fin 1)) := by
  unfold k0_pay2
  rw [broadcastTo_111_11b_apply, shapeCast_ab_1ab_apply]

/-- `bcast3`: the sum of two `[1, 1]` values broadcast over the 128 lanes of the output block. -/
theorem bcast3 (a b : FVec Ideal S1x1 .f32) (u w : Fin 1) (j : Fin 128) :
    k0_pay3 (F := Ideal) a b (ix3 u w j) = a (ix2 (0 : Fin 1) (0 : Fin 1)) + b (ix2 (0 : Fin 1) (0 : Fin 1)) := by
  unfold k0_pay3
  rw [broadcastTo_111_11b_apply, shapeCast_ab_1ab_apply, addf_apply]

end Cert.KernelIdeal.Pay

end
-- ==== Proof.KValBlocks.lean ====
/-
  The windows' blocks at a grid point, read off the argument arrays. Point `t` is patch `t mod 12` of tile `t / 12`:
  the global inputs' block is rows `1024 · (t / 12) …` of the first argument; the patch inputs' block is patch
  `t mod 12`, rows `1024 · (t / 12) …`, of the second argument regrouped `[12, 4096, 640]` (row `l · 4096 + b` of the
  argument is entry `(l, b)`); the weights' blocks are whole arrays, the two weight matrices transposed before the region.
-/
import proofs.«133262_j27453430956191_2_alg».proof.Proof.IdealData
import proofs.«133262_j27453430956191_2_alg».proof.Proof.Rows
import proofs.«133262_j27453430956191_2_alg».proof.Proof.PayEmbed
import proofs.«133262_j27453430956191_2_alg».proof.Proof.PayLoss
import Idealize.ShloMosaic.Lib.ValueIdx
import Idealize.ShloMosaic.Lib.ValueLayout
import Idealize.ShloMosaic.Lib.Pipeline.Value
import Idealize.ShloMosaic.Lib.StableHlo.Run

set_option maxRecDepth 16384

noncomputable section

namespace Cert.KernelIdeal.KVal

open Cert.KernelIdeal Cert.KernelIdeal.Gen Cert.KernelIdeal.Hand
open Idealize.ShloMosaic Idealize.ShloMosaic.TcCoe Idealize.ShloMosaic.Tactic Idealize.ShloMosaic.ValueIdx
open Idealize.SL.Sem Idealize.ShloMosaic.StableHlo
open Idealize.ShloMosaic.Pipeline (Dat Cfg Window)

variable (m : (ℓ : Loc nD τ sig) → Buf (Elt Ideal) ℓ)

/-! ## The tile and the patch of a point -/

/-- The tile of point `t`. -/
def tile (t : Fin cfg0.N) : Fin 4 := ⟨t.val / 12, by have := t.isLt; have := N48; omega⟩
/-- The patch of point `t`. -/
def patch (t : Fin cfg0.N) : Fin 12 := ⟨t.val % 12, Nat.mod_lt _ (by decide)⟩

/-! ## The printed index maps, decided over the grid -/

theorem idx0 : ∀ t : Fin cfg0.N, win0_0.index t (0 : Fin 2) = t.val / 12 ∧ win0_0.index t (1 : Fin 2) = 0 :=
  (by decide +kernel : ∀ t : Fin grid0.N, _)
theorem idx1 : ∀ t : Fin cfg0.N, win0_1.index t (0 : Fin 3) = t.val % 12 ∧ win0_1.index t (1 : Fin 3) = t.val / 12
    ∧ win0_1.index t (2 : Fin 3) = 0 :=
  (by decide +kernel : ∀ t : Fin grid0.N, _)
theorem idx2 : ∀ t : Fin cfg0.N, win0_2.index t (0 : Fin 2) = 0 ∧ win0_2.index t (1 : Fin 2) = 0 :=
  (by decide +kernel : ∀ t : Fin grid0.N, _)
theorem idx3 : ∀ t : Fin cfg0.N, win0_3.index t (0 : Fin 1) = 0 :=
  (by decide +kernel : ∀ t : Fin grid0.N, _)
theorem idx4 : ∀ t : Fin cfg0.N, win0_4.index t (0 : Fin 2) = 0 ∧ win0_4.index t (1 : Fin 2) = 0 :=
  (by decide +kernel : ∀ t : Fin grid0.N, _)
theorem idx5 : ∀ t : Fin cfg0.N, win0_5.index t (0 : Fin 1) = 0 :=
  (by decide +kernel : ∀ t : Fin grid0.N, _)
theorem idx6 : ∀ t : Fin cfg0.N, win0_6.index t (0 : Fin 2) = 0 ∧ win0_6.index t (1 : Fin 2) = 0 :=
  (by decide +kernel : ∀ t : Fin grid0.N, _)
theorem idx7 : ∀ t : Fin cfg0.N, win0_7.index t (0 : Fin 1) = 0 :=
  (by decide +kernel : ∀ t : Fin grid0.N, _)
theorem idx8 : ∀ t : Fin cfg0.N, win0_8.index t (0 : Fin 2) = 0 ∧ win0_8.index t (1 : Fin 2) = 0 :=
  (by decide +kernel : ∀ t : Fin grid0.N, _)
theorem idx9 : ∀ t : Fin cfg0.N, win0_9.index t (0 : Fin 1) = 0 :=
  (by decide +kernel : ∀ t : Fin grid0.N, _)

/-! ## The arrays the host operations before the region leave -/

/-- The patch inputs regrouped `[12, 4096, 640]`. -/
theorem v0_eq (c : Dev nD) : (V m c main_v0 : S12x4096x640.Idx → EReal)
    = shapeCast S12x4096x640 (m ((c : Thread nD τ).loc main_arg1)) shapeCasts_S49152x640_S12x4096x640 := by
  show StableHlo.after hostOps0 (fun b => m (c, b)) (Proc.devRef .tc main_v0) = _
  after_results
  rfl
/-- The global first-layer weights transposed. -/
theorem v1_eq (c : Dev nD) : (V m c main_v1 : S640x128.Idx → EReal)
    = transpose S640x128 [1, 0] (m ((c : Thread nD τ).loc main_arg3)) transposes_S128x640_S640x128_1_0 := by
  show StableHlo.after hostOps0 (fun b => m (c, b)) (Proc.devRef .tc main_v1) = _
  after_results
/-- The global second-layer weights transposed. -/
theorem v2_eq (c : Dev nD) : (V m c main_v2 : S128x128.Idx → EReal)
    = transpose S128x128 [1, 0] (m ((c : Thread nD τ).loc main_arg5)) transposes_S128x128_S128x128_1_0 := by
  show StableHlo.after hostOps0 (fun b => m (c, b)) (Proc.devRef .tc main_v2) = _
  after_results
/-- The patch first-layer weights transposed. -/
theorem v3_eq (c : Dev nD) : (V m c main_v3 : S640x128.Idx → EReal)
    = transpose S640x128 [1, 0] (m ((c : Thread nD τ).loc main_arg7)) transposes_S128x640_S640x128_1_0 := by
  show StableHlo.after hostOps0 (fun b => m (c, b)) (Proc.devRef .tc main_v3) = _
  after_results
/-- The patch second-layer weights transposed. -/
theorem v4_eq (c : Dev nD) : (V m c main_v4 : S128x128.Idx → EReal)
    = transpose S128x128 [1, 0] (m ((c : Thread nD τ).loc main_arg9)) transposes_S128x128_S128x128_1_0 := by
  show StableHlo.after hostOps0 (fun b => m (c, b)) (Proc.devRef .tc main_v4) = _
  after_results

/-! ## Each window's block at a point, at an index -/

/-- The global inputs' block: rows `1024 · tile + r` of the first argument. -/
theorem blk0 (c : Dev nD) (t : Fin cfg0.N) (r : Fin 1024) (i : Fin 640) :
    iblk m c 0 t (ix2 r i) = m ((c : Thread nD τ).loc main_arg0) (ix2 (Cert.Loss.sample (tile t) r) i) := by
  obtain ⟨e0, e1⟩ := idx0 t
  show V m c main_arg0 (((cfg0.win 0).blk t).view.emb (ix2 r i)) = _
  rw [V_main_arg0]
  refine congrArg (m ((c : Thread nD τ).loc main_arg0)) ?_
  funext a; apply Fin.ext
  match a with
  | ⟨0, _⟩ => show win0_0.index t (0 : Fin 2) * 1024 + 1 * r.val = t.val / 12 * 1024 + r.val; rw [e0]; omega
  | ⟨1, _⟩ => show win0_0.index t (1 : Fin 2) * 640 + 1 * i.val = i.val; rw [e1]; omega

/-- The patch inputs' block: row `patch · 4096 + (1024 · tile + r)` of the second argument. -/
theorem blk1 (c : Dev nD) (t : Fin cfg0.N) (u : Fin 1) (r : Fin 1024) (i : Fin 640) :
    iblk m c 1 t (ix3 u r i)
      = m ((c : Thread nD τ).loc main_arg1) (ix2 (Cert.Loss.patchRow (patch t) (Cert.Loss.sample (tile t) r)) i) := by
  obtain ⟨e0, e1, e2⟩ := idx1 t
  have hu : u.val = 0 := by omega
  have ht : t.val < 48 := by have := t.isLt; have := N48; omega
  show V m c main_v0 (((cfg0.win 1).blk t).view.emb (ix3 u r i)) = _
  rw [v0_eq]
  refine shapeCast_apply (s := S49152x640) (t := S12x4096x640) _ _ _ _ ?_
  show (S49152x640.rowMajor _).val = (S12x4096x640.rowMajor _).val
  rw [Shape.rowMajor_val_two, Shape.rowMajor_val_three]
  show (t.val % 12 * 4096 + (t.val / 12 * 1024 + r.val)) * 640 + i.val
    = ((win0_1.index t (0 : Fin 3) * 1 + 1 * u.val) * 4096 + (win0_1.index t (1 : Fin 3) * 1024 + 1 * r.val)) * 640
      + (win0_1.index t (2 : Fin 3) * 640 + 1 * i.val)
  rw [e0, e1, e2, hu]
  omega

/-- The global first-layer weights' block: the transposed matrix, whole. -/
theorem blk2 (c : Dev nD) (t : Fin cfg0.N) (i : Fin 640) (k : Fin 128) :
    iblk m c 2 t (ix2 i k) = m ((c : Thread nD τ).loc main_arg3) (ix2 k i) := by
  obtain ⟨e0, e1⟩ := idx2 t
  show V m c main_v1 (((cfg0.win 2).blk t).view.emb (ix2 i k)) = _
  rw [v1_eq]
  refine transpose_apply [1, 0] _ _ _ _ fun b => ?_
  match b with
  | ⟨0, _⟩ => show i.val = win0_2.index t (0 : Fin 2) * 640 + 1 * i.val; rw [e0]; omega
  | ⟨1, _⟩ => show k.val = win0_2.index t (1 : Fin 2) * 128 + 1 * k.val; rw [e1]; omega

/-- The global first-layer bias' block: the array, whole. -/
theorem blk3 (c : Dev nD) (t : Fin cfg0.N) (k : Fin 128) :
    iblk m c 3 t (ix1 k) = m ((c : Thread nD τ).loc main_arg4) (ix1 k) := by
  have e0 := idx3 t
  show V m c main_arg4 (((cfg0.win 3).blk t).view.emb (ix1 k)) = _
  rw [V_main_arg4]
  refine congrArg (m ((c : Thread nD τ).loc main_arg4)) ?_
  funext a; apply Fin.ext
  match a with
  | ⟨0, _⟩ => show win0_3.index t (0 : Fin 1) * 128 + 1 * k.val = k.val; rw [e0]; omega

/-- The global second-layer weights' block: the transposed matrix, whole. -/
theorem blk4 (c : Dev nD) (t : Fin cfg0.N) (k : Fin 128) (j : Fin 128) :
    iblk m c 4 t (ix2 k j) = m ((c : Thread nD τ).loc main_arg5) (ix2 j k) := by
  obtain ⟨e0, e1⟩ := idx4 t
  show V m c main_v2 (((cfg0.win 4).blk t).view.emb (ix2 k j)) = _
  rw [v2_eq]
  refine transpose_apply [1, 0] _ _ _ _ fun b => ?_
  match b with
  | ⟨0, _⟩ => show k.val = win0_4.index t (0 : Fin 2) * 128 + 1 * k.val; rw [e0]; omega
  | ⟨1, _⟩ => show j.val = win0_4.index t (1 : Fin 2) * 128 + 1 * j.val; rw [e1]; omega

/-- The global second-layer bias' block. -/
theorem blk5 (c : Dev nD) (t : Fin cfg0.N) (j : Fin 128) :
    iblk m c 5 t (ix1 j) = m ((c : Thread nD τ).loc main_arg6) (ix1 j) := by
  have e0 := idx5 t
  show V m c main_arg6 (((cfg0.win 5).blk t).view.emb (ix1 j)) = _
  rw [V_main_arg6]
  refine congrArg (m ((c : Thread nD τ).loc main_arg6)) ?_
  funext a; apply Fin.ext
  match a with
  | ⟨0, _⟩ => show win0_5.index t (0 : Fin 1) * 128 + 1 * j.val = j.val; rw [e0]; omega

/-- The patch first-layer weights' block. -/
theorem blk6 (c : Dev nD) (t : Fin cfg0.N) (i : Fin 640) (k : Fin 128) :
    iblk m c 6 t (ix2 i k) = m ((c : Thread nD τ).loc main_arg7) (ix2 k i) := by
  obtain ⟨e0, e1⟩ := idx6 t
  show V m c main_v3 (((cfg0.win 6).blk t).view.emb (ix2 i k)) = _
  rw [v3_eq]
  refine transpose_apply [1, 0] _ _ _ _ fun b => ?_
  match b with
  | ⟨0, _⟩ => show i.val = win0_6.index t (0 : Fin 2) * 640 + 1 * i.val; rw [e0]; omega
  | ⟨1, _⟩ => show k.val = win0_6.index t (1 : Fin 2) * 128 + 1 * k.val; rw [e1]; omega

/-- The patch first-layer bias' block. -/
theorem blk7 (c : Dev nD) (t : Fin cfg0.N) (k : Fin 128) :
    iblk m c 7 t (ix1 k) = m ((c : Thread nD τ).loc main_arg8) (ix1 k) := by
  have e0 := idx7 t
  show V m c main_arg8 (((cfg0.win 7).blk t).view.emb (ix1 k)) = _
  rw [V_main_arg8]
  refine congrArg (m ((c : Thread nD τ).loc main_arg8)) ?_
  funext a; apply Fin.ext
  match a with
  | ⟨0, _⟩ => show win0_7.index t (0 : Fin 1) * 128 + 1 * k.val = k.val; rw [e0]; omega

/-- The patch second-layer weights' block. -/
theorem blk8 (c : Dev nD) (t : Fin cfg0.N) (k : Fin 128) (j : Fin 128) :
    iblk m c 8 t (ix2 k j) = m ((c : Thread nD τ).loc main_arg9) (ix2 j k) := by
  obtain ⟨e0, e1⟩ := idx8 t
  show V m c main_v4 (((cfg0.win 8).blk t).view.emb (ix2 k j)) = _
  rw [v4_eq]
  refine transpose_apply [1, 0] _ _ _ _ fun b => ?_
  match b with
  | ⟨0, _⟩ => show k.val = win0_8.index t (0 : Fin 2) * 128 + 1 * k.val; rw [e0]; omega
  | ⟨1, _⟩ => show j.val = win0_8.index t (1 : Fin 2) * 128 + 1 * j.val; rw [e1]; omega

/-- The patch second-layer bias' block. -/
theorem blk9 (c : Dev nD) (t : Fin cfg0.N) (j : Fin 128) :
    iblk m c 9 t (ix1 j) = m ((c : Thread nD τ).loc main_arg10) (ix1 j) := by
  have e0 := idx9 t
  show V m c main_arg10 (((cfg0.win 9).blk t).view.emb (ix1 j)) = _
  rw [V_main_arg10]
  refine congrArg (m ((c : Thread nD τ).loc main_arg10)) ?_
  funext a; apply Fin.ext
  match a with
  | ⟨0, _⟩ => show win0_9.index t (0 : Fin 1) * 128 + 1 * j.val = j.val; rw [e0]; omega

end Cert.KernelIdeal.KVal

end
-- ==== Proof.KValRows.lean ====
/-
  The embedded tiles of a grid point, as Loss.lean's embedded rows of the argument arrays: row `r` of the global tile of
  point `t` is the embedded global row of sample `1024 · (t / 12) + r`; row `r` of the patch tile is the embedded patch
  row of patch `t mod 12` of that sample.
-/
import proofs.«133262_j27453430956191_2_alg».proof.Proof.IdealData
import proofs.«133262_j27453430956191_2_alg».proof.Proof.Rows
import proofs.«133262_j27453430956191_2_alg».proof.Proof.PayEmbed
import proofs.«133262_j27453430956191_2_alg».proof.Proof.PayLoss
import Idealize.ShloMosaic.Lib.ValueIdx
import Idealize.ShloMosaic.Lib.ValueLayout
import Idealize.ShloMosaic.Lib.Pipeline.Value
import Idealize.ShloMosaic.Lib.StableHlo.Run
import proofs.«133262_j27453430956191_2_alg».proof.Proof.KValBlocks
set_option maxRecDepth 16384

noncomputable section

namespace Cert.KernelIdeal.KVal

open Cert.KernelIdeal Cert.KernelIdeal.Gen Cert.KernelIdeal.Hand
open Idealize.ShloMosaic Idealize.ShloMosaic.TcCoe Idealize.ShloMosaic.Tactic Idealize.ShloMosaic.ValueIdx
open Idealize.SL.Sem Idealize.ShloMosaic.StableHlo
open Idealize.ShloMosaic.Pipeline (Dat Cfg Window)

variable (m : (ℓ : Loc nD τ sig) → Buf (Elt Ideal) ℓ)

/-! ## The embedded rows of the argument arrays -/

/-- The embedded global rows of the launch's arrays. -/
abbrev G (c : Dev nD) : Fin 4096 → Cert.Loss.Row :=
  Cert.Loss.gRows (m ((c : Thread nD τ).loc main_arg0)) (m ((c : Thread nD τ).loc main_arg3))
    (m ((c : Thread nD τ).loc main_arg4)) (m ((c : Thread nD τ).loc main_arg5)) (m ((c : Thread nD τ).loc main_arg6))

/-- The embedded patch rows of the launch's arrays. -/
abbrev P (c : Dev nD) : Fin 12 → Fin 4096 → Cert.Loss.Row :=
  Cert.Loss.pRows (m ((c : Thread nD τ).loc main_arg1)) (m ((c : Thread nD τ).loc main_arg7))
    (m ((c : Thread nD τ).loc main_arg8)) (m ((c : Thread nD τ).loc main_arg9)) (m ((c : Thread nD τ).loc main_arg10))

/-- `gTile_row`: the global tile of any point of a tile holds the tile's embedded global rows. -/
theorem gTile_row (c : Dev nD) (t : Fin cfg0.N) (r : Fin 1024) (j : Fin 128) :
    gTile (F := Ideal) m c t (ix2 r j)
      = Cert.Loss.gRows (m ((c : Thread nD τ).loc main_arg0)) (m ((c : Thread nD τ).loc main_arg3))
          (m ((c : Thread nD τ).loc main_arg4)) (m ((c : Thread nD τ).loc main_arg5)) (m ((c : Thread nD τ).loc main_arg6))
          (Cert.Loss.sample (tile t) r) j := by
  unfold gTile Cert.Loss.gRows
  refine (Pay.embedG (iblk m c 0 t) (iblk m c 2 t) (iblk m c 3 t) (iblk m c 4 t) (iblk m c 5 t) r j).trans ?_
  have e0 : (fun i : Fin 640 => iblk m c 0 t (ix2 r i))
      = fun i => m ((c : Thread nD τ).loc main_arg0) (ix2 (Cert.Loss.sample (tile t) r) i) := funext fun i => blk0 m c t r i
  have e2 : (fun (k : Fin 128) (i : Fin 640) => iblk m c 2 t (ix2 i k))
      = fun k i => m ((c : Thread nD τ).loc main_arg3) (ix2 k i) := funext fun k => funext fun i => blk2 m c t i k
  have e3 : (fun k : Fin 128 => iblk m c 3 t (ix1 k)) = fun k => m ((c : Thread nD τ).loc main_arg4) (ix1 k) :=
    funext fun k => blk3 m c t k
  have e4 : (fun (j : Fin 128) (k : Fin 128) => iblk m c 4 t (ix2 k j))
      = fun j k => m ((c : Thread nD τ).loc main_arg5) (ix2 j k) := funext fun j => funext fun k => blk4 m c t k j
  have e5 : (fun j : Fin 128 => iblk m c 5 t (ix1 j)) = fun j => m ((c : Thread nD τ).loc main_arg6) (ix1 j) :=
    funext fun j => blk5 m c t j
  rw [e0, e2, e3, e4, e5]

/-- `pTile_row`: the patch tile of point `t` holds the embedded rows of patch `t mod 12` of the tile's samples. -/
theorem pTile_row (c : Dev nD) (t : Fin cfg0.N) (u : Fin 1) (r : Fin 1024) (j : Fin 128) :
    pTile (F := Ideal) m c t (ix3 u r j)
      = Cert.Loss.pRows (m ((c : Thread nD τ).loc main_arg1)) (m ((c : Thread nD τ).loc main_arg7))
          (m ((c : Thread nD τ).loc main_arg8)) (m ((c : Thread nD τ).loc main_arg9)) (m ((c : Thread nD τ).loc main_arg10))
          (patch t) (Cert.Loss.sample (tile t) r) j := by
  unfold pTile Cert.Loss.pRows
  refine (Pay.pay33_apply (iblk m c 1 t) (iblk m c 6 t) (iblk m c 7 t) (iblk m c 8 t) (iblk m c 9 t) u r j).trans ?_
  refine (Pay.embedP (iblk m c 1 t) (iblk m c 6 t) (iblk m c 7 t) (iblk m c 8 t) (iblk m c 9 t) r j).trans ?_
  have e1 : (fun i : Fin 640 => iblk m c 1 t (ix3 (0 : Fin 1) r i))
      = fun i => m ((c : Thread nD τ).loc main_arg1) (ix2 (Cert.Loss.patchRow (patch t) (Cert.Loss.sample (tile t) r)) i) :=
    funext fun i => blk1 m c t 0 r i
  have e6 : (fun (k : Fin 128) (i : Fin 640) => iblk m c 6 t (ix2 i k))
      = fun k i => m ((c : Thread nD τ).loc main_arg7) (ix2 k i) := funext fun k => funext fun i => blk6 m c t i k
  have e7 : (fun k : Fin 128 => iblk m c 7 t (ix1 k)) = fun k => m ((c : Thread nD τ).loc main_arg8) (ix1 k) :=
    funext fun k => blk7 m c t k
  have e8 : (fun (j : Fin 128) (k : Fin 128) => iblk m c 8 t (ix2 k j))
      = fun j k => m ((c : Thread nD τ).loc main_arg9) (ix2 j k) := funext fun j => funext fun k => blk8 m c t k j
  have e9 : (fun j : Fin 128 => iblk m c 9 t (ix1 j)) = fun j => m ((c : Thread nD τ).loc main_arg10) (ix1 j) :=
    funext fun j => blk9 m c t j
  rw [e1, e6, e7, e8, e9]

end Cert.KernelIdeal.KVal

end
-- ==== Proof.KValSum.lean ====
/-
  The running sum of a tile's embedded patch rows. After the point of patch `k` of a tile the sum buffer holds, at row
  `r`, the sum of the embedded rows of patches `0 … k` of sample `1024 · tile + r`, folded from zero in patch order; after
  the tile's last point, the sum over all twelve patches.
-/
import proofs.«133262_j27453430956191_2_alg».proof.Proof.IdealData
import proofs.«133262_j27453430956191_2_alg».proof.Proof.Rows
import proofs.«133262_j27453430956191_2_alg».proof.Proof.PayEmbed
import proofs.«133262_j27453430956191_2_alg».proof.Proof.PayLoss
import Idealize.ShloMosaic.Lib.ValueIdx
import Idealize.ShloMosaic.Lib.ValueLayout
import Idealize.ShloMosaic.Lib.Pipeline.Value
import Idealize.ShloMosaic.Lib.StableHlo.Run
import proofs.«133262_j27453430956191_2_alg».proof.Proof.KValBlocks
import proofs.«133262_j27453430956191_2_alg».proof.Proof.KValRows
set_option maxRecDepth 16384

noncomputable section

namespace Cert.KernelIdeal.KVal

open Cert.KernelIdeal Cert.KernelIdeal.Gen Cert.KernelIdeal.Hand
open Idealize.ShloMosaic Idealize.ShloMosaic.TcCoe Idealize.ShloMosaic.Tactic Idealize.ShloMosaic.ValueIdx
open Idealize.SL.Sem Idealize.ShloMosaic.StableHlo
open Idealize.ShloMosaic.Pipeline (Dat Cfg Window)

variable (m : (ℓ : Loc nD τ sig) → Buf (Elt Ideal) ℓ)

/-- One step of the running sum, at an index: the previous sum plus the point's embedded patch row. -/
theorem sumStep_apply (c : Dev nD) (t : Fin cfg0.N) (prev : FVec Ideal S1024x128 .f32) (r : Fin 1024) (d : Fin 128) :
    sumStep (F := Ideal) m c t prev (ix2 r d) = prev (ix2 r d) + P m c (patch t) (Cert.Loss.sample (tile t) r) d := by
  show k0_pay1 (F := Ideal) (k0_pay34 (iblk m c 1 t) (iblk m c 6 t) (iblk m c 7 t) (iblk m c 8 t) (iblk m c 9 t) prev) (ix2 r d) = _
  rw [Pay.pay1_eq]
  refine (Pay.pay34_apply (iblk m c 1 t) (iblk m c 6 t) (iblk m c 7 t) (iblk m c 8 t) (iblk m c 9 t) prev r d).trans ?_
  refine congrArg (prev (ix2 r d) + ·) ?_
  refine (Pay.pay33_apply (iblk m c 1 t) (iblk m c 6 t) (iblk m c 7 t) (iblk m c 8 t) (iblk m c 9 t) 0 r d).symm.trans ?_
  exact pTile_row m c t 0 r d

/-- Patch `l` of row `r` of tile `q`, for a natural `l` (zero past the twelve patches). -/
def patchTerm (c : Dev nD) (q : Fin 4) (r : Fin 1024) (d : Fin 128) (l : ℕ) : EReal :=
  if h : l < 12 then P m c ⟨l, h⟩ (Cert.Loss.sample q r) d else 0

/-- After the point of patch `k` of a tile: the sum of the tile's patches `0 … k`. -/
theorem sumAt_upto (c : Dev nD) (r : Fin 1024) (d : Fin 128) :
    ∀ (k : ℕ) (t : Fin cfg0.N), t.val % 12 = k →
      sumAt (F := Ideal) m c t.val t.isLt (ix2 r d) = ∑ l ∈ Finset.range (k + 1), patchTerm m c (tile t) r d l := by
  intro k
  induction k with
  | zero =>
    intro t h0
    rw [sumAt_first m c t h0, sumStep_apply, Pay.pay31_apply, zero_add, Finset.sum_range_one]
    unfold patchTerm
    rw [dif_pos (by decide)]
    have hp : patch t = ⟨0, by decide⟩ := Fin.ext h0
    rw [hp]
  | succ k ih =>
    intro t hk
    have hN := N48
    have ht := t.isLt
    have h0 : ¬t.val % 12 = 0 := by omega
    have hp : t.val - 1 < cfg0.N := by omega
    rw [sumAt_next m c t h0 hp, sumStep_apply, Finset.sum_range_succ]
    have hprev := ih ⟨t.val - 1, hp⟩ (by show (t.val - 1) % 12 = k; omega)
    have htile : tile ⟨t.val - 1, hp⟩ = tile t := Fin.ext (by show (t.val - 1) / 12 = t.val / 12; omega)
    rw [htile] at hprev
    have hlt : k + 1 < 12 := by have := Nat.mod_lt t.val (by decide : 12 > 0); omega
    have hpatch : patch t = ⟨k + 1, hlt⟩ := Fin.ext hk
    have hterm : patchTerm m c (tile t) r d (k + 1) = P m c (patch t) (Cert.Loss.sample (tile t) r) d := by
      unfold patchTerm
      rw [dif_pos hlt, hpatch]
    rw [hterm]
    exact congrArg (· + P m c (patch t) (Cert.Loss.sample (tile t) r) d) hprev

/-- `sumAt_last`: after a tile's last point the sum buffer holds the sum of the twelve embedded patch rows. -/
theorem sumAt_last (c : Dev nD) (t : Fin cfg0.N) (h11 : t.val % 12 = 11) (r : Fin 1024) (d : Fin 128) :
    sumAt (F := Ideal) m c t.val t.isLt (ix2 r d)
      = ∑ l : Fin 12, Cert.Loss.pRows (m ((c : Thread nD τ).loc main_arg1)) (m ((c : Thread nD τ).loc main_arg7))
          (m ((c : Thread nD τ).loc main_arg8)) (m ((c : Thread nD τ).loc main_arg9)) (m ((c : Thread nD τ).loc main_arg10))
          l (Cert.Loss.sample (tile t) r) d := by
  rw [sumAt_upto m c r d 11 t h11, ← Fin.sum_univ_eq_sum_range (patchTerm m c (tile t) r d) 12]
  refine Finset.sum_congr rfl fun l _ => ?_
  unfold patchTerm
  rw [dif_pos l.isLt]

end Cert.KernelIdeal.KVal

end
-- ==== Proof.KValChain.lean ====
/-
  The tile's two partial losses read at an index, over the running sum `s`, the global tile `g` and the twelve stash
  slices: the `dil` partial is the divergence of the global rows from the mean rows summed over the rows; the `dcl`
  partial is the twelve per-slice terms accumulated from zero in patch order, which is their sum.
-/
import proofs.«133262_j27453430956191_2_alg».proof.Proof.IdealPieces
import proofs.«133262_j27453430956191_2_alg».proof.Proof.Loss
import proofs.«133262_j27453430956191_2_alg».proof.Proof.PayConsts
import proofs.«133262_j27453430956191_2_alg».proof.Proof.PayLoss
import Idealize.ShloMosaic.Lib.ValueIdx

set_option maxRecDepth 16384

noncomputable section

namespace Cert.KernelIdeal.KVal

open Cert.KernelIdeal Cert.KernelIdeal.Gen Cert.KernelIdeal.Hand
open Idealize.ShloMosaic Idealize.ShloMosaic.ValueIdx

/-- The `dil` term over the running sum and the global tile. -/
def dilTerm (s g : FVec Ideal S1024x128 .f32) : EReal :=
  ∑ r : Fin 1024, Cert.Loss.symKL (fun d => g (ix2 r d)) (fun d => s (ix2 r d) * ((1 / 12 : ℝ) : EReal))

/-- The `dcl` term of one stash slice over the running sum and the global tile. -/
def dclTerm (s g : FVec Ideal S1024x128 .f32) (sl : FVec Ideal S1x1024x128 .f32) : EReal :=
  ∑ r : Fin 1024, Cert.Loss.symKL
    (Cert.Loss.sqDiff (fun d => g (ix2 r d)) (fun d => sl (ix3 (0 : Fin 1) r d)))
    (Cert.Loss.sqDiff (fun d => s (ix2 r d) * ((1 / 12 : ℝ) : EReal)) (fun d => sl (ix3 (0 : Fin 1) r d)))

/-- The `dil` partial, broadcast over the lanes, reads the `dil` term. -/
theorem dilOf_apply (s g : FVec Ideal S1024x128 .f32) (u w : Fin 1) (j : Fin 128) :
    dilOf (F := Ideal) s g (ix3 u w j) = dilTerm s g := by
  unfold dilOf dilTerm
  rw [Pay.bcast2, Pay.dilTile]

/-- A row of the mean tile. -/
theorem mean_fun (s : FVec Ideal S1024x128 .f32) (r : Fin 1024) :
    (fun d => k0_pay4 (F := Ideal) s (ix2 r d)) = fun d => s (ix2 r d) * ((1 / 12 : ℝ) : EReal) :=
  funext fun d => Pay.meanRow s r d

theorem slice7 (s g : FVec Ideal S1024x128 .f32) (sl : FVec Ideal S1x1024x128 .f32) (u w : Fin 1) :
    k0_pay7 (F := Ideal) (k0_pay4 (F := Ideal) s) g sl (ix2 u w) = dclTerm s g sl := by
  rw [Pay.dclSlice7]
  unfold dclTerm
  refine Finset.sum_congr rfl fun r _ => ?_
  rw [mean_fun]
theorem slice9 (s g : FVec Ideal S1024x128 .f32) (sl : FVec Ideal S1x1024x128 .f32) (u w : Fin 1) :
    k0_pay9 (F := Ideal) (k0_pay4 (F := Ideal) s) g sl (ix2 u w) = dclTerm s g sl := by
  rw [Pay.dclSlice9]
  unfold dclTerm
  refine Finset.sum_congr rfl fun r _ => ?_
  rw [mean_fun]
theorem slice11 (s g : FVec Ideal S1024x128 .f32) (sl : FVec Ideal S1x1024x128 .f32) (u w : Fin 1) :
    k0_pay11 (F := Ideal) (k0_pay4 (F := Ideal) s) g sl (ix2 u w) = dclTerm s g sl := by
  rw [Pay.dclSlice11]
  unfold dclTerm
  refine Finset.sum_congr rfl fun r _ => ?_
  rw [mean_fun]
theorem slice13 (s g : FVec Ideal S1024x128 .f32) (sl : FVec Ideal S1x1024x128 .f32) (u w : Fin 1) :
    k0_pay13 (F := Ideal) (k0_pay4 (F := Ideal) s) g sl (ix2 u w) = dclTerm s g sl := by
  rw [Pay.dclSlice13]
  unfold dclTerm
  refine Finset.sum_congr rfl fun r _ => ?_
  rw [mean_fun]
theorem slice15 (s g : FVec Ideal S1024x128 .f32) (sl : FVec Ideal S1x1024x128 .f32) (u w : Fin 1) :
    k0_pay15 (F := Ideal) (k0_pay4 (F := Ideal) s) g sl (ix2 u w) = dclTerm s g sl := by
  rw [Pay.dclSlice15]
  unfold dclTerm
  refine Finset.sum_congr rfl fun r _ => ?_
  rw [mean_fun]
theorem slice17 (s g : FVec Ideal S1024x128 .f32) (sl : FVec Ideal S1x1024x128 .f32) (u w : Fin 1) :
    k0_pay17 (F := Ideal) (k0_pay4 (F := Ideal) s) g sl (ix2 u w) = dclTerm s g sl := by
  rw [Pay.dclSlice17]
  unfold dclTerm
  refine Finset.sum_congr rfl fun r _ => ?_
  rw [mean_fun]
theorem slice19 (s g : FVec Ideal S1024x128 .f32) (sl : FVec Ideal S1x1024x128 .f32) (u w : Fin 1) :
    k0_pay19 (F := Ideal) (k0_pay4 (F := Ideal) s) g sl (ix2 u w) = dclTerm s g sl := by
  rw [Pay.dclSlice19]
  unfold dclTerm
  refine Finset.sum_congr rfl fun r _ => ?_
  rw [mean_fun]
theorem slice21 (s g : FVec Ideal S1024x128 .f32) (sl : FVec Ideal S1x1024x128 .f32) (u w : Fin 1) :
    k0_pay21 (F := Ideal) (k0_pay4 (F := Ideal) s) g sl (ix2 u w) = dclTerm s g sl := by
  rw [Pay.dclSlice21]
  unfold dclTerm
  refine Finset.sum_congr rfl fun r _ => ?_
  rw [mean_fun]
theorem slice23 (s g : FVec Ideal S1024x128 .f32) (sl : FVec Ideal S1x1024x128 .f32) (u w : Fin 1) :
    k0_pay23 (F := Ideal) (k0_pay4 (F := Ideal) s) g sl (ix2 u w) = dclTerm s g sl := by
  rw [Pay.dclSlice23]
  unfold dclTerm
  refine Finset.sum_congr rfl fun r _ => ?_
  rw [mean_fun]
theorem slice25 (s g : FVec Ideal S1024x128 .f32) (sl : FVec Ideal S1x1024x128 .f32) (u w : Fin 1) :
    k0_pay25 (F := Ideal) (k0_pay4 (F := Ideal) s) g sl (ix2 u w) = dclTerm s g sl := by
  rw [Pay.dclSlice25]
  unfold dclTerm
  refine Finset.sum_congr rfl fun r _ => ?_
  rw [mean_fun]
theorem slice27 (s g : FVec Ideal S1024x128 .f32) (sl : FVec Ideal S1x1024x128 .f32) (u w : Fin 1) :
    k0_pay27 (F := Ideal) (k0_pay4 (F := Ideal) s) g sl (ix2 u w) = dclTerm s g sl := by
  rw [Pay.dclSlice27]
  unfold dclTerm
  refine Finset.sum_congr rfl fun r _ => ?_
  rw [mean_fun]
theorem slice29 (s g : FVec Ideal S1024x128 .f32) (sl : FVec Ideal S1x1024x128 .f32) (u w : Fin 1) :
    k0_pay29 (F := Ideal) (k0_pay4 (F := Ideal) s) g sl (ix2 u w) = dclTerm s g sl := by
  rw [Pay.dclSlice29]
  unfold dclTerm
  refine Finset.sum_congr rfl fun r _ => ?_
  rw [mean_fun]

/-- The `dcl` partial, broadcast over the lanes, reads the twelve slice terms accumulated from zero in patch order. -/
theorem dclChain_apply (s g : FVec Ideal S1024x128 .f32) (s0 s1 s2 s3 s4 s5 s6 s7 s8 s9 s10 s11 : FVec Ideal S1x1024x128 .f32)
    (u w : Fin 1) (j : Fin 128) :
    dclChain (F := Ideal) s g s0 s1 s2 s3 s4 s5 s6 s7 s8 s9 s10 s11 (ix3 u w j)
      = 0 + dclTerm s g s0 + dclTerm s g s1 + dclTerm s g s2 + dclTerm s g s3 + dclTerm s g s4 + dclTerm s g s5
          + dclTerm s g s6 + dclTerm s g s7 + dclTerm s g s8 + dclTerm s g s9 + dclTerm s g s10 + dclTerm s g s11 := by
  unfold dclChain
  rw [Pay.bcast3, Pay.accum28, Pay.accum26, Pay.accum24, Pay.accum22, Pay.accum20, Pay.accum18, Pay.accum16, Pay.accum14,
    Pay.accum12, Pay.accum10, Pay.accum8, Pay.pay6_apply, slice7, slice9, slice11, slice13, slice15, slice17, slice19,
    slice21, slice23, slice25, slice27, slice29, Ideal.ofBits_def, Pay.ofBits_zero]

/-- Twelve terms accumulated from zero in order are their sum. -/
theorem sum12 (T : Fin 12 → EReal) :
    0 + T 0 + T 1 + T 2 + T 3 + T 4 + T 5 + T 6 + T 7 + T 8 + T 9 + T 10 + T 11 = ∑ l, T l := by
  have h : ∑ l, T l = ∑ l ∈ Finset.range 12, (if h : l < 12 then T ⟨l, h⟩ else 0) := by
    rw [← Fin.sum_univ_eq_sum_range (fun l => if h : l < 12 then T ⟨l, h⟩ else 0) 12]
    exact Finset.sum_congr rfl fun l _ => by rw [dif_pos l.isLt]
  rw [h]
  simp only [Finset.sum_range_succ, Finset.sum_range_zero]
  rfl

end Cert.KernelIdeal.KVal

end
-- ==== Proof.KValLoss.lean ====
/-
  The two output blocks at a tile's last point, as Loss.lean's tiled sums over the argument arrays: the `dil` block holds,
  in every lane, the sum over the tile's 1024 samples of the divergence of the embedded global row from the mean embedded
  patch row; the `dcl` block the sum over the twelve patches and the samples of the divergence of the two squared
  differences.
-/
import proofs.«133262_j27453430956191_2_alg».proof.Proof.IdealData
import proofs.«133262_j27453430956191_2_alg».proof.Proof.Rows
import proofs.«133262_j27453430956191_2_alg».proof.Proof.PayEmbed
import proofs.«133262_j27453430956191_2_alg».proof.Proof.PayLoss
import Idealize.ShloMosaic.Lib.ValueIdx
import Idealize.ShloMosaic.Lib.ValueLayout
import Idealize.ShloMosaic.Lib.Pipeline.Value
import Idealize.ShloMosaic.Lib.StableHlo.Run
import proofs.«133262_j27453430956191_2_alg».proof.Proof.KValBlocks
import proofs.«133262_j27453430956191_2_alg».proof.Proof.KValRows
import proofs.«133262_j27453430956191_2_alg».proof.Proof.KValSum
import proofs.«133262_j27453430956191_2_alg».proof.Proof.KValChain
set_option maxRecDepth 16384

noncomputable section

namespace Cert.KernelIdeal.KVal

open Cert.KernelIdeal Cert.KernelIdeal.Gen Cert.KernelIdeal.Hand
open Idealize.ShloMosaic Idealize.ShloMosaic.TcCoe Idealize.ShloMosaic.Tactic Idealize.ShloMosaic.ValueIdx
open Idealize.SL.Sem Idealize.ShloMosaic.StableHlo
open Idealize.ShloMosaic.Pipeline (Dat Cfg Window)

variable (m : (ℓ : Loc nD τ sig) → Buf (Elt Ideal) ℓ)

/-! ## The three buffers at a tile's last point, row by row -/

/-- A row of the global tile held after point `t`: the embedded global row of the sample. -/
theorem gAt_row (c : Dev nD) (t : Fin cfg0.N) (r : Fin 1024) :
    (fun d => gAt (F := Ideal) m c t.val t.isLt (ix2 r d)) = G m c (Cert.Loss.sample (tile t) r) := by
  funext d
  unfold gAt
  have hN := N48
  have ht := t.isLt
  have htile : tile ⟨t.val - t.val % 12, lt_of_le_of_lt (Nat.sub_le _ _) t.isLt⟩ = tile t :=
    Fin.ext (by show (t.val - t.val % 12) / 12 = t.val / 12; omega)
  rw [gTile_row, htile]

/-- A row of the mean tile after a tile's last point: the mean embedded patch row of the sample. -/
theorem mean_row (c : Dev nD) (t : Fin cfg0.N) (h11 : t.val % 12 = 11) (r : Fin 1024) :
    (fun d => sumAt (F := Ideal) m c t.val t.isLt (ix2 r d) * ((1 / 12 : ℝ) : EReal))
      = Cert.Loss.meanMul (P m c) (Cert.Loss.sample (tile t) r) := by
  funext d
  unfold Cert.Loss.meanMul
  rw [sumAt_last m c t h11]

/-- A row of stash slice `l` of the tile: the embedded row of patch `l` of the sample. -/
theorem slice_row (c : Dev nD) (t : Fin cfg0.N) (l : Fin 12) (r : Fin 1024) :
    (fun d => slicesAt (F := Ideal) m c t l (ix3 (0 : Fin 1) r d)) = P m c l (Cert.Loss.sample (tile t) r) := by
  funext d
  unfold slicesAt
  have hN := N48
  have ht := t.isLt
  have hl := l.isLt
  have htile : tile ⟨t.val - t.val % 12 + l.val, slice_lt t l⟩ = tile t :=
    Fin.ext (by show (t.val - t.val % 12 + l.val) / 12 = t.val / 12; omega)
  have hpatch : patch ⟨t.val - t.val % 12 + l.val, slice_lt t l⟩ = l :=
    Fin.ext (by show (t.val - t.val % 12 + l.val) % 12 = l.val; omega)
  rw [pTile_row, htile, hpatch]

/-! ## The two output blocks -/

/-- `dilAt_val`: the `dil` block of a tile. -/
theorem dilAt_val (c : Dev nD) (t : Fin cfg0.N) (h11 : t.val % 12 = 11) (u w : Fin 1) (j : Fin 128) :
    dilAt (F := Ideal) m c t (ix3 u w j)
      = ∑ r : Fin 1024, Cert.Loss.symKL (G m c (Cert.Loss.sample (tile t) r))
          (Cert.Loss.meanMul (P m c) (Cert.Loss.sample (tile t) r)) := by
  unfold dilAt
  rw [dilOf_apply]
  unfold dilTerm
  refine Finset.sum_congr rfl fun r _ => ?_
  rw [gAt_row m c t r, mean_row m c t h11 r]

/-- One slice's `dcl` term at a tile's last point. -/
theorem dclTerm_val (c : Dev nD) (t : Fin cfg0.N) (h11 : t.val % 12 = 11) (l : Fin 12) :
    dclTerm (sumAt (F := Ideal) m c t.val t.isLt) (gAt (F := Ideal) m c t.val t.isLt) (slicesAt (F := Ideal) m c t l)
      = ∑ r : Fin 1024, Cert.Loss.symKL
          (Cert.Loss.sqDiff (G m c (Cert.Loss.sample (tile t) r)) (P m c l (Cert.Loss.sample (tile t) r)))
          (Cert.Loss.sqDiff (Cert.Loss.meanMul (P m c) (Cert.Loss.sample (tile t) r)) (P m c l (Cert.Loss.sample (tile t) r))) := by
  unfold dclTerm
  refine Finset.sum_congr rfl fun r _ => ?_
  rw [gAt_row m c t r, mean_row m c t h11 r, slice_row m c t l r]

/-- `dclAt_val`: the `dcl` block of a tile. -/
theorem dclAt_val (c : Dev nD) (t : Fin cfg0.N) (h11 : t.val % 12 = 11) (u w : Fin 1) (j : Fin 128) :
    dclAt (F := Ideal) m c t (ix3 u w j)
      = ∑ l : Fin 12, ∑ r : Fin 1024, Cert.Loss.symKL
          (Cert.Loss.sqDiff (G m c (Cert.Loss.sample (tile t) r)) (P m c l (Cert.Loss.sample (tile t) r)))
          (Cert.Loss.sqDiff (Cert.Loss.meanMul (P m c) (Cert.Loss.sample (tile t) r)) (P m c l (Cert.Loss.sample (tile t) r))) := by
  unfold dclAt
  rw [dclChain_apply, ← sum12]
  rw [dclTerm_val m c t h11 0, dclTerm_val m c t h11 1, dclTerm_val m c t h11 2, dclTerm_val m c t h11 3,
    dclTerm_val m c t h11 4, dclTerm_val m c t h11 5, dclTerm_val m c t h11 6, dclTerm_val m c t h11 7,
    dclTerm_val m c t h11 8, dclTerm_val m c t h11 9, dclTerm_val m c t h11 10, dclTerm_val m c t h11 11]

end Cert.KernelIdeal.KVal

end
-- ==== Proof.KValTail.lean ====
/-
  The kernel's two results as Loss.lean's tiled losses of the argument arrays. After the region the host takes lane 0 of
  each output array's four blocks, sums the four numbers from zero, and divides the second sum by 12; the four blocks
  hold the four tiles' partial losses, so the first result is `dilTiled` and the second `dclTiled` of the embedded rows.
-/
import proofs.«133262_j27453430956191_2_alg».proof.Proof.IdealData
import proofs.«133262_j27453430956191_2_alg».proof.Proof.Rows
import proofs.«133262_j27453430956191_2_alg».proof.Proof.PayEmbed
import proofs.«133262_j27453430956191_2_alg».proof.Proof.PayLoss
import Idealize.ShloMosaic.Lib.ValueIdx
import Idealize.ShloMosaic.Lib.ValueLayout
import Idealize.ShloMosaic.Lib.Pipeline.Value
import Idealize.ShloMosaic.Lib.StableHlo.Run
import proofs.«133262_j27453430956191_2_alg».proof.Proof.KValBlocks
import proofs.«133262_j27453430956191_2_alg».proof.Proof.KValRows
import proofs.«133262_j27453430956191_2_alg».proof.Proof.KValLoss
import proofs.«133262_j27453430956191_2_alg».proof.Proof.IdealValue
set_option maxRecDepth 16384

noncomputable section

namespace Cert.KernelIdeal.KVal

open Cert.KernelIdeal Cert.KernelIdeal.Gen Cert.KernelIdeal.Hand
open Idealize.ShloMosaic Idealize.ShloMosaic.TcCoe Idealize.ShloMosaic.Tactic Idealize.ShloMosaic.ValueIdx
open Idealize.SL.Sem Idealize.ShloMosaic.StableHlo
open Idealize.ShloMosaic.Pipeline (Dat Cfg Window)

variable (m : (ℓ : Loc nD τ sig) → Buf (Elt Ideal) ℓ)

/-- The word `0x41400000` denotes the real `12`. -/
theorem ofBits_twelve : Ideal.ofBits .f32 0x41400000#32 = ((12 : ℝ) : EReal) := by
  simp [Ideal.ofBits, Ideal.ieee, -EReal.coe_mul]; norm_num

/-- A rank-1 index set is its one coordinate's range … -/
def idxEquiv1 {n : ℕ} : (⟨1, ![n]⟩ : Shape).Idx ≃ Fin n where
  toFun i := i 0
  invFun a := ix1 a
  left_inv i := (eq_ix1 i).symm
  right_inv _ := rfl
/-- … so a sum over it is the sum over the coordinate. -/
theorem sum_idx1 {n : ℕ} (f : (⟨1, ![n]⟩ : Shape).Idx → EReal) : ∑ i, f i = ∑ a : Fin n, f (ix1 a) := by
  rw [← Equiv.sum_comp (idxEquiv1 (n := n)).symm f]
  rfl

/-- `tailSum_apply`: lane 0 of the four blocks, summed from zero, is the sum of the four entries. -/
theorem tailSum_apply (X : S4x1x128.Idx → EReal) (i : S_.Idx) :
    tailSum (F := Ideal) X i = ∑ b : Fin 4, X (ix3 b (0 : Fin 1) (0 : Fin 128)) := by
  unfold tailSum Host.reduceAdd
  rw [Ideal.hostReduceAdd_def, Ideal.hostReduceAdd_total reducesTo_S4_S_d0 (fun b => b.elim0)]
  show Ideal.ofBits .f32 0x00000000#32 + _ = _
  rw [Pay.ofBits_zero, zero_add, sum_idx1]
  refine Finset.sum_congr rfl fun b _ => ?_
  refine (shapeCast_apply (s := S4x1x1) (t := S4) _ _ (ix1 b) (ix3 b (0 : Fin 1) (0 : Fin 1)) ?_).trans ?_
  · show (S4x1x1.rowMajor _).val = (S4.rowMajor _).val
    rw [Shape.rowMajor_val_three, Shape.rowMajor_val_one]
    show (b.val * 1 + 0) * 1 + 0 = b.val
    omega
  · refine extractStridedSlice_apply _ X _ (ix3 b (0 : Fin 1) (0 : Fin 1)) (ix3 b (0 : Fin 1) (0 : Fin 128)) fun a => ?_
    match a with
    | ⟨0, _⟩ => exact (Nat.zero_add _).symm
    | ⟨1, _⟩ => exact (Nat.zero_add _).symm
    | ⟨2, _⟩ => exact (Nat.zero_add _).symm

/-- `tailMean_apply`: the same sum divided by 12. -/
theorem tailMean_apply (X : S4x1x128.Idx → EReal) (i : S_.Idx) :
    tailMean (F := Ideal) X i = Ideal.div (∑ b : Fin 4, X (ix3 b (0 : Fin 1) (0 : Fin 128))) ((12 : ℝ) : EReal) := by
  unfold tailMean Host.divf
  show Ideal.div (tailSum (F := Ideal) X i) (Ideal.ofBits .f32 0x41400000#32) = _
  rw [tailSum_apply, ofBits_twelve]

/-- The last point of tile `b` is a last point, of tile `b`. -/
theorem lastPt_mod (b : Fin 4) : (lastPt b).val % 12 = 11 := by
  show (12 * b.val + 11) % 12 = 11; omega
theorem tile_lastPt (b : Fin 4) : tile (lastPt b) = b :=
  Fin.ext (by show (12 * b.val + 11) / 12 = b.val; omega)

/-- `kernel_dil`: the first result is the tiled `dil` of the embedded rows. -/
theorem kernel_dil (c : Dev nD) :
    tailSum (F := Ideal) (dilArr (F := Ideal) m c) = fun _ => Cert.Loss.dilTiled (G m c) (P m c) := by
  funext i
  rw [tailSum_apply]
  unfold Cert.Loss.dilTiled
  refine Finset.sum_congr rfl fun b _ => ?_
  show dilAt (F := Ideal) m c (lastPt b) (ix3 (0 : Fin 1) (0 : Fin 1) (0 : Fin 128)) = _
  rw [dilAt_val m c (lastPt b) (lastPt_mod b), tile_lastPt]

/-- `kernel_dcl`: the second result is the tiled `dcl` of the embedded rows. -/
theorem kernel_dcl (c : Dev nD) :
    tailMean (F := Ideal) (dclArr (F := Ideal) m c) = fun _ => Cert.Loss.dclTiled (G m c) (P m c) := by
  funext i
  rw [tailMean_apply]
  unfold Cert.Loss.dclTiled
  refine congrArg (fun x => Ideal.div x ((12 : ℝ) : EReal)) (Finset.sum_congr rfl fun b _ => ?_)
  show dclAt (F := Ideal) m c (lastPt b) (ix3 (0 : Fin 1) (0 : Fin 1) (0 : Fin 128)) = _
  rw [dclAt_val m c (lastPt b) (lastPt_mod b), tile_lastPt]

end Cert.KernelIdeal.KVal

end
-- ==== Proof.RefIdx.lean ====
/-
  Two indices with the same coordinates are equal, and a sum over a rank-1 index set is the sum over its coordinate.
-/
import Idealize.ShloMosaic.Lib.ValueIdx

noncomputable section

namespace Cert.ReferenceIdeal.RefValue

open Idealize.ShloMosaic Idealize.ShloMosaic.ValueIdx

/-- Rank-1 indices with the same coordinate are equal. -/
theorem idx1_ext {n : Nat} (j j' : (⟨1, ![n]⟩ : Shape).Idx) (h0 : (j 0).val = (j' 0).val) : j = j' := by
  funext a; apply Fin.ext
  match a with
  | ⟨0, _⟩ => exact h0

/-- Rank-2 indices with the same coordinates are equal. -/
theorem idx2_ext {n0 n1 : Nat} (j j' : (⟨2, ![n0, n1]⟩ : Shape).Idx) (h0 : (j 0).val = (j' 0).val)
    (h1 : (j 1).val = (j' 1).val) : j = j' := by
  funext a; apply Fin.ext
  match a with
  | ⟨0, _⟩ => exact h0
  | ⟨1, _⟩ => exact h1

/-- Rank-3 indices with the same coordinates are equal. -/
theorem idx3_ext {n0 n1 n2 : Nat} (j j' : (⟨3, ![n0, n1, n2]⟩ : Shape).Idx) (h0 : (j 0).val = (j' 0).val)
    (h1 : (j 1).val = (j' 1).val) (h2 : (j 2).val = (j' 2).val) : j = j' := by
  funext a; apply Fin.ext
  match a with
  | ⟨0, _⟩ => exact h0
  | ⟨1, _⟩ => exact h1
  | ⟨2, _⟩ => exact h2

/-- A rank-1 index set is its coordinate range. -/
def idxEquiv1 {n : Nat} : (⟨1, ![n]⟩ : Shape).Idx ≃ Fin n where
  toFun i := i 0
  invFun a := ix1 a
  left_inv i := (eq_ix1 i).symm
  right_inv _ := rfl

/-- A sum over a rank-1 index set is the sum over the coordinate. -/
theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

end Cert.ReferenceIdeal.RefValue

end
-- ==== Proof.RefEmbedG.lean ====
/-
  The embedded global rows: the reference's normalised two-layer map of row `b` of the global inputs is `gRows … b`.
-/
import proofs.«133262_j27453430956191_2_alg».proof.Proof.RefRead
import proofs.«133262_j27453430956191_2_alg».proof.Proof.Rows
import proofs.«133262_j27453430956191_2_alg».proof.Proof.RefIdx

noncomputable section

namespace Cert.ReferenceIdeal.RefValue

open Cert.ReferenceIdeal Cert.ReferenceIdeal.Gen Idealize.ShloMosaic Idealize.ShloMosaic.TcCoe Idealize.SL.Sem Idealize.ShloMosaic.StableHlo
open Cert.ReferenceIdeal.ReadP Idealize.ShloMosaic.ValueIdx

/- The contents of the reference's ten float argument arrays, as extended reals. -/
variable (x0 : (⟨S4096x640, .f32⟩ : BufTy).Contents (Elt Ideal))
  (x1 : (⟨S49152x640, .f32⟩ : BufTy).Contents (Elt Ideal))
  (x3 : (⟨S128x640, .f32⟩ : BufTy).Contents (Elt Ideal))
  (x4 : (⟨S128, .f32⟩ : BufTy).Contents (Elt Ideal))
  (x5 : (⟨S128x128, .f32⟩ : BufTy).Contents (Elt Ideal))
  (x6 : (⟨S128, .f32⟩ : BufTy).Contents (Elt Ideal))
  (x7 : (⟨S128x640, .f32⟩ : BufTy).Contents (Elt Ideal))
  (x8 : (⟨S128, .f32⟩ : BufTy).Contents (Elt Ideal))
  (x9 : (⟨S128x128, .f32⟩ : BufTy).Contents (Elt Ideal))
  (x10 : (⟨S128, .f32⟩ : BufTy).Contents (Elt Ideal))

/-- The hidden layer of row `r`: the first product, plus the bias, clamped below at zero. -/
theorem gHidden  (r : Fin 4096) (k : Fin 128) :
    val_main_v5 (F := Ideal) x0 x3 x4 (ix2 r k) = Loss.hidden (fun i => x0 (ix2 r i)) (fun k i => x3 (ix2 k i)) (fun k => x4 (ix1 k)) k := by
  have e1 : ∀ i : Fin 640, lidx_main_v1 (ix2 r k) i = ix2 r i := fun i => idx2_ext _ _ rfl rfl
  have e2 : ∀ i : Fin 640, idx_main_v0 (ridx_main_v1 (ix2 r k) i) = ix2 k i := fun i => idx2_ext _ _ rfl rfl
  have e3 : idx_main_v2 (idx_main_v3 (ix2 r k)) = ix1 k := idx1_ext _ _ rfl
  rw [val_main_v5_apply, val_main_v4_apply, val_main_v1_apply, val_main_v3_apply, val_main_v2_apply,
    val_main_call0_v0_apply, val_main_call0_cst_apply]
  simp only [val_main_v0_apply, e1, e2, e3, Ideal.maximumf_def, Ideal.addf_def, Ideal.ofBits_def, Ideal.ofBits_zero_f32]
  rfl

/-- The output layer of row `r` before normalisation: the second product plus the bias. -/
theorem gOut  (r : Fin 4096) (j : Fin 128) :
    val_main_v10 (F := Ideal) x0 x3 x4 x5 x6 (ix2 r j) = Loss.outLayer (Loss.hidden (fun i => x0 (ix2 r i)) (fun k i => x3 (ix2 k i)) (fun k => x4 (ix1 k))) (fun j k => x5 (ix2 j k)) (fun j => x6 (ix1 j)) j := by
  have e1 : ∀ k : Fin 128, lidx_main_v7 (ix2 r j) k = ix2 r k := fun k => idx2_ext _ _ rfl rfl
  have e2 : ∀ k : Fin 128, idx_main_v6 (ridx_main_v7 (ix2 r j) k) = ix2 j k := fun k => idx2_ext _ _ rfl rfl
  have e3 : idx_main_v8 (idx_main_v9 (ix2 r j)) = ix1 j := idx1_ext _ _ rfl
  rw [val_main_v10_apply, val_main_v7_apply, val_main_v9_apply, val_main_v8_apply]
  simp only [val_main_v6_apply, e1, e2, e3, gHidden, Ideal.addf_def]
  rfl

/-- Row `r` embedded: the output layer divided by its Euclidean norm. -/
theorem gEmbed  (r : Fin 4096) (j : Fin 128) :
    val_main_v16 (F := Ideal) x0 x3 x4 x5 x6 (ix2 r j) = Loss.embed (fun i => x0 (ix2 r i)) (fun k i => x3 (ix2 k i)) (fun k => x4 (ix1 k)) (fun j k => x5 (ix2 j k)) (fun j => x6 (ix1 j)) j := by
  have e1 : ∀ d : Fin 128, idx_main_v12 (idx_main_v13 (idx_main_v15 (ix2 r j))) d = ix2 r d :=
    fun d => idx2_ext _ _ rfl rfl
  rw [val_main_v16_apply, val_main_v15_apply, val_main_v14_apply, val_main_v13_apply, val_main_v12_apply,
    val_main_cst_apply]
  simp only [val_main_v11_apply, e1, gOut, Ideal.hostDivf_def, Ideal.hostUnary_sqrt_def, Ideal.mulf_def, Ideal.ofBits_def,
    Ideal.ofBits_zero_f32, zero_add]
  rfl

/-- The embedded global row of sample `b`. -/
theorem gRow  (b : Fin 4096) (d : Fin 128) :
    val_main_v16 (F := Ideal) x0 x3 x4 x5 x6 (ix2 b d) = Loss.gRows x0 x3 x4 x5 x6 b d := by
  rw [gEmbed]; rfl

end Cert.ReferenceIdeal.RefValue

end
-- ==== Proof.RefConsts.lean ====
/-
  The float literals of the reference program as the extended reals their bit patterns denote.
-/
import Idealize.ShloMosaic.PureOps.Ideal.Laws

noncomputable section

namespace Cert.ReferenceIdeal.RefValue

open Idealize.ShloMosaic

/-- The pattern of `4.0` denotes the real `4`. -/
theorem word_four : Ideal.ofBits .f32 0x40800000#32 = ((4 : ℝ) : EReal) := by
  simp [Ideal.ofBits, Ideal.ieee, -EReal.coe_mul]; norm_num

/-- The pattern of `12.0` denotes the real `12`. -/
theorem word_twelve : Ideal.ofBits .f32 0x41400000#32 = ((12 : ℝ) : EReal) := by
  simp [Ideal.ofBits, Ideal.ieee, -EReal.coe_mul]; norm_num

/-- The pattern of `16.0` denotes the real `16`. -/
theorem word_sixteen : Ideal.ofBits .f32 0x41800000#32 = ((16 : ℝ) : EReal) := by
  simp [Ideal.ofBits, Ideal.ieee, -EReal.coe_mul]; norm_num

/-- The pattern of `128.0` denotes the real `128`. -/
theorem word_128 : Ideal.ofBits .f32 0x43000000#32 = ((128 : ℝ) : EReal) := by
  simp [Ideal.ofBits, Ideal.ieee, -EReal.coe_mul]; norm_num

/-- The pattern of `-∞` denotes `⊥`. -/
theorem word_bot : Ideal.ofBits .f32 0xFF800000#32 = (⊥ : EReal) := by
  simp [Ideal.ofBits, Ideal.ieee]

end Cert.ReferenceIdeal.RefValue

end
-- ==== Proof.RefSoftmaxG.lean ====
/-
  The log-softmax of the embedded global rows, in the reference's two calls on them.
-/
import proofs.«133262_j27453430956191_2_alg».proof.Proof.RefEmbedG
import proofs.«133262_j27453430956191_2_alg».proof.Proof.RefConsts

noncomputable section

namespace Cert.ReferenceIdeal.RefValue

open Cert.ReferenceIdeal Cert.ReferenceIdeal.Gen Idealize.ShloMosaic Idealize.ShloMosaic.TcCoe Idealize.SL.Sem Idealize.ShloMosaic.StableHlo
open Cert.ReferenceIdeal.ReadP Idealize.ShloMosaic.ValueIdx

/- The contents of the reference's ten float argument arrays, as extended reals. -/
variable (x0 : (⟨S4096x640, .f32⟩ : BufTy).Contents (Elt Ideal))
  (x1 : (⟨S49152x640, .f32⟩ : BufTy).Contents (Elt Ideal))
  (x3 : (⟨S128x640, .f32⟩ : BufTy).Contents (Elt Ideal))
  (x4 : (⟨S128, .f32⟩ : BufTy).Contents (Elt Ideal))
  (x5 : (⟨S128x128, .f32⟩ : BufTy).Contents (Elt Ideal))
  (x6 : (⟨S128, .f32⟩ : BufTy).Contents (Elt Ideal))
  (x7 : (⟨S128x640, .f32⟩ : BufTy).Contents (Elt Ideal))
  (x8 : (⟨S128, .f32⟩ : BufTy).Contents (Elt Ideal))
  (x9 : (⟨S128x128, .f32⟩ : BufTy).Contents (Elt Ideal))
  (x10 : (⟨S128, .f32⟩ : BufTy).Contents (Elt Ideal))

/-- The operand of the softmax: row `b` divided by the temperature. -/
theorem scaled_v39 (b : Fin 4096) (e : Fin 128) :
    val_main_v39 (F := Ideal) x0 x3 x4 x5 x6 (ix2 b e) = Loss.scaled (Loss.gRows x0 x3 x4 x5 x6 b) e := by
  rw [val_main_v39_apply, val_main_v38_apply, val_main_cst_3_apply, gRow]
  simp only [Ideal.hostDivf_def, Ideal.ofBits_def, word_four]
  rfl

/-- Where row `b` of the call's operand is the scaled row `a`, row `b` of its result is `log_softmax` of `a`:
    the row maximum is the fold of `max` from `⊥`, the shifted row is exponentiated, summed from `0`, and its logarithm
    subtracted. -/
theorem lsm_v40 (a : Loss.Row) (b : Fin 4096)
    (h : ∀ e : Fin 128, val_main_v39 (F := Ideal) x0 x3 x4 x5 x6 (ix2 b e) = Loss.scaled a e) (d : Fin 128) :
    val_main_v40 (F := Ideal) x0 x3 x4 x5 x6 (ix2 b d) = Loss.lsm a d := by
  have hR : S4096x128.Reduces [1] S4096 := by decide
  have hrow : (val_main_v39 (F := Ideal) x0 x3 x4 x5 x6) ∘ hR.lift (ix1 b) = Loss.scaled a := funext fun e =>
    (congrArg (val_main_v39 (F := Ideal) x0 x3 x4 x5 x6) (idx2_ext (hR.lift (ix1 b) e) (ix2 b e) rfl rfl)).trans (h e)
  have hm : val_main_call2_v2 (F := Ideal) x0 x3 x4 x5 x6 (ix1 b) = Loss.rowMax (Loss.scaled a) := by
    rw [val_main_call2_v2_apply, val_main_call2_v1_apply, val_main_call2_cst_0_apply]
    unfold val_main_call2_v0
    rw [Host.reduce_eq_fold_single (FloatOps.maximumf (F := Ideal)) _ _ reducesTo_S4096x128_S4096_d1 hR h_S_ (ix1 b), hrow,
      val_main_call2_cst_apply]
    simp only [Ideal.ofBits_def, word_bot]
    rfl
  have hs : ∀ e : Fin 128, val_main_call2_v5 (F := Ideal) x0 x3 x4 x5 x6 (ix2 b e) = Loss.scaled a e - Loss.rowMax (Loss.scaled a) :=
    fun e => by
      rw [val_main_call2_v5_apply, val_main_call2_v4_apply, val_main_call2_v3_apply, h e,
        show idx_main_call2_v3 (idx_main_call2_v4 (ix2 b e)) = ix1 b from idx1_ext _ _ rfl, hm]
      rfl
  have hl : val_main_call2_v10 (F := Ideal) x0 x3 x4 x5 x6 (ix2 b d)
      = Ideal.log (∑ e, Ideal.exp (Loss.scaled a e - Loss.rowMax (Loss.scaled a))) := by
    have e2 : ∀ e : Fin 128, idx_main_call2_v7 (idx_main_call2_v8 (idx_main_call2_v10 (ix2 b d))) e = ix2 b e :=
      fun e => idx2_ext _ _ rfl rfl
    rw [val_main_call2_v10_apply, val_main_call2_v9_apply, val_main_call2_v8_apply, val_main_call2_v7_apply,
      val_main_call2_cst_1_apply]
    simp only [val_main_call2_v6_apply, e2, hs, Ideal.hostUnary_exp_def, Ideal.hostUnary_log_def, Ideal.ofBits_def,
      Ideal.ofBits_zero_f32, zero_add]
  rw [val_main_v40_apply, hs, hl]
  rfl

/-- The operand of the softmax: row `b` divided by the temperature. -/
theorem scaled_v56 (b : Fin 4096) (e : Fin 128) :
    val_main_v56 (F := Ideal) x0 x3 x4 x5 x6 (ix2 b e) = Loss.scaled (Loss.gRows x0 x3 x4 x5 x6 b) e := by
  rw [val_main_v56_apply, val_main_v55_apply, val_main_cst_9_apply, gRow]
  simp only [Ideal.hostDivf_def, Ideal.ofBits_def, word_four]
  rfl

/-- Where row `b` of the call's operand is the scaled row `a`, row `b` of its result is `log_softmax` of `a`:
    the row maximum is the fold of `max` from `⊥`, the shifted row is exponentiated, summed from `0`, and its logarithm
    subtracted. -/
theorem lsm_v57 (a : Loss.Row) (b : Fin 4096)
    (h : ∀ e : Fin 128, val_main_v56 (F := Ideal) x0 x3 x4 x5 x6 (ix2 b e) = Loss.scaled a e) (d : Fin 128) :
    val_main_v57 (F := Ideal) x0 x3 x4 x5 x6 (ix2 b d) = Loss.lsm a d := by
  have hR : S4096x128.Reduces [1] S4096 := by decide
  have hrow : (val_main_v56 (F := Ideal) x0 x3 x4 x5 x6) ∘ hR.lift (ix1 b) = Loss.scaled a := funext fun e =>
    (congrArg (val_main_v56 (F := Ideal) x0 x3 x4 x5 x6) (idx2_ext (hR.lift (ix1 b) e) (ix2 b e) rfl rfl)).trans (h e)
  have hm : val_main_call5_v2 (F := Ideal) x0 x3 x4 x5 x6 (ix1 b) = Loss.rowMax (Loss.scaled a) := by
    rw [val_main_call5_v2_apply, val_main_call5_v1_apply, val_main_call5_cst_0_apply]
    unfold val_main_call5_v0
    rw [Host.reduce_eq_fold_single (FloatOps.maximumf (F := Ideal)) _ _ reducesTo_S4096x128_S4096_d1 hR h_S_ (ix1 b), hrow,
      val_main_call5_cst_apply]
    simp only [Ideal.ofBits_def, word_bot]
    rfl
  have hs : ∀ e : Fin 128, val_main_call5_v5 (F := Ideal) x0 x3 x4 x5 x6 (ix2 b e) = Loss.scaled a e - Loss.rowMax (Loss.scaled a) :=
    fun e => by
      rw [val_main_call5_v5_apply, val_main_call5_v4_apply, val_main_call5_v3_apply, h e,
        show idx_main_call5_v3 (idx_main_call5_v4 (ix2 b e)) = ix1 b from idx1_ext _ _ rfl, hm]
      rfl
  have hl : val_main_call5_v10 (F := Ideal) x0 x3 x4 x5 x6 (ix2 b d)
      = Ideal.log (∑ e, Ideal.exp (Loss.scaled a e - Loss.rowMax (Loss.scaled a))) := by
    have e2 : ∀ e : Fin 128, idx_main_call5_v7 (idx_main_call5_v8 (idx_main_call5_v10 (ix2 b d))) e = ix2 b e :=
      fun e => idx2_ext _ _ rfl rfl
    rw [val_main_call5_v10_apply, val_main_call5_v9_apply, val_main_call5_v8_apply, val_main_call5_v7_apply,
      val_main_call5_cst_1_apply]
    simp only [val_main_call5_v6_apply, e2, hs, Ideal.hostUnary_exp_def, Ideal.hostUnary_log_def, Ideal.ofBits_def,
      Ideal.ofBits_zero_f32, zero_add]
  rw [val_main_v57_apply, hs, hl]
  rfl

/-- `log_softmax (g b / 4)`, first call. -/
theorem lsmG_v40 (b : Fin 4096) (d : Fin 128) : val_main_v40 (F := Ideal) x0 x3 x4 x5 x6 (ix2 b d) = Loss.lsm (Loss.gRows x0 x3 x4 x5 x6 b) d :=
  lsm_v40 x0 x3 x4 x5 x6 _ b (scaled_v39 x0 x3 x4 x5 x6 b) d

/-- `log_softmax (g b / 4)`, second call. -/
theorem lsmG_v57 (b : Fin 4096) (d : Fin 128) : val_main_v57 (F := Ideal) x0 x3 x4 x5 x6 (ix2 b d) = Loss.lsm (Loss.gRows x0 x3 x4 x5 x6 b) d :=
  lsm_v57 x0 x3 x4 x5 x6 _ b (scaled_v56 x0 x3 x4 x5 x6 b) d

end Cert.ReferenceIdeal.RefValue

end
-- ==== Proof.RefEmbedP.lean ====
/-
  The embedded patch rows: the reference's normalised two-layer map of row `l · 4096 + b` of the patch inputs, read
  through the reshape to [12, 4096, 128], is `pRows … l b`; and their mean over the twelve patches is `meanDiv`.
-/
import proofs.«133262_j27453430956191_2_alg».proof.Proof.RefRead
import proofs.«133262_j27453430956191_2_alg».proof.Proof.Rows
import proofs.«133262_j27453430956191_2_alg».proof.Proof.RefIdx
import proofs.«133262_j27453430956191_2_alg».proof.Proof.RefConsts

noncomputable section

namespace Cert.ReferenceIdeal.RefValue

open Cert.ReferenceIdeal Cert.ReferenceIdeal.Gen Idealize.ShloMosaic Idealize.ShloMosaic.TcCoe Idealize.SL.Sem Idealize.ShloMosaic.StableHlo
open Cert.ReferenceIdeal.ReadP Idealize.ShloMosaic.ValueIdx

/- The contents of the reference's ten float argument arrays, as extended reals. -/
variable (x0 : (⟨S4096x640, .f32⟩ : BufTy).Contents (Elt Ideal))
  (x1 : (⟨S49152x640, .f32⟩ : BufTy).Contents (Elt Ideal))
  (x3 : (⟨S128x640, .f32⟩ : BufTy).Contents (Elt Ideal))
  (x4 : (⟨S128, .f32⟩ : BufTy).Contents (Elt Ideal))
  (x5 : (⟨S128x128, .f32⟩ : BufTy).Contents (Elt Ideal))
  (x6 : (⟨S128, .f32⟩ : BufTy).Contents (Elt Ideal))
  (x7 : (⟨S128x640, .f32⟩ : BufTy).Contents (Elt Ideal))
  (x8 : (⟨S128, .f32⟩ : BufTy).Contents (Elt Ideal))
  (x9 : (⟨S128x128, .f32⟩ : BufTy).Contents (Elt Ideal))
  (x10 : (⟨S128, .f32⟩ : BufTy).Contents (Elt Ideal))

/-- The hidden layer of row `r`: the first product, plus the bias, clamped below at zero. -/
theorem pHidden  (r : Fin 49152) (k : Fin 128) :
    val_main_v22 (F := Ideal) x1 x7 x8 (ix2 r k) = Loss.hidden (fun i => x1 (ix2 r i)) (fun k i => x7 (ix2 k i)) (fun k => x8 (ix1 k)) k := by
  have e1 : ∀ i : Fin 640, lidx_main_v18 (ix2 r k) i = ix2 r i := fun i => idx2_ext _ _ rfl rfl
  have e2 : ∀ i : Fin 640, idx_main_v17 (ridx_main_v18 (ix2 r k) i) = ix2 k i := fun i => idx2_ext _ _ rfl rfl
  have e3 : idx_main_v19 (idx_main_v20 (ix2 r k)) = ix1 k := idx1_ext _ _ rfl
  rw [val_main_v22_apply, val_main_v21_apply, val_main_v18_apply, val_main_v20_apply, val_main_v19_apply,
    val_main_call1_v0_apply, val_main_call1_cst_apply]
  simp only [val_main_v17_apply, e1, e2, e3, Ideal.maximumf_def, Ideal.addf_def, Ideal.ofBits_def, Ideal.ofBits_zero_f32]
  rfl

/-- The output layer of row `r` before normalisation: the second product plus the bias. -/
theorem pOut  (r : Fin 49152) (j : Fin 128) :
    val_main_v27 (F := Ideal) x1 x7 x8 x9 x10 (ix2 r j) = Loss.outLayer (Loss.hidden (fun i => x1 (ix2 r i)) (fun k i => x7 (ix2 k i)) (fun k => x8 (ix1 k))) (fun j k => x9 (ix2 j k)) (fun j => x10 (ix1 j)) j := by
  have e1 : ∀ k : Fin 128, lidx_main_v24 (ix2 r j) k = ix2 r k := fun k => idx2_ext _ _ rfl rfl
  have e2 : ∀ k : Fin 128, idx_main_v23 (ridx_main_v24 (ix2 r j) k) = ix2 j k := fun k => idx2_ext _ _ rfl rfl
  have e3 : idx_main_v25 (idx_main_v26 (ix2 r j)) = ix1 j := idx1_ext _ _ rfl
  rw [val_main_v27_apply, val_main_v24_apply, val_main_v26_apply, val_main_v25_apply]
  simp only [val_main_v23_apply, e1, e2, e3, pHidden, Ideal.addf_def]
  rfl

/-- Row `r` embedded: the output layer divided by its Euclidean norm. -/
theorem pEmbed  (r : Fin 49152) (j : Fin 128) :
    val_main_v33 (F := Ideal) x1 x7 x8 x9 x10 (ix2 r j) = Loss.embed (fun i => x1 (ix2 r i)) (fun k i => x7 (ix2 k i)) (fun k => x8 (ix1 k)) (fun j k => x9 (ix2 j k)) (fun j => x10 (ix1 j)) j := by
  have e1 : ∀ d : Fin 128, idx_main_v29 (idx_main_v30 (idx_main_v32 (ix2 r j))) d = ix2 r d :=
    fun d => idx2_ext _ _ rfl rfl
  rw [val_main_v33_apply, val_main_v32_apply, val_main_v31_apply, val_main_v30_apply, val_main_v29_apply,
    val_main_cst_0_apply]
  simp only [val_main_v28_apply, e1, pOut, Ideal.hostDivf_def, Ideal.hostUnary_sqrt_def, Ideal.mulf_def, Ideal.ofBits_def,
    Ideal.ofBits_zero_f32, zero_add]
  rfl

/-- The embedded patch row `l` of sample `b`: the reshape reads row `l · 4096 + b`. -/
theorem pRow  (l : Fin 12) (b : Fin 4096) (d : Fin 128) :
    val_main_v34 (F := Ideal) x1 x7 x8 x9 x10 (ix3 l b d) = Loss.pRows x1 x7 x8 x9 x10 l b d := by
  have e : idx_main_v34 (ix3 l b d) = ix2 (Loss.patchRow l b) d := by
    have hd := d.isLt
    refine idx2_ext _ _ ?_ ?_
    · show ((l.val * 4096 + b.val) * 128 + d.val) / 128 = l.val * 4096 + b.val
      omega
    · show ((l.val * 4096 + b.val) * 128 + d.val) % 128 = d.val
      omega
  rw [val_main_v34_apply, e, pEmbed]; rfl

/-- The mean patch row of sample `b`: the sum over the twelve patches divided by twelve. -/
theorem pMean  (b : Fin 4096) (d : Fin 128) :
    val_main_v37 (F := Ideal) x1 x7 x8 x9 x10 (ix2 b d) = Loss.meanDiv (Loss.pRows x1 x7 x8 x9 x10) b d := by
  have e1 : ∀ l : Fin 12, idx_main_v35 (ix2 b d) l = ix3 l b d := fun l => idx3_ext _ _ rfl rfl rfl
  rw [val_main_v37_apply, val_main_v35_apply, val_main_cst_1_apply, val_main_v36_apply, val_main_cst_2_apply]
  simp only [e1, pRow, Ideal.hostDivf_def, Ideal.ofBits_def, Ideal.ofBits_zero_f32, zero_add, word_twelve]
  rfl

end Cert.ReferenceIdeal.RefValue

end
-- ==== Proof.RefSoftmaxP.lean ====
/-
  The log-softmax of the mean patch rows, in the reference's two calls on them.
-/
import proofs.«133262_j27453430956191_2_alg».proof.Proof.RefEmbedP
import proofs.«133262_j27453430956191_2_alg».proof.Proof.RefConsts

noncomputable section

namespace Cert.ReferenceIdeal.RefValue

open Cert.ReferenceIdeal Cert.ReferenceIdeal.Gen Idealize.ShloMosaic Idealize.ShloMosaic.TcCoe Idealize.SL.Sem Idealize.ShloMosaic.StableHlo
open Cert.ReferenceIdeal.ReadP Idealize.ShloMosaic.ValueIdx

/- The contents of the reference's ten float argument arrays, as extended reals. -/
variable (x0 : (⟨S4096x640, .f32⟩ : BufTy).Contents (Elt Ideal))
  (x1 : (⟨S49152x640, .f32⟩ : BufTy).Contents (Elt Ideal))
  (x3 : (⟨S128x640, .f32⟩ : BufTy).Contents (Elt Ideal))
  (x4 : (⟨S128, .f32⟩ : BufTy).Contents (Elt Ideal))
  (x5 : (⟨S128x128, .f32⟩ : BufTy).Contents (Elt Ideal))
  (x6 : (⟨S128, .f32⟩ : BufTy).Contents (Elt Ideal))
  (x7 : (⟨S128x640, .f32⟩ : BufTy).Contents (Elt Ideal))
  (x8 : (⟨S128, .f32⟩ : BufTy).Contents (Elt Ideal))
  (x9 : (⟨S128x128, .f32⟩ : BufTy).Contents (Elt Ideal))
  (x10 : (⟨S128, .f32⟩ : BufTy).Contents (Elt Ideal))

/-- The operand of the softmax: row `b` divided by the temperature. -/
theorem scaled_v42 (b : Fin 4096) (e : Fin 128) :
    val_main_v42 (F := Ideal) x1 x7 x8 x9 x10 (ix2 b e) = Loss.scaled (Loss.meanDiv (Loss.pRows x1 x7 x8 x9 x10) b) e := by
  rw [val_main_v42_apply, val_main_v41_apply, val_main_cst_4_apply, pMean]
  simp only [Ideal.hostDivf_def, Ideal.ofBits_def, word_four]
  rfl

/-- Where row `b` of the call's operand is the scaled row `a`, row `b` of its result is `log_softmax` of `a`:
    the row maximum is the fold of `max` from `⊥`, the shifted row is exponentiated, summed from `0`, and its logarithm
    subtracted. -/
theorem lsm_v43 (a : Loss.Row) (b : Fin 4096)
    (h : ∀ e : Fin 128, val_main_v42 (F := Ideal) x1 x7 x8 x9 x10 (ix2 b e) = Loss.scaled a e) (d : Fin 128) :
    val_main_v43 (F := Ideal) x1 x7 x8 x9 x10 (ix2 b d) = Loss.lsm a d := by
  have hR : S4096x128.Reduces [1] S4096 := by decide
  have hrow : (val_main_v42 (F := Ideal) x1 x7 x8 x9 x10) ∘ hR.lift (ix1 b) = Loss.scaled a := funext fun e =>
    (congrArg (val_main_v42 (F := Ideal) x1 x7 x8 x9 x10) (idx2_ext (hR.lift (ix1 b) e) (ix2 b e) rfl rfl)).trans (h e)
  have hm : val_main_call3_v2 (F := Ideal) x1 x7 x8 x9 x10 (ix1 b) = Loss.rowMax (Loss.scaled a) := by
    rw [val_main_call3_v2_apply, val_main_call3_v1_apply, val_main_call3_cst_0_apply]
    unfold val_main_call3_v0
    rw [Host.reduce_eq_fold_single (FloatOps.maximumf (F := Ideal)) _ _ reducesTo_S4096x128_S4096_d1 hR h_S_ (ix1 b), hrow,
      val_main_call3_cst_apply]
    simp only [Ideal.ofBits_def, word_bot]
    rfl
  have hs : ∀ e : Fin 128, val_main_call3_v5 (F := Ideal) x1 x7 x8 x9 x10 (ix2 b e) = Loss.scaled a e - Loss.rowMax (Loss.scaled a) :=
    fun e => by
      rw [val_main_call3_v5_apply, val_main_call3_v4_apply, val_main_call3_v3_apply, h e,
        show idx_main_call3_v3 (idx_main_call3_v4 (ix2 b e)) = ix1 b from idx1_ext _ _ rfl, hm]
      rfl
  have hl : val_main_call3_v10 (F := Ideal) x1 x7 x8 x9 x10 (ix2 b d)
      = Ideal.log (∑ e, Ideal.exp (Loss.scaled a e - Loss.rowMax (Loss.scaled a))) := by
    have e2 : ∀ e : Fin 128, idx_main_call3_v7 (idx_main_call3_v8 (idx_main_call3_v10 (ix2 b d))) e = ix2 b e :=
      fun e => idx2_ext _ _ rfl rfl
    rw [val_main_call3_v10_apply, val_main_call3_v9_apply, val_main_call3_v8_apply, val_main_call3_v7_apply,
      val_main_call3_cst_1_apply]
    simp only [val_main_call3_v6_apply, e2, hs, Ideal.hostUnary_exp_def, Ideal.hostUnary_log_def, Ideal.ofBits_def,
      Ideal.ofBits_zero_f32, zero_add]
  rw [val_main_v43_apply, hs, hl]
  rfl

/-- The operand of the softmax: row `b` divided by the temperature. -/
theorem scaled_v53 (b : Fin 4096) (e : Fin 128) :
    val_main_v53 (F := Ideal) x1 x7 x8 x9 x10 (ix2 b e) = Loss.scaled (Loss.meanDiv (Loss.pRows x1 x7 x8 x9 x10) b) e := by
  rw [val_main_v53_apply, val_main_v52_apply, val_main_cst_8_apply, pMean]
  simp only [Ideal.hostDivf_def, Ideal.ofBits_def, word_four]
  rfl

/-- Where row `b` of the call's operand is the scaled row `a`, row `b` of its result is `log_softmax` of `a`:
    the row maximum is the fold of `max` from `⊥`, the shifted row is exponentiated, summed from `0`, and its logarithm
    subtracted. -/
theorem lsm_v54 (a : Loss.Row) (b : Fin 4096)
    (h : ∀ e : Fin 128, val_main_v53 (F := Ideal) x1 x7 x8 x9 x10 (ix2 b e) = Loss.scaled a e) (d : Fin 128) :
    val_main_v54 (F := Ideal) x1 x7 x8 x9 x10 (ix2 b d) = Loss.lsm a d := by
  have hR : S4096x128.Reduces [1] S4096 := by decide
  have hrow : (val_main_v53 (F := Ideal) x1 x7 x8 x9 x10) ∘ hR.lift (ix1 b) = Loss.scaled a := funext fun e =>
    (congrArg (val_main_v53 (F := Ideal) x1 x7 x8 x9 x10) (idx2_ext (hR.lift (ix1 b) e) (ix2 b e) rfl rfl)).trans (h e)
  have hm : val_main_call4_v2 (F := Ideal) x1 x7 x8 x9 x10 (ix1 b) = Loss.rowMax (Loss.scaled a) := by
    rw [val_main_call4_v2_apply, val_main_call4_v1_apply, val_main_call4_cst_0_apply]
    unfold val_main_call4_v0
    rw [Host.reduce_eq_fold_single (FloatOps.maximumf (F := Ideal)) _ _ reducesTo_S4096x128_S4096_d1 hR h_S_ (ix1 b), hrow,
      val_main_call4_cst_apply]
    simp only [Ideal.ofBits_def, word_bot]
    rfl
  have hs : ∀ e : Fin 128, val_main_call4_v5 (F := Ideal) x1 x7 x8 x9 x10 (ix2 b e) = Loss.scaled a e - Loss.rowMax (Loss.scaled a) :=
    fun e => by
      rw [val_main_call4_v5_apply, val_main_call4_v4_apply, val_main_call4_v3_apply, h e,
        show idx_main_call4_v3 (idx_main_call4_v4 (ix2 b e)) = ix1 b from idx1_ext _ _ rfl, hm]
      rfl
  have hl : val_main_call4_v10 (F := Ideal) x1 x7 x8 x9 x10 (ix2 b d)
      = Ideal.log (∑ e, Ideal.exp (Loss.scaled a e - Loss.rowMax (Loss.scaled a))) := by
    have e2 : ∀ e : Fin 128, idx_main_call4_v7 (idx_main_call4_v8 (idx_main_call4_v10 (ix2 b d))) e = ix2 b e :=
      fun e => idx2_ext _ _ rfl rfl
    rw [val_main_call4_v10_apply, val_main_call4_v9_apply, val_main_call4_v8_apply, val_main_call4_v7_apply,
      val_main_call4_cst_1_apply]
    simp only [val_main_call4_v6_apply, e2, hs, Ideal.hostUnary_exp_def, Ideal.hostUnary_log_def, Ideal.ofBits_def,
      Ideal.ofBits_zero_f32, zero_add]
  rw [val_main_v54_apply, hs, hl]
  rfl

/-- `log_softmax (p̄ b / 4)`, first call. -/
theorem lsmP_v43 (b : Fin 4096) (d : Fin 128) :
    val_main_v43 (F := Ideal) x1 x7 x8 x9 x10 (ix2 b d) = Loss.lsm (Loss.meanDiv (Loss.pRows x1 x7 x8 x9 x10) b) d :=
  lsm_v43 x1 x7 x8 x9 x10 _ b (scaled_v42 x1 x7 x8 x9 x10 b) d

/-- `log_softmax (p̄ b / 4)`, second call. -/
theorem lsmP_v54 (b : Fin 4096) (d : Fin 128) :
    val_main_v54 (F := Ideal) x1 x7 x8 x9 x10 (ix2 b d) = Loss.lsm (Loss.meanDiv (Loss.pRows x1 x7 x8 x9 x10) b) d :=
  lsm_v54 x1 x7 x8 x9 x10 _ b (scaled_v53 x1 x7 x8 x9 x10 b) d

end Cert.ReferenceIdeal.RefValue

end
-- ==== Proof.RefDil.lean ====
/-
  The first loss, sample by sample: the two one-sided divergences between the embedded global row and the mean patch row.
-/
import proofs.«133262_j27453430956191_2_alg».proof.Proof.RefSoftmaxG
import proofs.«133262_j27453430956191_2_alg».proof.Proof.RefSoftmaxP

noncomputable section

namespace Cert.ReferenceIdeal.RefValue

open Cert.ReferenceIdeal Cert.ReferenceIdeal.Gen Idealize.ShloMosaic Idealize.ShloMosaic.TcCoe Idealize.SL.Sem Idealize.ShloMosaic.StableHlo
open Cert.ReferenceIdeal.ReadP Idealize.ShloMosaic.ValueIdx

/- The contents of the reference's ten float argument arrays, as extended reals. -/
variable (x0 : (⟨S4096x640, .f32⟩ : BufTy).Contents (Elt Ideal))
  (x1 : (⟨S49152x640, .f32⟩ : BufTy).Contents (Elt Ideal))
  (x3 : (⟨S128x640, .f32⟩ : BufTy).Contents (Elt Ideal))
  (x4 : (⟨S128, .f32⟩ : BufTy).Contents (Elt Ideal))
  (x5 : (⟨S128x128, .f32⟩ : BufTy).Contents (Elt Ideal))
  (x6 : (⟨S128, .f32⟩ : BufTy).Contents (Elt Ideal))
  (x7 : (⟨S128x640, .f32⟩ : BufTy).Contents (Elt Ideal))
  (x8 : (⟨S128, .f32⟩ : BufTy).Contents (Elt Ideal))
  (x9 : (⟨S128x128, .f32⟩ : BufTy).Contents (Elt Ideal))
  (x10 : (⟨S128, .f32⟩ : BufTy).Contents (Elt Ideal))

/-- Where the student's and teacher's log-softmax stages at row `b` are `lsm s` and `lsm t`, the stage is the one-sided
    divergence `kl s t`: the sum from `0` of `exp (lsm t) · (lsm t − lsm s)`, divided by `128`, times `16`. -/
theorem kl_v51 (s t : Loss.Row) (b : Fin 4096)
    (hs : ∀ d : Fin 128, val_main_v40 (F := Ideal) x0 x3 x4 x5 x6 (ix2 b d) = Loss.lsm s d)
    (ht : ∀ d : Fin 128, val_main_v43 (F := Ideal) x1 x7 x8 x9 x10 (ix2 b d) = Loss.lsm t d) :
    val_main_v51 (F := Ideal) x0 x1 x3 x4 x5 x6 x7 x8 x9 x10 (ix1 b) = Loss.kl s t := by
  have e : ∀ d : Fin 128, idx_main_v47 (ix1 b) d = ix2 b d := fun d => idx2_ext _ _ rfl rfl
  rw [val_main_v51_apply, val_main_v49_apply, val_main_v47_apply, val_main_cst_5_apply, val_main_v48_apply,
    val_main_cst_6_apply, val_main_v50_apply, val_main_cst_7_apply]
  simp only [val_main_v46_apply, val_main_v44_apply, val_main_v45_apply, e, hs, ht, Ideal.mulf_def, Ideal.subf_def,
    Ideal.hostDivf_def, Ideal.hostUnary_exp_def, Ideal.ofBits_def, Ideal.ofBits_zero_f32, zero_add, word_128, word_sixteen]
  rfl

/-- Where the student's and teacher's log-softmax stages at row `b` are `lsm s` and `lsm t`, the stage is the one-sided
    divergence `kl s t`: the sum from `0` of `exp (lsm t) · (lsm t − lsm s)`, divided by `128`, times `16`. -/
theorem kl_v65 (s t : Loss.Row) (b : Fin 4096)
    (hs : ∀ d : Fin 128, val_main_v54 (F := Ideal) x1 x7 x8 x9 x10 (ix2 b d) = Loss.lsm s d)
    (ht : ∀ d : Fin 128, val_main_v57 (F := Ideal) x0 x3 x4 x5 x6 (ix2 b d) = Loss.lsm t d) :
    val_main_v65 (F := Ideal) x0 x1 x3 x4 x5 x6 x7 x8 x9 x10 (ix1 b) = Loss.kl s t := by
  have e : ∀ d : Fin 128, idx_main_v61 (ix1 b) d = ix2 b d := fun d => idx2_ext _ _ rfl rfl
  rw [val_main_v65_apply, val_main_v63_apply, val_main_v61_apply, val_main_cst_10_apply, val_main_v62_apply,
    val_main_cst_11_apply, val_main_v64_apply, val_main_cst_12_apply]
  simp only [val_main_v60_apply, val_main_v58_apply, val_main_v59_apply, e, hs, ht, Ideal.mulf_def, Ideal.subf_def,
    Ideal.hostDivf_def, Ideal.hostUnary_exp_def, Ideal.ofBits_def, Ideal.ofBits_zero_f32, zero_add, word_128, word_sixteen]
  rfl

/-- Sample `b`'s term of the first loss: the two one-sided divergences of `g b` and `p̄ b`. -/
theorem dilTerm (b : Fin 4096) :
    val_main_v66 (F := Ideal) x0 x1 x3 x4 x5 x6 x7 x8 x9 x10 (ix1 b)
      = Loss.kl (Loss.gRows x0 x3 x4 x5 x6 b) (Loss.meanDiv (Loss.pRows x1 x7 x8 x9 x10) b) + Loss.kl (Loss.meanDiv (Loss.pRows x1 x7 x8 x9 x10) b) (Loss.gRows x0 x3 x4 x5 x6 b) := by
  rw [val_main_v66_apply,
    kl_v51 x0 x1 x3 x4 x5 x6 x7 x8 x9 x10 _ _ b (lsmG_v40 x0 x3 x4 x5 x6 b) (lsmP_v43 x1 x7 x8 x9 x10 b),
    kl_v65 x0 x1 x3 x4 x5 x6 x7 x8 x9 x10 _ _ b (lsmP_v54 x1 x7 x8 x9 x10 b) (lsmG_v57 x0 x3 x4 x5 x6 b)]
  rfl

end Cert.ReferenceIdeal.RefValue

end
-- ==== Proof.RefSq.lean ====
/-
  The squared differences of the second loss: patch by patch, of the embedded global row and of the mean patch row from
  the patch row, read through the transpose to [4096, 12, 128]; and the same divided by the temperature.
-/
import proofs.«133262_j27453430956191_2_alg».proof.Proof.RefEmbedG
import proofs.«133262_j27453430956191_2_alg».proof.Proof.RefEmbedP
import proofs.«133262_j27453430956191_2_alg».proof.Proof.RefConsts

noncomputable section

namespace Cert.ReferenceIdeal.RefValue

open Cert.ReferenceIdeal Cert.ReferenceIdeal.Gen Idealize.ShloMosaic Idealize.ShloMosaic.TcCoe Idealize.SL.Sem Idealize.ShloMosaic.StableHlo
open Cert.ReferenceIdeal.ReadP Idealize.ShloMosaic.ValueIdx

/- The contents of the reference's ten float argument arrays, as extended reals. -/
variable (x0 : (⟨S4096x640, .f32⟩ : BufTy).Contents (Elt Ideal))
  (x1 : (⟨S49152x640, .f32⟩ : BufTy).Contents (Elt Ideal))
  (x3 : (⟨S128x640, .f32⟩ : BufTy).Contents (Elt Ideal))
  (x4 : (⟨S128, .f32⟩ : BufTy).Contents (Elt Ideal))
  (x5 : (⟨S128x128, .f32⟩ : BufTy).Contents (Elt Ideal))
  (x6 : (⟨S128, .f32⟩ : BufTy).Contents (Elt Ideal))
  (x7 : (⟨S128x640, .f32⟩ : BufTy).Contents (Elt Ideal))
  (x8 : (⟨S128, .f32⟩ : BufTy).Contents (Elt Ideal))
  (x9 : (⟨S128x128, .f32⟩ : BufTy).Contents (Elt Ideal))
  (x10 : (⟨S128, .f32⟩ : BufTy).Contents (Elt Ideal))

/-- `(g b − p l b)²`, entry by entry. -/
theorem sq_v72 (b : Fin 4096) (l : Fin 12) (d : Fin 128) :
    val_main_v72 (F := Ideal) x0 x1 x3 x4 x5 x6 x7 x8 x9 x10 (ix3 b l d) = Loss.sqDiff (Loss.gRows x0 x3 x4 x5 x6 b) (Loss.pRows x1 x7 x8 x9 x10 l b) d := by
  rw [val_main_v72_apply, val_main_v71_apply, val_main_v70_apply, val_main_v69_apply, val_main_v68_apply,
    show idx_main_v69 (idx_main_v70 (ix3 b l d)) = ix2 b d from idx2_ext _ _ rfl rfl,
    show idx_main_v68 (ix3 b l d) = ix3 l b d from idx3_ext _ _ rfl rfl rfl, gRow, pRow]
  rfl

/-- `(p̄ b − p l b)²`, entry by entry. -/
theorem sq_v76 (b : Fin 4096) (l : Fin 12) (d : Fin 128) :
    val_main_v76 (F := Ideal) x1 x7 x8 x9 x10 (ix3 b l d) = Loss.sqDiff (Loss.meanDiv (Loss.pRows x1 x7 x8 x9 x10) b) (Loss.pRows x1 x7 x8 x9 x10 l b) d := by
  rw [val_main_v76_apply, val_main_v75_apply, val_main_v74_apply, val_main_v73_apply, val_main_v68_apply,
    show idx_main_v73 (idx_main_v74 (ix3 b l d)) = ix2 b d from idx2_ext _ _ rfl rfl,
    show idx_main_v68 (ix3 b l d) = ix3 l b d from idx3_ext _ _ rfl rfl rfl, pMean, pRow]
  rfl

/-- The operand of the softmax: row `(b, l)` divided by the temperature. -/
theorem scaled_v78 (b : Fin 4096) (l : Fin 12) (e : Fin 128) :
    val_main_v78 (F := Ideal) x0 x1 x3 x4 x5 x6 x7 x8 x9 x10 (ix3 b l e) = Loss.scaled (Loss.sqDiff (Loss.gRows x0 x3 x4 x5 x6 b) (Loss.pRows x1 x7 x8 x9 x10 l b)) e := by
  rw [val_main_v78_apply, val_main_v77_apply, val_main_cst_14_apply, sq_v72]
  simp only [Ideal.hostDivf_def, Ideal.ofBits_def, word_four]
  rfl

/-- The operand of the softmax: row `(b, l)` divided by the temperature. -/
theorem scaled_v95 (b : Fin 4096) (l : Fin 12) (e : Fin 128) :
    val_main_v95 (F := Ideal) x0 x1 x3 x4 x5 x6 x7 x8 x9 x10 (ix3 b l e) = Loss.scaled (Loss.sqDiff (Loss.gRows x0 x3 x4 x5 x6 b) (Loss.pRows x1 x7 x8 x9 x10 l b)) e := by
  rw [val_main_v95_apply, val_main_v94_apply, val_main_cst_20_apply, sq_v72]
  simp only [Ideal.hostDivf_def, Ideal.ofBits_def, word_four]
  rfl

/-- The operand of the softmax: row `(b, l)` divided by the temperature. -/
theorem scaled_v81 (b : Fin 4096) (l : Fin 12) (e : Fin 128) :
    val_main_v81 (F := Ideal) x1 x7 x8 x9 x10 (ix3 b l e) = Loss.scaled (Loss.sqDiff (Loss.meanDiv (Loss.pRows x1 x7 x8 x9 x10) b) (Loss.pRows x1 x7 x8 x9 x10 l b)) e := by
  rw [val_main_v81_apply, val_main_v80_apply, val_main_cst_15_apply, sq_v76]
  simp only [Ideal.hostDivf_def, Ideal.ofBits_def, word_four]
  rfl

/-- The operand of the softmax: row `(b, l)` divided by the temperature. -/
theorem scaled_v92 (b : Fin 4096) (l : Fin 12) (e : Fin 128) :
    val_main_v92 (F := Ideal) x1 x7 x8 x9 x10 (ix3 b l e) = Loss.scaled (Loss.sqDiff (Loss.meanDiv (Loss.pRows x1 x7 x8 x9 x10) b) (Loss.pRows x1 x7 x8 x9 x10 l b)) e := by
  rw [val_main_v92_apply, val_main_v91_apply, val_main_cst_19_apply, sq_v76]
  simp only [Ideal.hostDivf_def, Ideal.ofBits_def, word_four]
  rfl

end Cert.ReferenceIdeal.RefValue

end
-- ==== Proof.RefSoftmaxD1.lean ====
/-
  The log-softmax of the squared differences `(g b − p l b)²`, in the reference's two calls on them.
-/
import proofs.«133262_j27453430956191_2_alg».proof.Proof.RefSq

noncomputable section

namespace Cert.ReferenceIdeal.RefValue

open Cert.ReferenceIdeal Cert.ReferenceIdeal.Gen Idealize.ShloMosaic Idealize.ShloMosaic.TcCoe Idealize.SL.Sem Idealize.ShloMosaic.StableHlo
open Cert.ReferenceIdeal.ReadP Idealize.ShloMosaic.ValueIdx

/- The contents of the reference's ten float argument arrays, as extended reals. -/
variable (x0 : (⟨S4096x640, .f32⟩ : BufTy).Contents (Elt Ideal))
  (x1 : (⟨S49152x640, .f32⟩ : BufTy).Contents (Elt Ideal))
  (x3 : (⟨S128x640, .f32⟩ : BufTy).Contents (Elt Ideal))
  (x4 : (⟨S128, .f32⟩ : BufTy).Contents (Elt Ideal))
  (x5 : (⟨S128x128, .f32⟩ : BufTy).Contents (Elt Ideal))
  (x6 : (⟨S128, .f32⟩ : BufTy).Contents (Elt Ideal))
  (x7 : (⟨S128x640, .f32⟩ : BufTy).Contents (Elt Ideal))
  (x8 : (⟨S128, .f32⟩ : BufTy).Contents (Elt Ideal))
  (x9 : (⟨S128x128, .f32⟩ : BufTy).Contents (Elt Ideal))
  (x10 : (⟨S128, .f32⟩ : BufTy).Contents (Elt Ideal))

/-- Where row `(b, l)` of the call's operand is the scaled row `a`, row `(b, l)` of its result is `log_softmax` of `a`. -/
theorem lsm_v79 (a : Loss.Row) (b : Fin 4096) (l : Fin 12)
    (h : ∀ e : Fin 128, val_main_v78 (F := Ideal) x0 x1 x3 x4 x5 x6 x7 x8 x9 x10 (ix3 b l e) = Loss.scaled a e) (d : Fin 128) :
    val_main_v79 (F := Ideal) x0 x1 x3 x4 x5 x6 x7 x8 x9 x10 (ix3 b l d) = Loss.lsm a d := by
  have hR : S4096x12x128.Reduces [2] S4096x12 := by decide
  have hrow : (val_main_v78 (F := Ideal) x0 x1 x3 x4 x5 x6 x7 x8 x9 x10) ∘ hR.lift (ix2 b l) = Loss.scaled a := funext fun e =>
    (congrArg (val_main_v78 (F := Ideal) x0 x1 x3 x4 x5 x6 x7 x8 x9 x10) (idx3_ext (hR.lift (ix2 b l) e) (ix3 b l e) rfl rfl rfl)).trans (h e)
  have hm : val_main_call6_v2 (F := Ideal) x0 x1 x3 x4 x5 x6 x7 x8 x9 x10 (ix2 b l) = Loss.rowMax (Loss.scaled a) := by
    rw [val_main_call6_v2_apply, val_main_call6_v1_apply, val_main_call6_cst_0_apply]
    unfold val_main_call6_v0
    rw [Host.reduce_eq_fold_single (FloatOps.maximumf (F := Ideal)) _ _ reducesTo_S4096x12x128_S4096x12_d2 hR h_S_ (ix2 b l),
      hrow, val_main_call6_cst_apply]
    simp only [Ideal.ofBits_def, word_bot]
    rfl
  have hs : ∀ e : Fin 128, val_main_call6_v5 (F := Ideal) x0 x1 x3 x4 x5 x6 x7 x8 x9 x10 (ix3 b l e) = Loss.scaled a e - Loss.rowMax (Loss.scaled a) :=
    fun e => by
      rw [val_main_call6_v5_apply, val_main_call6_v4_apply, val_main_call6_v3_apply, h e,
        show idx_main_call6_v3 (idx_main_call6_v4 (ix3 b l e)) = ix2 b l from idx2_ext _ _ rfl rfl, hm]
      rfl
  have hl : val_main_call6_v10 (F := Ideal) x0 x1 x3 x4 x5 x6 x7 x8 x9 x10 (ix3 b l d)
      = Ideal.log (∑ e, Ideal.exp (Loss.scaled a e - Loss.rowMax (Loss.scaled a))) := by
    have e2 : ∀ e : Fin 128, idx_main_call6_v7 (idx_main_call6_v8 (idx_main_call6_v10 (ix3 b l d))) e = ix3 b l e :=
      fun e => idx3_ext _ _ rfl rfl rfl
    rw [val_main_call6_v10_apply, val_main_call6_v9_apply, val_main_call6_v8_apply, val_main_call6_v7_apply,
      val_main_call6_cst_1_apply]
    simp only [val_main_call6_v6_apply, e2, hs, Ideal.hostUnary_exp_def, Ideal.hostUnary_log_def, Ideal.ofBits_def,
      Ideal.ofBits_zero_f32, zero_add]
  rw [val_main_v79_apply, hs, hl]
  rfl

/-- Where row `(b, l)` of the call's operand is the scaled row `a`, row `(b, l)` of its result is `log_softmax` of `a`. -/
theorem lsm_v96 (a : Loss.Row) (b : Fin 4096) (l : Fin 12)
    (h : ∀ e : Fin 128, val_main_v95 (F := Ideal) x0 x1 x3 x4 x5 x6 x7 x8 x9 x10 (ix3 b l e) = Loss.scaled a e) (d : Fin 128) :
    val_main_v96 (F := Ideal) x0 x1 x3 x4 x5 x6 x7 x8 x9 x10 (ix3 b l d) = Loss.lsm a d := by
  have hR : S4096x12x128.Reduces [2] S4096x12 := by decide
  have hrow : (val_main_v95 (F := Ideal) x0 x1 x3 x4 x5 x6 x7 x8 x9 x10) ∘ hR.lift (ix2 b l) = Loss.scaled a := funext fun e =>
    (congrArg (val_main_v95 (F := Ideal) x0 x1 x3 x4 x5 x6 x7 x8 x9 x10) (idx3_ext (hR.lift (ix2 b l) e) (ix3 b l e) rfl rfl rfl)).trans (h e)
  have hm : val_main_call9_v2 (F := Ideal) x0 x1 x3 x4 x5 x6 x7 x8 x9 x10 (ix2 b l) = Loss.rowMax (Loss.scaled a) := by
    rw [val_main_call9_v2_apply, val_main_call9_v1_apply, val_main_call9_cst_0_apply]
    unfold val_main_call9_v0
    rw [Host.reduce_eq_fold_single (FloatOps.maximumf (F := Ideal)) _ _ reducesTo_S4096x12x128_S4096x12_d2 hR h_S_ (ix2 b l),
      hrow, val_main_call9_cst_apply]
    simp only [Ideal.ofBits_def, word_bot]
    rfl
  have hs : ∀ e : Fin 128, val_main_call9_v5 (F := Ideal) x0 x1 x3 x4 x5 x6 x7 x8 x9 x10 (ix3 b l e) = Loss.scaled a e - Loss.rowMax (Loss.scaled a) :=
    fun e => by
      rw [val_main_call9_v5_apply, val_main_call9_v4_apply, val_main_call9_v3_apply, h e,
        show idx_main_call9_v3 (idx_main_call9_v4 (ix3 b l e)) = ix2 b l from idx2_ext _ _ rfl rfl, hm]
      rfl
  have hl : val_main_call9_v10 (F := Ideal) x0 x1 x3 x4 x5 x6 x7 x8 x9 x10 (ix3 b l d)
      = Ideal.log (∑ e, Ideal.exp (Loss.scaled a e - Loss.rowMax (Loss.scaled a))) := by
    have e2 : ∀ e : Fin 128, idx_main_call9_v7 (idx_main_call9_v8 (idx_main_call9_v10 (ix3 b l d))) e = ix3 b l e :=
      fun e => idx3_ext _ _ rfl rfl rfl
    rw [val_main_call9_v10_apply, val_main_call9_v9_apply, val_main_call9_v8_apply, val_main_call9_v7_apply,
      val_main_call9_cst_1_apply]
    simp only [val_main_call9_v6_apply, e2, hs, Ideal.hostUnary_exp_def, Ideal.hostUnary_log_def, Ideal.ofBits_def,
      Ideal.ofBits_zero_f32, zero_add]
  rw [val_main_v96_apply, hs, hl]
  rfl

/-- `log_softmax ((g b − p l b)² / 4)`, first call. -/
theorem lsmD1_v79 (b : Fin 4096) (l : Fin 12) (d : Fin 128) :
    val_main_v79 (F := Ideal) x0 x1 x3 x4 x5 x6 x7 x8 x9 x10 (ix3 b l d) = Loss.lsm (Loss.sqDiff (Loss.gRows x0 x3 x4 x5 x6 b) (Loss.pRows x1 x7 x8 x9 x10 l b)) d :=
  lsm_v79 x0 x1 x3 x4 x5 x6 x7 x8 x9 x10 _ b l (scaled_v78 x0 x1 x3 x4 x5 x6 x7 x8 x9 x10 b l) d

/-- `log_softmax ((g b − p l b)² / 4)`, second call. -/
theorem lsmD1_v96 (b : Fin 4096) (l : Fin 12) (d : Fin 128) :
    val_main_v96 (F := Ideal) x0 x1 x3 x4 x5 x6 x7 x8 x9 x10 (ix3 b l d) = Loss.lsm (Loss.sqDiff (Loss.gRows x0 x3 x4 x5 x6 b) (Loss.pRows x1 x7 x8 x9 x10 l b)) d :=
  lsm_v96 x0 x1 x3 x4 x5 x6 x7 x8 x9 x10 _ b l (scaled_v95 x0 x1 x3 x4 x5 x6 x7 x8 x9 x10 b l) d

end Cert.ReferenceIdeal.RefValue

end
-- ==== Proof.RefSoftmaxD2.lean ====
/-
  The log-softmax of the squared differences `(p̄ b − p l b)²`, in the reference's two calls on them.
-/
import proofs.«133262_j27453430956191_2_alg».proof.Proof.RefSq

noncomputable section

namespace Cert.ReferenceIdeal.RefValue

open Cert.ReferenceIdeal Cert.ReferenceIdeal.Gen Idealize.ShloMosaic Idealize.ShloMosaic.TcCoe Idealize.SL.Sem Idealize.ShloMosaic.StableHlo
open Cert.ReferenceIdeal.ReadP Idealize.ShloMosaic.ValueIdx

/- The contents of the reference's ten float argument arrays, as extended reals. -/
variable (x0 : (⟨S4096x640, .f32⟩ : BufTy).Contents (Elt Ideal))
  (x1 : (⟨S49152x640, .f32⟩ : BufTy).Contents (Elt Ideal))
  (x3 : (⟨S128x640, .f32⟩ : BufTy).Contents (Elt Ideal))
  (x4 : (⟨S128, .f32⟩ : BufTy).Contents (Elt Ideal))
  (x5 : (⟨S128x128, .f32⟩ : BufTy).Contents (Elt Ideal))
  (x6 : (⟨S128, .f32⟩ : BufTy).Contents (Elt Ideal))
  (x7 : (⟨S128x640, .f32⟩ : BufTy).Contents (Elt Ideal))
  (x8 : (⟨S128, .f32⟩ : BufTy).Contents (Elt Ideal))
  (x9 : (⟨S128x128, .f32⟩ : BufTy).Contents (Elt Ideal))
  (x10 : (⟨S128, .f32⟩ : BufTy).Contents (Elt Ideal))

/-- Where row `(b, l)` of the call's operand is the scaled row `a`, row `(b, l)` of its result is `log_softmax` of `a`. -/
theorem lsm_v82 (a : Loss.Row) (b : Fin 4096) (l : Fin 12)
    (h : ∀ e : Fin 128, val_main_v81 (F := Ideal) x1 x7 x8 x9 x10 (ix3 b l e) = Loss.scaled a e) (d : Fin 128) :
    val_main_v82 (F := Ideal) x1 x7 x8 x9 x10 (ix3 b l d) = Loss.lsm a d := by
  have hR : S4096x12x128.Reduces [2] S4096x12 := by decide
  have hrow : (val_main_v81 (F := Ideal) x1 x7 x8 x9 x10) ∘ hR.lift (ix2 b l) = Loss.scaled a := funext fun e =>
    (congrArg (val_main_v81 (F := Ideal) x1 x7 x8 x9 x10) (idx3_ext (hR.lift (ix2 b l) e) (ix3 b l e) rfl rfl rfl)).trans (h e)
  have hm : val_main_call7_v2 (F := Ideal) x1 x7 x8 x9 x10 (ix2 b l) = Loss.rowMax (Loss.scaled a) := by
    rw [val_main_call7_v2_apply, val_main_call7_v1_apply, val_main_call7_cst_0_apply]
    unfold val_main_call7_v0
    rw [Host.reduce_eq_fold_single (FloatOps.maximumf (F := Ideal)) _ _ reducesTo_S4096x12x128_S4096x12_d2 hR h_S_ (ix2 b l),
      hrow, val_main_call7_cst_apply]
    simp only [Ideal.ofBits_def, word_bot]
    rfl
  have hs : ∀ e : Fin 128, val_main_call7_v5 (F := Ideal) x1 x7 x8 x9 x10 (ix3 b l e) = Loss.scaled a e - Loss.rowMax (Loss.scaled a) :=
    fun e => by
      rw [val_main_call7_v5_apply, val_main_call7_v4_apply, val_main_call7_v3_apply, h e,
        show idx_main_call7_v3 (idx_main_call7_v4 (ix3 b l e)) = ix2 b l from idx2_ext _ _ rfl rfl, hm]
      rfl
  have hl : val_main_call7_v10 (F := Ideal) x1 x7 x8 x9 x10 (ix3 b l d)
      = Ideal.log (∑ e, Ideal.exp (Loss.scaled a e - Loss.rowMax (Loss.scaled a))) := by
    have e2 : ∀ e : Fin 128, idx_main_call7_v7 (idx_main_call7_v8 (idx_main_call7_v10 (ix3 b l d))) e = ix3 b l e :=
      fun e => idx3_ext _ _ rfl rfl rfl
    rw [val_main_call7_v10_apply, val_main_call7_v9_apply, val_main_call7_v8_apply, val_main_call7_v7_apply,
      val_main_call7_cst_1_apply]
    simp only [val_main_call7_v6_apply, e2, hs, Ideal.hostUnary_exp_def, Ideal.hostUnary_log_def, Ideal.ofBits_def,
      Ideal.ofBits_zero_f32, zero_add]
  rw [val_main_v82_apply, hs, hl]
  rfl

/-- Where row `(b, l)` of the call's operand is the scaled row `a`, row `(b, l)` of its result is `log_softmax` of `a`. -/
theorem lsm_v93 (a : Loss.Row) (b : Fin 4096) (l : Fin 12)
    (h : ∀ e : Fin 128, val_main_v92 (F := Ideal) x1 x7 x8 x9 x10 (ix3 b l e) = Loss.scaled a e) (d : Fin 128) :
    val_main_v93 (F := Ideal) x1 x7 x8 x9 x10 (ix3 b l d) = Loss.lsm a d := by
  have hR : S4096x12x128.Reduces [2] S4096x12 := by decide
  have hrow : (val_main_v92 (F := Ideal) x1 x7 x8 x9 x10) ∘ hR.lift (ix2 b l) = Loss.scaled a := funext fun e =>
    (congrArg (val_main_v92 (F := Ideal) x1 x7 x8 x9 x10) (idx3_ext (hR.lift (ix2 b l) e) (ix3 b l e) rfl rfl rfl)).trans (h e)
  have hm : val_main_call8_v2 (F := Ideal) x1 x7 x8 x9 x10 (ix2 b l) = Loss.rowMax (Loss.scaled a) := by
    rw [val_main_call8_v2_apply, val_main_call8_v1_apply, val_main_call8_cst_0_apply]
    unfold val_main_call8_v0
    rw [Host.reduce_eq_fold_single (FloatOps.maximumf (F := Ideal)) _ _ reducesTo_S4096x12x128_S4096x12_d2 hR h_S_ (ix2 b l),
      hrow, val_main_call8_cst_apply]
    simp only [Ideal.ofBits_def, word_bot]
    rfl
  have hs : ∀ e : Fin 128, val_main_call8_v5 (F := Ideal) x1 x7 x8 x9 x10 (ix3 b l e) = Loss.scaled a e - Loss.rowMax (Loss.scaled a) :=
    fun e => by
      rw [val_main_call8_v5_apply, val_main_call8_v4_apply, val_main_call8_v3_apply, h e,
        show idx_main_call8_v3 (idx_main_call8_v4 (ix3 b l e)) = ix2 b l from idx2_ext _ _ rfl rfl, hm]
      rfl
  have hl : val_main_call8_v10 (F := Ideal) x1 x7 x8 x9 x10 (ix3 b l d)
      = Ideal.log (∑ e, Ideal.exp (Loss.scaled a e - Loss.rowMax (Loss.scaled a))) := by
    have e2 : ∀ e : Fin 128, idx_main_call8_v7 (idx_main_call8_v8 (idx_main_call8_v10 (ix3 b l d))) e = ix3 b l e :=
      fun e => idx3_ext _ _ rfl rfl rfl
    rw [val_main_call8_v10_apply, val_main_call8_v9_apply, val_main_call8_v8_apply, val_main_call8_v7_apply,
      val_main_call8_cst_1_apply]
    simp only [val_main_call8_v6_apply, e2, hs, Ideal.hostUnary_exp_def, Ideal.hostUnary_log_def, Ideal.ofBits_def,
      Ideal.ofBits_zero_f32, zero_add]
  rw [val_main_v93_apply, hs, hl]
  rfl

/-- `log_softmax ((p̄ b − p l b)² / 4)`, first call. -/
theorem lsmD2_v82 (b : Fin 4096) (l : Fin 12) (d : Fin 128) :
    val_main_v82 (F := Ideal) x1 x7 x8 x9 x10 (ix3 b l d) = Loss.lsm (Loss.sqDiff (Loss.meanDiv (Loss.pRows x1 x7 x8 x9 x10) b) (Loss.pRows x1 x7 x8 x9 x10 l b)) d :=
  lsm_v82 x1 x7 x8 x9 x10 _ b l (scaled_v81 x1 x7 x8 x9 x10 b l) d

/-- `log_softmax ((p̄ b − p l b)² / 4)`, second call. -/
theorem lsmD2_v93 (b : Fin 4096) (l : Fin 12) (d : Fin 128) :
    val_main_v93 (F := Ideal) x1 x7 x8 x9 x10 (ix3 b l d) = Loss.lsm (Loss.sqDiff (Loss.meanDiv (Loss.pRows x1 x7 x8 x9 x10) b) (Loss.pRows x1 x7 x8 x9 x10 l b)) d :=
  lsm_v93 x1 x7 x8 x9 x10 _ b l (scaled_v92 x1 x7 x8 x9 x10 b l) d

end Cert.ReferenceIdeal.RefValue

end
-- ==== Proof.RefDcl.lean ====
/-
  The second loss, sample by sample and patch by patch: the two one-sided divergences between the two squared differences.
-/
import proofs.«133262_j27453430956191_2_alg».proof.Proof.RefSoftmaxD1
import proofs.«133262_j27453430956191_2_alg».proof.Proof.RefSoftmaxD2

noncomputable section

namespace Cert.ReferenceIdeal.RefValue

open Cert.ReferenceIdeal Cert.ReferenceIdeal.Gen Idealize.ShloMosaic Idealize.ShloMosaic.TcCoe Idealize.SL.Sem Idealize.ShloMosaic.StableHlo
open Cert.ReferenceIdeal.ReadP Idealize.ShloMosaic.ValueIdx

/- The contents of the reference's ten float argument arrays, as extended reals. -/
variable (x0 : (⟨S4096x640, .f32⟩ : BufTy).Contents (Elt Ideal))
  (x1 : (⟨S49152x640, .f32⟩ : BufTy).Contents (Elt Ideal))
  (x3 : (⟨S128x640, .f32⟩ : BufTy).Contents (Elt Ideal))
  (x4 : (⟨S128, .f32⟩ : BufTy).Contents (Elt Ideal))
  (x5 : (⟨S128x128, .f32⟩ : BufTy).Contents (Elt Ideal))
  (x6 : (⟨S128, .f32⟩ : BufTy).Contents (Elt Ideal))
  (x7 : (⟨S128x640, .f32⟩ : BufTy).Contents (Elt Ideal))
  (x8 : (⟨S128, .f32⟩ : BufTy).Contents (Elt Ideal))
  (x9 : (⟨S128x128, .f32⟩ : BufTy).Contents (Elt Ideal))
  (x10 : (⟨S128, .f32⟩ : BufTy).Contents (Elt Ideal))

/-- Where the student's and teacher's log-softmax stages at row `(b, l)` are `lsm s` and `lsm t`, the stage is the one-sided
    divergence `kl s t`. -/
theorem kl_v90 (s t : Loss.Row) (b : Fin 4096) (l : Fin 12)
    (hs : ∀ d : Fin 128, val_main_v79 (F := Ideal) x0 x1 x3 x4 x5 x6 x7 x8 x9 x10 (ix3 b l d) = Loss.lsm s d)
    (ht : ∀ d : Fin 128, val_main_v82 (F := Ideal) x1 x7 x8 x9 x10 (ix3 b l d) = Loss.lsm t d) :
    val_main_v90 (F := Ideal) x0 x1 x3 x4 x5 x6 x7 x8 x9 x10 (ix2 b l) = Loss.kl s t := by
  have e : ∀ d : Fin 128, idx_main_v86 (ix2 b l) d = ix3 b l d := fun d => idx3_ext _ _ rfl rfl rfl
  rw [val_main_v90_apply, val_main_v88_apply, val_main_v86_apply, val_main_cst_16_apply, val_main_v87_apply,
    val_main_cst_17_apply, val_main_v89_apply, val_main_cst_18_apply]
  simp only [val_main_v85_apply, val_main_v83_apply, val_main_v84_apply, e, hs, ht, Ideal.mulf_def, Ideal.subf_def,
    Ideal.hostDivf_def, Ideal.hostUnary_exp_def, Ideal.ofBits_def, Ideal.ofBits_zero_f32, zero_add, word_128, word_sixteen]
  rfl

/-- Where the student's and teacher's log-softmax stages at row `(b, l)` are `lsm s` and `lsm t`, the stage is the one-sided
    divergence `kl s t`. -/
theorem kl_v104 (s t : Loss.Row) (b : Fin 4096) (l : Fin 12)
    (hs : ∀ d : Fin 128, val_main_v93 (F := Ideal) x1 x7 x8 x9 x10 (ix3 b l d) = Loss.lsm s d)
    (ht : ∀ d : Fin 128, val_main_v96 (F := Ideal) x0 x1 x3 x4 x5 x6 x7 x8 x9 x10 (ix3 b l d) = Loss.lsm t d) :
    val_main_v104 (F := Ideal) x0 x1 x3 x4 x5 x6 x7 x8 x9 x10 (ix2 b l) = Loss.kl s t := by
  have e : ∀ d : Fin 128, idx_main_v100 (ix2 b l) d = ix3 b l d := fun d => idx3_ext _ _ rfl rfl rfl
  rw [val_main_v104_apply, val_main_v102_apply, val_main_v100_apply, val_main_cst_21_apply, val_main_v101_apply,
    val_main_cst_22_apply, val_main_v103_apply, val_main_cst_23_apply]
  simp only [val_main_v99_apply, val_main_v97_apply, val_main_v98_apply, e, hs, ht, Ideal.mulf_def, Ideal.subf_def,
    Ideal.hostDivf_def, Ideal.hostUnary_exp_def, Ideal.ofBits_def, Ideal.ofBits_zero_f32, zero_add, word_128, word_sixteen]
  rfl

/-- Patch `l` of sample `b`'s term of the second loss. -/
theorem dclTerm (b : Fin 4096) (l : Fin 12) :
    val_main_v105 (F := Ideal) x0 x1 x3 x4 x5 x6 x7 x8 x9 x10 (ix2 b l)
      = Loss.kl (Loss.sqDiff (Loss.gRows x0 x3 x4 x5 x6 b) (Loss.pRows x1 x7 x8 x9 x10 l b)) (Loss.sqDiff (Loss.meanDiv (Loss.pRows x1 x7 x8 x9 x10) b) (Loss.pRows x1 x7 x8 x9 x10 l b)) + Loss.kl (Loss.sqDiff (Loss.meanDiv (Loss.pRows x1 x7 x8 x9 x10) b) (Loss.pRows x1 x7 x8 x9 x10 l b)) (Loss.sqDiff (Loss.gRows x0 x3 x4 x5 x6 b) (Loss.pRows x1 x7 x8 x9 x10 l b)) := by
  rw [val_main_v105_apply,
    kl_v90 x0 x1 x3 x4 x5 x6 x7 x8 x9 x10 _ _ b l (lsmD1_v79 x0 x1 x3 x4 x5 x6 x7 x8 x9 x10 b l) (lsmD2_v82 x1 x7 x8 x9 x10 b l),
    kl_v104 x0 x1 x3 x4 x5 x6 x7 x8 x9 x10 _ _ b l (lsmD2_v93 x1 x7 x8 x9 x10 b l) (lsmD1_v96 x0 x1 x3 x4 x5 x6 x7 x8 x9 x10 b l)]
  rfl

end Cert.ReferenceIdeal.RefValue

end
-- ==== Proof.RefLoss.lean ====
/-
  The two scalars the reference computes are the two losses of the embedded rows: the first the sum over the samples of
  the symmetrised divergence of the global row and the mean patch row, the second the sum over samples and patches of the
  symmetrised divergence of the two squared differences, divided by twelve. The reference sums from `0` over a flat index
  set; the losses are sums over the coordinates.
-/
import proofs.«133262_j27453430956191_2_alg».proof.Proof.RefDil
import proofs.«133262_j27453430956191_2_alg».proof.Proof.RefDcl

noncomputable section

namespace Cert.ReferenceIdeal.RefValue

open Cert.ReferenceIdeal Cert.ReferenceIdeal.Gen Idealize.ShloMosaic Idealize.ShloMosaic.TcCoe Idealize.SL.Sem Idealize.ShloMosaic.StableHlo
open Cert.ReferenceIdeal.ReadP Idealize.ShloMosaic.ValueIdx

/- The contents of the reference's ten float argument arrays, as extended reals. -/
variable (x0 : (⟨S4096x640, .f32⟩ : BufTy).Contents (Elt Ideal))
  (x1 : (⟨S49152x640, .f32⟩ : BufTy).Contents (Elt Ideal))
  (x3 : (⟨S128x640, .f32⟩ : BufTy).Contents (Elt Ideal))
  (x4 : (⟨S128, .f32⟩ : BufTy).Contents (Elt Ideal))
  (x5 : (⟨S128x128, .f32⟩ : BufTy).Contents (Elt Ideal))
  (x6 : (⟨S128, .f32⟩ : BufTy).Contents (Elt Ideal))
  (x7 : (⟨S128x640, .f32⟩ : BufTy).Contents (Elt Ideal))
  (x8 : (⟨S128, .f32⟩ : BufTy).Contents (Elt Ideal))
  (x9 : (⟨S128x128, .f32⟩ : BufTy).Contents (Elt Ideal))
  (x10 : (⟨S128, .f32⟩ : BufTy).Contents (Elt Ideal))

/-- The reference's first result is `dilBatch` of the embedded rows. -/
theorem ref_dil :
    val_main_v67 (F := Ideal) x0 x1 x3 x4 x5 x6 x7 x8 x9 x10 = fun _ => Cert.Loss.dilBatch (Cert.Loss.gRows x0 x3 x4 x5 x6) (Cert.Loss.pRows x1 x7 x8 x9 x10) := by
  funext i
  rw [val_main_v67_apply, val_main_cst_13_apply, sum_idx1]
  simp only [Ideal.ofBits_def, Ideal.ofBits_zero_f32, zero_add, dilTerm]
  rfl

/-- The reference's second result is `dclBatch` of the embedded rows. -/
theorem ref_dcl :
    val_main_v107 (F := Ideal) x0 x1 x3 x4 x5 x6 x7 x8 x9 x10 = fun _ => Cert.Loss.dclBatch (Cert.Loss.gRows x0 x3 x4 x5 x6) (Cert.Loss.pRows x1 x7 x8 x9 x10) := by
  funext i
  rw [val_main_v107_apply, val_main_v106_apply, val_main_cst_24_apply, val_main_cst_25_apply, sum_idx2]
  simp only [Ideal.hostDivf_def, Ideal.ofBits_def, Ideal.ofBits_zero_f32, zero_add, word_twelve, dclTerm]
  rfl

end Cert.ReferenceIdeal.RefValue

end
-- ==== Proof.RefResult.lean ====
/-
  The reference's two result buffers after its run, as the two losses of the rows embedded from the argument buffers.
-/
import proofs.«133262_j27453430956191_2_alg».proof.Proof.RefLoss

noncomputable section

namespace Cert.ReferenceIdeal.RefValue

open Cert.ReferenceIdeal Cert.ReferenceIdeal.Gen Idealize.ShloMosaic Idealize.ShloMosaic.TcCoe Idealize.SL.Sem Idealize.ShloMosaic.StableHlo
open Cert.ReferenceIdeal.ReadP Idealize.ShloMosaic.ValueIdx

/- The contents of the reference's ten float argument arrays, as extended reals. -/
variable (x0 : (⟨S4096x640, .f32⟩ : BufTy).Contents (Elt Ideal))
  (x1 : (⟨S49152x640, .f32⟩ : BufTy).Contents (Elt Ideal))
  (x3 : (⟨S128x640, .f32⟩ : BufTy).Contents (Elt Ideal))
  (x4 : (⟨S128, .f32⟩ : BufTy).Contents (Elt Ideal))
  (x5 : (⟨S128x128, .f32⟩ : BufTy).Contents (Elt Ideal))
  (x6 : (⟨S128, .f32⟩ : BufTy).Contents (Elt Ideal))
  (x7 : (⟨S128x640, .f32⟩ : BufTy).Contents (Elt Ideal))
  (x8 : (⟨S128, .f32⟩ : BufTy).Contents (Elt Ideal))
  (x9 : (⟨S128x128, .f32⟩ : BufTy).Contents (Elt Ideal))
  (x10 : (⟨S128, .f32⟩ : BufTy).Contents (Elt Ideal))

/-- The first result buffer holds `dilBatch` of the rows embedded from the argument buffers. -/
theorem res_dil (m : (ℓ : Loc nD τ sig) → Buf (Elt Ideal) ℓ) (c : Dev nD) :
    Cert.ReferenceIdeal.ValueP.res_out0 (F := Ideal) m c = fun _ => Cert.Loss.dilBatch
      (Cert.Loss.gRows (m ((c.tc : Thread nD τ).loc main_arg0)) (m ((c.tc : Thread nD τ).loc main_arg3)) (m ((c.tc : Thread nD τ).loc main_arg4)) (m ((c.tc : Thread nD τ).loc main_arg5)) (m ((c.tc : Thread nD τ).loc main_arg6)))
      (Cert.Loss.pRows (m ((c.tc : Thread nD τ).loc main_arg1)) (m ((c.tc : Thread nD τ).loc main_arg7)) (m ((c.tc : Thread nD τ).loc main_arg8)) (m ((c.tc : Thread nD τ).loc main_arg9)) (m ((c.tc : Thread nD τ).loc main_arg10))) :=
  (val_main_v67_eq m c).trans (ref_dil _ _ _ _ _ _ _ _ _ _)

/-- The second result buffer holds `dclBatch` of the rows embedded from the argument buffers. -/
theorem res_dcl (m : (ℓ : Loc nD τ sig) → Buf (Elt Ideal) ℓ) (c : Dev nD) :
    Cert.ReferenceIdeal.ValueP.res_out1 (F := Ideal) m c = fun _ => Cert.Loss.dclBatch
      (Cert.Loss.gRows (m ((c.tc : Thread nD τ).loc main_arg0)) (m ((c.tc : Thread nD τ).loc main_arg3)) (m ((c.tc : Thread nD τ).loc main_arg4)) (m ((c.tc : Thread nD τ).loc main_arg5)) (m ((c.tc : Thread nD τ).loc main_arg6)))
      (Cert.Loss.pRows (m ((c.tc : Thread nD τ).loc main_arg1)) (m ((c.tc : Thread nD τ).loc main_arg7)) (m ((c.tc : Thread nD τ).loc main_arg8)) (m ((c.tc : Thread nD τ).loc main_arg9)) (m ((c.tc : Thread nD τ).loc main_arg10))) :=
  (val_main_v107_eq m c).trans (ref_dcl _ _ _ _ _ _ _ _ _ _)

end Cert.ReferenceIdeal.RefValue

end
-- ==== Proof.LossReal.lean ====
/-
  Real entries of extended-real rows, and the embedding (Loss.lean) of a real input row.

  "Is a real number" is closed under sums, differences, products, maxima and finite sums, so a real input row through
  real weights gives a real row before normalisation. Its norm is the root of a sum of squares of reals: a real, zero
  exactly when every entry is zero. A positive norm gives real quotients; a zero norm gives zero by zero, which is ⊥,
  in every entry.
-/
import proofs.«133262_j27453430956191_2_alg».proof.Proof.Loss

noncomputable section

namespace Cert.Loss

open Idealize.ShloMosaic

/-! ## Real entries -/

/-- An extended real that is a real number. -/
def IsReal (x : EReal) : Prop := ∃ r : ℝ, x = (r : EReal)

namespace IsReal

theorem coe (r : ℝ) : IsReal (r : EReal) := ⟨r, rfl⟩

theorem zero : IsReal 0 := ⟨0, rfl⟩

theorem add {x y : EReal} (hx : IsReal x) (hy : IsReal y) : IsReal (x + y) := by
  obtain ⟨a, rfl⟩ := hx; obtain ⟨b, rfl⟩ := hy; exact ⟨a + b, (EReal.coe_add a b).symm⟩

theorem sub {x y : EReal} (hx : IsReal x) (hy : IsReal y) : IsReal (x - y) := by
  obtain ⟨a, rfl⟩ := hx; obtain ⟨b, rfl⟩ := hy; exact ⟨a - b, (EReal.coe_sub a b).symm⟩

theorem mul {x y : EReal} (hx : IsReal x) (hy : IsReal y) : IsReal (x * y) := by
  obtain ⟨a, rfl⟩ := hx; obtain ⟨b, rfl⟩ := hy; exact ⟨a * b, (EReal.coe_mul a b).symm⟩

theorem max {x y : EReal} (hx : IsReal x) (hy : IsReal y) : IsReal (max x y) := by
  rcases max_choice x y with h | h <;> rw [h] <;> assumption

theorem sum {ι : Type*} (s : Finset ι) (f : ι → EReal) (h : ∀ i ∈ s, IsReal (f i)) : IsReal (∑ i ∈ s, f i) :=
  Finset.sum_induction f IsReal (fun _ _ => add) zero h

end IsReal

/-- The coercion of a finite sum of reals is the sum of the coercions. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A sum of copies of ⊤ over a nonempty index set is ⊤. -/
theorem sum_top {ι : Type*} (s : Finset ι) (hs : s.Nonempty) : (∑ _i ∈ s, (⊤ : EReal)) = ⊤ := by
  classical
  induction hs using Finset.Nonempty.cons_induction with
  | singleton a => simp
  | cons a s ha hs ih => rw [Finset.sum_cons, ih, EReal.top_add_top]

/-- A sum one of whose terms is ⊥ is ⊥. -/
theorem sum_bot {ι : Type*} (s : Finset ι) (f : ι → EReal) (i : ι) (hi : i ∈ s) (h : f i = ⊥) : (∑ j ∈ s, f j) = ⊥ := by
  classical
  rw [← Finset.add_sum_erase s f hi, h, EReal.bot_add]

/-! ## The embedding is uniform -/

theorem hidden_real (x : Fin 640 → EReal) (w1 : Fin 128 → Fin 640 → EReal) (b1 : Fin 128 → EReal)
    (hx : ∀ i, IsReal (x i)) (hw1 : ∀ k i, IsReal (w1 k i)) (hb1 : ∀ k, IsReal (b1 k)) (k : Fin 128) :
    IsReal (hidden x w1 b1 k) :=
  IsReal.max (IsReal.add (IsReal.sum _ _ (fun i _ => (hx i).mul (hw1 k i))) (hb1 k)) IsReal.zero

theorem outLayer_real (h : Row) (w2 : Fin 128 → Fin 128 → EReal) (b2 : Fin 128 → EReal)
    (hh : ∀ k, IsReal (h k)) (hw2 : ∀ j k, IsReal (w2 j k)) (hb2 : ∀ j, IsReal (b2 j)) (j : Fin 128) :
    IsReal (outLayer h w2 b2 j) :=
  IsReal.add (IsReal.sum _ _ (fun k _ => (hh k).mul (hw2 j k))) (hb2 j)

/-- A real row divided by its norm: real throughout when the norm is positive; when the norm is zero every entry is
    zero, and the quotient zero by zero is ⊥ throughout. -/
theorem normalise_uniform (y : Row) (hy : ∀ j, IsReal (y j)) : Uniform (normalise y) := by
  choose r hr using hy
  obtain rfl : y = fun j => (r j : EReal) := funext hr
  have hs : (∑ d, ((r d : EReal) * (r d : EReal))) = ((∑ d, r d * r d : ℝ) : EReal) := by
    rw [coe_sum]; exact Finset.sum_congr rfl (fun d _ => (EReal.coe_mul _ _).symm)
  have hnn : 0 ≤ ∑ d, r d * r d := Finset.sum_nonneg (fun d _ => mul_self_nonneg _)
  have hq : ∀ j, normalise (fun j => (r j : EReal)) j
      = Ideal.div (r j : EReal) ((Real.sqrt (∑ d, r d * r d) : ℝ) : EReal) := by
    intro j
    show Ideal.div (r j : EReal) (Ideal.sqrt (∑ d, ((r d : EReal) * (r d : EReal)))) = _
    rw [hs, Ideal.sqrt_coe, if_neg (not_lt.mpr hnn)]
  by_cases h0 : Real.sqrt (∑ d, r d * r d) = 0
  · right; intro j
    have hz : ∑ d, r d * r d = 0 := (Real.sqrt_eq_zero hnn).mp h0
    have hj : r j = 0 :=
      mul_self_eq_zero.mp
        ((Finset.sum_eq_zero_iff_of_nonneg (fun d _ => mul_self_nonneg (r d))).mp hz j (Finset.mem_univ j))
    rw [hq, h0, hj]
    simp [Ideal.div]
  · left; intro j
    exact ⟨r j * (1 / Real.sqrt (∑ d, r d * r d)), by rw [hq, Ideal.div_coe h0, EReal.coe_mul]⟩

end Cert.Loss

end
-- ==== Proof.LossRow.lean ====
/-
  The log-softmax of the rows that occur, and the two spellings of the divergence of two such rows.

  A row that is real throughout has a real maximum, real shifted entries, positive real exponentials with a positive
  real sum, hence real logarithms and positive real probabilities. A row that is ⊥ throughout or ⊤ throughout has
  shifted entries ⊥ (⊥ - ⊥ = ⊥, ⊤ - ⊤ = ⊥), exponentials 0 with sum 0, hence logarithms ⊥ and probabilities 0. For two
  rows of these kinds the single sum Σ (q - p)(log q - log p) · (1/8) equals the sum of the two one-sided sums, each
  divided by 128 and multiplied by 16: by real algebra when both are real, and otherwise both sides are ⊤ (one row
  degenerate) or 0 (both degenerate). Squared differences and means of uniform rows are rows of these kinds, and a sum
  over tiles and rows is a sum over samples.
-/
import proofs.«133262_j27453430956191_2_alg».proof.Proof.LossReal

noncomputable section

namespace Cert.Loss

open Idealize.ShloMosaic

/-! ## The log-softmax of a real row, a ⊥ row and a ⊤ row -/

/-- The log-softmax of an already scaled row. -/
def lsmOf (z : Row) : Row :=
  fun d => (z d - rowMax z) - Ideal.log (∑ e, Ideal.exp (z e - rowMax z))

theorem lsm_eq (a : Row) : lsm a = lsmOf (scaled a) := rfl

theorem prob_eq (a : Row) : prob a = fun d => Ideal.exp (lsmOf (scaled a) d) := rfl

/-- The outcome of the log-softmax of a row: logarithms real and probabilities positive reals throughout, or
    logarithms ⊥ and probabilities 0 throughout. -/
def Tame (l q : Row) : Prop :=
  (∃ lr qr : Fin 128 → ℝ, (l = fun d => (lr d : EReal)) ∧ (q = fun d => (qr d : EReal)) ∧ ∀ d, 0 < qr d)
    ∨ ((l = fun _ => ⊥) ∧ (q = fun _ => 0))

/-- A running maximum of reals, folded from ⊥, is ⊥ or a real. -/
theorem fold_max_cases {ι : Type*} (s : Finset ι) (z : ι → ℝ) :
    s.fold max ⊥ (fun d => (z d : EReal)) = ⊥ ∨ IsReal (s.fold max ⊥ (fun d => (z d : EReal))) := by
  classical
  induction s using Finset.induction_on with
  | empty => left; simp
  | insert a s ha ih =>
    right
    rw [Finset.fold_insert ha]
    rcases ih with h | h
    · rw [h, max_bot_right]; exact IsReal.coe _
    · exact (IsReal.coe _).max h

/-- The maximum of a real row is real. -/
theorem rowMax_real (z : Fin 128 → ℝ) : IsReal (rowMax fun d => (z d : EReal)) := by
  unfold rowMax
  rw [max_bot_left]
  have h0 : ((z 0 : ℝ) : EReal) ≤ Finset.univ.fold max ⊥ (fun d => (z d : EReal)) :=
    (Finset.le_fold_max _).mpr (Or.inr ⟨0, Finset.mem_univ _, le_rfl⟩)
  rcases fold_max_cases Finset.univ z with h | h
  · rw [h] at h0; exact absurd (le_bot_iff.mp h0) (EReal.coe_ne_bot _)
  · exact h

theorem rowMax_bot : rowMax (fun _ => ⊥) = ⊥ := by
  unfold rowMax
  rw [max_bot_left]
  exact le_bot_iff.mp ((Finset.fold_max_le _).mpr ⟨le_rfl, fun _ _ => le_rfl⟩)

theorem rowMax_top : rowMax (fun _ => ⊤) = ⊤ := by
  unfold rowMax
  rw [max_bot_left]
  exact top_le_iff.mp ((Finset.le_fold_max _).mpr (Or.inr ⟨(0 : Fin 128), Finset.mem_univ _, le_rfl⟩))

/-- A real row: the shifted entries are real, their exponentials positive reals with a positive real sum, whose
    logarithm is real. -/
theorem tame_real (z : Fin 128 → ℝ) :
    Tame (lsmOf fun d => (z d : EReal)) (fun d => Ideal.exp (lsmOf (fun d => (z d : EReal)) d)) := by
  obtain ⟨m, hm⟩ := rowMax_real z
  have hS : 0 < ∑ e, Real.exp (z e - m) := Finset.sum_pos (fun e _ => Real.exp_pos _) Finset.univ_nonempty
  have hsum : (∑ e, Ideal.exp ((z e : EReal) - rowMax fun d => (z d : EReal)))
      = ((∑ e, Real.exp (z e - m) : ℝ) : EReal) := by
    rw [hm, coe_sum]
    exact Finset.sum_congr rfl (fun e _ => by rw [← EReal.coe_sub, Ideal.exp_coe])
  have hl : (lsmOf fun d => (z d : EReal))
      = fun d => ((z d - m - Real.log (∑ e, Real.exp (z e - m)) : ℝ) : EReal) := by
    funext d
    show ((z d : EReal) - rowMax fun d => (z d : EReal))
      - Ideal.log (∑ e, Ideal.exp ((z e : EReal) - rowMax fun d => (z d : EReal))) = _
    rw [hsum, hm, Ideal.log_coe, if_neg (not_le.mpr hS), ← EReal.coe_sub, ← EReal.coe_sub]
  refine Or.inl ⟨_, fun d => Real.exp (z d - m - Real.log (∑ e, Real.exp (z e - m))), hl, ?_, fun d => Real.exp_pos _⟩
  rw [hl]; rfl

/-- A ⊥ row: maximum ⊥, shifted entries ⊥ - ⊥ = ⊥, exponentials 0, sum 0, logarithm ⊥. -/
theorem tame_bot : Tame (lsmOf fun _ => ⊥) (fun d => Ideal.exp (lsmOf (fun _ => ⊥) d)) := by
  have hl : (lsmOf fun _ => ⊥) = fun _ => ⊥ := by
    funext d
    show ((⊥ : EReal) - rowMax fun _ => ⊥) - Ideal.log (∑ _e : Fin 128, Ideal.exp ((⊥ : EReal) - rowMax fun _ => ⊥)) = ⊥
    rw [EReal.bot_sub, EReal.bot_sub]
  refine Or.inr ⟨hl, ?_⟩
  rw [hl]; rfl

/-- A ⊤ row: maximum ⊤, shifted entries ⊤ - ⊤ = ⊥, exponentials 0, sum 0, logarithm ⊥. -/
theorem tame_top : Tame (lsmOf fun _ => ⊤) (fun d => Ideal.exp (lsmOf (fun _ => ⊤) d)) := by
  have hl : (lsmOf fun _ => ⊤) = fun _ => ⊥ := by
    funext d
    show ((⊤ : EReal) - rowMax fun _ => ⊤) - Ideal.log (∑ _e : Fin 128, Ideal.exp ((⊤ : EReal) - rowMax fun _ => ⊤)) = ⊥
    rw [rowMax_top, EReal.sub_top, EReal.bot_sub]
  refine Or.inr ⟨hl, ?_⟩
  rw [hl]; rfl

/-- A row that is real throughout, ⊥ throughout, or ⊤ throughout. -/
def Tri (a : Row) : Prop := (∀ d, IsReal (a d)) ∨ (∀ d, a d = ⊥) ∨ (∀ d, a d = ⊤)

theorem Uniform.tri {a : Row} (h : Uniform a) : Tri a := by
  rcases h with h | h
  · exact Or.inl h
  · exact Or.inr (Or.inl h)

/-- Dividing by the temperature keeps each of the three kinds of row, and each has a tame log-softmax. -/
theorem Tri.tame {a : Row} (h : Tri a) : Tame (lsm a) (prob a) := by
  have h4 : ((1 / 4 : ℝ)) > 0 := by norm_num
  have hsc : ∀ d, scaled a d = a d * ((1 / 4 : ℝ) : EReal) := fun d => Ideal.div_coe (by norm_num) _
  rw [lsm_eq, prob_eq]
  rcases h with h | h | h
  · choose r hr using h
    have : scaled a = fun d => ((r d * (1 / 4) : ℝ) : EReal) := by
      funext d; rw [hsc, hr d, EReal.coe_mul]
    rw [this]; exact tame_real _
  · have : scaled a = fun _ => ⊥ := by
      funext d; rw [hsc, h d, EReal.bot_mul_coe_of_pos h4]
    rw [this]; exact tame_bot
  · have : scaled a = fun _ => ⊤ := by
      funext d; rw [hsc, h d, EReal.top_mul_coe_of_pos h4]
    rw [this]; exact tame_top

/-! ## The two spellings of the divergence agree on tame rows -/

/-- With logarithms la, lb and probabilities pa, pb tame: the single sum times 1/8 is the sum of the two one-sided
    sums, each divided by 128 and multiplied by 16. -/
theorem core (la pa lb pb : Row) (ha : Tame la pa) (hb : Tame lb pb) :
    (∑ d, (pb d - pa d) * (lb d - la d)) * ((1 / 8 : ℝ) : EReal)
      = Ideal.div (∑ d, pb d * (lb d - la d)) ((128 : ℝ) : EReal) * ((16 : ℝ) : EReal)
        + Ideal.div (∑ d, pa d * (la d - lb d)) ((128 : ℝ) : EReal) * ((16 : ℝ) : EReal) := by
  have h8 : (0 : ℝ) < 1 / 8 := by norm_num
  have h128 : (0 : ℝ) < 1 / 128 := by norm_num
  have h16 : (0 : ℝ) < 16 := by norm_num
  have hne : Finset.Nonempty (Finset.univ : Finset (Fin 128)) := Finset.univ_nonempty
  rw [Ideal.div_coe (by norm_num : (128 : ℝ) ≠ 0), Ideal.div_coe (by norm_num : (128 : ℝ) ≠ 0)]
  rcases ha with ⟨la', pa', rfl, rfl, hpa⟩ | ⟨rfl, rfl⟩ <;> rcases hb with ⟨lb', pb', rfl, rfl, hpb⟩ | ⟨rfl, rfl⟩
  · -- both real: algebra in the reals
    have e1 : (∑ d, ((pb' d : EReal) - (pa' d : EReal)) * ((lb' d : EReal) - (la' d : EReal)))
        = ((∑ d, (pb' d - pa' d) * (lb' d - la' d) : ℝ) : EReal) := by
      rw [coe_sum]; exact Finset.sum_congr rfl (fun d _ => by rw [EReal.coe_mul, EReal.coe_sub, EReal.coe_sub])
    have e2 : (∑ d, (pb' d : EReal) * ((lb' d : EReal) - (la' d : EReal)))
        = ((∑ d, pb' d * (lb' d - la' d) : ℝ) : EReal) := by
      rw [coe_sum]; exact Finset.sum_congr rfl (fun d _ => by rw [EReal.coe_mul, EReal.coe_sub])
    have e3 : (∑ d, (pa' d : EReal) * ((la' d : EReal) - (lb' d : EReal)))
        = ((∑ d, pa' d * (la' d - lb' d) : ℝ) : EReal) := by
      rw [coe_sum]; exact Finset.sum_congr rfl (fun d _ => by rw [EReal.coe_mul, EReal.coe_sub])
    have split : (∑ d, (pb' d - pa' d) * (lb' d - la' d))
        = (∑ d, pb' d * (lb' d - la' d)) + ∑ d, pa' d * (la' d - lb' d) := by
      rw [← Finset.sum_add_distrib]; exact Finset.sum_congr rfl (fun d _ => by ring)
    show (∑ d, ((pb' d : EReal) - (pa' d : EReal)) * ((lb' d : EReal) - (la' d : EReal))) * _
      = (∑ d, (pb' d : EReal) * ((lb' d : EReal) - (la' d : EReal))) * _ * _
        + (∑ d, (pa' d : EReal) * ((la' d : EReal) - (lb' d : EReal))) * _ * _
    rw [e1, e2, e3, ← EReal.coe_mul, ← EReal.coe_mul, ← EReal.coe_mul, ← EReal.coe_mul, ← EReal.coe_mul,
      ← EReal.coe_add, split]
    congr 1; ring
  · -- a real, b degenerate: each summand is (0 - p) * (⊥ - l) = (-p) * ⊥ = ⊤
    have s1 : ∀ d, ((0 : EReal) - (pa' d : EReal)) * ((⊥ : EReal) - (la' d : EReal)) = ⊤ := fun d => by
      rw [zero_sub, ← EReal.coe_neg, EReal.bot_sub, EReal.coe_mul_bot_of_neg (neg_neg_of_pos (hpa d))]
    have s2 : ∀ d, (pa' d : EReal) * ((la' d : EReal) - (⊥ : EReal)) = ⊤ := fun d => by
      rw [EReal.coe_sub_bot, EReal.coe_mul_top_of_pos (hpa d)]
    show (∑ d, ((0 : EReal) - (pa' d : EReal)) * ((⊥ : EReal) - (la' d : EReal))) * _
      = (∑ d, (0 : EReal) * ((⊥ : EReal) - (la' d : EReal))) * _ * _
        + (∑ d, (pa' d : EReal) * ((la' d : EReal) - (⊥ : EReal))) * _ * _
    simp only [s1, s2, zero_mul, Finset.sum_const_zero, sum_top _ hne, zero_add,
      EReal.top_mul_coe_of_pos h8, EReal.top_mul_coe_of_pos h128, EReal.top_mul_coe_of_pos h16]
  · -- a degenerate, b real: each summand is (q - 0) * (l - ⊥) = q * ⊤ = ⊤
    have s1 : ∀ d, ((pb' d : EReal) - (0 : EReal)) * ((lb' d : EReal) - (⊥ : EReal)) = ⊤ := fun d => by
      rw [sub_zero, EReal.coe_sub_bot, EReal.coe_mul_top_of_pos (hpb d)]
    have s2 : ∀ d, (pb' d : EReal) * ((lb' d : EReal) - (⊥ : EReal)) = ⊤ := fun d => by
      rw [EReal.coe_sub_bot, EReal.coe_mul_top_of_pos (hpb d)]
    show (∑ d, ((pb' d : EReal) - (0 : EReal)) * ((lb' d : EReal) - (⊥ : EReal))) * _
      = (∑ d, (pb' d : EReal) * ((lb' d : EReal) - (⊥ : EReal))) * _ * _
        + (∑ d, (0 : EReal) * ((⊥ : EReal) - (lb' d : EReal))) * _ * _
    simp only [s1, s2, zero_mul, Finset.sum_const_zero, sum_top _ hne, add_zero,
      EReal.top_mul_coe_of_pos h8, EReal.top_mul_coe_of_pos h128, EReal.top_mul_coe_of_pos h16]
  · -- both degenerate: every summand is 0 * (⊥ - ⊥) = 0
    show (∑ _d : Fin 128, ((0 : EReal) - (0 : EReal)) * ((⊥ : EReal) - (⊥ : EReal))) * _
      = (∑ _d : Fin 128, (0 : EReal) * ((⊥ : EReal) - (⊥ : EReal))) * _ * _
        + (∑ _d : Fin 128, (0 : EReal) * ((⊥ : EReal) - (⊥ : EReal))) * _ * _
    simp only [sub_zero, zero_mul, Finset.sum_const_zero, add_zero]

/-- The per-row identity. -/
theorem symKL_eq (a b : Row) (ha : Tri a) (hb : Tri b) : symKL a b = kl a b + kl b a :=
  core (lsm a) (prob a) (lsm b) (prob b) ha.tame hb.tame

/-! ## Squared differences and means of uniform rows -/

/-- The squared difference of two uniform rows is real throughout when both are, and ⊤ throughout when either is ⊥:
    (⊥ - x)² = ⊥ · ⊥ = ⊤ and (r - ⊥)² = ⊤ · ⊤ = ⊤. -/
theorem tri_sqDiff {u v : Row} (hu : Uniform u) (hv : Uniform v) : Tri (sqDiff u v) := by
  rcases hu with hu | hu
  · rcases hv with hv | hv
    · exact Or.inl (fun d => IsReal.mul (IsReal.sub (hu d) (hv d)) (IsReal.sub (hu d) (hv d)))
    · refine Or.inr (Or.inr (fun d => ?_))
      obtain ⟨r, hr⟩ := hu d
      show (u d - v d) * (u d - v d) = ⊤
      rw [hr, hv d, EReal.coe_sub_bot, EReal.top_mul_top]
  · refine Or.inr (Or.inr (fun d => ?_))
    show (u d - v d) * (u d - v d) = ⊤
    rw [hu d, EReal.bot_sub, EReal.bot_mul_bot]

/-- The product with 1/12 is the quotient by 12. -/
theorem meanMul_eq (p : Fin 12 → Fin 4096 → Row) : meanMul p = meanDiv p :=
  funext fun _ => funext fun _ => (Ideal.div_coe (by norm_num : (12 : ℝ) ≠ 0) _).symm

/-- The mean of uniform rows is uniform: ⊥ throughout as soon as one of the rows is, real throughout otherwise. -/
theorem meanDiv_uniform (p : Fin 12 → Fin 4096 → Row) (b : Fin 4096) (hp : ∀ l, Uniform (p l b)) :
    Uniform (meanDiv p b) := by
  have h12 : (0 : ℝ) < 1 / 12 := by norm_num
  have hm : ∀ d, meanDiv p b d = (∑ l, p l b d) * ((1 / 12 : ℝ) : EReal) :=
    fun d => Ideal.div_coe (by norm_num : (12 : ℝ) ≠ 0) _
  by_cases h : ∃ l, ∀ d, p l b d = ⊥
  · obtain ⟨l, hl⟩ := h
    right; intro d
    rw [hm, sum_bot _ _ l (Finset.mem_univ l) (hl d), EReal.bot_mul_coe_of_pos h12]
  · left; intro d
    rw [hm]
    refine (IsReal.sum _ _ (fun l _ => ?_)).mul (IsReal.coe _)
    rcases hp l with hl | hl
    · exact hl d
    · exact absurd ⟨l, hl⟩ h

/-! ## The totals -/

/-- Tile t, row r ↦ sample 1024 t + r is a bijection of the 4 × 1024 pairs with the 4096 samples. -/
def sampleEquiv : Fin 4 × Fin 1024 ≃ Fin 4096 where
  toFun x := sample x.1 x.2
  invFun b := (⟨b.val / 1024, by omega⟩, ⟨b.val % 1024, by omega⟩)
  left_inv := by
    rintro ⟨t, r⟩
    refine Prod.ext (Fin.ext ?_) (Fin.ext ?_)
    · show (t.val * 1024 + r.val) / 1024 = t.val
      omega
    · show (t.val * 1024 + r.val) % 1024 = r.val
      omega
  right_inv := by
    intro b
    refine Fin.ext ?_
    show b.val / 1024 * 1024 + b.val % 1024 = b.val
    omega

/-- A sum over tiles and rows is the sum over the samples. -/
theorem sum_sample (F : Fin 4096 → EReal) : (∑ t : Fin 4, ∑ r : Fin 1024, F (sample t r)) = ∑ b, F b :=
  (Fintype.sum_prod_type' (fun t r => F (sample t r))).symm.trans
    (Fintype.sum_equiv sampleEquiv _ _ (fun _ => rfl))

end Cert.Loss

end
-- ==== Proof.LossLaws.lean ====
/-
  The two spellings of the losses (Loss.lean) agree on uniform rows.

  A uniform row is real throughout or `⊥` throughout. For real rows the agreement is real algebra: distributing
  `(q − p)(log q − log p) = q (log q − log p) + p (log p − log q)`, `x · (1/8) = x / 128 · 16`, `x · (1/12) = x / 12`.
  A `⊥` row (and the `⊤` row its squared difference from anything is) has log-softmax `⊥` and probabilities `0`; the
  four combinations of a real and a degenerate row are checked one by one, and give `⊤`, `⊤` or `0` in both spellings.
-/
import proofs.«133262_j27453430956191_2_alg».proof.Proof.LossRow

noncomputable section

namespace Cert.Loss

open Idealize.ShloMosaic

/-- A real input row through real weights embeds to a uniform row. -/
theorem embed_uniform (x : Fin 640 → EReal) (w1 : Fin 128 → Fin 640 → EReal) (b1 : Fin 128 → EReal)
    (w2 : Fin 128 → Fin 128 → EReal) (b2 : Fin 128 → EReal)
    (hx : ∀ i, ∃ r : ℝ, x i = (r : EReal)) (hw1 : ∀ k i, ∃ r : ℝ, w1 k i = (r : EReal))
    (hb1 : ∀ k, ∃ r : ℝ, b1 k = (r : EReal)) (hw2 : ∀ j k, ∃ r : ℝ, w2 j k = (r : EReal))
    (hb2 : ∀ j, ∃ r : ℝ, b2 j = (r : EReal)) : Uniform (embed x w1 b1 w2 b2) :=
  normalise_uniform _ (outLayer_real _ w2 b2 (hidden_real x w1 b1 hx hw1 hb1) hw2 hb2)

/-- `dil` in the two spellings. -/
theorem dil_eq (g : Fin 4096 → Row) (p : Fin 12 → Fin 4096 → Row) (hg : ∀ b, Uniform (g b))
    (hp : ∀ l b, Uniform (p l b)) : dilTiled g p = dilBatch g p := by
  unfold dilTiled dilBatch
  rw [meanMul_eq, sum_sample (fun b => symKL (g b) (meanDiv p b))]
  exact Finset.sum_congr rfl (fun b _ =>
    symKL_eq _ _ (hg b).tri (meanDiv_uniform p b (fun l => hp l b)).tri)

/-- `dcl` in the two spellings. -/
theorem dcl_eq (g : Fin 4096 → Row) (p : Fin 12 → Fin 4096 → Row) (hg : ∀ b, Uniform (g b))
    (hp : ∀ l b, Uniform (p l b)) : dclTiled g p = dclBatch g p := by
  unfold dclTiled dclBatch
  rw [meanMul_eq]
  congr 1
  have swap : (∑ t : Fin 4, ∑ l : Fin 12, ∑ r : Fin 1024,
        symKL (sqDiff (g (sample t r)) (p l (sample t r))) (sqDiff (meanDiv p (sample t r)) (p l (sample t r))))
      = ∑ t : Fin 4, ∑ r : Fin 1024, ∑ l : Fin 12,
        symKL (sqDiff (g (sample t r)) (p l (sample t r))) (sqDiff (meanDiv p (sample t r)) (p l (sample t r))) :=
    Finset.sum_congr rfl (fun t _ => Finset.sum_comm)
  rw [swap, sum_sample (fun b => ∑ l : Fin 12, symKL (sqDiff (g b) (p l b)) (sqDiff (meanDiv p b) (p l b)))]
  exact Finset.sum_congr rfl (fun b _ => Finset.sum_congr rfl (fun l _ =>
    symKL_eq _ _ (tri_sqDiff (hg b) (hp l b))
      (tri_sqDiff (meanDiv_uniform p b (fun l => hp l b)) (hp l b))))

end Cert.Loss

end
-- ==== Proof.PreReal.lean ====
/-
  The precondition, decoded: every entry of the ten float arrays is a real number.

  The precondition is the conjunction, over the ten float arrays, of "every entry x has |x| < +∞", each spelt as a
  reduction by "and" of the entrywise comparisons. A reduction by "and" over all axes that is 1 met a 1 at every index;
  the pattern of +∞ denotes ⊤; and |x| = max x (-x) is ⊤ at both ⊥ and ⊤, so |x| < ⊤ leaves exactly the reals.
-/
import proofs.«133262_j27453430956191_2_alg».proof.Pre_finite_inputs
import Idealize.ShloMosaic.Lib.ReduceAll
import Idealize.ShloMosaic.Lib.ValueIdx

noncomputable section

namespace Cert.Pre_finite_inputs.Real

open Idealize.ShloMosaic Idealize.ShloMosaic.ValueIdx Cert.Pre_finite_inputs

/-- The scalar shape has one index. -/
instance : Subsingleton S_.Idx := ⟨fun a b => funext fun d => d.elim0⟩

/-- The pattern of +∞ denotes ⊤. -/
theorem inf_eq_top : Ideal.ofBits .f32 0x7F800000#32 = (⊤ : EReal) := by
  simp [Ideal.ofBits, Ideal.ieee]

/-- An extended real whose absolute value max x (-x) is below ⊤ is a real: at ⊥ and at ⊤ the absolute value is ⊤. -/
theorem real_of_abs_lt_top (x : EReal) (h : max x (-x) < ⊤) : ∃ r : ℝ, x = (r : EReal) := by
  induction x using EReal.rec with
  | bot => simp at h
  | coe r => exact ⟨r, rfl⟩
  | top => simp at h

theorem ofBool_eq_one (b : Bool) : BitVec.ofBool b = 1#1 ↔ b = true := by cases b <;> decide

/-- One array: if the reduction by "and" of the comparisons |x i| < +∞ is 1, every entry is a real. -/
theorem all_real_of_lt_inf {s : Shape} {axes : List (Fin s.rank)} (x : FVec Ideal s .f32)
    (hb : S_.BroadcastsInDim s (![] : Fin 0 → Fin s.rank)) (hr : s.ReducesTo axes S_) (hu : 0 < S_.numel)
    (e : Host.reduce IntOp.andi
          (cmpf .olt (Host.absf x) (broadcastInDim s ![] hb (constant (F := Ideal) S_ .f32 0x7F800000#32)))
          (constantI S_ 1 1#1) hr hu ix0 = 1#1) (i : s.Idx) : ∃ r : ℝ, x i = (r : EReal) := by
  have h := Host.reduce_andi_all _ _ hr hu ix0 e i
  have h' : Ideal.cmp .olt (max (x i) (-(x i))) (Ideal.ofBits .f32 0x7F800000#32) = 1#1 := h
  rw [inf_eq_top] at h'
  have h2 : decide (max (x i) (-(x i)) < ⊤) = true := (ofBool_eq_one _).mp h'
  exact real_of_abs_lt_top _ (of_decide_eq_true h2)

variable [Facts]

/-- The precondition decoded: the ten float arrays are real throughout. -/
theorem real_of_pre (x0 : FVec Ideal S4096x640 .f32) (x1 : FVec Ideal S49152x640 .f32) (x2 : IVec S4096 32)
    (x3 : FVec Ideal S128x640 .f32) (x4 : FVec Ideal S128 .f32) (x5 : FVec Ideal S128x128 .f32)
    (x6 : FVec Ideal S128 .f32) (x7 : FVec Ideal S128x640 .f32) (x8 : FVec Ideal S128 .f32)
    (x9 : FVec Ideal S128x128 .f32) (x10 : FVec Ideal S128 .f32)
    (h : Cert.Pre_finite_inputs.fn (F := Ideal) x0 x1 x2 x3 x4 x5 x6 x7 x8 x9 x10 = fun _ => 1#1) :
    (∀ i, ∃ r : ℝ, x0 i = (r : EReal)) ∧ (∀ i, ∃ r : ℝ, x1 i = (r : EReal)) ∧ (∀ i, ∃ r : ℝ, x3 i = (r : EReal))
      ∧ (∀ i, ∃ r : ℝ, x4 i = (r : EReal)) ∧ (∀ i, ∃ r : ℝ, x5 i = (r : EReal)) ∧ (∀ i, ∃ r : ℝ, x6 i = (r : EReal))
      ∧ (∀ i, ∃ r : ℝ, x7 i = (r : EReal)) ∧ (∀ i, ∃ r : ℝ, x8 i = (r : EReal)) ∧ (∀ i, ∃ r : ℝ, x9 i = (r : EReal))
      ∧ (∀ i, ∃ r : ℝ, x10 i = (r : EReal)) := by
  have e := congrFun h ix0
  dsimp only [fn, fn_part1, fn_part2] at e
  simp only [andi, IntOp.andi_eq_one] at e
  obtain ⟨⟨⟨⟨⟨⟨⟨⟨⟨e0, e1⟩, e3⟩, e4⟩, e5⟩, e6⟩, e7⟩, e8⟩, e9⟩, e10⟩ := e
  exact ⟨all_real_of_lt_inf x0 _ _ _ e0, all_real_of_lt_inf x1 _ _ _ e1, all_real_of_lt_inf x3 _ _ _ e3,
    all_real_of_lt_inf x4 _ _ _ e4, all_real_of_lt_inf x5 _ _ _ e5, all_real_of_lt_inf x6 _ _ _ e6,
    all_real_of_lt_inf x7 _ _ _ e7, all_real_of_lt_inf x8 _ _ _ e8, all_real_of_lt_inf x9 _ _ _ e9,
    all_real_of_lt_inf x10 _ _ _ e10⟩

end Cert.Pre_finite_inputs.Real

end
-- ==== Proof.RowsUniform.lean ====
/-
  Under the precondition the embedded rows are uniform, and the two spellings of the losses agree on them.

  The precondition makes every entry of the ten float arrays a real number (PreReal.lean); the embedded rows
  (Rows.lean) are the embedding of rows of those arrays through weights read off those arrays, so each is uniform
  (the embedding of a real row through real weights is), and the two spellings of both losses agree on uniform rows
  (LossLaws.lean).
-/
import proofs.«133262_j27453430956191_2_alg».proof.Proof.Rows
import proofs.«133262_j27453430956191_2_alg».proof.Proof.LossLaws
import proofs.«133262_j27453430956191_2_alg».proof.Proof.PreReal

noncomputable section

namespace Cert.Loss

open Idealize.ShloMosaic Idealize.ShloMosaic.ValueIdx Cert.Pre_finite_inputs

variable [Cert.Pre_finite_inputs.Facts]

variable (x0 : FVec Ideal S4096x640 .f32) (x1 : FVec Ideal S49152x640 .f32) (x2 : IVec S4096 32)
  (x3 : FVec Ideal S128x640 .f32) (x4 : FVec Ideal S128 .f32) (x5 : FVec Ideal S128x128 .f32)
  (x6 : FVec Ideal S128 .f32) (x7 : FVec Ideal S128x640 .f32) (x8 : FVec Ideal S128 .f32)
  (x9 : FVec Ideal S128x128 .f32) (x10 : FVec Ideal S128 .f32)

/-- Under the precondition every embedded global row is uniform. -/
theorem gRows_uniform (h : Cert.Pre_finite_inputs.fn (F := Ideal) x0 x1 x2 x3 x4 x5 x6 x7 x8 x9 x10 = fun _ => 1#1) :
    ∀ b, Uniform (gRows x0 x3 x4 x5 x6 b) := by
  obtain ⟨h0, -, h3, h4, h5, h6, -⟩ := Cert.Pre_finite_inputs.Real.real_of_pre x0 x1 x2 x3 x4 x5 x6 x7 x8 x9 x10 h
  intro b
  exact embed_uniform _ _ _ _ _ (fun i => h0 _) (fun k i => h3 _) (fun k => h4 _) (fun j k => h5 _) (fun j => h6 _)

/-- Under the precondition every embedded patch row is uniform. -/
theorem pRows_uniform (h : Cert.Pre_finite_inputs.fn (F := Ideal) x0 x1 x2 x3 x4 x5 x6 x7 x8 x9 x10 = fun _ => 1#1) :
    ∀ l b, Uniform (pRows x1 x7 x8 x9 x10 l b) := by
  obtain ⟨-, h1, -, -, -, -, h7, h8, h9, h10⟩ :=
    Cert.Pre_finite_inputs.Real.real_of_pre x0 x1 x2 x3 x4 x5 x6 x7 x8 x9 x10 h
  intro l b
  exact embed_uniform _ _ _ _ _ (fun i => h1 _) (fun k i => h7 _) (fun k => h8 _) (fun j k => h9 _) (fun j => h10 _)

/-- Under the precondition the two spellings of both losses agree on the embedded rows. -/
theorem losses_agree (h : Cert.Pre_finite_inputs.fn (F := Ideal) x0 x1 x2 x3 x4 x5 x6 x7 x8 x9 x10 = fun _ => 1#1) :
    dilTiled (gRows x0 x3 x4 x5 x6) (pRows x1 x7 x8 x9 x10) = dilBatch (gRows x0 x3 x4 x5 x6) (pRows x1 x7 x8 x9 x10)
      ∧ dclTiled (gRows x0 x3 x4 x5 x6) (pRows x1 x7 x8 x9 x10)
        = dclBatch (gRows x0 x3 x4 x5 x6) (pRows x1 x7 x8 x9 x10) :=
  ⟨dil_eq _ _ (gRows_uniform x0 x1 x2 x3 x4 x5 x6 x7 x8 x9 x10 h) (pRows_uniform x0 x1 x2 x3 x4 x5 x6 x7 x8 x9 x10 h),
    dcl_eq _ _ (gRows_uniform x0 x1 x2 x3 x4 x5 x6 x7 x8 x9 x10 h) (pRows_uniform x0 x1 x2 x3 x4 x5 x6 x7 x8 x9 x10 h)⟩

end Cert.Loss

end
-- ==== Proof.Bridge.lean ====
/-
  The claims, assembled.

  The word-level kernel's and the idealized kernel's frames are the hand-written runs of the body under the library's
  launch theorem; the reference's frame is its run with the results dropped; the one ledger entry is the named
  constant's statement (`1/12`). For the algebraic claim both programs' results are stated with the same two terms: the
  kernel's run ends with its two result buffers at the host tails of the final output arrays, which are the tiled
  spellings of `dil` and `dcl` of the embedded rows; the reference's run ends at the batch spellings of the same rows
  (the argument arrays agree); and under the precondition — every float input finite, hence every embedded row real
  throughout or `⊥` throughout — the two spellings agree.
-/
import proofs.«133262_j27453430956191_2_alg».proof.Defs
import proofs.«133262_j27453430956191_2_alg».proof.Proof.Gen.Kernel
import proofs.«133262_j27453430956191_2_alg».proof.Proof.Gen.KernelIdeal
import proofs.«133262_j27453430956191_2_alg».proof.Proof.Gen.ReferenceIdeal
import proofs.«133262_j27453430956191_2_alg».proof.Proof.Gen.Pre_finite_inputs
import proofs.«133262_j27453430956191_2_alg».proof.Proof.WordFrame
import proofs.«133262_j27453430956191_2_alg».proof.Proof.IdealValue
import proofs.«133262_j27453430956191_2_alg».proof.Proof.KValTail
import proofs.«133262_j27453430956191_2_alg».proof.Proof.RefResult
import proofs.«133262_j27453430956191_2_alg».proof.Proof.RowsUniform
import Idealize.ShloMosaic.Adequacy
import Idealize.ShloMosaic.Init

set_option maxRecDepth 16384

noncomputable section

namespace Cert.Proof

open Idealize.ShloMosaic Idealize.SL.Sem

theorem frame_k : Cert.frame_Kernel := fun m ρ _ => Cert.Kernel.Hand.frame (F := Bits) m ρ

theorem frame_ki : Cert.frame_KernelIdeal := fun m ρ _ => Cert.KernelIdeal.Hand.frame (F := Ideal) m ρ

theorem frame_ri : Cert.frame_ReferenceIdeal := fun m ρ _ =>
  (θ_run Cert.ReferenceIdeal.defs _ _).mono (fun _ h c => (h c).2.2) (Cert.ReferenceIdeal.ValueP.run (F := Ideal) m ρ)

/-- The ledger's one entry: the certificate's table gives the name the value `1/12`. -/
theorem preserves : Cert.preserves_Kernel_KernelIdeal :=
  IdealRules.named_const.statement Cert.KernelIdeal.κ "inv_12" .f32 0x3DAAAAAB#32 ((1 / 12 : ℝ) : EReal) rfl

theorem algebraic : Cert.algebraic_KernelIdeal_ReferenceIdeal := by
  intro m ρ m' ρ' hpre hagree
  refine ⟨fun c => Cert.KernelIdeal.Hand.tailSum (Cert.KernelIdeal.Hand.dilArr (F := Ideal) m c),
    fun c => Cert.KernelIdeal.Hand.tailMean (Cert.KernelIdeal.Hand.dclArr (F := Ideal) m c),
    Cert.KernelIdeal.Hand.run_value (F := Ideal) m ρ, ?_⟩
  refine (θ_run Cert.ReferenceIdeal.defs _ _).mono (fun _ h c => ⟨(h c).1.trans ?_, (h c).2.1.trans ?_, (h c).2.2⟩)
    (Cert.ReferenceIdeal.ValueP.run (F := Ideal) m' ρ')
  · obtain ⟨e0, e1, e2, e3, e4, e5, e6, e7, e8, e9, e10⟩ := hagree c
    have hr := Cert.ReferenceIdeal.RefValue.res_dil m' c
    rw [e0, e1, e3, e4, e5, e6, e7, e8, e9, e10] at hr
    refine hr.trans ?_
    show _ = Cert.KernelIdeal.Hand.tailSum (Cert.KernelIdeal.Hand.dilArr (F := Ideal) m c)
    rw [Cert.KernelIdeal.KVal.kernel_dil m c]
    funext _
    exact ((Cert.Loss.losses_agree _ _ _ _ _ _ _ _ _ _ _ (hpre c)).1).symm
  · obtain ⟨e0, e1, e2, e3, e4, e5, e6, e7, e8, e9, e10⟩ := hagree c
    have hr := Cert.ReferenceIdeal.RefValue.res_dcl m' c
    rw [e0, e1, e3, e4, e5, e6, e7, e8, e9, e10] at hr
    refine hr.trans ?_
    show _ = Cert.KernelIdeal.Hand.tailMean (Cert.KernelIdeal.Hand.dclArr (F := Ideal) m c)
    rw [Cert.KernelIdeal.KVal.kernel_dcl m c]
    funext _
    exact ((Cert.Loss.losses_agree _ _ _ _ _ _ _ _ _ _ _ (hpre c)).2).symm

end Cert.Proof

end
-- ==== Proof.lean ====
/- The proof of `Cert.Claim`: the five claims (Proof/Bridge.lean) behind the witnesses of the programs' stated facts.
   The kernel is a fused loss: per tile of 1024 samples it embeds the global rows and, patch by patch, the twelve
   patch rows, keeps their sum and the twelve embedded tiles in scratch, and at the tile's last patch computes two
   partial losses (symmetrised KL divergences of softmaxes); the host sums the four tiles' partials. The reference
   computes the same two losses over the whole batch with the divergence spelt as two one-sided terms and the patch
   mean as a quotient; on the extended reals the spellings agree because every embedded row is real throughout or
   `⊥` throughout (Proof/LossLaws.lean). -/
import proofs.«133262_j27453430956191_2_alg».proof.Proof.Bridge

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
